-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x40 .f32) (main_arg9 : FVec F S40 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S128x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S1x128x128 : Shape := ⟨3, ![1, 128, 128]⟩
abbrev S128x128 : Shape := ⟨2, ![128, 128]⟩
abbrev S2000x128 : Shape := ⟨2, ![2000, 128]⟩
abbrev S600000x128 : Shape := ⟨2, ![600000, 128]⟩
abbrev S50000x1 : Shape := ⟨2, ![50000, 1]⟩
abbrev S1x128 : Shape := ⟨2, ![1, 128]⟩
abbrev S128 : Shape := ⟨1, ![128]⟩
abbrev S2000 : Shape := ⟨1, ![2000]⟩
abbrev S2000x1 : Shape := ⟨2, ![2000, 1]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 216
  | .vmem => 56
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x40, .f32⟩
  | 9 => ⟨S40, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S_, .f32⟩
  | 25 => ⟨S600000, .f32⟩
  | 26 => ⟨S50000, .f32⟩
  | 27 => ⟨S_, .f32⟩
  | 28 => ⟨S50000, .f32⟩
  | 29 => ⟨S50000, .f32⟩
  | 30 => ⟨S50000, .f32⟩
  | 31 => ⟨S1x128x128, .f32⟩
  | 32 => ⟨S128x128, .f32⟩
  | 33 => ⟨S50000x128, .f32⟩
  | 34 => ⟨S50000x128, .bf16⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000, .f32⟩
  | 54 => ⟨S600000x1, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .bf16⟩
  | 64 => ⟨S600000x128, .f32⟩
  | 65 => ⟨S600000x128, .f32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S_, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S1x128x128, .f32⟩
  | 93 => ⟨S128x128, .f32⟩
  | 94 => ⟨S50000x128, .f32⟩
  | 95 => ⟨S50000x128, .f32⟩
  | 96 => ⟨S50000x128, .f32⟩
  | 97 => ⟨S50000x128, .bf16⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000, .f32⟩
  | 116 => ⟨S600000, .f32⟩
  | 117 => ⟨S600000x1, .f32⟩
  | 118 => ⟨S_, .i32⟩
  | 119 => ⟨S600000, .i32⟩
  | 120 => ⟨S600000, .i1⟩
  | 121 => ⟨S_, .i32⟩
  | 122 => ⟨S600000, .i32⟩
  | 123 => ⟨S600000, .i32⟩
  | 124 => ⟨S600000, .i32⟩
  | 125 => ⟨S600000x1, .i32⟩
  | 126 => ⟨S600000x128, .bf16⟩
  | 127 => ⟨S600000x128, .f32⟩
  | _ => ⟨S50000x128, .f32⟩

abbrev hbmTy0_1 (i : Nat) : BufTy := match i % 128 with
  | 0 => ⟨S600000x128, .f32⟩
  | 1 => ⟨S600000x128, .f32⟩
  | 2 => ⟨S_, .f32⟩
  | 3 => ⟨S50000x128, .f32⟩
  | 4 => ⟨S600000x1, .i32⟩
  | 5 => ⟨S50000x128, .f32⟩
  | 6 => ⟨S50000, .f32⟩
  | 7 => ⟨S50000x1, .f32⟩
  | 8 => ⟨S50000x128, .f32⟩
  | 9 => ⟨S50000x128, .f32⟩
  | 10 => ⟨S50000x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S1x128, .f32⟩
  | 17 => ⟨S128, .f32⟩
  | 18 => ⟨S1x128, .f32⟩
  | 19 => ⟨S1x128, .f32⟩
  | 20 => ⟨S128, .f32⟩
  | 21 => ⟨S1x128, .f32⟩
  | 22 => ⟨S1x128, .f32⟩
  | 23 => ⟨S128, .f32⟩
  | 24 => ⟨S1x128, .f32⟩
  | 25 => ⟨S1x128x128, .f32⟩
  | 26 => ⟨S128x128, .f32⟩
  | 27 => ⟨S50000x128, .f32⟩
  | 28 => ⟨S50000x128, .f32⟩
  | 29 => ⟨S50000x128, .f32⟩
  | 30 => ⟨S50000x128, .bf16⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S_, .i32⟩
  | 41 => ⟨S600000, .i32⟩
  | 42 => ⟨S600000, .i1⟩
  | 43 => ⟨S_, .i32⟩
  | 44 => ⟨S600000, .i32⟩
  | 45 => ⟨S600000, .i32⟩
  | 46 => ⟨S600000, .i32⟩
  | 47 => ⟨S600000x1, .i32⟩
  | 48 => ⟨S600000, .f32⟩
  | 49 => ⟨S600000, .f32⟩
  | 50 => ⟨S600000x1, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .bf16⟩
  | 60 => ⟨S600000x128, .f32⟩
  | 61 => ⟨S600000x128, .f32⟩
  | 62 => ⟨S600000x128, .f32⟩
  | 63 => ⟨S_, .f32⟩
  | 64 => ⟨S50000x128, .f32⟩
  | 65 => ⟨S600000x1, .i32⟩
  | 66 => ⟨S50000x128, .f32⟩
  | 67 => ⟨S50000, .f32⟩
  | 68 => ⟨S50000x1, .f32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S128, .f32⟩
  | 79 => ⟨S1x128, .f32⟩
  | 80 => ⟨S1x128, .f32⟩
  | 81 => ⟨S128, .f32⟩
  | 82 => ⟨S1x128, .f32⟩
  | 83 => ⟨S1x128, .f32⟩
  | 84 => ⟨S128, .f32⟩
  | 85 => ⟨S1x128, .f32⟩
  | 86 => ⟨S1x40, .f32⟩
  | 87 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S128x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x40, .f32⟩
  | .local _ .vmem, ⟨53, _⟩ => ⟨S1x40, .f32⟩
  | .local _ .vmem, ⟨54, _⟩ => ⟨S2000x40, .f32⟩
  | .local _ .vmem, ⟨55, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71_0 : Ref sig .tc := ⟨.hbm, 94, rfl⟩
abbrev main_v71_1 : Ref sig .tc := ⟨.hbm, 95, rfl⟩
abbrev main_v71_2 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_c_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_13 : Ref sig .tc := ⟨.hbm, 107, rfl⟩
abbrev main_v80 : Ref sig .tc := ⟨.hbm, 108, rfl⟩
abbrev main_v81 : Ref sig .tc := ⟨.hbm, 109, rfl⟩
abbrev main_c_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_15 : Ref sig .tc := ⟨.hbm, 118, rfl⟩
abbrev main_v89 : Ref sig .tc := ⟨.hbm, 119, rfl⟩
abbrev main_v90 : Ref sig .tc := ⟨.hbm, 120, rfl⟩
abbrev main_c_16 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_17 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123_0 : Ref sig .tc := ⟨.hbm, 155, rfl⟩
abbrev main_v123_1 : Ref sig .tc := ⟨.hbm, 156, rfl⟩
abbrev main_v123_2 : Ref sig .tc := ⟨.hbm, 157, rfl⟩
abbrev main_v124 : Ref sig .tc := ⟨.hbm, 158, rfl⟩
abbrev main_c_18 : Ref sig .tc := ⟨.hbm, 159, rfl⟩
abbrev main_v125 : Ref sig .tc := ⟨.hbm, 160, rfl⟩
abbrev main_v126 : Ref sig .tc := ⟨.hbm, 161, rfl⟩
abbrev main_c_19 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_c_20 : Ref sig .tc := ⟨.hbm, 168, rfl⟩
abbrev main_v132 : Ref sig .tc := ⟨.hbm, 169, rfl⟩
abbrev main_v133 : Ref sig .tc := ⟨.hbm, 170, rfl⟩
abbrev main_c_21 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_c_22 : Ref sig .tc := ⟨.hbm, 179, rfl⟩
abbrev main_v141 : Ref sig .tc := ⟨.hbm, 180, rfl⟩
abbrev main_v142 : Ref sig .tc := ⟨.hbm, 181, rfl⟩
abbrev main_c_23 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_24 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc2_stg10_0 : Ref sig .tc := ⟨.vmem, 37, rfl⟩
abbrev cc2_stg10_1 : Ref sig .tc := ⟨.vmem, 38, rfl⟩
abbrev cc2_stg11_0 : Ref sig .tc := ⟨.vmem, 39, rfl⟩
abbrev cc2_stg11_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20
abbrev cc1_sem11_0 : DmaSem sig := 21
abbrev cc1_sem11_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc2_sem10_0 : DmaSem sig := 37
abbrev cc2_sem10_1 : DmaSem sig := 38
abbrev cc2_sem11_0 : DmaSem sig := 39
abbrev cc2_sem11_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem10_1 : DmaSem sig := 55

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x40 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x40 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x40 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .f32 = 32 ∨ (Rect.block (s := S50000x128) S2000x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .f32 = 32 ∨ (Rect.block (s := S50000x128) S2000x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S50000x128.size a
  hwx2_11 : ∀ i : grid2.Coords, EltTy.bits .f32 = 32 ∨ (Rect.block (s := S50000x128) S2000x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x40.size a ≤ S128x40.size a
  hwx3_8 : ∀ i : grid3.Coords, EltTy.bits .f32 = 32 ∨ (Rect.block (s := S128x40) S128x40.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x40.size a ≤ S1x40.size a
  hwx3_9 : ∀ i : grid3.Coords, EltTy.bits .f32 = 32 ∨ (Rect.block (s := S1x40) S1x40.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x40.size a ≤ S50000x40.size a
  hwx3_10 : ∀ i : grid3.Coords, EltTy.bits .f32 = 32 ∨ (Rect.block (s := S50000x40) S2000x40.size (cc3_transform_10 i) (hinb3_10 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v56) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v68) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v71_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v71_1) S2000x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v71_2) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v71_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v106) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v71_1) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v108) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v111) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v114) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v117) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v120) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v122) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v123_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v123_1) S2000x128.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v123_2) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v123_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v158) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v123_1) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v160) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v163) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v166) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v169) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v172) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg8) S128x40.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v173) S1x40.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v174) S2000x40.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S1x128x128 : Shape := ⟨3, ![1, 128, 128]⟩
abbrev S128x128 : Shape := ⟨2, ![128, 128]⟩
abbrev S600000x128 : Shape := ⟨2, ![600000, 128]⟩
abbrev S50000x1 : Shape := ⟨2, ![50000, 1]⟩
abbrev S1x128 : Shape := ⟨2, ![1, 128]⟩
abbrev S128 : Shape := ⟨1, ![128]⟩
abbrev S50000x40 : Shape := ⟨2, ![50000, 40]⟩
abbrev S1x40 : Shape := ⟨2, ![1, 40]⟩

abbrev nBuf : Space → Nat
  | .hbm => 364
  | .vmem => 0
  | .smem => 0
  | _ => 0

abbrev hbmTy0_0 (i : Nat) : BufTy := match i % 128 with
  | 0 => ⟨S50000x128, .f32⟩
  | 1 => ⟨S2x600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S128x40, .f32⟩
  | 9 => ⟨S40, .f32⟩
  | 10 => ⟨S1x600000, .i32⟩
  | 11 => ⟨S600000, .i32⟩
  | 12 => ⟨S1x600000, .i32⟩
  | 13 => ⟨S600000, .i32⟩
  | 14 => ⟨S_, .f32⟩
  | 15 => ⟨S50000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S_, .f32⟩
  | 25 => ⟨S600000, .f32⟩
  | 26 => ⟨S50000, .f32⟩
  | 27 => ⟨S_, .f32⟩
  | 28 => ⟨S50000, .f32⟩
  | 29 => ⟨S50000, .f32⟩
  | 30 => ⟨S50000, .f32⟩
  | 31 => ⟨S_, .f32⟩
  | 32 => ⟨S50000x128, .f32⟩
  | 33 => ⟨S1x128x128, .f32⟩
  | 34 => ⟨S128x128, .f32⟩
  | 35 => ⟨S50000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000, .f32⟩
  | 54 => ⟨S600000, .f32⟩
  | 55 => ⟨S600000x1, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x128, .f32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S50000, .f32⟩
  | 72 => ⟨S50000x1, .f32⟩
  | 73 => ⟨S50000x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S_, .i32⟩
  | 97 => ⟨S_, .f32⟩
  | 98 => ⟨S50000, .f32⟩
  | 99 => ⟨S50000x1, .f32⟩
  | 100 => ⟨S_, .f32⟩
  | 101 => ⟨S50000x1, .f32⟩
  | 102 => ⟨S50000x1, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S50000, .f32⟩
  | 111 => ⟨S50000x1, .f32⟩
  | 112 => ⟨S50000x1, .f32⟩
  | 113 => ⟨S50000x1, .f32⟩
  | 114 => ⟨S_, .f32⟩
  | 115 => ⟨S_, .i1⟩
  | 116 => ⟨S_, .f32⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S50000x1, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S50000x128, .f32⟩
  | 14 => ⟨S1x128x128, .f32⟩
  | 15 => ⟨S128x128, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S600000, .f32⟩
  | 36 => ⟨S600000x1, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S600000x128, .f32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S50000, .f32⟩
  | 53 => ⟨S50000x1, .f32⟩
  | 54 => ⟨S50000x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128x128, .f32⟩
  | 63 => ⟨S128x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000, .f32⟩
  | 73 => ⟨S50000x1, .f32⟩
  | 74 => ⟨S_, .f32⟩
  | 75 => ⟨S50000x1, .f32⟩
  | 76 => ⟨S50000x1, .f32⟩
  | 77 => ⟨S_, .i32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S50000, .f32⟩
  | 92 => ⟨S50000x1, .f32⟩
  | 93 => ⟨S50000x1, .f32⟩
  | 94 => ⟨S50000x1, .f32⟩
  | 95 => ⟨S_, .f32⟩
  | 96 => ⟨S_, .i1⟩
  | 97 => ⟨S_, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S_, .f32⟩
  | 104 => ⟨S50000x1, .f32⟩
  | 105 => ⟨S50000x1, .f32⟩
  | 106 => ⟨S50000x1, .f32⟩
  | 107 => ⟨S50000x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S_, .i32⟩
  | 127 => ⟨S600000, .i32⟩
  | _ => ⟨S50000x128, .f32⟩

abbrev hbmTy0_2 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000, .f32⟩
  | 16 => ⟨S600000, .f32⟩
  | 17 => ⟨S600000x1, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S600000x128, .f32⟩
  | 28 => ⟨S600000x128, .f32⟩
  | 29 => ⟨S_, .f32⟩
  | 30 => ⟨S50000x128, .f32⟩
  | 31 => ⟨S600000x1, .i32⟩
  | 32 => ⟨S50000x128, .f32⟩
  | 33 => ⟨S50000, .f32⟩
  | 34 => ⟨S50000x1, .f32⟩
  | 35 => ⟨S50000x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S_, .f32⟩
  | 53 => ⟨S50000, .f32⟩
  | 54 => ⟨S50000x1, .f32⟩
  | 55 => ⟨S_, .f32⟩
  | 56 => ⟨S50000x1, .f32⟩
  | 57 => ⟨S50000x1, .f32⟩
  | 58 => ⟨S_, .i32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S50000, .f32⟩
  | 73 => ⟨S50000x1, .f32⟩
  | 74 => ⟨S50000x1, .f32⟩
  | 75 => ⟨S50000x1, .f32⟩
  | 76 => ⟨S_, .f32⟩
  | 77 => ⟨S_, .i1⟩
  | 78 => ⟨S_, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S_, .f32⟩
  | 85 => ⟨S50000x1, .f32⟩
  | 86 => ⟨S50000x1, .f32⟩
  | 87 => ⟨S50000x1, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x128, .f32⟩
  | 104 => ⟨S50000x40, .f32⟩
  | 105 => ⟨S1x40, .f32⟩
  | 106 => ⟨S50000x40, .f32⟩
  | 107 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_c_13 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_cst_0 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_cst_1 : Ref sig .tc := ⟨.hbm, 107, rfl⟩
abbrev main_call0_v8 : Ref sig .tc := ⟨.hbm, 108, rfl⟩
abbrev main_call0_cst_2 : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_call0_v12 : Ref sig .tc := ⟨.hbm, 113, rfl⟩
abbrev main_call0_cst_3 : Ref sig .tc := ⟨.hbm, 114, rfl⟩
abbrev main_call0_v13 : Ref sig .tc := ⟨.hbm, 115, rfl⟩
abbrev main_call0_cst_4 : Ref sig .tc := ⟨.hbm, 116, rfl⟩
abbrev main_call0_call0_v0 : Ref sig .tc := ⟨.hbm, 117, rfl⟩
abbrev main_call0_call0_v1 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_14 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_call1_cst : Ref sig .tc := ⟨.hbm, 138, rfl⟩
abbrev main_call1_v0 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_15 : Ref sig .tc := ⟨.hbm, 145, rfl⟩
abbrev main_v94 : Ref sig .tc := ⟨.hbm, 146, rfl⟩
abbrev main_v95 : Ref sig .tc := ⟨.hbm, 147, rfl⟩
abbrev main_c_16 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_17 : Ref sig .tc := ⟨.hbm, 154, rfl⟩
abbrev main_v101 : Ref sig .tc := ⟨.hbm, 155, rfl⟩
abbrev main_v102 : Ref sig .tc := ⟨.hbm, 156, rfl⟩
abbrev main_c_18 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_19 : Ref sig .tc := ⟨.hbm, 165, rfl⟩
abbrev main_v110 : Ref sig .tc := ⟨.hbm, 166, rfl⟩
abbrev main_v111 : Ref sig .tc := ⟨.hbm, 167, rfl⟩
abbrev main_c_20 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_21 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_22 : Ref sig .tc := ⟨.hbm, 199, rfl⟩
abbrev main_v141 : Ref sig .tc := ⟨.hbm, 200, rfl⟩
abbrev main_v142 : Ref sig .tc := ⟨.hbm, 201, rfl⟩
abbrev main_cst_23 : Ref sig .tc := ⟨.hbm, 202, rfl⟩
abbrev main_v143 : Ref sig .tc := ⟨.hbm, 203, rfl⟩
abbrev main_v144 : Ref sig .tc := ⟨.hbm, 204, rfl⟩
abbrev main_c_24 : Ref sig .tc := ⟨.hbm, 205, rfl⟩
abbrev main_call2_cst : Ref sig .tc := ⟨.hbm, 206, rfl⟩
abbrev main_call2_v0 : Ref sig .tc := ⟨.hbm, 207, rfl⟩
abbrev main_call2_v1 : Ref sig .tc := ⟨.hbm, 208, rfl⟩
abbrev main_call2_cst_0 : Ref sig .tc := ⟨.hbm, 209, rfl⟩
abbrev main_call2_v2 : Ref sig .tc := ⟨.hbm, 210, rfl⟩
abbrev main_call2_v3 : Ref sig .tc := ⟨.hbm, 211, rfl⟩
abbrev main_call2_v4 : Ref sig .tc := ⟨.hbm, 212, rfl⟩
abbrev main_call2_v5 : Ref sig .tc := ⟨.hbm, 213, rfl⟩
abbrev main_call2_v6 : Ref sig .tc := ⟨.hbm, 214, rfl⟩
abbrev main_call2_v7 : Ref sig .tc := ⟨.hbm, 215, rfl⟩
abbrev main_call2_cst_1 : Ref sig .tc := ⟨.hbm, 216, rfl⟩
abbrev main_call2_v8 : Ref sig .tc := ⟨.hbm, 217, rfl⟩
abbrev main_call2_cst_2 : Ref sig .tc := ⟨.hbm, 218, rfl⟩
abbrev main_call2_v9 : Ref sig .tc := ⟨.hbm, 219, rfl⟩
abbrev main_call2_v10 : Ref sig .tc := ⟨.hbm, 220, rfl⟩
abbrev main_call2_v11 : Ref sig .tc := ⟨.hbm, 221, rfl⟩
abbrev main_call2_v12 : Ref sig .tc := ⟨.hbm, 222, rfl⟩
abbrev main_call2_cst_3 : Ref sig .tc := ⟨.hbm, 223, rfl⟩
abbrev main_call2_v13 : Ref sig .tc := ⟨.hbm, 224, rfl⟩
abbrev main_call2_cst_4 : Ref sig .tc := ⟨.hbm, 225, rfl⟩
abbrev main_call2_call0_v0 : Ref sig .tc := ⟨.hbm, 226, rfl⟩
abbrev main_call2_call0_v1 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_cst_25 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_call3_cst : Ref sig .tc := ⟨.hbm, 247, rfl⟩
abbrev main_call3_v0 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_c_26 : Ref sig .tc := ⟨.hbm, 254, rfl⟩
abbrev main_v168 : Ref sig .tc := ⟨.hbm, 255, rfl⟩
abbrev main_v169 : Ref sig .tc := ⟨.hbm, 256, rfl⟩
abbrev main_c_27 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_c_28 : Ref sig .tc := ⟨.hbm, 263, rfl⟩
abbrev main_v175 : Ref sig .tc := ⟨.hbm, 264, rfl⟩
abbrev main_v176 : Ref sig .tc := ⟨.hbm, 265, rfl⟩
abbrev main_c_29 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_c_30 : Ref sig .tc := ⟨.hbm, 274, rfl⟩
abbrev main_v184 : Ref sig .tc := ⟨.hbm, 275, rfl⟩
abbrev main_v185 : Ref sig .tc := ⟨.hbm, 276, rfl⟩
abbrev main_c_31 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_cst_32 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_v209 : Ref sig .tc := ⟨.hbm, 302, rfl⟩
abbrev main_v210 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_cst_33 : Ref sig .tc := ⟨.hbm, 308, rfl⟩
abbrev main_v215 : Ref sig .tc := ⟨.hbm, 309, rfl⟩
abbrev main_v216 : Ref sig .tc := ⟨.hbm, 310, rfl⟩
abbrev main_cst_34 : Ref sig .tc := ⟨.hbm, 311, rfl⟩
abbrev main_v217 : Ref sig .tc := ⟨.hbm, 312, rfl⟩
abbrev main_v218 : Ref sig .tc := ⟨.hbm, 313, rfl⟩
abbrev main_c_35 : Ref sig .tc := ⟨.hbm, 314, rfl⟩
abbrev main_call4_cst : Ref sig .tc := ⟨.hbm, 315, rfl⟩
abbrev main_call4_v0 : Ref sig .tc := ⟨.hbm, 316, rfl⟩
abbrev main_call4_v1 : Ref sig .tc := ⟨.hbm, 317, rfl⟩
abbrev main_call4_cst_0 : Ref sig .tc := ⟨.hbm, 318, rfl⟩
abbrev main_call4_v2 : Ref sig .tc := ⟨.hbm, 319, rfl⟩
abbrev main_call4_v3 : Ref sig .tc := ⟨.hbm, 320, rfl⟩
abbrev main_call4_v4 : Ref sig .tc := ⟨.hbm, 321, rfl⟩
abbrev main_call4_v5 : Ref sig .tc := ⟨.hbm, 322, rfl⟩
abbrev main_call4_v6 : Ref sig .tc := ⟨.hbm, 323, rfl⟩
abbrev main_call4_v7 : Ref sig .tc := ⟨.hbm, 324, rfl⟩
abbrev main_call4_cst_1 : Ref sig .tc := ⟨.hbm, 325, rfl⟩
abbrev main_call4_v8 : Ref sig .tc := ⟨.hbm, 326, rfl⟩
abbrev main_call4_cst_2 : Ref sig .tc := ⟨.hbm, 327, rfl⟩
abbrev main_call4_v9 : Ref sig .tc := ⟨.hbm, 328, rfl⟩
abbrev main_call4_v10 : Ref sig .tc := ⟨.hbm, 329, rfl⟩
abbrev main_call4_v11 : Ref sig .tc := ⟨.hbm, 330, rfl⟩
abbrev main_call4_v12 : Ref sig .tc := ⟨.hbm, 331, rfl⟩
abbrev main_call4_cst_3 : Ref sig .tc := ⟨.hbm, 332, rfl⟩
abbrev main_call4_v13 : Ref sig .tc := ⟨.hbm, 333, rfl⟩
abbrev main_call4_cst_4 : Ref sig .tc := ⟨.hbm, 334, rfl⟩
abbrev main_call4_call0_v0 : Ref sig .tc := ⟨.hbm, 335, rfl⟩
abbrev main_call4_call0_v1 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_cst_36 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_v233 : Ref sig .tc := ⟨.hbm, 352, rfl⟩
abbrev main_v234 : Ref sig .tc := ⟨.hbm, 353, rfl⟩
abbrev main_v235 : Ref sig .tc := ⟨.hbm, 354, rfl⟩
abbrev main_v236 : Ref sig .tc := ⟨.hbm, 355, rfl⟩
abbrev main_call5_cst : Ref sig .tc := ⟨.hbm, 356, rfl⟩
abbrev main_call5_v0 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x40_S50000x40_1_0_0_1_n_n_wf : DotDims.WF S50000x128 S128x40 S50000x40 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KRun.lean ====
/- The idealized kernel program's run with its result buffer kept: every weakly fair execution of @main on the
   TensorCores from any memory with zero counters terminates, nothing faulting; in every final state the result
   buffer holds the last segment boundary's contents of it and the ten argument arrays are as launched. The result
   buffer's contents at that boundary are what region 3's pipeline leaves in its output window's array. -/
import proofs.«177108_j26465588478228_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer kept: the final state has the result buffer at the last boundary's contents
    and every argument array as launched. -/
theorem run : θ_run defs (onTc (τ := τ) (main (F := F))) ⟨m, fun _ => 0, ρ⟩ (fun r => ∀ c : Dev nD,
      r.2.mem ((c.tc : Thread nD τ).loc main_v174) = Gen.W8 m ρ c (Proc.devRef .tc main_v174)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v174 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

/-- The result buffer at the last boundary is the array region 3's pipeline leaves in its output window
    (window 10, whose array is the result buffer). -/
theorem result_eq (c : Dev nD) :
    Gen.W8 m ρ c (Proc.devRef .tc main_v174) = (Gen.dat3 (Gen.V7 m ρ) c).arrAt 10 cfg3.N :=
  Gen.W8_arr m ρ c 10

end Cert.KRun

end
-- ==== Proof.KArr0.lean ====
/- Region 0 of the idealized kernel program (custom_call 0, `cc0__matmul_kernel`: one row-blocked operand, one shared operand, one output), at the extended reals and at ARBITRARY entry contents `V`:
   each output array after the region as one whole-array function of the region's input arrays, given that the body's
   result is row-local. The grid has 25 points; point `t` works on rows `2000 t … 2000 t + 1999` of the 50000-row arrays
   (block index `(t, 0)`), the small operands are shared (block index `(0, 0)`, the block the whole array). So the block
   point `t` writes back is, row by row, the row function of the rows `2000 t + p` of the row-blocked input arrays, the
   blocks cover the output array (row `r` lies in point `r / 2000`'s block), and the array ends as that row function of
   the input arrays' rows. -/
import proofs.«177108_j26465588478228_2_alg».proof.Proof.Gen.KernelIdeal.Frame
import Idealize.ShloMosaic.Lib.Pipeline.Value
import Idealize.ShloMosaic.Lib.ValueIdx

set_option maxRecDepth 16384

noncomputable section

namespace Cert.KArr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, arbitrary
variable (V : (c : Dev nD) → (b : Ref sig .tc) → Buf (Elt Ideal) ((c : Thread nD τ).loc b))

/-- The row of the array that row `p` of point `t`'s block is (blocks of 2000 rows, 25 of them). -/
abbrev row (t : Fin 25) (p : Fin 2000) : Fin 50000 := ⟨2000 * t.val + p.val, by have := t.isLt; have := p.isLt; omega⟩

/-! ## Region 0 -/

/-- Input window 0's block index at point `t` is `(t, 0)`. -/
theorem idx0_0 : ∀ t : Fin cfg0.N, win0_0.index t (0 : Fin 2) = t.val ∧ win0_0.index t (1 : Fin 2) = 0 :=
  (by decide +kernel : ∀ t : Fin grid0.N, _)

/-- Input window 1's block index is `(0, 0)` at every point. -/
theorem idx0_1 : ∀ t : Fin cfg0.N, win0_1.index t (0 : Fin 2) = 0 ∧ win0_1.index t (1 : Fin 2) = 0 :=
  (by decide +kernel : ∀ t : Fin grid0.N, _)

/-- Output window 2's block index at point `t` is `(t, 0)`. -/
theorem idx0_2 : ∀ t : Fin cfg0.N, win0_2.index t (0 : Fin 2) = t.val ∧ win0_2.index t (1 : Fin 2) = 0 :=
  (by decide +kernel : ∀ t : Fin grid0.N, _)

/-- Window 1's block is its whole array. -/
theorem blk0_1 (c : Dev nD) (t : Fin cfg0.N) :
    Gen.iblk0 V c 1 t = (V c (Pipeline.arrRef spec0 1) : Vec Ideal S128x128 .f32) := by
  obtain ⟨e0, e1⟩ := idx0_1 t
  funext y
  show V c (Pipeline.arrRef spec0 1) (((cfg0.win 1).blk t).view.emb y) = V c (Pipeline.arrRef spec0 1) y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 0's block at point `t`, at row `p`, is its array at row `2000 t + p`. -/
theorem blk0_0 (c : Dev nD) (t : Fin cfg0.N) (p : Fin 2000) (k : Fin 128) :
    Gen.iblk0 V c 0 t (ix2 p k) = (V c (Pipeline.arrRef spec0 0) : S50000x128.Idx → EReal) (ix2 (row t p) k) := by
  obtain ⟨e0, e1⟩ := idx0_0 t
  show V c (Pipeline.arrRef spec0 0) (((cfg0.win 0).blk t).view.emb (ix2 p k)) = V c (Pipeline.arrRef spec0 0) (ix2 (row t p) k)
  refine congrArg _ ?_
  funext a; apply Fin.ext
  match a with
  | ⟨0, _⟩ => show win0_0.index t (0 : Fin 2) * 2000 + 1 * p.val = 2000 * t.val + p.val; omega
  | ⟨1, _⟩ => show win0_0.index t (1 : Fin 2) * 128 + 1 * k.val = k.val; omega

/-- Where an element of output window 2's block at point `t` sits in the array: row `2000 t + p`, same lane. -/
theorem emb0_2 (t : Fin cfg0.N) (p : Fin 2000) (q : Fin 128) :
    (((cfg0.win 2).blk t).view.emb (ix2 p q) : S50000x128.Idx) = ix2 (row t p) q := by
  obtain ⟨e0, e1⟩ := idx0_2 t
  funext a; apply Fin.ext
  match a with
  | ⟨0, _⟩ => show win0_2.index t (0 : Fin 2) * 2000 + 1 * p.val = 2000 * t.val + p.val; omega
  | ⟨1, _⟩ => show win0_2.index t (1 : Fin 2) * 128 + 1 * q.val = q.val; omega

/-- An index of the array is in point `t`'s block iff each coordinate is in the block's range on its axis. -/
theorem mem_blk0_2 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v18).slice (win0_2.rect t)).set ↔ _
  rw [View.set_slice_whole, Rect.mem_set_unit]
  exact Iff.rfl

/-- Every index of the array is in the block of the point its row falls in: row `r` is covered by point `r / 2000`. -/
theorem cover0_2 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 2000 < 25 := by omega
  refine ⟨⟨(i 0).val / 2000, ht⟩, flush0_2 _, ?_⟩
  rw [mem_blk0_2]
  obtain ⟨e0, e1⟩ := idx0_2 ⟨(i 0).val / 2000, ht⟩
  intro a
  match a with
  | ⟨0, _⟩ => show win0_2.index _ (0 : Fin 2) * 2000 ≤ (i 0).val ∧ (i 0).val < win0_2.index _ (0 : Fin 2) * 2000 + 2000; rw [e0]; show (i 0).val / 2000 * 2000 ≤ (i 0).val ∧ (i 0).val < (i 0).val / 2000 * 2000 + 2000; omega
  | ⟨1, _⟩ => show win0_2.index _ (1 : Fin 2) * 128 ≤ (i 1).val ∧ (i 1).val < win0_2.index _ (1 : Fin 2) * 128 + 128; rw [e1]; omega

/-- What point `t` writes back of output window 2 is block `t` of a whole-array function `G` as soon as the staging
    buffer's contents `X`, element by element, are `G` at the element's place in the array. -/
theorem flushed_of0_2 (t : Fin cfg0.N) (X : Vec Ideal S2000x128 .f32) (G : S50000x128.Idx → EReal)
    (h : ∀ (p : Fin 2000) (q : Fin 128), X (ix2 p q) = G (ix2 (row t p) q)) :
    (cfg0.win 2).cut (grid0.coords t) X = ((cfg0.win 2).blk t).view.read (Elt Ideal) G := by
  funext j
  obtain ⟨p, q, rfl⟩ : ∃ (p : Fin 2000) (q : Fin 128), j = ix2 p q := ⟨j 0, j 1, eq_ix2 j⟩
  show X (ix2 p q) = G (((cfg0.win 2).blk t).view.emb (ix2 p q))
  rw [emb0_2]
  exact h p q

set_option maxHeartbeats 1000000 in
/-- Region 0, output window 2: when the body's result at row `p` is `f` of row `p` of its row-blocked operands,
    the array after the region is `f`, row by row, of the row-blocked arrays as the region found them. -/
theorem arr0_2 (c : Dev nD)
    (f : (Fin 128 → EReal) → Fin 128 → EReal)
    (hf : ∀ (x0 : Vec Ideal S2000x128 .f32) (p : Fin 2000) (q : Fin 128),
      Gen.out0_2 x0 (V c (Pipeline.arrRef spec0 1)) (ix2 p q)
        = f (fun k => x0 (ix2 p k)) q) :
    (Gen.dat0 V c).arrAt 2 cfg0.N = fun i : S50000x128.Idx =>
      f (fun k => (V c (Pipeline.arrRef spec0 0) : S50000x128.Idx → EReal) (ix2 (i 0) k)) (i 1) := by
  refine (Gen.dat0 V c).arrAt_eq_of_cover 2 _ (fun t _ => ?_) cover0_2
  show (cfg0.win 2).cut (grid0.coords t) ((Gen.dat0 V c).after 2 t) = _
  rw [Gen.after0_2, blk0_1]
  refine flushed_of0_2 t _ _ (fun p q => ?_)
  refine (hf (Gen.iblk0 V c 0 t) p q).trans ?_
  show f (fun k => Gen.iblk0 V c 0 t (ix2 p k)) q
    = f (fun k => (V c (Pipeline.arrRef spec0 0) : S50000x128.Idx → EReal) (ix2 (row t p) k)) q
  rw [show (fun k => Gen.iblk0 V c 0 t (ix2 p k)) = fun k => (V c (Pipeline.arrRef spec0 0) : S50000x128.Idx → EReal) (ix2 (row t p) k) from funext fun k => blk0_0 V c t p k]

end Cert.KArr

end
-- ==== Proof.KArr1.lean ====
/- Region 1 of the idealized kernel program (custom_call 1, `cc1__combine_fused_kernel`: three row-blocked operands, six shared ones, three outputs), at the extended reals and at ARBITRARY entry contents `V`:
   each output array after the region as one whole-array function of the region's input arrays, given that the body's
   result is row-local. The grid has 25 points; point `t` works on rows `2000 t … 2000 t + 1999` of the 50000-row arrays
   (block index `(t, 0)`), the small operands are shared (block index `(0, 0)`, the block the whole array). So the block
   point `t` writes back is, row by row, the row function of the rows `2000 t + p` of the row-blocked input arrays, the
   blocks cover the output array (row `r` lies in point `r / 2000`'s block), and the array ends as that row function of
   the input arrays' rows. -/
import proofs.«177108_j26465588478228_2_alg».proof.Proof.Gen.KernelIdeal.Frame
import Idealize.ShloMosaic.Lib.Pipeline.Value
import Idealize.ShloMosaic.Lib.ValueIdx
import proofs.«177108_j26465588478228_2_alg».proof.Proof.KArr0

set_option maxRecDepth 16384

noncomputable section

namespace Cert.KArr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, arbitrary
variable (V : (c : Dev nD) → (b : Ref sig .tc) → Buf (Elt Ideal) ((c : Thread nD τ).loc b))

/-! ## Region 1 -/

/-- Input window 0's block index at point `t` is `(t, 0)`. -/
theorem idx1_0 : ∀ t : Fin cfg1.N, win1_0.index t (0 : Fin 2) = t.val ∧ win1_0.index t (1 : Fin 2) = 0 :=
  (by decide +kernel : ∀ t : Fin grid1.N, _)

/-- Input window 1's block index at point `t` is `(t, 0)`. -/
theorem idx1_1 : ∀ t : Fin cfg1.N, win1_1.index t (0 : Fin 2) = t.val ∧ win1_1.index t (1 : Fin 2) = 0 :=
  (by decide +kernel : ∀ t : Fin grid1.N, _)

/-- Input window 2's block index at point `t` is `(t, 0)`. -/
theorem idx1_2 : ∀ t : Fin cfg1.N, win1_2.index t (0 : Fin 2) = t.val ∧ win1_2.index t (1 : Fin 2) = 0 :=
  (by decide +kernel : ∀ t : Fin grid1.N, _)

/-- Input window 3's block index is `(0, 0)` at every point. -/
theorem idx1_3 : ∀ t : Fin cfg1.N, win1_3.index t (0 : Fin 2) = 0 ∧ win1_3.index t (1 : Fin 2) = 0 :=
  (by decide +kernel : ∀ t : Fin grid1.N, _)

/-- Input window 4's block index is `(0, 0)` at every point. -/
theorem idx1_4 : ∀ t : Fin cfg1.N, win1_4.index t (0 : Fin 2) = 0 ∧ win1_4.index t (1 : Fin 2) = 0 :=
  (by decide +kernel : ∀ t : Fin grid1.N, _)

/-- Input window 5's block index is `(0, 0)` at every point. -/
theorem idx1_5 : ∀ t : Fin cfg1.N, win1_5.index t (0 : Fin 2) = 0 ∧ win1_5.index t (1 : Fin 2) = 0 :=
  (by decide +kernel : ∀ t : Fin grid1.N, _)

/-- Input window 6's block index is `(0, 0)` at every point. -/
theorem idx1_6 : ∀ t : Fin cfg1.N, win1_6.index t (0 : Fin 2) = 0 ∧ win1_6.index t (1 : Fin 2) = 0 :=
  (by decide +kernel : ∀ t : Fin grid1.N, _)

/-- Input window 7's block index is `(0, 0)` at every point. -/
theorem idx1_7 : ∀ t : Fin cfg1.N, win1_7.index t (0 : Fin 2) = 0 ∧ win1_7.index t (1 : Fin 2) = 0 :=
  (by decide +kernel : ∀ t : Fin grid1.N, _)

/-- Input window 8's block index is `(0, 0)` at every point. -/
theorem idx1_8 : ∀ t : Fin cfg1.N, win1_8.index t (0 : Fin 2) = 0 ∧ win1_8.index t (1 : Fin 2) = 0 :=
  (by decide +kernel : ∀ t : Fin grid1.N, _)

/-- Output window 9's block index at point `t` is `(t, 0)`. -/
theorem idx1_9 : ∀ t : Fin cfg1.N, win1_9.index t (0 : Fin 2) = t.val ∧ win1_9.index t (1 : Fin 2) = 0 :=
  (by decide +kernel : ∀ t : Fin grid1.N, _)

/-- Output window 10's block index at point `t` is `(t, 0)`. -/
theorem idx1_10 : ∀ t : Fin cfg1.N, win1_10.index t (0 : Fin 2) = t.val ∧ win1_10.index t (1 : Fin 2) = 0 :=
  (by decide +kernel : ∀ t : Fin grid1.N, _)

/-- Output window 11's block index at point `t` is `(t, 0)`. -/
theorem idx1_11 : ∀ t : Fin cfg1.N, win1_11.index t (0 : Fin 2) = t.val ∧ win1_11.index t (1 : Fin 2) = 0 :=
  (by decide +kernel : ∀ t : Fin grid1.N, _)

/-- Window 3's block is its whole array. -/
theorem blk1_3 (c : Dev nD) (t : Fin cfg1.N) :
    Gen.iblk1 V c 3 t = (V c (Pipeline.arrRef spec1 3) : Vec Ideal S128x128 .f32) := by
  obtain ⟨e0, e1⟩ := idx1_3 t
  funext y
  show V c (Pipeline.arrRef spec1 3) (((cfg1.win 3).blk t).view.emb y) = V c (Pipeline.arrRef spec1 3) y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array. -/
theorem blk1_4 (c : Dev nD) (t : Fin cfg1.N) :
    Gen.iblk1 V c 4 t = (V c (Pipeline.arrRef spec1 4) : Vec Ideal S1x128 .f32) := by
  obtain ⟨e0, e1⟩ := idx1_4 t
  funext y
  show V c (Pipeline.arrRef spec1 4) (((cfg1.win 4).blk t).view.emb y) = V c (Pipeline.arrRef spec1 4) y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array. -/
theorem blk1_5 (c : Dev nD) (t : Fin cfg1.N) :
    Gen.iblk1 V c 5 t = (V c (Pipeline.arrRef spec1 5) : Vec Ideal S1x128 .f32) := by
  obtain ⟨e0, e1⟩ := idx1_5 t
  funext y
  show V c (Pipeline.arrRef spec1 5) (((cfg1.win 5).blk t).view.emb y) = V c (Pipeline.arrRef spec1 5) y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Window 6's block is its whole array. -/
theorem blk1_6 (c : Dev nD) (t : Fin cfg1.N) :
    Gen.iblk1 V c 6 t = (V c (Pipeline.arrRef spec1 6) : Vec Ideal S1x128 .f32) := by
  obtain ⟨e0, e1⟩ := idx1_6 t
  funext y
  show V c (Pipeline.arrRef spec1 6) (((cfg1.win 6).blk t).view.emb y) = V c (Pipeline.arrRef spec1 6) y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Window 7's block is its whole array. -/
theorem blk1_7 (c : Dev nD) (t : Fin cfg1.N) :
    Gen.iblk1 V c 7 t = (V c (Pipeline.arrRef spec1 7) : Vec Ideal S1x128 .f32) := by
  obtain ⟨e0, e1⟩ := idx1_7 t
  funext y
  show V c (Pipeline.arrRef spec1 7) (((cfg1.win 7).blk t).view.emb y) = V c (Pipeline.arrRef spec1 7) y
  refine congrArg _ ?_
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

/-- Window 8's block is its whole array. -/
theorem blk1_8 (c : Dev nD) (t : Fin cfg1.N) :
    Gen.iblk1 V c 8 t = (V c (Pipeline.arrRef spec1 8) : Vec Ideal S128x128 .f32) := by
  obtain ⟨e0, e1⟩ := idx1_8 t
  funext y
  show V c (Pipeline.arrRef spec1 8) (((cfg1.win 8).blk t).view.emb y) = V c (Pipeline.arrRef spec1 8) y
  refine congrArg _ ?_
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 0's block at point `t`, at row `p`, is its array at row `2000 t + p`. -/
theorem blk1_0 (c : Dev nD) (t : Fin cfg1.N) (p : Fin 2000) (k : Fin 128) :
    Gen.iblk1 V c 0 t (ix2 p k) = (V c (Pipeline.arrRef spec1 0) : S50000x128.Idx → EReal) (ix2 (row t p) k) := by
  obtain ⟨e0, e1⟩ := idx1_0 t
  show V c (Pipeline.arrRef spec1 0) (((cfg1.win 0).blk t).view.emb (ix2 p k)) = V c (Pipeline.arrRef spec1 0) (ix2 (row t p) k)
  refine congrArg _ ?_
  funext a; apply Fin.ext
  match a with
  | ⟨0, _⟩ => show win1_0.index t (0 : Fin 2) * 2000 + 1 * p.val = 2000 * t.val + p.val; omega
  | ⟨1, _⟩ => show win1_0.index t (1 : Fin 2) * 128 + 1 * k.val = k.val; omega

/-- Window 1's block at point `t`, at row `p`, is its array at row `2000 t + p`. -/
theorem blk1_1 (c : Dev nD) (t : Fin cfg1.N) (p : Fin 2000) (k : Fin 128) :
    Gen.iblk1 V c 1 t (ix2 p k) = (V c (Pipeline.arrRef spec1 1) : S50000x128.Idx → EReal) (ix2 (row t p) k) := by
  obtain ⟨e0, e1⟩ := idx1_1 t
  show V c (Pipeline.arrRef spec1 1) (((cfg1.win 1).blk t).view.emb (ix2 p k)) = V c (Pipeline.arrRef spec1 1) (ix2 (row t p) k)
  refine congrArg _ ?_
  funext a; apply Fin.ext
  match a with
  | ⟨0, _⟩ => show win1_1.index t (0 : Fin 2) * 2000 + 1 * p.val = 2000 * t.val + p.val; omega
  | ⟨1, _⟩ => show win1_1.index t (1 : Fin 2) * 128 + 1 * k.val = k.val; omega

/-- Window 2's block at point `t`, at row `p`, is its array at row `2000 t + p`. -/
theorem blk1_2 (c : Dev nD) (t : Fin cfg1.N) (p : Fin 2000) (k : Fin 128) :
    Gen.iblk1 V c 2 t (ix2 p k) = (V c (Pipeline.arrRef spec1 2) : S50000x128.Idx → EReal) (ix2 (row t p) k) := by
  obtain ⟨e0, e1⟩ := idx1_2 t
  show V c (Pipeline.arrRef spec1 2) (((cfg1.win 2).blk t).view.emb (ix2 p k)) = V c (Pipeline.arrRef spec1 2) (ix2 (row t p) k)
  refine congrArg _ ?_
  funext a; apply Fin.ext
  match a with
  | ⟨0, _⟩ => show win1_2.index t (0 : Fin 2) * 2000 + 1 * p.val = 2000 * t.val + p.val; omega
  | ⟨1, _⟩ => show win1_2.index t (1 : Fin 2) * 128 + 1 * k.val = k.val; omega

/-- Where an element of output window 9's block at point `t` sits in the array: row `2000 t + p`, same lane. -/
theorem emb1_9 (t : Fin cfg1.N) (p : Fin 2000) (q : Fin 128) :
    (((cfg1.win 9).blk t).view.emb (ix2 p q) : S50000x128.Idx) = ix2 (row t p) q := by
  obtain ⟨e0, e1⟩ := idx1_9 t
  funext a; apply Fin.ext
  match a with
  | ⟨0, _⟩ => show win1_9.index t (0 : Fin 2) * 2000 + 1 * p.val = 2000 * t.val + p.val; omega
  | ⟨1, _⟩ => show win1_9.index t (1 : Fin 2) * 128 + 1 * q.val = q.val; omega

/-- An index of the array is in point `t`'s block iff each coordinate is in the block's range on its axis. -/
theorem mem_blk1_9 (t : Fin cfg1.N) (i : S50000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v71_0).slice (win1_9.rect t)).set ↔ _
  rw [View.set_slice_whole, Rect.mem_set_unit]
  exact Iff.rfl

/-- Every index of the array is in the block of the point its row falls in: row `r` is covered by point `r / 2000`. -/
theorem cover1_9 (i : S50000x128.Idx) : ∃ t : Fin cfg1.N, (cfg1.win 9).flush t = true ∧ i ∈ ((cfg1.win 9).blk t).view.set := by
  have hi0 : (i 0).val < 50000 := (i 0).isLt
  have hi1 : (i 1).val < 128 := (i 1).isLt
  have ht : (i 0).val / 2000 < 25 := by omega
  refine ⟨⟨(i 0).val / 2000, ht⟩, flush1_9 _, ?_⟩
  rw [mem_blk1_9]
  obtain ⟨e0, e1⟩ := idx1_9 ⟨(i 0).val / 2000, ht⟩
  intro a
  match a with
  | ⟨0, _⟩ => show win1_9.index _ (0 : Fin 2) * 2000 ≤ (i 0).val ∧ (i 0).val < win1_9.index _ (0 : Fin 2) * 2000 + 2000; rw [e0]; show (i 0).val / 2000 * 2000 ≤ (i 0).val ∧ (i 0).val < (i 0).val / 2000 * 2000 + 2000; omega
  | ⟨1, _⟩ => show win1_9.index _ (1 : Fin 2) * 128 ≤ (i 1).val ∧ (i 1).val < win1_9.index _ (1 : Fin 2) * 128 + 128; rw [e1]; omega

/-- Where an element of output window 10's block at point `t` sits in the array: row `2000 t + p`, same lane. -/
theorem emb1_10 (t : Fin cfg1.N) (p : Fin 2000) (q : Fin 128) :
    (((cfg1.win 10).blk t).view.emb (ix2 p q) : S50000x128.Idx) = ix2 (row t p) q := by
  obtain ⟨e0, e1⟩ := idx1_10 t
  funext a; apply Fin.ext
  match a with
  | ⟨0, _⟩ => show win1_10.index t (0 : Fin 2) * 2000 + 1 * p.val = 2000 * t.val + p.val; omega
  | ⟨1, _⟩ => show win1_10.index t (1 : Fin 2) * 128 + 1 * q.val = q.val; omega

/-- An index of the array is in point `t`'s block iff each coordinate is in the block's range on its axis. -/
theorem mem_blk1_10 (t : Fin cfg1.N) (i : S50000x128.Idx) :
    i ∈ ((cfg1.win 10).blk t).view.set ↔ ∀ a : Fin 2, win1_10.index t a * S2000x128.size a ≤ (i a).val ∧ (i a).val < win1_10.index t a * S2000x128.size a + S2000x128.size a := by
  show i ∈ ((View.whole main_v71_1).slice (win1_10.rect t)).set ↔ _
  rw [View.set_slice_whole, Rect.mem_set_unit]
  exact Iff.rfl

/-- Every index of the array is in the block of the point its row falls in: row `r` is covered by point `r / 2000`. -/
theorem cover1_10 (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  have ht : (i 0).val / 2000 < 25 := by omega
  refine ⟨⟨(i 0).val / 2000, ht⟩, flush1_10 _, ?_⟩
  rw [mem_blk1_10]
  obtain ⟨e0, e1⟩ := idx1_10 ⟨(i 0).val / 2000, ht⟩
  intro a
  match a with
  | ⟨0, _⟩ => show win1_10.index _ (0 : Fin 2) * 2000 ≤ (i 0).val ∧ (i 0).val < win1_10.index _ (0 : Fin 2) * 2000 + 2000; rw [e0]; show (i 0).val / 2000 * 2000 ≤ (i 0).val ∧ (i 0).val < (i 0).val / 2000 * 2000 + 2000; omega
  | ⟨1, _⟩ => show win1_10.index _ (1 : Fin 2) * 128 ≤ (i 1).val ∧ (i 1).val < win1_10.index _ (1 : Fin 2) * 128 + 128; rw [e1]; omega

/-- Where an element of output window 11's block at point `t` sits in the array: row `2000 t + p`, same lane. -/
theorem emb1_11 (t : Fin cfg1.N) (p : Fin 2000) (q : Fin 128) :
    (((cfg1.win 11).blk t).view.emb (ix2 p q) : S50000x128.Idx) = ix2 (row t p) q := by
  obtain ⟨e0, e1⟩ := idx1_11 t
  funext a; apply Fin.ext
  match a with
  | ⟨0, _⟩ => show win1_11.index t (0 : Fin 2) * 2000 + 1 * p.val = 2000 * t.val + p.val; omega
  | ⟨1, _⟩ => show win1_11.index t (1 : Fin 2) * 128 + 1 * q.val = q.val; omega

/-- An index of the array is in point `t`'s block iff each coordinate is in the block's range on its axis. -/
theorem mem_blk1_11 (t : Fin cfg1.N) (i : S50000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v71_2).slice (win1_11.rect t)).set ↔ _
  rw [View.set_slice_whole, Rect.mem_set_unit]
  exact Iff.rfl

/-- Every index of the array is in the block of the point its row falls in: row `r` is covered by point `r / 2000`. -/
theorem cover1_11 (i : S50000x128.Idx) : ∃ t : Fin cfg1.N, (cfg1.win 11).flush t = true ∧ i ∈ ((cfg1.win 11).blk t).view.set := by
  have hi0 : (i 0).val < 50000 := (i 0).isLt
  have hi1 : (i 1).val < 128 := (i 1).isLt
  have ht : (i 0).val / 2000 < 25 := by omega
  refine ⟨⟨(i 0).val / 2000, ht⟩, flush1_11 _, ?_⟩
  rw [mem_blk1_11]
  obtain ⟨e0, e1⟩ := idx1_11 ⟨(i 0).val / 2000, ht⟩
  intro a
  match a with
  | ⟨0, _⟩ => show win1_11.index _ (0 : Fin 2) * 2000 ≤ (i 0).val ∧ (i 0).val < win1_11.index _ (0 : Fin 2) * 2000 + 2000; rw [e0]; show (i 0).val / 2000 * 2000 ≤ (i 0).val ∧ (i 0).val < (i 0).val / 2000 * 2000 + 2000; omega
  | ⟨1, _⟩ => show win1_11.index _ (1 : Fin 2) * 128 ≤ (i 1).val ∧ (i 1).val < win1_11.index _ (1 : Fin 2) * 128 + 128; rw [e1]; omega

/-- What point `t` writes back of output window 9 is block `t` of a whole-array function `G` as soon as the staging
    buffer's contents `X`, element by element, are `G` at the element's place in the array. -/
theorem flushed_of1_9 (t : Fin cfg1.N) (X : Vec Ideal S2000x128 .f32) (G : S50000x128.Idx → EReal)
    (h : ∀ (p : Fin 2000) (q : Fin 128), X (ix2 p q) = G (ix2 (row t p) q)) :
    (cfg1.win 9).cut (grid1.coords t) X = ((cfg1.win 9).blk t).view.read (Elt Ideal) G := by
  funext j
  obtain ⟨p, q, rfl⟩ : ∃ (p : Fin 2000) (q : Fin 128), j = ix2 p q := ⟨j 0, j 1, eq_ix2 j⟩
  show X (ix2 p q) = G (((cfg1.win 9).blk t).view.emb (ix2 p q))
  rw [emb1_9]
  exact h p q

set_option maxHeartbeats 1000000 in
/-- Region 1, output window 9: when the body's result at row `p` is `f` of row `p` of its row-blocked operands,
    the array after the region is `f`, row by row, of the row-blocked arrays as the region found them. -/
theorem arr1_9 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out1_9 x0 x1 x2 (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (ix2 p q)
        = f (fun k => x0 (ix2 p k)) (fun k => x1 (ix2 p k)) (fun k => x2 (ix2 p k)) q) :
    (Gen.dat1 V c).arrAt 9 cfg1.N = fun i : S50000x128.Idx =>
      f (fun k => (V c (Pipeline.arrRef spec1 0) : S50000x128.Idx → EReal) (ix2 (i 0) k)) (fun k => (V c (Pipeline.arrRef spec1 1) : S50000x128.Idx → EReal) (ix2 (i 0) k)) (fun k => (V c (Pipeline.arrRef spec1 2) : S50000x128.Idx → EReal) (ix2 (i 0) k)) (i 1) := by
  refine (Gen.dat1 V c).arrAt_eq_of_cover 9 _ (fun t _ => ?_) cover1_9
  show (cfg1.win 9).cut (grid1.coords t) ((Gen.dat1 V c).after 9 t) = _
  rw [Gen.after1_9, blk1_3, blk1_4, blk1_5, blk1_6, blk1_7, blk1_8]
  refine flushed_of1_9 t _ _ (fun p q => ?_)
  refine (hf (Gen.iblk1 V c 0 t) (Gen.iblk1 V c 1 t) (Gen.iblk1 V c 2 t) p q).trans ?_
  show f (fun k => Gen.iblk1 V c 0 t (ix2 p k)) (fun k => Gen.iblk1 V c 1 t (ix2 p k)) (fun k => Gen.iblk1 V c 2 t (ix2 p k)) q
    = f (fun k => (V c (Pipeline.arrRef spec1 0) : S50000x128.Idx → EReal) (ix2 (row t p) k)) (fun k => (V c (Pipeline.arrRef spec1 1) : S50000x128.Idx → EReal) (ix2 (row t p) k)) (fun k => (V c (Pipeline.arrRef spec1 2) : S50000x128.Idx → EReal) (ix2 (row t p) k)) q
  rw [show (fun k => Gen.iblk1 V c 0 t (ix2 p k)) = fun k => (V c (Pipeline.arrRef spec1 0) : S50000x128.Idx → EReal) (ix2 (row t p) k) from funext fun k => blk1_0 V c t p k]
  rw [show (fun k => Gen.iblk1 V c 1 t (ix2 p k)) = fun k => (V c (Pipeline.arrRef spec1 1) : S50000x128.Idx → EReal) (ix2 (row t p) k) from funext fun k => blk1_1 V c t p k]
  rw [show (fun k => Gen.iblk1 V c 2 t (ix2 p k)) = fun k => (V c (Pipeline.arrRef spec1 2) : S50000x128.Idx → EReal) (ix2 (row t p) k) from funext fun k => blk1_2 V c t p k]

/-- What point `t` writes back of output window 10 is block `t` of a whole-array function `G` as soon as the staging
    buffer's contents `X`, element by element, are `G` at the element's place in the array. -/
theorem flushed_of1_10 (t : Fin cfg1.N) (X : Vec Ideal S2000x128 .f32) (G : S50000x128.Idx → EReal)
    (h : ∀ (p : Fin 2000) (q : Fin 128), X (ix2 p q) = G (ix2 (row t p) q)) :
    (cfg1.win 10).cut (grid1.coords t) X = ((cfg1.win 10).blk t).view.read (Elt Ideal) G := by
  funext j
  obtain ⟨p, q, rfl⟩ : ∃ (p : Fin 2000) (q : Fin 128), j = ix2 p q := ⟨j 0, j 1, eq_ix2 j⟩
  show X (ix2 p q) = G (((cfg1.win 10).blk t).view.emb (ix2 p q))
  rw [emb1_10]
  exact h p q

set_option maxHeartbeats 1000000 in
/-- Region 1, output window 10: when the body's result at row `p` is `f` of row `p` of its row-blocked operands,
    the array after the region is `f`, row by row, of the row-blocked arrays as the region found them. -/
theorem arr1_10 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out1_10 x0 x1 x2 (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (ix2 p q)
        = f (fun k => x0 (ix2 p k)) (fun k => x1 (ix2 p k)) (fun k => x2 (ix2 p k)) q) :
    (Gen.dat1 V c).arrAt 10 cfg1.N = fun i : S50000x128.Idx =>
      f (fun k => (V c (Pipeline.arrRef spec1 0) : S50000x128.Idx → EReal) (ix2 (i 0) k)) (fun k => (V c (Pipeline.arrRef spec1 1) : S50000x128.Idx → EReal) (ix2 (i 0) k)) (fun k => (V c (Pipeline.arrRef spec1 2) : S50000x128.Idx → EReal) (ix2 (i 0) k)) (i 1) := by
  refine (Gen.dat1 V c).arrAt_eq_of_cover 10 _ (fun t _ => ?_) cover1_10
  show (cfg1.win 10).cut (grid1.coords t) ((Gen.dat1 V c).after 10 t) = _
  rw [Gen.after1_10, blk1_3, blk1_4, blk1_5, blk1_6, blk1_7, blk1_8]
  refine flushed_of1_10 t _ _ (fun p q => ?_)
  refine (hf (Gen.iblk1 V c 0 t) (Gen.iblk1 V c 1 t) (Gen.iblk1 V c 2 t) p q).trans ?_
  show f (fun k => Gen.iblk1 V c 0 t (ix2 p k)) (fun k => Gen.iblk1 V c 1 t (ix2 p k)) (fun k => Gen.iblk1 V c 2 t (ix2 p k)) q
    = f (fun k => (V c (Pipeline.arrRef spec1 0) : S50000x128.Idx → EReal) (ix2 (row t p) k)) (fun k => (V c (Pipeline.arrRef spec1 1) : S50000x128.Idx → EReal) (ix2 (row t p) k)) (fun k => (V c (Pipeline.arrRef spec1 2) : S50000x128.Idx → EReal) (ix2 (row t p) k)) q
  rw [show (fun k => Gen.iblk1 V c 0 t (ix2 p k)) = fun k => (V c (Pipeline.arrRef spec1 0) : S50000x128.Idx → EReal) (ix2 (row t p) k) from funext fun k => blk1_0 V c t p k]
  rw [show (fun k => Gen.iblk1 V c 1 t (ix2 p k)) = fun k => (V c (Pipeline.arrRef spec1 1) : S50000x128.Idx → EReal) (ix2 (row t p) k) from funext fun k => blk1_1 V c t p k]
  rw [show (fun k => Gen.iblk1 V c 2 t (ix2 p k)) = fun k => (V c (Pipeline.arrRef spec1 2) : S50000x128.Idx → EReal) (ix2 (row t p) k) from funext fun k => blk1_2 V c t p k]

/-- What point `t` writes back of output window 11 is block `t` of a whole-array function `G` as soon as the staging
    buffer's contents `X`, element by element, are `G` at the element's place in the array. -/
theorem flushed_of1_11 (t : Fin cfg1.N) (X : Vec Ideal S2000x128 .f32) (G : S50000x128.Idx → EReal)
    (h : ∀ (p : Fin 2000) (q : Fin 128), X (ix2 p q) = G (ix2 (row t p) q)) :
    (cfg1.win 11).cut (grid1.coords t) X = ((cfg1.win 11).blk t).view.read (Elt Ideal) G := by
  funext j
  obtain ⟨p, q, rfl⟩ : ∃ (p : Fin 2000) (q : Fin 128), j = ix2 p q := ⟨j 0, j 1, eq_ix2 j⟩
  show X (ix2 p q) = G (((cfg1.win 11).blk t).view.emb (ix2 p q))
  rw [emb1_11]
  exact h p q

set_option maxHeartbeats 1000000 in
/-- Region 1, output window 11: when the body's result at row `p` is `f` of row `p` of its row-blocked operands,
    the array after the region is `f`, row by row, of the row-blocked arrays as the region found them. -/
theorem arr1_11 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out1_11 x0 x1 x2 (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (ix2 p q)
        = f (fun k => x0 (ix2 p k)) (fun k => x1 (ix2 p k)) (fun k => x2 (ix2 p k)) q) :
    (Gen.dat1 V c).arrAt 11 cfg1.N = fun i : S50000x128.Idx =>
      f (fun k => (V c (Pipeline.arrRef spec1 0) : S50000x128.Idx → EReal) (ix2 (i 0) k)) (fun k => (V c (Pipeline.arrRef spec1 1) : S50000x128.Idx → EReal) (ix2 (i 0) k)) (fun k => (V c (Pipeline.arrRef spec1 2) : S50000x128.Idx → EReal) (ix2 (i 0) k)) (i 1) := by
  refine (Gen.dat1 V c).arrAt_eq_of_cover 11 _ (fun t _ => ?_) cover1_11
  show (cfg1.win 11).cut (grid1.coords t) ((Gen.dat1 V c).after 11 t) = _
  rw [Gen.after1_11, blk1_3, blk1_4, blk1_5, blk1_6, blk1_7, blk1_8]
  refine flushed_of1_11 t _ _ (fun p q => ?_)
  refine (hf (Gen.iblk1 V c 0 t) (Gen.iblk1 V c 1 t) (Gen.iblk1 V c 2 t) p q).trans ?_
  show f (fun k => Gen.iblk1 V c 0 t (ix2 p k)) (fun k => Gen.iblk1 V c 1 t (ix2 p k)) (fun k => Gen.iblk1 V c 2 t (ix2 p k)) q
    = f (fun k => (V c (Pipeline.arrRef spec1 0) : S50000x128.Idx → EReal) (ix2 (row t p) k)) (fun k => (V c (Pipeline.arrRef spec1 1) : S50000x128.Idx → EReal) (ix2 (row t p) k)) (fun k => (V c (Pipeline.arrRef spec1 2) : S50000x128.Idx → EReal) (ix2 (row t p) k)) q
  rw [show (fun k => Gen.iblk1 V c 0 t (ix2 p k)) = fun k => (V c (Pipeline.arrRef spec1 0) : S50000x128.Idx → EReal) (ix2 (row t p) k) from funext fun k => blk1_0 V c t p k]
  rw [show (fun k => Gen.iblk1 V c 1 t (ix2 p k)) = fun k => (V c (Pipeline.arrRef spec1 1) : S50000x128.Idx → EReal) (ix2 (row t p) k) from funext fun k => blk1_1 V c t p k]
  rw [show (fun k => Gen.iblk1 V c 2 t (ix2 p k)) = fun k => (V c (Pipeline.arrRef spec1 2) : S50000x128.Idx → EReal) (ix2 (row t p) k) from funext fun k => blk1_2 V c t p k]

end Cert.KArr

end
-- ==== Proof.KArr2.lean ====
/- Region 2 of the idealized kernel program (custom_call 2, `cc2__combine_fused_kernel`: three row-blocked operands, six shared ones, three outputs), at the extended reals and at ARBITRARY entry contents `V`:
   each output array after the region as one whole-array function of the region's input arrays, given that the body's
   result is row-local. The grid has 25 points; point `t` works on rows `2000 t … 2000 t + 1999` of the 50000-row arrays
   (block index `(t, 0)`), the small operands are shared (block index `(0, 0)`, the block the whole array). So the block
   point `t` writes back is, row by row, the row function of the rows `2000 t + p` of the row-blocked input arrays, the
   blocks cover the output array (row `r` lies in point `r / 2000`'s block), and the array ends as that row function of
   the input arrays' rows. -/
import proofs.«177108_j26465588478228_2_alg».proof.Proof.Gen.KernelIdeal.Frame
import Idealize.ShloMosaic.Lib.Pipeline.Value
import Idealize.ShloMosaic.Lib.ValueIdx
import proofs.«177108_j26465588478228_2_alg».proof.Proof.KArr0

set_option maxRecDepth 16384

noncomputable section

namespace Cert.KArr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, arbitrary
variable (V : (c : Dev nD) → (b : Ref sig .tc) → Buf (Elt Ideal) ((c : Thread nD τ).loc b))

/-! ## Region 2 -/

/-- Input window 0's block index at point `t` is `(t, 0)`. -/
theorem idx2_0 : ∀ t : Fin cfg2.N, win2_0.index t (0 : Fin 2) = t.val ∧ win2_0.index t (1 : Fin 2) = 0 :=
  (by decide +kernel : ∀ t : Fin grid2.N, _)

/-- Input window 1's block index at point `t` is `(t, 0)`. -/
theorem idx2_1 : ∀ t : Fin cfg2.N, win2_1.index t (0 : Fin 2) = t.val ∧ win2_1.index t (1 : Fin 2) = 0 :=
  (by decide +kernel : ∀ t : Fin grid2.N, _)

/-- Input window 2's block index at point `t` is `(t, 0)`. -/
theorem idx2_2 : ∀ t : Fin cfg2.N, win2_2.index t (0 : Fin 2) = t.val ∧ win2_2.index t (1 : Fin 2) = 0 :=
  (by decide +kernel : ∀ t : Fin grid2.N, _)

/-- Input window 3's block index is `(0, 0)` at every point. -/
theorem idx2_3 : ∀ t : Fin cfg2.N, win2_3.index t (0 : Fin 2) = 0 ∧ win2_3.index t (1 : Fin 2) = 0 :=
  (by decide +kernel : ∀ t : Fin grid2.N, _)

/-- Input window 4's block index is `(0, 0)` at every point. -/
theorem idx2_4 : ∀ t : Fin cfg2.N, win2_4.index t (0 : Fin 2) = 0 ∧ win2_4.index t (1 : Fin 2) = 0 :=
  (by decide +kernel : ∀ t : Fin grid2.N, _)

/-- Input window 5's block index is `(0, 0)` at every point. -/
theorem idx2_5 : ∀ t : Fin cfg2.N, win2_5.index t (0 : Fin 2) = 0 ∧ win2_5.index t (1 : Fin 2) = 0 :=
  (by decide +kernel : ∀ t : Fin grid2.N, _)

/-- Input window 6's block index is `(0, 0)` at every point. -/
theorem idx2_6 : ∀ t : Fin cfg2.N, win2_6.index t (0 : Fin 2) = 0 ∧ win2_6.index t (1 : Fin 2) = 0 :=
  (by decide +kernel : ∀ t : Fin grid2.N, _)

/-- Input window 7's block index is `(0, 0)` at every point. -/
theorem idx2_7 : ∀ t : Fin cfg2.N, win2_7.index t (0 : Fin 2) = 0 ∧ win2_7.index t (1 : Fin 2) = 0 :=
  (by decide +kernel : ∀ t : Fin grid2.N, _)

/-- Input window 8's block index is `(0, 0)` at every point. -/
theorem idx2_8 : ∀ t : Fin cfg2.N, win2_8.index t (0 : Fin 2) = 0 ∧ win2_8.index t (1 : Fin 2) = 0 :=
  (by decide +kernel : ∀ t : Fin grid2.N, _)

/-- Output window 9's block index at point `t` is `(t, 0)`. -/
theorem idx2_9 : ∀ t : Fin cfg2.N, win2_9.index t (0 : Fin 2) = t.val ∧ win2_9.index t (1 : Fin 2) = 0 :=
  (by decide +kernel : ∀ t : Fin grid2.N, _)

/-- Output window 10's block index at point `t` is `(t, 0)`. -/
theorem idx2_10 : ∀ t : Fin cfg2.N, win2_10.index t (0 : Fin 2) = t.val ∧ win2_10.index t (1 : Fin 2) = 0 :=
  (by decide +kernel : ∀ t : Fin grid2.N, _)

/-- Output window 11's block index at point `t` is `(t, 0)`. -/
theorem idx2_11 : ∀ t : Fin cfg2.N, win2_11.index t (0 : Fin 2) = t.val ∧ win2_11.index t (1 : Fin 2) = 0 :=
  (by decide +kernel : ∀ t : Fin grid2.N, _)

/-- Window 3's block is its whole array. -/
theorem blk2_3 (c : Dev nD) (t : Fin cfg2.N) :
    Gen.iblk2 V c 3 t = (V c (Pipeline.arrRef spec2 3) : Vec Ideal S128x128 .f32) := by
  obtain ⟨e0, e1⟩ := idx2_3 t
  funext y
  show V c (Pipeline.arrRef spec2 3) (((cfg2.win 3).blk t).view.emb y) = V c (Pipeline.arrRef spec2 3) y
  refine congrArg _ ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's block is its whole array. -/
theorem blk2_4 (c : Dev nD) (t : Fin cfg2.N) :
    Gen.iblk2 V c 4 t = (V c (Pipeline.arrRef spec2 4) : Vec Ideal S1x128 .f32) := by
  obtain ⟨e0, e1⟩ := idx2_4 t
  funext y
  show V c (Pipeline.arrRef spec2 4) (((cfg2.win 4).blk t).view.emb y) = V c (Pipeline.arrRef spec2 4) y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array. -/
theorem blk2_5 (c : Dev nD) (t : Fin cfg2.N) :
    Gen.iblk2 V c 5 t = (V c (Pipeline.arrRef spec2 5) : Vec Ideal S1x128 .f32) := by
  obtain ⟨e0, e1⟩ := idx2_5 t
  funext y
  show V c (Pipeline.arrRef spec2 5) (((cfg2.win 5).blk t).view.emb y) = V c (Pipeline.arrRef spec2 5) y
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- Window 6's block is its whole array. -/
theorem blk2_6 (c : Dev nD) (t : Fin cfg2.N) :
    Gen.iblk2 V c 6 t = (V c (Pipeline.arrRef spec2 6) : Vec Ideal S1x128 .f32) := by
  obtain ⟨e0, e1⟩ := idx2_6 t
  funext y
  show V c (Pipeline.arrRef spec2 6) (((cfg2.win 6).blk t).view.emb y) = V c (Pipeline.arrRef spec2 6) y
  refine congrArg _ ?_
  funext a; apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Window 7's block is its whole array. -/
theorem blk2_7 (c : Dev nD) (t : Fin cfg2.N) :
    Gen.iblk2 V c 7 t = (V c (Pipeline.arrRef spec2 7) : Vec Ideal S1x128 .f32) := by
  obtain ⟨e0, e1⟩ := idx2_7 t
  funext y
  show V c (Pipeline.arrRef spec2 7) (((cfg2.win 7).blk t).view.emb y) = V c (Pipeline.arrRef spec2 7) y
  refine congrArg _ ?_
  funext a; apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Window 8's block is its whole array. -/
theorem blk2_8 (c : Dev nD) (t : Fin cfg2.N) :
    Gen.iblk2 V c 8 t = (V c (Pipeline.arrRef spec2 8) : Vec Ideal S128x128 .f32) := by
  obtain ⟨e0, e1⟩ := idx2_8 t
  funext y
  show V c (Pipeline.arrRef spec2 8) (((cfg2.win 8).blk t).view.emb y) = V c (Pipeline.arrRef spec2 8) y
  refine congrArg _ ?_
  funext a; apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega

/-- Window 0's block at point `t`, at row `p`, is its array at row `2000 t + p`. -/
theorem blk2_0 (c : Dev nD) (t : Fin cfg2.N) (p : Fin 2000) (k : Fin 128) :
    Gen.iblk2 V c 0 t (ix2 p k) = (V c (Pipeline.arrRef spec2 0) : S50000x128.Idx → EReal) (ix2 (row t p) k) := by
  obtain ⟨e0, e1⟩ := idx2_0 t
  show V c (Pipeline.arrRef spec2 0) (((cfg2.win 0).blk t).view.emb (ix2 p k)) = V c (Pipeline.arrRef spec2 0) (ix2 (row t p) k)
  refine congrArg _ ?_
  funext a; apply Fin.ext
  match a with
  | ⟨0, _⟩ => show win2_0.index t (0 : Fin 2) * 2000 + 1 * p.val = 2000 * t.val + p.val; omega
  | ⟨1, _⟩ => show win2_0.index t (1 : Fin 2) * 128 + 1 * k.val = k.val; omega

/-- Window 1's block at point `t`, at row `p`, is its array at row `2000 t + p`. -/
theorem blk2_1 (c : Dev nD) (t : Fin cfg2.N) (p : Fin 2000) (k : Fin 128) :
    Gen.iblk2 V c 1 t (ix2 p k) = (V c (Pipeline.arrRef spec2 1) : S50000x128.Idx → EReal) (ix2 (row t p) k) := by
  obtain ⟨e0, e1⟩ := idx2_1 t
  show V c (Pipeline.arrRef spec2 1) (((cfg2.win 1).blk t).view.emb (ix2 p k)) = V c (Pipeline.arrRef spec2 1) (ix2 (row t p) k)
  refine congrArg _ ?_
  funext a; apply Fin.ext
  match a with
  | ⟨0, _⟩ => show win2_1.index t (0 : Fin 2) * 2000 + 1 * p.val = 2000 * t.val + p.val; omega
  | ⟨1, _⟩ => show win2_1.index t (1 : Fin 2) * 128 + 1 * k.val = k.val; omega

/-- Window 2's block at point `t`, at row `p`, is its array at row `2000 t + p`. -/
theorem blk2_2 (c : Dev nD) (t : Fin cfg2.N) (p : Fin 2000) (k : Fin 128) :
    Gen.iblk2 V c 2 t (ix2 p k) = (V c (Pipeline.arrRef spec2 2) : S50000x128.Idx → EReal) (ix2 (row t p) k) := by
  obtain ⟨e0, e1⟩ := idx2_2 t
  show V c (Pipeline.arrRef spec2 2) (((cfg2.win 2).blk t).view.emb (ix2 p k)) = V c (Pipeline.arrRef spec2 2) (ix2 (row t p) k)
  refine congrArg _ ?_
  funext a; apply Fin.ext
  match a with
  | ⟨0, _⟩ => show win2_2.index t (0 : Fin 2) * 2000 + 1 * p.val = 2000 * t.val + p.val; omega
  | ⟨1, _⟩ => show win2_2.index t (1 : Fin 2) * 128 + 1 * k.val = k.val; omega

/-- Where an element of output window 9's block at point `t` sits in the array: row `2000 t + p`, same lane. -/
theorem emb2_9 (t : Fin cfg2.N) (p : Fin 2000) (q : Fin 128) :
    (((cfg2.win 9).blk t).view.emb (ix2 p q) : S50000x128.Idx) = ix2 (row t p) q := by
  obtain ⟨e0, e1⟩ := idx2_9 t
  funext a; apply Fin.ext
  match a with
  | ⟨0, _⟩ => show win2_9.index t (0 : Fin 2) * 2000 + 1 * p.val = 2000 * t.val + p.val; omega
  | ⟨1, _⟩ => show win2_9.index t (1 : Fin 2) * 128 + 1 * q.val = q.val; omega

/-- An index of the array is in point `t`'s block iff each coordinate is in the block's range on its axis. -/
theorem mem_blk2_9 (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v123_0).slice (win2_9.rect t)).set ↔ _
  rw [View.set_slice_whole, Rect.mem_set_unit]
  exact Iff.rfl

/-- Every index of the array is in the block of the point its row falls in: row `r` is covered by point `r / 2000`. -/
theorem cover2_9 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have ht : (i 0).val / 2000 < 25 := by omega
  refine ⟨⟨(i 0).val / 2000, ht⟩, flush2_9 _, ?_⟩
  rw [mem_blk2_9]
  obtain ⟨e0, e1⟩ := idx2_9 ⟨(i 0).val / 2000, ht⟩
  intro a
  match a with
  | ⟨0, _⟩ => show win2_9.index _ (0 : Fin 2) * 2000 ≤ (i 0).val ∧ (i 0).val < win2_9.index _ (0 : Fin 2) * 2000 + 2000; rw [e0]; show (i 0).val / 2000 * 2000 ≤ (i 0).val ∧ (i 0).val < (i 0).val / 2000 * 2000 + 2000; omega
  | ⟨1, _⟩ => show win2_9.index _ (1 : Fin 2) * 128 ≤ (i 1).val ∧ (i 1).val < win2_9.index _ (1 : Fin 2) * 128 + 128; rw [e1]; omega

/-- Where an element of output window 10's block at point `t` sits in the array: row `2000 t + p`, same lane. -/
theorem emb2_10 (t : Fin cfg2.N) (p : Fin 2000) (q : Fin 128) :
    (((cfg2.win 10).blk t).view.emb (ix2 p q) : S50000x128.Idx) = ix2 (row t p) q := by
  obtain ⟨e0, e1⟩ := idx2_10 t
  funext a; apply Fin.ext
  match a with
  | ⟨0, _⟩ => show win2_10.index t (0 : Fin 2) * 2000 + 1 * p.val = 2000 * t.val + p.val; omega
  | ⟨1, _⟩ => show win2_10.index t (1 : Fin 2) * 128 + 1 * q.val = q.val; omega

/-- An index of the array is in point `t`'s block iff each coordinate is in the block's range on its axis. -/
theorem mem_blk2_10 (t : Fin cfg2.N) (i : S50000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v123_1).slice (win2_10.rect t)).set ↔ _
  rw [View.set_slice_whole, Rect.mem_set_unit]
  exact Iff.rfl

/-- Every index of the array is in the block of the point its row falls in: row `r` is covered by point `r / 2000`. -/
theorem cover2_10 (i : S50000x128.Idx) : ∃ t : Fin cfg2.N, (cfg2.win 10).flush t = true ∧ i ∈ ((cfg2.win 10).blk t).view.set := by
  have hi0 : (i 0).val < 50000 := (i 0).isLt
  have hi1 : (i 1).val < 128 := (i 1).isLt
  have ht : (i 0).val / 2000 < 25 := by omega
  refine ⟨⟨(i 0).val / 2000, ht⟩, flush2_10 _, ?_⟩
  rw [mem_blk2_10]
  obtain ⟨e0, e1⟩ := idx2_10 ⟨(i 0).val / 2000, ht⟩
  intro a
  match a with
  | ⟨0, _⟩ => show win2_10.index _ (0 : Fin 2) * 2000 ≤ (i 0).val ∧ (i 0).val < win2_10.index _ (0 : Fin 2) * 2000 + 2000; rw [e0]; show (i 0).val / 2000 * 2000 ≤ (i 0).val ∧ (i 0).val < (i 0).val / 2000 * 2000 + 2000; omega
  | ⟨1, _⟩ => show win2_10.index _ (1 : Fin 2) * 128 ≤ (i 1).val ∧ (i 1).val < win2_10.index _ (1 : Fin 2) * 128 + 128; rw [e1]; omega

/-- Where an element of output window 11's block at point `t` sits in the array: row `2000 t + p`, same lane. -/
theorem emb2_11 (t : Fin cfg2.N) (p : Fin 2000) (q : Fin 128) :
    (((cfg2.win 11).blk t).view.emb (ix2 p q) : S50000x128.Idx) = ix2 (row t p) q := by
  obtain ⟨e0, e1⟩ := idx2_11 t
  funext a; apply Fin.ext
  match a with
  | ⟨0, _⟩ => show win2_11.index t (0 : Fin 2) * 2000 + 1 * p.val = 2000 * t.val + p.val; omega
  | ⟨1, _⟩ => show win2_11.index t (1 : Fin 2) * 128 + 1 * q.val = q.val; omega

/-- An index of the array is in point `t`'s block iff each coordinate is in the block's range on its axis. -/
theorem mem_blk2_11 (t : Fin cfg2.N) (i : S50000x128.Idx) :
    i ∈ ((cfg2.win 11).blk t).view.set ↔ ∀ a : Fin 2, win2_11.index t a * S2000x128.size a ≤ (i a).val ∧ (i a).val < win2_11.index t a * S2000x128.size a + S2000x128.size a := by
  show i ∈ ((View.whole main_v123_2).slice (win2_11.rect t)).set ↔ _
  rw [View.set_slice_whole, Rect.mem_set_unit]
  exact Iff.rfl

/-- Every index of the array is in the block of the point its row falls in: row `r` is covered by point `r / 2000`. -/
theorem cover2_11 (i : S50000x128.Idx) : ∃ t : Fin cfg2.N, (cfg2.win 11).flush t = true ∧ i ∈ ((cfg2.win 11).blk t).view.set := by
  have hi0 : (i 0).val < 50000 := (i 0).isLt
  have hi1 : (i 1).val < 128 := (i 1).isLt
  have ht : (i 0).val / 2000 < 25 := by omega
  refine ⟨⟨(i 0).val / 2000, ht⟩, flush2_11 _, ?_⟩
  rw [mem_blk2_11]
  obtain ⟨e0, e1⟩ := idx2_11 ⟨(i 0).val / 2000, ht⟩
  intro a
  match a with
  | ⟨0, _⟩ => show win2_11.index _ (0 : Fin 2) * 2000 ≤ (i 0).val ∧ (i 0).val < win2_11.index _ (0 : Fin 2) * 2000 + 2000; rw [e0]; show (i 0).val / 2000 * 2000 ≤ (i 0).val ∧ (i 0).val < (i 0).val / 2000 * 2000 + 2000; omega
  | ⟨1, _⟩ => show win2_11.index _ (1 : Fin 2) * 128 ≤ (i 1).val ∧ (i 1).val < win2_11.index _ (1 : Fin 2) * 128 + 128; rw [e1]; omega

/-- What point `t` writes back of output window 9 is block `t` of a whole-array function `G` as soon as the staging
    buffer's contents `X`, element by element, are `G` at the element's place in the array. -/
theorem flushed_of2_9 (t : Fin cfg2.N) (X : Vec Ideal S2000x128 .f32) (G : S50000x128.Idx → EReal)
    (h : ∀ (p : Fin 2000) (q : Fin 128), X (ix2 p q) = G (ix2 (row t p) q)) :
    (cfg2.win 9).cut (grid2.coords t) X = ((cfg2.win 9).blk t).view.read (Elt Ideal) G := by
  funext j
  obtain ⟨p, q, rfl⟩ : ∃ (p : Fin 2000) (q : Fin 128), j = ix2 p q := ⟨j 0, j 1, eq_ix2 j⟩
  show X (ix2 p q) = G (((cfg2.win 9).blk t).view.emb (ix2 p q))
  rw [emb2_9]
  exact h p q

set_option maxHeartbeats 1000000 in
/-- Region 2, output window 9: when the body's result at row `p` is `f` of row `p` of its row-blocked operands,
    the array after the region is `f`, row by row, of the row-blocked arrays as the region found them. -/
theorem arr2_9 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out2_9 x0 x1 x2 (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (ix2 p q)
        = f (fun k => x0 (ix2 p k)) (fun k => x1 (ix2 p k)) (fun k => x2 (ix2 p k)) q) :
    (Gen.dat2 V c).arrAt 9 cfg2.N = fun i : S50000x128.Idx =>
      f (fun k => (V c (Pipeline.arrRef spec2 0) : S50000x128.Idx → EReal) (ix2 (i 0) k)) (fun k => (V c (Pipeline.arrRef spec2 1) : S50000x128.Idx → EReal) (ix2 (i 0) k)) (fun k => (V c (Pipeline.arrRef spec2 2) : S50000x128.Idx → EReal) (ix2 (i 0) k)) (i 1) := by
  refine (Gen.dat2 V c).arrAt_eq_of_cover 9 _ (fun t _ => ?_) cover2_9
  show (cfg2.win 9).cut (grid2.coords t) ((Gen.dat2 V c).after 9 t) = _
  rw [Gen.after2_9, blk2_3, blk2_4, blk2_5, blk2_6, blk2_7, blk2_8]
  refine flushed_of2_9 t _ _ (fun p q => ?_)
  refine (hf (Gen.iblk2 V c 0 t) (Gen.iblk2 V c 1 t) (Gen.iblk2 V c 2 t) p q).trans ?_
  show f (fun k => Gen.iblk2 V c 0 t (ix2 p k)) (fun k => Gen.iblk2 V c 1 t (ix2 p k)) (fun k => Gen.iblk2 V c 2 t (ix2 p k)) q
    = f (fun k => (V c (Pipeline.arrRef spec2 0) : S50000x128.Idx → EReal) (ix2 (row t p) k)) (fun k => (V c (Pipeline.arrRef spec2 1) : S50000x128.Idx → EReal) (ix2 (row t p) k)) (fun k => (V c (Pipeline.arrRef spec2 2) : S50000x128.Idx → EReal) (ix2 (row t p) k)) q
  rw [show (fun k => Gen.iblk2 V c 0 t (ix2 p k)) = fun k => (V c (Pipeline.arrRef spec2 0) : S50000x128.Idx → EReal) (ix2 (row t p) k) from funext fun k => blk2_0 V c t p k]
  rw [show (fun k => Gen.iblk2 V c 1 t (ix2 p k)) = fun k => (V c (Pipeline.arrRef spec2 1) : S50000x128.Idx → EReal) (ix2 (row t p) k) from funext fun k => blk2_1 V c t p k]
  rw [show (fun k => Gen.iblk2 V c 2 t (ix2 p k)) = fun k => (V c (Pipeline.arrRef spec2 2) : S50000x128.Idx → EReal) (ix2 (row t p) k) from funext fun k => blk2_2 V c t p k]

/-- What point `t` writes back of output window 10 is block `t` of a whole-array function `G` as soon as the staging
    buffer's contents `X`, element by element, are `G` at the element's place in the array. -/
theorem flushed_of2_10 (t : Fin cfg2.N) (X : Vec Ideal S2000x128 .f32) (G : S50000x128.Idx → EReal)
    (h : ∀ (p : Fin 2000) (q : Fin 128), X (ix2 p q) = G (ix2 (row t p) q)) :
    (cfg2.win 10).cut (grid2.coords t) X = ((cfg2.win 10).blk t).view.read (Elt Ideal) G := by
  funext j
  obtain ⟨p, q, rfl⟩ : ∃ (p : Fin 2000) (q : Fin 128), j = ix2 p q := ⟨j 0, j 1, eq_ix2 j⟩
  show X (ix2 p q) = G (((cfg2.win 10).blk t).view.emb (ix2 p q))
  rw [emb2_10]
  exact h p q

set_option maxHeartbeats 1000000 in
/-- Region 2, output window 10: when the body's result at row `p` is `f` of row `p` of its row-blocked operands,
    the array after the region is `f`, row by row, of the row-blocked arrays as the region found them. -/
theorem arr2_10 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out2_10 x0 x1 x2 (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (ix2 p q)
        = f (fun k => x0 (ix2 p k)) (fun k => x1 (ix2 p k)) (fun k => x2 (ix2 p k)) q) :
    (Gen.dat2 V c).arrAt 10 cfg2.N = fun i : S50000x128.Idx =>
      f (fun k => (V c (Pipeline.arrRef spec2 0) : S50000x128.Idx → EReal) (ix2 (i 0) k)) (fun k => (V c (Pipeline.arrRef spec2 1) : S50000x128.Idx → EReal) (ix2 (i 0) k)) (fun k => (V c (Pipeline.arrRef spec2 2) : S50000x128.Idx → EReal) (ix2 (i 0) k)) (i 1) := by
  refine (Gen.dat2 V c).arrAt_eq_of_cover 10 _ (fun t _ => ?_) cover2_10
  show (cfg2.win 10).cut (grid2.coords t) ((Gen.dat2 V c).after 10 t) = _
  rw [Gen.after2_10, blk2_3, blk2_4, blk2_5, blk2_6, blk2_7, blk2_8]
  refine flushed_of2_10 t _ _ (fun p q => ?_)
  refine (hf (Gen.iblk2 V c 0 t) (Gen.iblk2 V c 1 t) (Gen.iblk2 V c 2 t) p q).trans ?_
  show f (fun k => Gen.iblk2 V c 0 t (ix2 p k)) (fun k => Gen.iblk2 V c 1 t (ix2 p k)) (fun k => Gen.iblk2 V c 2 t (ix2 p k)) q
    = f (fun k => (V c (Pipeline.arrRef spec2 0) : S50000x128.Idx → EReal) (ix2 (row t p) k)) (fun k => (V c (Pipeline.arrRef spec2 1) : S50000x128.Idx → EReal) (ix2 (row t p) k)) (fun k => (V c (Pipeline.arrRef spec2 2) : S50000x128.Idx → EReal) (ix2 (row t p) k)) q
  rw [show (fun k => Gen.iblk2 V c 0 t (ix2 p k)) = fun k => (V c (Pipeline.arrRef spec2 0) : S50000x128.Idx → EReal) (ix2 (row t p) k) from funext fun k => blk2_0 V c t p k]
  rw [show (fun k => Gen.iblk2 V c 1 t (ix2 p k)) = fun k => (V c (Pipeline.arrRef spec2 1) : S50000x128.Idx → EReal) (ix2 (row t p) k) from funext fun k => blk2_1 V c t p k]
  rw [show (fun k => Gen.iblk2 V c 2 t (ix2 p k)) = fun k => (V c (Pipeline.arrRef spec2 2) : S50000x128.Idx → EReal) (ix2 (row t p) k) from funext fun k => blk2_2 V c t p k]

/-- What point `t` writes back of output window 11 is block `t` of a whole-array function `G` as soon as the staging
    buffer's contents `X`, element by element, are `G` at the element's place in the array. -/
theorem flushed_of2_11 (t : Fin cfg2.N) (X : Vec Ideal S2000x128 .f32) (G : S50000x128.Idx → EReal)
    (h : ∀ (p : Fin 2000) (q : Fin 128), X (ix2 p q) = G (ix2 (row t p) q)) :
    (cfg2.win 11).cut (grid2.coords t) X = ((cfg2.win 11).blk t).view.read (Elt Ideal) G := by
  funext j
  obtain ⟨p, q, rfl⟩ : ∃ (p : Fin 2000) (q : Fin 128), j = ix2 p q := ⟨j 0, j 1, eq_ix2 j⟩
  show X (ix2 p q) = G (((cfg2.win 11).blk t).view.emb (ix2 p q))
  rw [emb2_11]
  exact h p q

set_option maxHeartbeats 1000000 in
/-- Region 2, output window 11: when the body's result at row `p` is `f` of row `p` of its row-blocked operands,
    the array after the region is `f`, row by row, of the row-blocked arrays as the region found them. -/
theorem arr2_11 (c : Dev nD)
    (f : (Fin 128 → EReal) → (Fin 128 → EReal) → (Fin 128 → EReal) → Fin 128 → EReal)
    (hf : ∀ (x0 x1 x2 : Vec Ideal S2000x128 .f32) (p : Fin 2000) (q : Fin 128),
      Gen.out2_11 x0 x1 x2 (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (ix2 p q)
        = f (fun k => x0 (ix2 p k)) (fun k => x1 (ix2 p k)) (fun k => x2 (ix2 p k)) q) :
    (Gen.dat2 V c).arrAt 11 cfg2.N = fun i : S50000x128.Idx =>
      f (fun k => (V c (Pipeline.arrRef spec2 0) : S50000x128.Idx → EReal) (ix2 (i 0) k)) (fun k => (V c (Pipeline.arrRef spec2 1) : S50000x128.Idx → EReal) (ix2 (i 0) k)) (fun k => (V c (Pipeline.arrRef spec2 2) : S50000x128.Idx → EReal) (ix2 (i 0) k)) (i 1) := by
  refine (Gen.dat2 V c).arrAt_eq_of_cover 11 _ (fun t _ => ?_) cover2_11
  show (cfg2.win 11).cut (grid2.coords t) ((Gen.dat2 V c).after 11 t) = _
  rw [Gen.after2_11, blk2_3, blk2_4, blk2_5, blk2_6, blk2_7, blk2_8]
  refine flushed_of2_11 t _ _ (fun p q => ?_)
  refine (hf (Gen.iblk2 V c 0 t) (Gen.iblk2 V c 1 t) (Gen.iblk2 V c 2 t) p q).trans ?_
  show f (fun k => Gen.iblk2 V c 0 t (ix2 p k)) (fun k => Gen.iblk2 V c 1 t (ix2 p k)) (fun k => Gen.iblk2 V c 2 t (ix2 p k)) q
    = f (fun k => (V c (Pipeline.arrRef spec2 0) : S50000x128.Idx → EReal) (ix2 (row t p) k)) (fun k => (V c (Pipeline.arrRef spec2 1) : S50000x128.Idx → EReal) (ix2 (row t p) k)) (fun k => (V c (Pipeline.arrRef spec2 2) : S50000x128.Idx → EReal) (ix2 (row t p) k)) q
  rw [show (fun k => Gen.iblk2 V c 0 t (ix2 p k)) = fun k => (V c (Pipeline.arrRef spec2 0) : S50000x128.Idx → EReal) (ix2 (row t p) k) from funext fun k => blk2_0 V c t p k]
  rw [show (fun k => Gen.iblk2 V c 1 t (ix2 p k)) = fun k => (V c (Pipeline.arrRef spec2 1) : S50000x128.Idx → EReal) (ix2 (row t p) k) from funext fun k => blk2_1 V c t p k]
  rw [show (fun k => Gen.iblk2 V c 2 t (ix2 p k)) = fun k => (V c (Pipeline.arrRef spec2 2) : S50000x128.Idx → EReal) (ix2 (row t p) k) from funext fun k => blk2_2 V c t p k]

end Cert.KArr

end
-- ==== Proof.KArr3.lean ====
/- Region 3 of the idealized kernel program (custom_call 3, `cc3__combine_final_kernel`: three row-blocked operands of 128 lanes, seven shared ones, one output of 40 lanes), at the extended reals and at ARBITRARY entry contents `V`:
   each output array after the region as one whole-array function of the region's input arrays, given that the body's
   result is row-local. The grid has 25 points; point `t` works on rows `2000 t … 2000 t + 1999` of the 50000-row arrays
   (block index `(t, 0)`), the small operands are shared (block index `(0, 0)`, the block the whole array). So the block
   point `t` writes back is, row by row, the row function of the rows `2000 t + p` of the row-blocked input arrays, the
   blocks cover the output array (row `r` lies in point `r / 2000`'s block), and the array ends as that row function of
   the input arrays' rows. -/
import proofs.«177108_j26465588478228_2_alg».proof.Proof.Gen.KernelIdeal.Frame
import Idealize.ShloMosaic.Lib.Pipeline.Value
import Idealize.ShloMosaic.Lib.ValueIdx
import proofs.«177108_j26465588478228_2_alg».proof.Proof.KArr0

set_option maxRecDepth 16384

noncomputable section

namespace Cert.KArr

open Cert.KernelIdeal Cert.KernelIdeal.Gen
open Idealize.ShloMosaic Idealize.ShloMosaic.TcCoe Idealize.ShloMosaic.ValueIdx
open Idealize.ShloMosaic.Pipeline (Dat Cfg Window)

-- the TensorCore's buffer contents when the region is entered, arbitrary
variable (V : (c : Dev nD) → (b : Ref sig .tc) → Buf (Elt Ideal) ((c : Thread nD τ).loc b))

/-! ## Region 3 -/

/-- Input window 0's block index at point `t` is `(t, 0)`. -/
theorem idx3_0 : ∀ t : Fin cfg3.N, win3_0.index t (0 : Fin 2) = t.val ∧ win3_0.index t (1 : Fin 2) = 0 :=
  (by decide +kernel : ∀ t : Fin grid3.N, _)

/-- Input window 1's block index at point `t` is `(t, 0)`. -/
theorem idx3_1 : ∀ t : Fin cfg3.N, win3_1.index t (0 : Fin 2) = t.val ∧ win3_1.index t (1 : Fin 2) = 0 :=
  (by decide +kernel : ∀ t : Fin grid3.N, _)

/-- Input window 2's block index at point `t` is `(t, 0)`. -/
theorem idx3_2 : ∀ t : Fin cfg3.N, win3_2.index t (0 : Fin 2) = t.val ∧ win3_2.index t (1 : Fin 2) = 0 :=
  (by decide +kernel : ∀ t : Fin grid3.N, _)

/-- Input window 3's block index is `(0, 0)` at every point. -/
theorem idx3_3 : ∀ t : Fin cfg3.N, win3_3.index t (0 : Fin 2) = 0 ∧ win3_3.index t (1 : Fin 2) = 0 :=
  (by decide +kernel : ∀ t : Fin grid3.N, _)

/-- Input window 4's block index is `(0, 0)` at every point. -/
theorem idx3_4 : ∀ t : Fin cfg3.N, win3_4.index t (0 : Fin 2) = 0 ∧ win3_4.index t (1 : Fin 2) = 0 :=
  (by decide +kernel : ∀ t : Fin grid3.N, _)

/-- Input window 5's block index is `(0, 0)` at every point. -/
theorem idx3_5 : ∀ t : Fin cfg3.N, win3_5.index t (0 : Fin 2) = 0 ∧ win3_5.index t (1 : Fin 2) = 0 :=
  (by decide +kernel : ∀ t : Fin grid3.N, _)

/-- Input window 6's block index is `(0, 0)` at every point. -/
theorem idx3_6 : ∀ t : Fin cfg3.N, win3_6.index t (0 : Fin 2) = 0 ∧ win3_6.index t (1 : Fin 2) = 0 :=
  (by decide +kernel : ∀ t : Fin grid3.N, _)

/-- Input window 7's block index is `(0, 0)` at every point. -/
theorem idx3_7 : ∀ t : Fin cfg3.N, win3_7.index t (0 : Fin 2) = 0 ∧ win3_7.index t (1 : Fin 2) = 0 :=
  (by decide +kernel : ∀ t : Fin grid3.N, _)

/-- Input window 8's block index is `(0, 0)` at every point. -/
theorem idx3_8 : ∀ t : Fin cfg3.N, win3_8.index t (0 : Fin 2) = 0 ∧ win3_8.index t (1 : Fin 2) = 0 :=
  (by decide +kernel : ∀ t : Fin grid3.N, _)

/-- Input window 9's block index is `(0, 0)` at every point. -/
theorem idx3_9 : ∀ t : Fin cfg3.N, win3_9.index t (0 : Fin 2) = 0 ∧ win3_9.index t (1 : Fin 2) = 0 :=
  (by decide +kernel : ∀ t : Fin grid3.N, _)

/-- Output window 10's block index at point `t` is `(t, 0)`. -/
theorem idx3_10 : ∀ t : Fin cfg3.N, win3_10.index t (0 : Fin 2) = t.val ∧ win3_10.index t (1 : Fin 2) = 0 :=
  (by decide +kernel : ∀ t : Fin grid3.N, _)

/-- Window 3's block is its whole array. -/
theorem blk3_3 (c : Dev nD) (t : Fin cfg3.N) :
    Gen.iblk3 V c 3 t = (V c (Pipeline.arrRef spec3 3) : Vec Ideal S128x128 .f32) := by
  obtain ⟨e0, e1⟩ := idx3_3 t
  funext y
  show V c (Pipeline.arrRef spec3 3) (((cfg3.win 3).blk t).view.emb y) = V c (Pipeline.arrRef spec3 3) y
  refine congrArg _ ?_
  funext a; apply Fin.ext
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- Window 4's block is its whole array. -/
theorem blk3_4 (c : Dev nD) (t : Fin cfg3.N) :
    Gen.iblk3 V c 4 t = (V c (Pipeline.arrRef spec3 4) : Vec Ideal S1x128 .f32) := by
  obtain ⟨e0, e1⟩ := idx3_4 t
  funext y
  show V c (Pipeline.arrRef spec3 4) (((cfg3.win 4).blk t).view.emb y) = V c (Pipeline.arrRef spec3 4) y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block is its whole array. -/
theorem blk3_5 (c : Dev nD) (t : Fin cfg3.N) :
    Gen.iblk3 V c 5 t = (V c (Pipeline.arrRef spec3 5) : Vec Ideal S1x128 .f32) := by
  obtain ⟨e0, e1⟩ := idx3_5 t
  funext y
  show V c (Pipeline.arrRef spec3 5) (((cfg3.win 5).blk t).view.emb y) = V c (Pipeline.arrRef spec3 5) y
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block is its whole array. -/
theorem blk3_6 (c : Dev nD) (t : Fin cfg3.N) :
    Gen.iblk3 V c 6 t = (V c (Pipeline.arrRef spec3 6) : Vec Ideal S1x128 .f32) := by
  obtain ⟨e0, e1⟩ := idx3_6 t
  funext y
  show V c (Pipeline.arrRef spec3 6) (((cfg3.win 6).blk t).view.emb y) = V c (Pipeline.arrRef spec3 6) y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega

/-- Window 7's block is its whole array. -/
theorem blk3_7 (c : Dev nD) (t : Fin cfg3.N) :
    Gen.iblk3 V c 7 t = (V c (Pipeline.arrRef spec3 7) : Vec Ideal S1x128 .f32) := by
  obtain ⟨e0, e1⟩ := idx3_7 t
  funext y
  show V c (Pipeline.arrRef spec3 7) (((cfg3.win 7).blk t).view.emb y) = V c (Pipeline.arrRef spec3 7) y
  refine congrArg _ ?_
  funext a; apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8's block is its whole array. -/
theorem blk3_8 (c : Dev nD) (t : Fin cfg3.N) :
    Gen.iblk3 V c 8 t = (V c (Pipeline.arrRef spec3 8) : Vec Ideal S128x40 .f32) := by
  obtain ⟨e0, e1⟩ := idx3_8 t
  funext y
  show V c (Pipeline.arrRef spec3 8) (((cfg3.win 8).blk t).view.emb y) = V c (Pipeline.arrRef spec3 8) y
  refine congrArg _ ?_
  funext a; apply Fin.ext
  match a with
  | ⟨0, _⟩ => show win3_8.index t (0 : Fin 2) * 128 + 1 * (y 0).val = (y 0).val; omega
  | ⟨1, _⟩ => show win3_8.index t (1 : Fin 2) * 40 + 1 * (y 1).val = (y 1).val; omega

/-- Window 9's block is its whole array. -/
theorem blk3_9 (c : Dev nD) (t : Fin cfg3.N) :
    Gen.iblk3 V c 9 t = (V c (Pipeline.arrRef spec3 9) : Vec Ideal S1x40 .f32) := by
  obtain ⟨e0, e1⟩ := idx3_9 t
  funext y
  show V c (Pipeline.arrRef spec3 9) (((cfg3.win 9).blk t).view.emb y) = V c (Pipeline.arrRef spec3 9) y
  refine congrArg _ ?_
  funext a; apply Fin.ext
  match a with
  | ⟨0, _⟩ => show win3_9.index t (0 : Fin 2) * 1 + 1 * (y 0).val = (y 0).val; omega
  | ⟨1, _⟩ => show win3_9.index t (1 : Fin 2) * 40 + 1 * (y 1).val = (y 1).val; omega

/-- Window 0's block at point `t`, at row `p`, is its array at row `2000 t + p`. -/
theorem blk3_0 (c : Dev nD) (t : Fin cfg3.N) (p : Fin 2000) (k : Fin 128) :
    Gen.iblk3 V c 0 t (ix2 p k) = (V c (Pipeline.arrRef spec3 0) : S50000x128.Idx → EReal) (ix2 (row t p) k) := by
  obtain ⟨e0, e1⟩ := idx3_0 t
  show V c (Pipeline.arrRef spec3 0) (((cfg3.win 0).blk t).view.emb (ix2 p k)) = V c (Pipeline.arrRef spec3 0) (ix2 (row t p) k)
  refine congrArg _ ?_
  funext a; apply Fin.ext
  match a with
  | ⟨0, _⟩ => show win3_0.index t (0 : Fin 2) * 2000 + 1 * p.val = 2000 * t.val + p.val; omega
  | ⟨1, _⟩ => show win3_0.index t (1 : Fin 2) * 128 + 1 * k.val = k.val; omega

/-- Window 1's block at point `t`, at row `p`, is its array at row `2000 t + p`. -/
theorem blk3_1 (c : Dev nD) (t : Fin cfg3.N) (p : Fin 2000) (k : Fin 128) :
    Gen.iblk3 V c 1 t (ix2 p k) = (V c (Pipeline.arrRef spec3 1) : S50000x128.Idx → EReal) (ix2 (row t p) k) := by
  obtain ⟨e0, e1⟩ := idx3_1 t
  show V c (Pipeline.arrRef spec3 1) (((cfg3.win 1).blk t).view.emb (ix2 p k)) = V c (Pipeline.arrRef spec3 1) (ix2 (row t p) k)
  refine congrArg _ ?_
  funext a; apply Fin.ext
  match a with
  | ⟨0, _⟩ => show win3_1.index t (0 : Fin 2) * 2000 + 1 * p.val = 2000 * t.val + p.val; omega
  | ⟨1, _⟩ => show win3_1.index t (1 : Fin 2) * 128 + 1 * k.val = k.val; omega

/-- Window 2's block at point `t`, at row `p`, is its array at row `2000 t + p`. -/
theorem blk3_2 (c : Dev nD) (t : Fin cfg3.N) (p : Fin 2000) (k : Fin 128) :
    Gen.iblk3 V c 2 t (ix2 p k) = (V c (Pipeline.arrRef spec3 2) : S50000x128.Idx → EReal) (ix2 (row t p) k) := by
  obtain ⟨e0, e1⟩ := idx3_2 t
  show V c (Pipeline.arrRef spec3 2) (((cfg3.win 2).blk t).view.emb (ix2 p k)) = V c (Pipeline.arrRef spec3 2) (ix2 (row t p) k)
  refine congrArg _ ?_
  funext a; apply Fin.ext
  match a with
  | ⟨0, _⟩ => show win3_2.index t (0 : Fin 2) * 2000 + 1 * p.val = 2000 * t.val + p.val; omega
  | ⟨1, _⟩ => show win3_2.index t (1 : Fin 2) * 128 + 1 * k.val = k.val; omega

/-- Where an element of output window 10's block at point `t` sits in the array: row `2000 t + p`, same lane. -/
theorem emb3_10 (t : Fin cfg3.N) (p : Fin 2000) (q : Fin 40) :
    (((cfg3.win 10).blk t).view.emb (ix2 p q) : S50000x40.Idx) = ix2 (row t p) q := by
  obtain ⟨e0, e1⟩ := idx3_10 t
  funext a; apply Fin.ext
  match a with
  | ⟨0, _⟩ => show win3_10.index t (0 : Fin 2) * 2000 + 1 * p.val = 2000 * t.val + p.val; omega
  | ⟨1, _⟩ => show win3_10.index t (1 : Fin 2) * 40 + 1 * q.val = q.val; omega

/-- An index of the array is in point `t`'s block iff each coordinate is in the block's range on its axis. -/
theorem mem_blk3_10 (t : Fin cfg3.N) (i : S50000x40.Idx) :
    i ∈ ((cfg3.win 10).blk t).view.set ↔ ∀ a : Fin 2, win3_10.index t a * S2000x40.size a ≤ (i a).val ∧ (i a).val < win3_10.index t a * S2000x40.size a + S2000x40.size a := by
  show i ∈ ((View.whole main_v174).slice (win3_10.rect t)).set ↔ _
  rw [View.set_slice_whole, Rect.mem_set_unit]
  exact Iff.rfl

/-- Every index of the array is in the block of the point its row falls in: row `r` is covered by point `r / 2000`. -/
theorem cover3_10 (i : S50000x40.Idx) : ∃ t : Fin cfg3.N, (cfg3.win 10).flush t = true ∧ i ∈ ((cfg3.win 10).blk t).view.set := by
  have hi0 : (i 0).val < 50000 := (i 0).isLt
  have hi1 : (i 1).val < 40 := (i 1).isLt
  have ht : (i 0).val / 2000 < 25 := by omega
  refine ⟨⟨(i 0).val / 2000, ht⟩, flush3_10 _, ?_⟩
  rw [mem_blk3_10]
  obtain ⟨e0, e1⟩ := idx3_10 ⟨(i 0).val / 2000, ht⟩
  intro a
  match a with
  | ⟨0, _⟩ => show win3_10.index _ (0 : Fin 2) * 2000 ≤ (i 0).val ∧ (i 0).val < win3_10.index _ (0 : Fin 2) * 2000 + 2000; rw [e0]; show (i 0).val / 2000 * 2000 ≤ (i 0).val ∧ (i 0).val < (i 0).val / 2000 * 2000 + 2000; omega
  | ⟨1, _⟩ => show win3_10.index _ (1 : Fin 2) * 40 ≤ (i 1).val ∧ (i 1).val < win3_10.index _ (1 : Fin 2) * 40 + 40; rw [e1]; omega

/-- What point `t` writes back of output window 10 is block `t` of a whole-array function `G` as soon as the staging
    buffer's contents `X`, element by element, are `G` at the element's place in the array. -/
theorem flushed_of3_10 (t : Fin cfg3.N) (X : Vec Ideal S2000x40 .f32) (G : S50000x40.Idx → EReal)
    (h : ∀ (p : Fin 2000) (q : Fin 40), X (ix2 p q) = G (ix2 (row t p) q)) :
    (cfg3.win 10).cut (grid3.coords t) X = ((cfg3.win 10).blk t).view.read (Elt Ideal) G := by
  funext j
  obtain ⟨p, q, rfl⟩ : ∃ (p : Fin 2000) (q : Fin 40), j = ix2 p q := ⟨j 0, j 1, eq_ix2 j⟩
  show X (ix2 p q) = G (((cfg3.win 10).blk t).view.emb (ix2 p q))
  rw [emb3_10]
  exact h p q

set_option maxHeartbeats 1000000 in
/-- Region 3, output window 10: when the body's result at row `p` is `f` of row `p` of its row-blocked operands,
    the array after the region is `f`, row by row, of the row-blocked arrays as the region found them. -/
theorem arr3_10 (c : Dev nD)
    (f : (Fin 128 → EReal) → (Fin 128 → EReal) → (Fin 128 → EReal) → Fin 40 → EReal)
    (hf : ∀ (x0 x1 x2 : Vec Ideal S2000x128 .f32) (p : Fin 2000) (q : Fin 40),
      Gen.out3_10 x0 x1 x2 (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (ix2 p q)
        = f (fun k => x0 (ix2 p k)) (fun k => x1 (ix2 p k)) (fun k => x2 (ix2 p k)) q) :
    (Gen.dat3 V c).arrAt 10 cfg3.N = fun i : S50000x40.Idx =>
      f (fun k => (V c (Pipeline.arrRef spec3 0) : S50000x128.Idx → EReal) (ix2 (i 0) k)) (fun k => (V c (Pipeline.arrRef spec3 1) : S50000x128.Idx → EReal) (ix2 (i 0) k)) (fun k => (V c (Pipeline.arrRef spec3 2) : S50000x128.Idx → EReal) (ix2 (i 0) k)) (i 1) := by
  refine (Gen.dat3 V c).arrAt_eq_of_cover 10 _ (fun t _ => ?_) cover3_10
  show (cfg3.win 10).cut (grid3.coords t) ((Gen.dat3 V c).after 10 t) = _
  rw [Gen.after3_10, blk3_3, blk3_4, blk3_5, blk3_6, blk3_7, blk3_8, blk3_9]
  refine flushed_of3_10 t _ _ (fun p q => ?_)
  refine (hf (Gen.iblk3 V c 0 t) (Gen.iblk3 V c 1 t) (Gen.iblk3 V c 2 t) p q).trans ?_
  show f (fun k => Gen.iblk3 V c 0 t (ix2 p k)) (fun k => Gen.iblk3 V c 1 t (ix2 p k)) (fun k => Gen.iblk3 V c 2 t (ix2 p k)) q
    = f (fun k => (V c (Pipeline.arrRef spec3 0) : S50000x128.Idx → EReal) (ix2 (row t p) k)) (fun k => (V c (Pipeline.arrRef spec3 1) : S50000x128.Idx → EReal) (ix2 (row t p) k)) (fun k => (V c (Pipeline.arrRef spec3 2) : S50000x128.Idx → EReal) (ix2 (row t p) k)) q
  rw [show (fun k => Gen.iblk3 V c 0 t (ix2 p k)) = fun k => (V c (Pipeline.arrRef spec3 0) : S50000x128.Idx → EReal) (ix2 (row t p) k) from funext fun k => blk3_0 V c t p k]
  rw [show (fun k => Gen.iblk3 V c 1 t (ix2 p k)) = fun k => (V c (Pipeline.arrRef spec3 1) : S50000x128.Idx → EReal) (ix2 (row t p) k) from funext fun k => blk3_1 V c t p k]
  rw [show (fun k => Gen.iblk3 V c 2 t (ix2 p k)) = fun k => (V c (Pipeline.arrRef spec3 2) : S50000x128.Idx → EReal) (ix2 (row t p) k) from funext fun k => blk3_2 V c t p k]

end Cert.KArr

end
-- ==== Proof.KArr.lean ====
/- The four regions' output arrays as whole-array functions of their input arrays, for arbitrary entry contents:
   `Cert.KArr.arr0_2`, `arr1_9`, `arr1_10`, `arr1_11`, `arr2_9`, `arr2_10`, `arr2_11`, `arr3_10` (one module per region). -/
import proofs.«177108_j26465588478228_2_alg».proof.Proof.KArr0
import proofs.«177108_j26465588478228_2_alg».proof.Proof.KArr1
import proofs.«177108_j26465588478228_2_alg».proof.Proof.KArr2
import proofs.«177108_j26465588478228_2_alg».proof.Proof.KArr3
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«177108_j26465588478228_2_alg».proof.Proof.LibPlainDot
import proofs.«177108_j26465588478228_2_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibNormRows.lean ====
import Idealize.ShloMosaic.Lib.ValueIdx
import Idealize.ShloMosaic.Lib.ValueLayout
import Idealize.ShloMosaic.Lib.Pipeline.Value
import Idealize.ShloMosaic.PureOps.Ideal.Laws
import proofs.«177108_j26465588478228_2_alg».proof.Proof.LibRows

/-!
# Normalising a row

A layer of the network takes a row `r` of `C` entries to `relu (ln g β r)`: the row is centred on its mean
`μ = (∑ r) / 64`, scaled by `(σ² + ε)^(-1/2)` where `σ² = (∑ (r - μ)²) / 64` and `ε` is the single-precision number
nearest `1e-5`, multiplied entry by entry by a gain row `g`, shifted by a row `β`, and every negative entry is
replaced by zero. All of it is a function of the one row, so a tile of rows and the whole array agree row by row.

This file states that function and reads the vector unit's spelling of it — lane sums kept as a column, the column
repeated across the row — as `mapRows` of it, over any number of rows.
-/

noncomputable section

namespace Cert.Rows

open Idealize.ShloMosaic Idealize.ShloMosaic.ValueIdx
open scoped BigOperators

/-- The divisor of a mean over 64 lanes: the single-precision word of `64`, read exactly. -/
def lanes64 : EReal := Ideal.ofBits .f32 0x42800000#32

/-- The variance floor: the single-precision number nearest `1e-5`, read exactly. -/
def epsVar : EReal := Ideal.ofBits .f32 0x3727C5AC#32

/-- Single-precision zero, read exactly. -/
def zeroF : EReal := Ideal.ofBits .f32 0x00000000#32

/-- The mean of a row. -/
def mean {C : ℕ} (r : Fin C → EReal) : EReal := Ideal.div (∑ k : Fin C, r k) lanes64

/-- A row minus its mean. -/
def centred {C : ℕ} (r : Fin C → EReal) : Fin C → EReal := fun q => r q - mean r

/-- One over the square root of the row's variance plus the floor. -/
def invStd {C : ℕ} (r : Fin C → EReal) : EReal :=
  Ideal.rsqrt (Ideal.div (∑ k : Fin C, centred r k * centred r k) lanes64 + epsVar)

/-- The normalised row, times a gain row, plus a shift row (both kept as one-row matrices). -/
def ln {C : ℕ} (g β : (S2 1 C).Idx → EReal) (r : Fin C → EReal) : Fin C → EReal :=
  fun q => centred r q * invStd r * g (ix2 (0 : Fin 1) q) + β (ix2 (0 : Fin 1) q)

/-- Negative entries replaced by zero. -/
def relu {C : ℕ} (r : Fin C → EReal) : Fin C → EReal := fun q => max (r q) zeroF

/-- One layer on one row: `relu (ln g β (r · w + b))`, weights `w`, bias, gain and shift kept as one-row matrices. -/
def layerRow {K C : ℕ} (w : (S2 K C).Idx → EReal) (b g β : (S2 1 C).Idx → EReal) (r : Fin K → EReal) : Fin C → EReal :=
  relu (ln g β (addRow b (lin w r)))

/-- The output projection on one row: `r · w + b`. -/
def projRow {K C : ℕ} (w : (S2 K C).Idx → EReal) (b : (S2 1 C).Idx → EReal) (r : Fin K → EReal) : Fin C → EReal :=
  addRow b (lin w r)

/-- A reciprocal square root, entry by entry. -/
theorem rsqrt_at {s : Shape} {φ : FTy} (a : FVec Ideal s φ) (i : s.Idx) : rsqrt a i = Ideal.rsqrt (a i) := rfl

section Unit

variable {N C : ℕ}

/-- The lane sums of a tile, kept as a column: at row `p` the sum of row `p`. -/
theorem laneSum_col (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    shapeCast (S2 N 1) (multiReduction .add [1] (S1 N) y 0x00000000#32 hr hφ hacc) hc (ix2 p u)
      = ∑ k : Fin C, y (ix2 p k) := by
  rw [Cert.LibColumn.shapeCast_a_a1_apply]
  refine (Ideal.multiReduction_add_single y 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- The vector unit's row means, as a column. -/
def unitMeanCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1)) :
    FVec Ideal (S2 N 1) .f32 :=
  divf (shapeCast (S2 N 1) (multiReduction .add [1] (S1 N) y 0x00000000#32 hr hφ hacc) hc)
    (broadcast (S2 N 1) (Scalar.ofBits .f32 0x42800000#32))

theorem unitMeanCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (p : Fin N) (u : Fin 1) :
    unitMeanCol y hr hφ hacc hc (ix2 p u) = mean (fun k => y (ix2 p k)) := by
  unfold unitMeanCol
  rw [divf_apply, laneSum_col]
  rfl

/-- The tile minus its row means: the means column repeated across the row and subtracted. -/
def unitCentred (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N C) .f32 :=
  subf y (broadcastTo (S2 N C) (unitMeanCol y hr hφ hacc hc) hb)

theorem unitCentred_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (q : Fin C) :
    unitCentred y hr hφ hacc hc hb (ix2 p q) = centred (fun k => y (ix2 p k)) q := by
  unfold unitCentred
  rw [subf_apply, Cert.LibColumn.broadcastTo_a1_ab_apply, unitMeanCol_apply]
  rfl

/-- The vector unit's `(σ² + ε)^(-1/2)` of every row, as a column. -/
def unitInvStdCol (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) : FVec Ideal (S2 N 1) .f32 :=
  rsqrt (addf (divf (shapeCast (S2 N 1) (multiReduction .add [1] (S1 N)
      (mulf (unitCentred y hr hφ hacc hc hb) (unitCentred y hr hφ hacc hc hb)) 0x00000000#32 hr hφ hacc) hc)
      (broadcast (S2 N 1) (Scalar.ofBits .f32 0x42800000#32)))
    (broadcast (S2 N 1) (Scalar.ofBits .f32 0x3727C5AC#32)))

theorem unitInvStdCol_apply (y : FVec Ideal (S2 N C) .f32) (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (p : Fin N) (u : Fin 1) :
    unitInvStdCol y hr hφ hacc hc hb (ix2 p u) = invStd (fun k => y (ix2 p k)) := by
  unfold unitInvStdCol
  rw [rsqrt_at, addf_apply, divf_apply, laneSum_col]
  simp only [mulf_apply, unitCentred_apply]
  rfl

/-- The vector unit's layer norm and `relu` of a tile `y`, gain and shift kept as one-row matrices. -/
def unitLnRelu (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    FVec Ideal (S2 N C) .f32 :=
  maximumf (addf (mulf (mulf (unitCentred y hr hφ hacc hc hb)
        (broadcastTo (S2 N C) (unitInvStdCol y hr hφ hacc hc hb) hb))
        (broadcastTo (S2 N C) (shapeCast (S2 1 C) g h2) h3))
      (broadcastTo (S2 N C) (shapeCast (S2 1 C) β h2) h3))
    (broadcast (S2 N C) (Scalar.ofBits .f32 0x00000000#32))

/-- It is the row function `relu ∘ ln g β` applied to every row of the tile. -/
theorem unitLnRelu_rows (y : FVec Ideal (S2 N C) .f32) (g β : FVec Ideal (S2 1 C) .f32)
    (hr : (S2 N C).Reduces [1] (S1 N)) (hφ : FKind.Formats .f32)
    (hacc : (0x00000000#32 : BitVec 32) = FKind.add.neutral .f32 hφ) (hc : (S1 N).ShapeCasts (S2 N 1))
    (hb : (S2 N 1).Broadcasts (S2 N C)) (h2 : (S2 1 C).ShapeCasts (S2 1 C)) (h3 : (S2 1 C).Broadcasts (S2 N C)) :
    unitLnRelu y g β hr hφ hacc hc hb h2 h3 = mapRows (fun r => relu (ln g β r)) y := by
  funext i
  obtain ⟨p, q, rfl⟩ : ∃ (p : Fin N) (q : Fin C), i = ix2 p q := ⟨i 0, i 1, eq_ix2 i⟩
  unfold unitLnRelu
  rw [mapRows_ix2, maximumf_apply, addf_apply, mulf_apply, mulf_apply, unitCentred_apply,
    Cert.LibColumn.broadcastTo_a1_ab_apply, unitInvStdCol_apply, shapeCast_self, shapeCast_self,
    broadcastTo_1b_ab_apply, broadcastTo_1b_ab_apply]
  rfl

/-- A tile times a weight matrix, both rounded to half precision first (which changes nothing of an exact
    number), into a zero accumulator, plus a bias row repeated down the tile. -/
def unitLin {K : ℕ} (d : DotDims (S2 N K) (S2 K C) (S2 N C)) (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) : FVec Ideal (S2 N C) .f32 :=
  addf (matmul d none (truncf .bf16 x hlt) (truncf .bf16 w hlt) (constant (S2 N C) .f32 0x00000000#32))
    (broadcastTo (S2 N C) (shapeCast (S2 1 C) b h2) h3)

/-- It is `r ↦ r · w + b` applied to every row. -/
theorem unitLin_rows {K : ℕ} (d : DotDims (S2 N K) (S2 K C) (S2 N C)) (hd : Cert.LibPlainDot.Plain d)
    (x : FVec Ideal (S2 N K) .f32) (w : FVec Ideal (S2 K C) .f32)
    (b : FVec Ideal (S2 1 C) .f32) (hlt : FTy.bf16.bits < FTy.f32.bits)
    (h2 : (S2 1 C).ShapeCasts (S2 1 C)) (h3 : (S2 1 C).Broadcasts (S2 N C)) :
    unitLin d x w b hlt h2 h3 = mapRows (fun r => addRow b (lin w r)) x := by
  unfold unitLin
  have hm : matmul d none (truncf .bf16 x hlt) (truncf .bf16 w hlt) (constant (S2 N C) .f32 0x00000000#32)
      = mapRows (lin w) x := by
    funext i
    obtain ⟨p, q, rfl⟩ : ∃ (p : Fin N) (q : Fin C), i = ix2 p q := ⟨i 0, i 1, eq_ix2 i⟩
    exact Cert.LibPlainDot.matmul_zero_apply d hd none (truncf .bf16 x hlt) (truncf .bf16 w hlt) p q
  rw [hm, addBias_rows]
  rfl

end Unit

end Cert.Rows

end
-- ==== Proof.RowMath.lean ====
import Idealize.ShloMosaic.PureOps.Ideal
import Idealize.ShloMosaic.Lib.ValueIdx

/-!
# One row of a layer

Every dense stage of the network acts on each node's row by itself. For a row `x` of the layer's input and the
row `a` of the aggregated messages of the same node, a layer forms `y = (a + bc) + (x · wl + bl)`, centres `y` on
its mean `(∑ y) / 128`, scales it by `(σ² + ε)^(-1/2)` with `σ² = (∑ (y - mean)²) / 128`, multiplies by a gain row,
adds a shift row and replaces negative entries by zero. The two programs group the four summands of `y`
differently; addition of extended reals is associative, so the rows agree.
-/

noncomputable section

namespace Cert.RowMath

open Idealize.ShloMosaic
open scoped BigOperators

/-- The single-precision word of `128`, read exactly. -/
def c128 : EReal := Ideal.ofBits .f32 0x43000000#32
/-- The variance floor: the single-precision number nearest `1e-5`, read exactly. -/
def epsV : EReal := Ideal.ofBits .f32 0x3727C5AC#32
/-- Single-precision zero, read exactly. -/
def zeroF : EReal := Ideal.ofBits .f32 0x00000000#32

theorem c128_eq : c128 = ((128 : ℝ) : EReal) := by
  simp [c128, Ideal.ofBits, Ideal.ieee, -EReal.coe_mul]; norm_num

theorem zeroF_eq : zeroF = 0 := by
  simp [zeroF, Ideal.ofBits, Ideal.ieee]

open Idealize.ShloMosaic.ValueIdx in
/-- The weights of a matrix operand, as a function of the two coordinates. -/
abbrev mat {K C : ℕ} (w : (⟨2, ![K, C]⟩ : Shape).Idx → EReal) : Fin K → Fin C → EReal := fun k q => w (ix2 k q)
open Idealize.ShloMosaic.ValueIdx in
/-- A one-row operand, as a function of the lane. -/
abbrev row1 {C : ℕ} (b : (⟨2, ![1, C]⟩ : Shape).Idx → EReal) : Fin C → EReal := fun q => b (ix2 (0 : Fin 1) q)
open Idealize.ShloMosaic.ValueIdx in
/-- Row `p` of an array of rows. -/
abbrev rowOf {N C : ℕ} (x : (⟨2, ![N, C]⟩ : Shape).Idx → EReal) (p : Fin N) : Fin C → EReal := fun k => x (ix2 p k)

variable {C K : ℕ}

/-- A row times a weight matrix. -/
def dotRow (w : Fin K → Fin C → EReal) (r : Fin K → EReal) (q : Fin C) : EReal := ∑ k : Fin K, r k * w k q

/-- The mean of a row of 128 lanes. -/
def mean (r : Fin C → EReal) : EReal := Ideal.div (∑ k : Fin C, r k) c128

/-- A row minus its mean. -/
def cen (r : Fin C → EReal) (q : Fin C) : EReal := r q - mean r

/-- The mean squared deviation of a row. -/
def varR (r : Fin C → EReal) : EReal := Ideal.div (∑ k : Fin C, cen r k * cen r k) c128

/-- The normalised row times a gain row plus a shift row, negative entries replaced by zero. -/
def normRelu (g β r : Fin C → EReal) (q : Fin C) : EReal :=
  max (cen r q * Ideal.rsqrt (varR r + epsV) * g q + β q) zeroF

/-- The row that is normalised, grouped as the tiled program adds it: `(a + bc) + (x · wl + bl)`. -/
def preK (wl : Fin K → Fin C → EReal) (bl bc : Fin C → EReal) (x : Fin K → EReal) (a : Fin C → EReal) (q : Fin C) : EReal :=
  (a q + bc q) + (dotRow wl x q + bl q)

/-- The same row grouped as the whole-array program adds it: `((a + bc) + x · wl) + bl`. -/
def preR (wl : Fin K → Fin C → EReal) (bl bc : Fin C → EReal) (x : Fin K → EReal) (a : Fin C → EReal) (q : Fin C) : EReal :=
  ((a q + bc q) + dotRow wl x q) + bl q

theorem preR_eq_preK (wl : Fin K → Fin C → EReal) (bl bc : Fin C → EReal) (x : Fin K → EReal) (a : Fin C → EReal) :
    preR wl bl bc x a = preK wl bl bc x a := funext fun q => add_assoc _ _ _

/-- One layer on one node: the new row from the node's input row and its aggregated row. -/
def layerRow (wl : Fin K → Fin C → EReal) (bl bc g β : Fin C → EReal) (x : Fin K → EReal) (a : Fin C → EReal) : Fin C → EReal :=
  normRelu g β (preK wl bl bc x a)

/-- The output head on one node: the running sum's row times the head's weights plus its bias. -/
def headRow {C' : ℕ} (wp : Fin C → Fin C' → EReal) (bp : Fin C' → EReal) (s : Fin C → EReal) (q : Fin C') : EReal :=
  dotRow wp s q + bp q

end Cert.RowMath

end
-- ==== Proof.KRows.lean ====
import proofs.«177108_j26465588478228_2_alg».proof.Proof.Gen.KernelIdeal.Frame
import proofs.«177108_j26465588478228_2_alg».proof.Proof.LibNormRows
import proofs.«177108_j26465588478228_2_alg».proof.Proof.RowMath
import Idealize.ShloMosaic.Lib.ValueIdx
import Idealize.ShloMosaic.Lib.ValueLayout
import Idealize.ShloMosaic.Lib.Pipeline.Value
import Idealize.ShloMosaic.PureOps.Ideal.Laws

/-!
# The tiled program's bodies, row by row

Each body works on a tile of 2000 rows. Read at an entry `(p, q)` of the tile, what a body stores depends only on
row `p` of each tile it loads (and on the small shared operands): a row times a weight matrix, and the layer's
row function of `RowMath`. The lane sums are kept as a column and repeated across the row, the bias, gain and shift
rows are repeated down the tile.
-/

noncomputable section

namespace Cert.KRows

open Idealize.ShloMosaic Idealize.ShloMosaic.ValueIdx Cert.KernelIdeal Cert.KernelIdeal.Gen Cert.RowMath
open scoped BigOperators

theorem hz : (![0, 0] : Fin 2 → Nat) = fun _ => 0 := funext fun a => by fin_cases a <;> rfl

/-- A tile times a weight matrix, both rounded to half precision first (the identity on exact numbers), into a
    zero accumulator: at `(p, q)` the row `p` times column `q`. -/
theorem matmul_tile {N K C : ℕ} (d : DotDims ⟨2, ![N, K]⟩ ⟨2, ![K, C]⟩ ⟨2, ![N, C]⟩) (hd : Cert.LibPlainDot.Plain d)
    (x : FVec Ideal ⟨2, ![N, K]⟩ .f32) (w : FVec Ideal ⟨2, ![K, C]⟩ .f32) (hlt : FTy.bf16.bits < FTy.f32.bits)
    (hw : (⟨2, ![K, C]⟩ : Shape).ShapeCasts ⟨2, ![K, C]⟩) (p : Fin N) (q : Fin C) :
    matmul d none (truncf .bf16 x hlt) (truncf .bf16 (shapeCast ⟨2, ![K, C]⟩ w hw) hlt) (constant ⟨2, ![N, C]⟩ .f32 0x00000000#32) (ix2 p q)
      = dotRow (mat w) (rowOf x p) q := by
  rw [shapeCast_self]
  exact Cert.LibPlainDot.matmul_zero_apply d hd none (truncf .bf16 x hlt) (truncf .bf16 w hlt) p q

/-- Region 0: the tile of the first product. -/
theorem out0_2_row (x0 : Vec Ideal S2000x128 .f32) (x1 : Vec Ideal S128x128 .f32) (p : Fin 2000) (q : Fin 128) :
    Gen.out0_2 x0 x1 (ix2 p q) = dotRow (mat x1) (rowOf x0 p) q := by
  unfold Gen.out0_2
  rw [View.canon_unit_zero hz]
  simp only [View.ld_unit_zero (S := S2000x128) hz, View.ld_unit_zero (S := S128x128) hz]
  unfold k0_pay1
  exact matmul_tile _ ⟨rfl, rfl, rfl, rfl, rfl, rfl⟩ x0 x1 _ _ p q

/-! ## The layer's normalisation on a tile -/

section Norm

variable {N C : ℕ}

/-- The tile's row means, as a column. -/
def tMean (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩) :
    FVec Ideal ⟨2, ![N, 1]⟩ .f32 :=
  divf (shapeCast ⟨2, ![N, 1]⟩ (multiReduction .add [1] ⟨1, ![N]⟩ y 0x00000000#32 hr hφ hacc) hc)
    (broadcast ⟨2, ![N, 1]⟩ (Scalar.ofBits .f32 0x43000000#32))

theorem tMean_apply (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (p : Fin N) (u : Fin 1) : tMean y hr hφ hacc hc (ix2 p u) = mean (rowOf y p) := by
  unfold tMean
  rw [divf_apply, Cert.Rows.laneSum_col]
  rfl

/-- The tile minus its row means. -/
def tCen (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) : FVec Ideal ⟨2, ![N, C]⟩ .f32 :=
  subf y (broadcastTo ⟨2, ![N, C]⟩ (tMean y hr hφ hacc hc) hb)

theorem tCen_apply (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) (p : Fin N) (q : Fin C) :
    tCen y hr hφ hacc hc hb (ix2 p q) = cen (rowOf y p) q := by
  unfold tCen
  rw [subf_apply, Cert.LibColumn.broadcastTo_a1_ab_apply, tMean_apply]
  rfl

/-- `(σ² + ε)^(-1/2)` of every row of the tile, as a column. -/
def tIstd (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) : FVec Ideal ⟨2, ![N, 1]⟩ .f32 :=
  rsqrt (addf (divf (shapeCast ⟨2, ![N, 1]⟩ (multiReduction .add [1] ⟨1, ![N]⟩
      (mulf (tCen y hr hφ hacc hc hb) (tCen y hr hφ hacc hc hb)) 0x00000000#32 hr hφ hacc) hc)
      (broadcast ⟨2, ![N, 1]⟩ (Scalar.ofBits .f32 0x43000000#32)))
    (broadcast ⟨2, ![N, 1]⟩ (Scalar.ofBits .f32 0x3727C5AC#32)))

theorem tIstd_apply (y : FVec Ideal ⟨2, ![N, C]⟩ .f32) (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) (p : Fin N) (u : Fin 1) :
    tIstd y hr hφ hacc hc hb (ix2 p u) = Ideal.rsqrt (varR (rowOf y p) + epsV) := by
  unfold tIstd
  rw [Cert.Rows.rsqrt_at, addf_apply, divf_apply, Cert.Rows.laneSum_col]
  simp only [mulf_apply, tCen_apply]
  rfl

/-- The tile normalised, times the gain row, plus the shift row, negative entries replaced by zero. -/
def tNormRelu (y : FVec Ideal ⟨2, ![N, C]⟩ .f32) (g β : FVec Ideal ⟨2, ![1, C]⟩ .f32)
    (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) (h2 : (⟨2, ![1, C]⟩ : Shape).ShapeCasts ⟨2, ![1, C]⟩)
    (h3 : (⟨2, ![1, C]⟩ : Shape).Broadcasts ⟨2, ![N, C]⟩) : FVec Ideal ⟨2, ![N, C]⟩ .f32 :=
  maximumf (addf (mulf (mulf (tCen y hr hφ hacc hc hb) (broadcastTo ⟨2, ![N, C]⟩ (tIstd y hr hφ hacc hc hb) hb))
        (broadcastTo ⟨2, ![N, C]⟩ (shapeCast ⟨2, ![1, C]⟩ g h2) h3))
      (broadcastTo ⟨2, ![N, C]⟩ (shapeCast ⟨2, ![1, C]⟩ β h2) h3))
    (broadcast ⟨2, ![N, C]⟩ (Scalar.ofBits .f32 0x00000000#32))

theorem tNormRelu_apply (y : FVec Ideal ⟨2, ![N, C]⟩ .f32) (g β : FVec Ideal ⟨2, ![1, C]⟩ .f32)
    (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) (h2 : (⟨2, ![1, C]⟩ : Shape).ShapeCasts ⟨2, ![1, C]⟩)
    (h3 : (⟨2, ![1, C]⟩ : Shape).Broadcasts ⟨2, ![N, C]⟩) (p : Fin N) (q : Fin C) :
    tNormRelu y g β hr hφ hacc hc hb h2 h3 (ix2 p q) = normRelu (row1 g) (row1 β) (rowOf y p) q := by
  unfold tNormRelu
  rw [maximumf_apply, addf_apply, mulf_apply, mulf_apply, tCen_apply, Cert.LibColumn.broadcastTo_a1_ab_apply, tIstd_apply,
    shapeCast_self, shapeCast_self, broadcastTo_1b_ab_apply, broadcastTo_1b_ab_apply]
  rfl

/-- The tile that is normalised: `(a + bc) + (x · wl + bl)`, the bias rows repeated down the tile. -/
def tPre {K : ℕ} (d : DotDims ⟨2, ![N, K]⟩ ⟨2, ![K, C]⟩ ⟨2, ![N, C]⟩) (x : FVec Ideal ⟨2, ![N, K]⟩ .f32) (a : FVec Ideal ⟨2, ![N, C]⟩ .f32)
    (wl : FVec Ideal ⟨2, ![K, C]⟩ .f32) (bl bc : FVec Ideal ⟨2, ![1, C]⟩ .f32) (hlt : FTy.bf16.bits < FTy.f32.bits)
    (hw : (⟨2, ![K, C]⟩ : Shape).ShapeCasts ⟨2, ![K, C]⟩) (ha : (⟨2, ![N, C]⟩ : Shape).ShapeCasts ⟨2, ![N, C]⟩)
    (h2 : (⟨2, ![1, C]⟩ : Shape).ShapeCasts ⟨2, ![1, C]⟩) (h3 : (⟨2, ![1, C]⟩ : Shape).Broadcasts ⟨2, ![N, C]⟩) :
    FVec Ideal ⟨2, ![N, C]⟩ .f32 :=
  addf (addf (shapeCast ⟨2, ![N, C]⟩ a ha) (broadcastTo ⟨2, ![N, C]⟩ (shapeCast ⟨2, ![1, C]⟩ bc h2) h3))
    (addf (matmul d none (truncf .bf16 x hlt) (truncf .bf16 (shapeCast ⟨2, ![K, C]⟩ wl hw) hlt) (constant ⟨2, ![N, C]⟩ .f32 0x00000000#32))
      (broadcastTo ⟨2, ![N, C]⟩ (shapeCast ⟨2, ![1, C]⟩ bl h2) h3))

theorem tPre_apply {K : ℕ} (d : DotDims ⟨2, ![N, K]⟩ ⟨2, ![K, C]⟩ ⟨2, ![N, C]⟩) (hd : Cert.LibPlainDot.Plain d)
    (x : FVec Ideal ⟨2, ![N, K]⟩ .f32) (a : FVec Ideal ⟨2, ![N, C]⟩ .f32)
    (wl : FVec Ideal ⟨2, ![K, C]⟩ .f32) (bl bc : FVec Ideal ⟨2, ![1, C]⟩ .f32) (hlt : FTy.bf16.bits < FTy.f32.bits)
    (hw : (⟨2, ![K, C]⟩ : Shape).ShapeCasts ⟨2, ![K, C]⟩) (ha : (⟨2, ![N, C]⟩ : Shape).ShapeCasts ⟨2, ![N, C]⟩)
    (h2 : (⟨2, ![1, C]⟩ : Shape).ShapeCasts ⟨2, ![1, C]⟩) (h3 : (⟨2, ![1, C]⟩ : Shape).Broadcasts ⟨2, ![N, C]⟩) (p : Fin N) (q : Fin C) :
    tPre d x a wl bl bc hlt hw ha h2 h3 (ix2 p q) = preK (mat wl) (row1 bl) (row1 bc) (rowOf x p) (rowOf a p) q := by
  unfold tPre
  rw [addf_apply, addf_apply, addf_apply, matmul_tile d hd x wl hlt hw p q, shapeCast_self, shapeCast_self, shapeCast_self,
    broadcastTo_1b_ab_apply, broadcastTo_1b_ab_apply]
  rfl

/-- A whole layer on a tile, read at an entry: the layer's row function of the two rows. -/
theorem tLayer_apply {K : ℕ} (d : DotDims ⟨2, ![N, K]⟩ ⟨2, ![K, C]⟩ ⟨2, ![N, C]⟩) (hd : Cert.LibPlainDot.Plain d)
    (x : FVec Ideal ⟨2, ![N, K]⟩ .f32) (a : FVec Ideal ⟨2, ![N, C]⟩ .f32)
    (wl : FVec Ideal ⟨2, ![K, C]⟩ .f32) (bl bc g β : FVec Ideal ⟨2, ![1, C]⟩ .f32) (hlt : FTy.bf16.bits < FTy.f32.bits)
    (hw : (⟨2, ![K, C]⟩ : Shape).ShapeCasts ⟨2, ![K, C]⟩) (ha : (⟨2, ![N, C]⟩ : Shape).ShapeCasts ⟨2, ![N, C]⟩)
    (h2 : (⟨2, ![1, C]⟩ : Shape).ShapeCasts ⟨2, ![1, C]⟩) (h3 : (⟨2, ![1, C]⟩ : Shape).Broadcasts ⟨2, ![N, C]⟩)
    (hr : (⟨2, ![N, C]⟩ : Shape).Reduces [1] ⟨1, ![N]⟩) (hφ : FKind.Formats .f32)
    (hacc : (0x00000000#32 : BitVec 32) = FKind.add.neutral .f32 hφ) (hc : (⟨1, ![N]⟩ : Shape).ShapeCasts ⟨2, ![N, 1]⟩)
    (hb : (⟨2, ![N, 1]⟩ : Shape).Broadcasts ⟨2, ![N, C]⟩) (p : Fin N) (q : Fin C) :
    tNormRelu (tPre d x a wl bl bc hlt hw ha h2 h3) g β hr hφ hacc hc hb h2 h3 (ix2 p q)
      = layerRow (mat wl) (row1 bl) (row1 bc) (row1 g) (row1 β) (rowOf x p) (rowOf a p) q := by
  rw [tNormRelu_apply]
  unfold layerRow
  exact congrArg (fun r => normRelu (row1 g) (row1 β) r q) (funext fun k => tPre_apply d hd x a wl bl bc hlt hw ha h2 h3 p k)

end Norm

/-! ## The bodies of the four regions -/

section Bodies

/-- The same product without the identity re-shape of the weights. -/
theorem matmul_tile' {N K C : ℕ} (d : DotDims ⟨2, ![N, K]⟩ ⟨2, ![K, C]⟩ ⟨2, ![N, C]⟩) (hd : Cert.LibPlainDot.Plain d)
    (x : FVec Ideal ⟨2, ![N, K]⟩ .f32) (w : FVec Ideal ⟨2, ![K, C]⟩ .f32) (hlt : FTy.bf16.bits < FTy.f32.bits) (p : Fin N) (q : Fin C) :
    matmul d none (truncf .bf16 x hlt) (truncf .bf16 w hlt) (constant ⟨2, ![N, C]⟩ .f32 0x00000000#32) (ix2 p q)
      = dotRow (mat w) (rowOf x p) q :=
  Cert.LibPlainDot.matmul_zero_apply d hd none (truncf .bf16 x hlt) (truncf .bf16 w hlt) p q

/-- The layer's tile of region 1, as the normalised pre-activation tile. -/
abbrev layerTile (x0 x1 : Vec Ideal S2000x128 .f32) (x3 : Vec Ideal S128x128 .f32) (x4 x5 x6 x7 : Vec Ideal S1x128 .f32) :
    FVec Ideal S2000x128 .f32 :=
  tNormRelu (tPre dot_S2000x128_S128x128_S2000x128_1_0_0_1_n_n x0 x1 x3 x4 x5 bitsLt_bf16_f32 shapeCasts_S128x128_S128x128
      shapeCasts_S2000x128_S2000x128 shapeCasts_S1x128_S1x128 broadcasts_S1x128_S2000x128) x6 x7
    reduces_S2000x128_S2000 (.inl rfl) rfl shapeCasts_S2000_S2000x1 broadcasts_S2000x1_S2000x128 shapeCasts_S1x128_S1x128
    broadcasts_S1x128_S2000x128

theorem layerTile_apply (x0 x1 : Vec Ideal S2000x128 .f32) (x3 : Vec Ideal S128x128 .f32) (x4 x5 x6 x7 : Vec Ideal S1x128 .f32)
    (p : Fin 2000) (q : Fin 128) :
    layerTile x0 x1 x3 x4 x5 x6 x7 (ix2 p q)
      = layerRow (mat x3) (row1 x4) (row1 x5) (row1 x6) (row1 x7) (rowOf x0 p) (rowOf x1 p) q :=
  tLayer_apply _ ⟨rfl, rfl, rfl, rfl, rfl, rfl⟩ x0 x1 x3 x4 x5 x6 x7 _ _ _ _ _ _ _ _ _ _ p q

theorem pay1_eq (x0 x1 : Vec Ideal S2000x128 .f32) (x3 : Vec Ideal S128x128 .f32) (x4 x5 x6 x7 : Vec Ideal S1x128 .f32) :
    k1_pay1 (k1_pay4 x0 x1 x3 x4 x5 x6) (k1_pay5 x7) = layerTile x0 x1 x3 x4 x5 x6 x7 := rfl

theorem pay2_eq (x0 x1 : Vec Ideal S2000x128 .f32) (x3 : Vec Ideal S128x128 .f32) (x4 x5 x6 x7 : Vec Ideal S1x128 .f32) :
    k2_pay1 (k2_pay4 x0 x1 x3 x4 x5 x6) x7
      = layerTile (shapeCast S2000x128 x0 shapeCasts_S2000x128_S2000x128) x1 x3 x4 x5 x6 x7 := rfl

theorem pay3_eq (x0 x1 : Vec Ideal S2000x128 .f32) (x3 : Vec Ideal S128x128 .f32) (x4 x5 x6 x7 : Vec Ideal S1x128 .f32) :
    k3_pay2 x0 x1 x3 x4 x5 x6 = k2_pay4 x0 x1 x3 x4 x5 x6 := rfl

/-- Region 1, first output: the layer's new rows. -/
theorem out1_9_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out1_9 x0 x1 x2 x3 x4 x5 x6 x7 x8 (ix2 p q)
      = layerRow (mat x3) (row1 x4) (row1 x5) (row1 x6) (row1 x7) (rowOf x0 p) (rowOf x1 p) q := by
  unfold Gen.out1_9
  rw [View.canon_unit_zero hz]
  simp only [View.ld_unit_zero (S := S2000x128) hz, View.ld_unit_zero (S := S128x128) hz, View.ld_unit_zero (S := S1x128) hz]
  rw [pay1_eq]
  exact layerTile_apply x0 x1 x3 x4 x5 x6 x7 p q

/-- Region 1, second output: the running sum plus the new rows. -/
theorem out1_10_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out1_10 x0 x1 x2 x3 x4 x5 x6 x7 x8 (ix2 p q)
      = x2 (ix2 p q) + layerRow (mat x3) (row1 x4) (row1 x5) (row1 x6) (row1 x7) (rowOf x0 p) (rowOf x1 p) q := by
  unfold Gen.out1_10
  rw [View.canon_unit_zero hz]
  simp only [View.ld_unit_zero (S := S2000x128) hz, View.ld_unit_zero (S := S128x128) hz, View.ld_unit_zero (S := S1x128) hz]
  unfold k1_pay2
  rw [pay1_eq]
  show shapeCast S2000x128 x2 _ (ix2 p q) + layerTile x0 x1 x3 x4 x5 x6 x7 (ix2 p q) = _
  rw [shapeCast_self, layerTile_apply]

/-- Region 1, third output: the new rows times the next layer's weights. -/
theorem out1_11_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out1_11 x0 x1 x2 x3 x4 x5 x6 x7 x8 (ix2 p q)
      = dotRow (mat x8) (layerRow (mat x3) (row1 x4) (row1 x5) (row1 x6) (row1 x7) (rowOf x0 p) (rowOf x1 p)) q := by
  unfold Gen.out1_11
  rw [View.canon_unit_zero hz]
  simp only [View.ld_unit_zero (S := S2000x128) hz, View.ld_unit_zero (S := S128x128) hz, View.ld_unit_zero (S := S1x128) hz]
  unfold k1_pay3
  rw [pay1_eq]
  refine (matmul_tile _ ⟨rfl, rfl, rfl, rfl, rfl, rfl⟩ (layerTile x0 x1 x3 x4 x5 x6 x7) x8 _ _ p q).trans ?_
  exact congrArg (fun r => dotRow (mat x8) r q) (funext fun k => layerTile_apply x0 x1 x3 x4 x5 x6 x7 p k)

/-- Region 2, first output: the layer's new rows. -/
theorem out2_9_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out2_9 x0 x1 x2 x3 x4 x5 x6 x7 x8 (ix2 p q)
      = layerRow (mat x3) (row1 x4) (row1 x5) (row1 x6) (row1 x7) (rowOf x0 p) (rowOf x1 p) q := by
  unfold Gen.out2_9
  rw [View.canon_unit_zero hz]
  simp only [View.ld_unit_zero (S := S2000x128) hz, View.ld_unit_zero (S := S128x128) hz, View.ld_unit_zero (S := S1x128) hz]
  rw [pay2_eq, shapeCast_self]
  exact layerTile_apply x0 x1 x3 x4 x5 x6 x7 p q

/-- Region 2, second output: the running sum plus the new rows. -/
theorem out2_10_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out2_10 x0 x1 x2 x3 x4 x5 x6 x7 x8 (ix2 p q)
      = x2 (ix2 p q) + layerRow (mat x3) (row1 x4) (row1 x5) (row1 x6) (row1 x7) (rowOf x0 p) (rowOf x1 p) q := by
  unfold Gen.out2_10
  rw [View.canon_unit_zero hz]
  simp only [View.ld_unit_zero (S := S2000x128) hz, View.ld_unit_zero (S := S128x128) hz, View.ld_unit_zero (S := S1x128) hz]
  unfold k2_pay2
  rw [pay2_eq, shapeCast_self, shapeCast_self, addf_apply, layerTile_apply]

/-- Region 2, third output: the new rows times the next layer's weights. -/
theorem out2_11_row (x0 x1 x2 : Vec Ideal S2000x128 .f32) (x3 : Vec Ideal S128x128 .f32) (x4 x5 x6 x7 : Vec Ideal S1x128 .f32)
    (x8 : Vec Ideal S128x128 .f32) (p : Fin 2000) (q : Fin 128) :
    Gen.out2_11 x0 x1 x2 x3 x4 x5 x6 x7 x8 (ix2 p q)
      = dotRow (mat x8) (layerRow (mat x3) (row1 x4) (row1 x5) (row1 x6) (row1 x7) (rowOf x0 p) (rowOf x1 p)) q := by
  unfold Gen.out2_11
  rw [View.canon_unit_zero hz]
  simp only [View.ld_unit_zero (S := S2000x128) hz, View.ld_unit_zero (S := S128x128) hz, View.ld_unit_zero (S := S1x128) hz]
  unfold k2_pay3
  rw [pay2_eq, shapeCast_self]
  refine (matmul_tile _ ⟨rfl, rfl, rfl, rfl, rfl, rfl⟩ (layerTile x0 x1 x3 x4 x5 x6 x7) x8 _ _ p q).trans ?_
  exact congrArg (fun r => dotRow (mat x8) r q) (funext fun k => layerTile_apply x0 x1 x3 x4 x5 x6 x7 p k)

/-- Region 3: the running sum plus the last layer's new rows, through the output head. -/
theorem out3_10_row (x0 x1 x2 : Vec Ideal S2000x128 .f32) (x3 : Vec Ideal S128x128 .f32) (x4 x5 x6 x7 : Vec Ideal S1x128 .f32)
    (x8 : Vec Ideal S128x40 .f32) (x9 : Vec Ideal S1x40 .f32) (p : Fin 2000) (q : Fin 40) :
    Gen.out3_10 x0 x1 x2 x3 x4 x5 x6 x7 x8 x9 (ix2 p q)
      = headRow (mat x8) (row1 x9)
          (fun k => x2 (ix2 p k) + layerRow (mat x3) (row1 x4) (row1 x5) (row1 x6) (row1 x7) (rowOf x0 p) (rowOf x1 p) k) q := by
  unfold Gen.out3_10
  rw [View.canon_unit_zero hz]
  simp only [View.ld_unit_zero (S := S2000x128) hz, View.ld_unit_zero (S := S128x128) hz, View.ld_unit_zero (S := S1x128) hz,
    View.ld_unit_zero (S := S128x40) hz, View.ld_unit_zero (S := S1x40) hz, View.ld_unit_zero (S := S2000x40) hz]
  have e : k3_pay1 (k3_pay2 x0 x1 x3 x4 x5 x6) x7 x2 x8 x9
      = addf (matmul dot_S2000x128_S128x40_S2000x40_1_0_0_1_n_n none
          (truncf .bf16 (addf (shapeCast S2000x128 x2 Gen.shapeCasts_S2000x128_S2000x128)
            (layerTile (shapeCast S2000x128 x0 Gen.shapeCasts_S2000x128_S2000x128) x1 x3 x4 x5 x6 x7)) Gen.bitsLt_bf16_f32)
          (truncf .bf16 x8 Gen.bitsLt_bf16_f32) (constant S2000x40 .f32 0x00000000#32))
        (broadcastTo S2000x40 (shapeCast S1x40 x9 Gen.shapeCasts_S1x40_S1x40) Gen.broadcasts_S1x40_S2000x40) := rfl
  rw [e, shapeCast_self, shapeCast_self, shapeCast_self, addf_apply, broadcastTo_1b_ab_apply,
    matmul_tile' _ ⟨rfl, rfl, rfl, rfl, rfl, rfl⟩ (addf x2 (layerTile x0 x1 x3 x4 x5 x6 x7)) x8 _ p q]
  unfold headRow
  refine congrArg (fun r => dotRow (mat x8) r q + row1 x9 q) (funext fun k => ?_)
  show x2 (ix2 p k) + layerTile x0 x1 x3 x4 x5 x6 x7 (ix2 p k) = _
  rw [layerTile_apply]

end Bodies

end Cert.KRows

end
-- ==== Proof.KChain.lean ====
import proofs.«177108_j26465588478228_2_alg».proof.Proof.Gen.KernelIdeal.Frame
import Idealize.ShloMosaic.Lib.StableHlo.Run

/-!
# What the tiled program's buffers hold between its regions

The program alternates stretches of host operations with four tiled regions. A buffer written before the first
region and never written again — an argument, a row of the edge list, the inverse square-root degrees — holds the
same contents at every later boundary: no host operation after its own writes it, and a region only writes its
output arrays.
-/

set_option maxRecDepth 16384

noncomputable section

namespace Cert.KChain

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg) (c : Dev nD)

/-- The buffers fixed before the first region: the arguments, the two rows of the edge list, the inverse
    square-root degrees. -/
def early : List (Ref sig .tc) :=
  [main_arg0, main_arg1, main_arg2, main_arg3, main_arg4, main_arg5, main_arg6, main_arg7, main_arg8, main_arg9,
    main_v1, main_v3, main_v15]

/-- No operation of a stretch writes the buffer. -/
macro "host_keep" : tactic => `(tactic| exact StableHlo.after_of_forall_not_mem _ _ (List.forall_iff_forall_mem.mp (by
  simp only [hostOps0, hostOps1, hostOps2, hostOps3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

theorem W2_keep (b : Ref sig .tc) (hb : b ∈ early) : W2 m ρ c (Proc.devRef .tc b) = W1 m ρ c (Proc.devRef .tc b) := by
  simp only [early, List.mem_cons, List.mem_singleton, List.not_mem_nil, or_false] at hb
  rcases hb with rfl | rfl | rfl | rfl | rfl | rfl | rfl | rfl | rfl | rfl | rfl | rfl | rfl
  · exact (W2_arr m ρ c 0).trans (((dat0 (V1 m ρ) c).arrAt_in 0 rfl _).trans (A_eq0 (V1 m ρ) c 0))
  all_goals exact W2_of_ne m ρ c _ (by decide)

set_option maxHeartbeats 4000000 in
theorem W3_keep (b : Ref sig .tc) (hb : b ∈ early) : W3 m ρ c (Proc.devRef .tc b) = W2 m ρ c (Proc.devRef .tc b) := by
  simp only [early, List.mem_cons, List.mem_singleton, List.not_mem_nil, or_false] at hb
  rcases hb with rfl | rfl | rfl | rfl | rfl | rfl | rfl | rfl | rfl | rfl | rfl | rfl | rfl
  all_goals host_keep

theorem W4_keep (b : Ref sig .tc) (hb : b ∈ early) : W4 m ρ c (Proc.devRef .tc b) = W3 m ρ c (Proc.devRef .tc b) := by
  simp only [early, List.mem_cons, List.mem_singleton, List.not_mem_nil, or_false] at hb
  rcases hb with rfl | rfl | rfl | rfl | rfl | rfl | rfl | rfl | rfl | rfl | rfl | rfl | rfl
  · exact (W4_arr m ρ c 0).trans (((dat1 (V3 m ρ) c).arrAt_in 0 rfl _).trans (A_eq1 (V3 m ρ) c 0))
  all_goals exact W4_of_ne m ρ c _ (by decide)

set_option maxHeartbeats 4000000 in
theorem W5_keep (b : Ref sig .tc) (hb : b ∈ early) : W5 m ρ c (Proc.devRef .tc b) = W4 m ρ c (Proc.devRef .tc b) := by
  simp only [early, List.mem_cons, List.mem_singleton, List.not_mem_nil, or_false] at hb
  rcases hb with rfl | rfl | rfl | rfl | rfl | rfl | rfl | rfl | rfl | rfl | rfl | rfl | rfl
  all_goals host_keep

theorem W6_keep (b : Ref sig .tc) (hb : b ∈ early) : W6 m ρ c (Proc.devRef .tc b) = W5 m ρ c (Proc.devRef .tc b) := by
  simp only [early, List.mem_cons, List.mem_singleton, List.not_mem_nil, or_false] at hb
  rcases hb with rfl | rfl | rfl | rfl | rfl | rfl | rfl | rfl | rfl | rfl | rfl | rfl | rfl
  all_goals exact W6_of_ne m ρ c _ (by decide)

/-- An early buffer holds at every boundary what it held when the first region was entered. -/
theorem W2_early (b : Ref sig .tc) (hb : b ∈ early) : W2 m ρ c (Proc.devRef .tc b) = W1 m ρ c (Proc.devRef .tc b) :=
  W2_keep m ρ c b hb
theorem W4_early (b : Ref sig .tc) (hb : b ∈ early) : W4 m ρ c (Proc.devRef .tc b) = W1 m ρ c (Proc.devRef .tc b) :=
  (W4_keep m ρ c b hb).trans ((W3_keep m ρ c b hb).trans (W2_keep m ρ c b hb))
theorem W6_early (b : Ref sig .tc) (hb : b ∈ early) : W6 m ρ c (Proc.devRef .tc b) = W1 m ρ c (Proc.devRef .tc b) :=
  (W6_keep m ρ c b hb).trans ((W5_keep m ρ c b hb).trans (W4_early m ρ c b hb))

/-- The region outputs that a later region reads unchanged pass through the host stretch between them. -/
theorem W5_v71_0 : W5 m ρ c (Proc.devRef .tc main_v71_0) = W4 m ρ c (Proc.devRef .tc main_v71_0) := by host_keep
theorem W5_v71_1 : W5 m ρ c (Proc.devRef .tc main_v71_1) = W4 m ρ c (Proc.devRef .tc main_v71_1) := by host_keep
theorem W7_v123_0 : W7 m ρ c (Proc.devRef .tc main_v123_0) = W6 m ρ c (Proc.devRef .tc main_v123_0) := by host_keep
theorem W7_v123_1 : W7 m ρ c (Proc.devRef .tc main_v123_1) = W6 m ρ c (Proc.devRef .tc main_v123_1) := by host_keep
theorem W7_arg8 : W7 m ρ c (Proc.devRef .tc main_arg8) = W6 m ρ c (Proc.devRef .tc main_arg8) := by host_keep
theorem W3_arg0 : W3 m ρ c (Proc.devRef .tc main_arg0) = W2 m ρ c (Proc.devRef .tc main_arg0) := by host_keep

set_option maxHeartbeats 4000000 in
/-- An argument is as launched when the first region is entered. -/
theorem W1_arg (b : Ref sig .tc) (hb : b ∈ [main_arg0, main_arg1, main_arg2, main_arg3, main_arg4, main_arg5, main_arg6, main_arg7, main_arg8, main_arg9]) :
    W1 m ρ c (Proc.devRef .tc b) = W0 m ρ c (Proc.devRef .tc b) := by
  simp only [List.mem_cons, List.mem_singleton, List.not_mem_nil, or_false] at hb
  rcases hb with rfl | rfl | rfl | rfl | rfl | rfl | rfl | rfl | rfl | rfl
  all_goals host_keep

end Cert.KChain

end
-- ==== Proof.Stages.lean ====
import proofs.«177108_j26465588478228_2_alg».proof.Proof.Gen.ReferenceIdeal

/-!
# The host stages both programs share

A graph-convolution layer gathers, for every edge, the source node's row of a node array `h`, scales it by the
product of the two endpoints' inverse square-root degrees, and adds it into the destination node's row; every node
also keeps its own row scaled by its squared inverse square-root degree. The degree of a node is one plus the
number of edges that end in it. Both programs spell these stages with the same host operations (a negative index
word is first moved up by the number of nodes); they are named here once so that neither side ever opens them.
-/

noncomputable section

namespace Cert.Stages

open Idealize.ShloMosaic Cert.ReferenceIdeal Cert.ReferenceIdeal.Facts₀

variable {F : FTy → Type} [FloatOps F]

/-- One row of the edge list: 600000 index words. -/
abbrev EdgeRow (F : FTy → Type) [FloatOps F] := (⟨S600000, .i32⟩ : BufTy).Contents (Elt F)
/-- A node array of 128 lanes. -/
abbrev Nodes (F : FTy → Type) [FloatOps F] := (⟨S50000x128, .f32⟩ : BufTy).Contents (Elt F)
/-- One number per node. -/
abbrev PerNode (F : FTy → Type) [FloatOps F] := (⟨S50000, .f32⟩ : BufTy).Contents (Elt F)

/-- Row `k` of the edge list. -/
def srcRow (e : (⟨S2x600000, .i32⟩ : BufTy).Contents (Elt F)) : EdgeRow F :=
  shapeCast S600000 (extractStridedSlice S1x600000 ![0, 0] e slices_S2x600000_S1x600000_0_0) shapeCasts_S1x600000_S600000
def dstRow (e : (⟨S2x600000, .i32⟩ : BufTy).Contents (Elt F)) : EdgeRow F :=
  shapeCast S600000 (extractStridedSlice S1x600000 ![1, 0] e slices_S2x600000_S1x600000_1_0) shapeCasts_S1x600000_S600000

/-- Index words with the negative ones moved up by the number of nodes, as a column. -/
def wrapCol (v : EdgeRow F) : (⟨S600000x1, .i32⟩ : BufTy).Contents (Elt F) :=
  broadcastInDim S600000x1 ![0] bcast_S600000_S600000x1_0
    (select (cmpi CmpIPredicate.slt v (broadcastInDim S600000 ![] bcast_S_S600000 (constantI S_ 32 0#32)))
      (addi v (broadcastInDim S600000 ![] bcast_S_S600000 (constantI S_ 32 50000#32))) v)

/-- The inverse square root of every node's degree (one plus the edges ending in it). -/
def dinv (dst : EdgeRow F) : PerNode F :=
  Host.rsqrt (addf
    (Host.scatterAdd scatter_S50000_S600000x1_S600000_n_0_0_1
      (broadcastInDim S50000 ![] bcast_S_S50000 (constant S_ .f32 0x00000000#32)) (wrapCol dst)
      (broadcastInDim S600000 ![] bcast_S_S600000 (constant S_ .f32 0x3F800000#32)))
    (broadcastInDim S50000 ![] bcast_S_S50000 (constant S_ .f32 0x3F800000#32)))

/-- The aggregation of a node array over the edges, plus every node's own scaled row. -/
def agg (src dst : EdgeRow F) (dv : PerNode F) (h : Nodes F) : Nodes F :=
  addf
    (Host.scatterAdd scatter_S50000x128_S600000x1_S600000x128_1_0_0_1
      (broadcastInDim S50000x128 ![] bcast_S_S50000x128 (constant S_ .f32 0x00000000#32))
      (broadcastInDim S600000x1 ![0] bcast_S600000_S600000x1_0 dst)
      (mulf
        (Host.gather gather_S50000x128_S600000x1_S600000x128_1_0_n_n_0_1_1128 h (wrapCol src))
        (broadcastInDim S600000x128 ![0, 1] bcast_S600000x1_S600000x128_0_1
          (broadcastInDim S600000x1 ![0] bcast_S600000_S600000x1_0
            (mulf (Host.gather gather_S50000_S600000x1_S600000_n_0_n_n_0_1_1 dv (wrapCol src))
              (Host.gather gather_S50000_S600000x1_S600000_n_0_n_n_0_1_1 dv (wrapCol dst)))))))
    (mulf h
      (broadcastInDim S50000x128 ![0, 1] bcast_S50000x1_S50000x128_0_1
        (broadcastInDim S50000x1 ![0] bcast_S50000_S50000x1_0 (mulf dv dv))))

end Cert.Stages

end
-- ==== Proof.Weights.lean ====
import proofs.«177108_j26465588478228_2_alg».proof.Proof.Stages

/-!
# The layers' weights

Layer `i`'s weight matrix is slab `i` of a stack of three matrices, and its bias, gain and shift vectors are row `i`
of a stack of three vectors; both programs cut them out with the same slice and re-shape.
-/

noncomputable section

namespace Cert.Stages

open Idealize.ShloMosaic Cert.ReferenceIdeal Cert.ReferenceIdeal.Facts₀

variable {F : FTy → Type} [FloatOps F]

/-- One slab of a stack of three 128×128 matrices. -/
def matOf (w3 : (⟨S3x128x128, .f32⟩ : BufTy).Contents (Elt F)) (off : Fin 3 → ℕ) (hs : S3x128x128.Slices off S1x128x128) :
    (⟨S128x128, .f32⟩ : BufTy).Contents (Elt F) :=
  shapeCast S128x128 (extractStridedSlice S1x128x128 off w3 hs) shapeCasts_S1x128x128_S128x128

/-- One row of a stack of three 128-vectors. -/
def vecOf (b3 : (⟨S3x128, .f32⟩ : BufTy).Contents (Elt F)) (off : Fin 2 → ℕ) (hs : S3x128.Slices off S1x128) :
    (⟨S128, .f32⟩ : BufTy).Contents (Elt F) :=
  shapeCast S128 (extractStridedSlice S1x128 off b3 hs) shapeCasts_S1x128_S128

/-- The array of zeros the running sum starts from. -/
def zeros : Nodes F := broadcastInDim S50000x128 ![] bcast_S_S50000x128 (constant S_ .f32 0x00000000#32)

end Cert.Stages

end
-- ==== Proof.Spec.lean ====
import proofs.«177108_j26465588478228_2_alg».proof.Proof.RowMath
import proofs.«177108_j26465588478228_2_alg».proof.Proof.Weights

/-!
# The network as whole-array functions

Each dense stage as one function of whole arrays of rows, through the row functions of `RowMath`: a product with a
weight matrix, a layer (the new rows from the layer's input rows and the aggregated rows), the running sum, the
output head. Both programs' results are stated against these.
-/

noncomputable section

namespace Cert.Spec

open Idealize.ShloMosaic Idealize.ShloMosaic.ValueIdx Cert.RowMath

/-- An array of `n` rows of `c` extended reals. -/
abbrev Arr (n c : ℕ) := (⟨2, ![n, c]⟩ : Shape).Idx → EReal

variable {N K C C' : ℕ}

/-- Every row times a weight matrix. -/
def dotArr (w : Arr K C) (X : Arr N K) : Arr N C := fun i => dotRow (mat w) (rowOf X (i 0)) (i 1)

/-- A layer: the new rows from the input rows `X` and the aggregated rows `A`. -/
def layerArr (wl : Arr K C) (bl bc g β : Arr 1 C) (X : Arr N K) (A : Arr N C) : Arr N C :=
  fun i => layerRow (mat wl) (row1 bl) (row1 bc) (row1 g) (row1 β) (rowOf X (i 0)) (rowOf A (i 0)) (i 1)

/-- The running sum plus the new rows. -/
def addArr (S R : Arr N C) : Arr N C := fun i => S i + R i

/-- The output head applied to every row. -/
def headArr (wp : Arr C C') (bp : Arr 1 C') (S : Arr N C) : Arr N C' :=
  fun i => headRow (mat wp) (row1 bp) (rowOf S (i 0)) (i 1)

/-- A 128-vector kept as a one-row matrix. -/
def rowMat {c : ℕ} (v : (⟨1, ![c]⟩ : Shape).Idx → EReal) (hc : (⟨1, ![c]⟩ : Shape).ShapeCasts ⟨2, ![1, c]⟩) : Arr 1 c :=
  shapeCast ⟨2, ![1, c]⟩ v hc

end Cert.Spec

end
-- ==== Proof.KIn1.lean ====
import proofs.«177108_j26465588478228_2_alg».proof.Proof.KChain
import proofs.«177108_j26465588478228_2_alg».proof.Proof.Weights
import proofs.«177108_j26465588478228_2_alg».proof.Proof.Spec
import Idealize.ShloMosaic.PureOps.Ideal

/-!
# What the first two regions read

At the exact instance, the arrays the first product and the first layer are entered with, as the shared host
stages of the launch contents (and of the first product's result).
-/

set_option maxRecDepth 16384

noncomputable section

namespace Cert.KIn

open Idealize.ShloMosaic Idealize.ShloMosaic.TcCoe Idealize.SL.Sem Idealize.ShloMosaic.StableHlo
open Cert.KernelIdeal Cert.KernelIdeal.Gen Cert.KChain

variable (m : (ℓ : Loc nD τ sig) → Buf (Elt Ideal) ℓ) (ρ : Dev nD → PrngReg) (c : Dev nD)

theorem mem_early_v1 : main_v1 ∈ early := by simp [early]
theorem mem_early_v3 : main_v3 ∈ early := by simp [early]
theorem mem_early_v15 : main_v15 ∈ early := by simp [early]

/-- The edge list's source row when the first region is entered. -/
theorem W1_v1 : (W1 m ρ c (Proc.devRef .tc main_v1) : Stages.EdgeRow Ideal) = Stages.srcRow (m ((c.tc : Thread nD τ).loc main_arg1)) := by
  show StableHlo.after hostOps0 (W0 m ρ c) (Proc.devRef .tc main_v1) = _
  after_results_simp
  rfl

/-- The edge list's destination row. -/
theorem W1_v3 : (W1 m ρ c (Proc.devRef .tc main_v3) : Stages.EdgeRow Ideal) = Stages.dstRow (m ((c.tc : Thread nD τ).loc main_arg1)) := by
  show StableHlo.after hostOps0 (W0 m ρ c) (Proc.devRef .tc main_v3) = _
  after_results_simp
  rfl

/-- The inverse square-root degrees. -/
theorem W1_v15 : (W1 m ρ c (Proc.devRef .tc main_v15) : Stages.PerNode Ideal)
    = Stages.dinv (Stages.dstRow (m ((c.tc : Thread nD τ).loc main_arg1))) := by
  show StableHlo.after hostOps0 (W0 m ρ c) (Proc.devRef .tc main_v15) = _
  after_results_simp
  rfl

/-- The first product's weights. -/
theorem W1_v17 : (W1 m ρ c (Proc.devRef .tc main_v17) : (⟨Cert.ReferenceIdeal.S128x128, .f32⟩ : BufTy).Contents (Elt Ideal))
    = Stages.matOf (m ((c.tc : Thread nD τ).loc main_arg2)) ![0, 0, 0] Cert.ReferenceIdeal.Facts₀.slices_S3x128x128_S1x128x128_0_0_0 := by
  show StableHlo.after hostOps0 (W0 m ρ c) (Proc.devRef .tc main_v17) = _
  after_results_simp
  rfl

/-- The argument arrays. -/
abbrev args : List (Ref sig .tc) :=
  [main_arg0, main_arg1, main_arg2, main_arg3, main_arg4, main_arg5, main_arg6, main_arg7, main_arg8, main_arg9]

theorem args_early {b : Ref sig .tc} (hb : b ∈ args) : b ∈ early := by
  simp only [args, List.mem_cons, List.mem_singleton, List.not_mem_nil, or_false] at hb
  rcases hb with rfl | rfl | rfl | rfl | rfl | rfl | rfl | rfl | rfl | rfl <;> simp [early]

/-- An argument array, at any boundary, is as launched. -/
theorem W1_argv (b : Ref sig .tc) (hb : b ∈ args) : W1 m ρ c (Proc.devRef .tc b) = m ((c.tc : Thread nD τ).loc b) :=
  (W1_arg m ρ c b hb).trans rfl
theorem W2_argv (b : Ref sig .tc) (hb : b ∈ args) : W2 m ρ c (Proc.devRef .tc b) = m ((c.tc : Thread nD τ).loc b) :=
  (W2_early m ρ c b (args_early hb)).trans (W1_argv m ρ c b hb)
theorem W4_argv (b : Ref sig .tc) (hb : b ∈ args) : W4 m ρ c (Proc.devRef .tc b) = m ((c.tc : Thread nD τ).loc b) :=
  (W4_early m ρ c b (args_early hb)).trans (W1_argv m ρ c b hb)
theorem W6_argv (b : Ref sig .tc) (hb : b ∈ args) : W6 m ρ c (Proc.devRef .tc b) = m ((c.tc : Thread nD τ).loc b) :=
  (W6_early m ρ c b (args_early hb)).trans (W1_argv m ρ c b hb)

/-! ## Region 0 -/

theorem in0_0 : V1 m ρ c (Pipeline.arrRef spec0 0) = m ((c.tc : Thread nD τ).loc main_arg0) :=
  W1_argv m ρ c main_arg0 (by simp)

theorem in0_1 : (V1 m ρ c (Pipeline.arrRef spec0 1) : (⟨Cert.ReferenceIdeal.S128x128, .f32⟩ : BufTy).Contents (Elt Ideal))
    = Stages.matOf (m ((c.tc : Thread nD τ).loc main_arg2)) ![0, 0, 0] Cert.ReferenceIdeal.Facts₀.slices_S3x128x128_S1x128x128_0_0_0 :=
  W1_v17 m ρ c

/-! ## Region 1 -/

theorem in1_0 : V3 m ρ c (Pipeline.arrRef spec1 0) = m ((c.tc : Thread nD τ).loc main_arg0) :=
  (W3_arg0 m ρ c).trans (W2_argv m ρ c main_arg0 (by simp))

/-- The aggregate of the first product. -/
theorem in1_1 : (V3 m ρ c (Pipeline.arrRef spec1 1) : Stages.Nodes Ideal)
    = Stages.agg (Stages.srcRow (m ((c.tc : Thread nD τ).loc main_arg1))) (Stages.dstRow (m ((c.tc : Thread nD τ).loc main_arg1)))
        (Stages.dinv (Stages.dstRow (m ((c.tc : Thread nD τ).loc main_arg1)))) (W2 m ρ c (Proc.devRef .tc main_v18)) := by
  have e1 := (W2_early m ρ c main_v1 (mem_early_v1)).trans (W1_v1 m ρ c)
  have e3 := (W2_early m ρ c main_v3 (mem_early_v3)).trans (W1_v3 m ρ c)
  have e15 := (W2_early m ρ c main_v15 (mem_early_v15)).trans (W1_v15 m ρ c)
  show StableHlo.after hostOps1 (W2 m ρ c) (Proc.devRef .tc main_v53) = _
  generalize W2 m ρ c = W at e1 e3 e15
  after_results_simp
  rw [e1, e3, e15]
  rfl

theorem in1_2 : (V3 m ρ c (Pipeline.arrRef spec1 2) : Stages.Nodes Ideal) = Stages.zeros := by
  show StableHlo.after hostOps1 (W2 m ρ c) (Proc.devRef .tc main_v54) = _
  generalize W2 m ρ c = W
  after_results_simp
  rfl

theorem in1_3 : (V3 m ρ c (Pipeline.arrRef spec1 3) : (⟨Cert.ReferenceIdeal.S128x128, .f32⟩ : BufTy).Contents (Elt Ideal))
    = Stages.matOf (m ((c.tc : Thread nD τ).loc main_arg4)) ![0, 0, 0] Cert.ReferenceIdeal.Facts₀.slices_S3x128x128_S1x128x128_0_0_0 := by
  have ea := W2_argv m ρ c main_arg4 (by simp)
  show StableHlo.after hostOps1 (W2 m ρ c) (Proc.devRef .tc main_v56) = _
  generalize W2 m ρ c = W at ea
  after_results_simp
  rw [ea]
  rfl

theorem in1_4 : (V3 m ρ c (Pipeline.arrRef spec1 4) : Spec.Arr 1 128)
    = Spec.rowMat (Stages.vecOf (m ((c.tc : Thread nD τ).loc main_arg5)) ![0, 0] Cert.ReferenceIdeal.Facts₀.slices_S3x128_S1x128_0_0) Gen.shapeCasts_S128_S1x128 := by
  have ea := W2_argv m ρ c main_arg5 (by simp)
  show StableHlo.after hostOps1 (W2 m ρ c) (Proc.devRef .tc main_v59) = _
  generalize W2 m ρ c = W at ea
  after_results_simp
  rw [ea]
  rfl

theorem in1_5 : (V3 m ρ c (Pipeline.arrRef spec1 5) : Spec.Arr 1 128)
    = Spec.rowMat (Stages.vecOf (m ((c.tc : Thread nD τ).loc main_arg3)) ![0, 0] Cert.ReferenceIdeal.Facts₀.slices_S3x128_S1x128_0_0) Gen.shapeCasts_S128_S1x128 := by
  have ea := W2_argv m ρ c main_arg3 (by simp)
  show StableHlo.after hostOps1 (W2 m ρ c) (Proc.devRef .tc main_v62) = _
  generalize W2 m ρ c = W at ea
  after_results_simp
  rw [ea]
  rfl

theorem in1_6 : (V3 m ρ c (Pipeline.arrRef spec1 6) : Spec.Arr 1 128)
    = Spec.rowMat (Stages.vecOf (m ((c.tc : Thread nD τ).loc main_arg6)) ![0, 0] Cert.ReferenceIdeal.Facts₀.slices_S3x128_S1x128_0_0) Gen.shapeCasts_S128_S1x128 := by
  have ea := W2_argv m ρ c main_arg6 (by simp)
  show StableHlo.after hostOps1 (W2 m ρ c) (Proc.devRef .tc main_v65) = _
  generalize W2 m ρ c = W at ea
  after_results_simp
  rw [ea]
  rfl

theorem in1_7 : (V3 m ρ c (Pipeline.arrRef spec1 7) : Spec.Arr 1 128)
    = Spec.rowMat (Stages.vecOf (m ((c.tc : Thread nD τ).loc main_arg7)) ![0, 0] Cert.ReferenceIdeal.Facts₀.slices_S3x128_S1x128_0_0) Gen.shapeCasts_S128_S1x128 := by
  have ea := W2_argv m ρ c main_arg7 (by simp)
  show StableHlo.after hostOps1 (W2 m ρ c) (Proc.devRef .tc main_v68) = _
  generalize W2 m ρ c = W at ea
  after_results_simp
  rw [ea]
  rfl

theorem in1_8 : (V3 m ρ c (Pipeline.arrRef spec1 8) : (⟨Cert.ReferenceIdeal.S128x128, .f32⟩ : BufTy).Contents (Elt Ideal))
    = Stages.matOf (m ((c.tc : Thread nD τ).loc main_arg2)) ![1, 0, 0] Cert.ReferenceIdeal.Facts₀.slices_S3x128x128_S1x128x128_1_0_0 := by
  have ea := W2_argv m ρ c main_arg2 (by simp)
  show StableHlo.after hostOps1 (W2 m ρ c) (Proc.devRef .tc main_v70) = _
  generalize W2 m ρ c = W at ea
  after_results_simp
  rw [ea]
  rfl

end Cert.KIn

end
-- ==== Proof.KIn2.lean ====
import proofs.«177108_j26465588478228_2_alg».proof.Proof.KIn1

/-!
# What the second layer's region reads
-/

set_option maxRecDepth 16384

noncomputable section

namespace Cert.KIn

open Idealize.ShloMosaic Idealize.ShloMosaic.TcCoe Idealize.SL.Sem Idealize.ShloMosaic.StableHlo
open Cert.KernelIdeal Cert.KernelIdeal.Gen Cert.KChain

variable (m : (ℓ : Loc nD τ sig) → Buf (Elt Ideal) ℓ) (ρ : Dev nD → PrngReg) (c : Dev nD)

theorem in2_0 : V5 m ρ c (Pipeline.arrRef spec2 0) = W4 m ρ c (Proc.devRef .tc main_v71_0) :=
  W5_v71_0 m ρ c

/-- The aggregate of the previous region's product. -/
theorem in2_1 : (V5 m ρ c (Pipeline.arrRef spec2 1) : Stages.Nodes Ideal)
    = Stages.agg (Stages.srcRow (m ((c.tc : Thread nD τ).loc main_arg1))) (Stages.dstRow (m ((c.tc : Thread nD τ).loc main_arg1)))
        (Stages.dinv (Stages.dstRow (m ((c.tc : Thread nD τ).loc main_arg1)))) (W4 m ρ c (Proc.devRef .tc main_v71_2)) := by
  have e1 := (W4_early m ρ c main_v1 (mem_early_v1)).trans (W1_v1 m ρ c)
  have e3 := (W4_early m ρ c main_v3 (mem_early_v3)).trans (W1_v3 m ρ c)
  have e15 := (W4_early m ρ c main_v15 (mem_early_v15)).trans (W1_v15 m ρ c)
  show StableHlo.after hostOps2 (W4 m ρ c) (Proc.devRef .tc main_v106) = _
  generalize W4 m ρ c = W at e1 e3 e15
  after_results_simp
  rw [e1, e3, e15]
  rfl

theorem in2_2 : V5 m ρ c (Pipeline.arrRef spec2 2) = W4 m ρ c (Proc.devRef .tc main_v71_1) :=
  W5_v71_1 m ρ c

theorem in2_3 : (V5 m ρ c (Pipeline.arrRef spec2 3) : (⟨Cert.ReferenceIdeal.S128x128, .f32⟩ : BufTy).Contents (Elt Ideal))
    = Stages.matOf (m ((c.tc : Thread nD τ).loc main_arg4)) ![1, 0, 0] Cert.ReferenceIdeal.Facts₀.slices_S3x128x128_S1x128x128_1_0_0 := by
  have ea := W4_argv m ρ c main_arg4 (by simp)
  show StableHlo.after hostOps2 (W4 m ρ c) (Proc.devRef .tc main_v108) = _
  generalize W4 m ρ c = W at ea
  after_results_simp
  rw [ea]
  rfl

theorem in2_4 : (V5 m ρ c (Pipeline.arrRef spec2 4) : Spec.Arr 1 128)
    = Spec.rowMat (Stages.vecOf (m ((c.tc : Thread nD τ).loc main_arg5)) ![1, 0] Cert.ReferenceIdeal.Facts₀.slices_S3x128_S1x128_1_0) Gen.shapeCasts_S128_S1x128 := by
  have ea := W4_argv m ρ c main_arg5 (by simp)
  show StableHlo.after hostOps2 (W4 m ρ c) (Proc.devRef .tc main_v111) = _
  generalize W4 m ρ c = W at ea
  after_results_simp
  rw [ea]
  rfl

theorem in2_5 : (V5 m ρ c (Pipeline.arrRef spec2 5) : Spec.Arr 1 128)
    = Spec.rowMat (Stages.vecOf (m ((c.tc : Thread nD τ).loc main_arg3)) ![1, 0] Cert.ReferenceIdeal.Facts₀.slices_S3x128_S1x128_1_0) Gen.shapeCasts_S128_S1x128 := by
  have ea := W4_argv m ρ c main_arg3 (by simp)
  show StableHlo.after hostOps2 (W4 m ρ c) (Proc.devRef .tc main_v114) = _
  generalize W4 m ρ c = W at ea
  after_results_simp
  rw [ea]
  rfl

theorem in2_6 : (V5 m ρ c (Pipeline.arrRef spec2 6) : Spec.Arr 1 128)
    = Spec.rowMat (Stages.vecOf (m ((c.tc : Thread nD τ).loc main_arg6)) ![1, 0] Cert.ReferenceIdeal.Facts₀.slices_S3x128_S1x128_1_0) Gen.shapeCasts_S128_S1x128 := by
  have ea := W4_argv m ρ c main_arg6 (by simp)
  show StableHlo.after hostOps2 (W4 m ρ c) (Proc.devRef .tc main_v117) = _
  generalize W4 m ρ c = W at ea
  after_results_simp
  rw [ea]
  rfl

theorem in2_7 : (V5 m ρ c (Pipeline.arrRef spec2 7) : Spec.Arr 1 128)
    = Spec.rowMat (Stages.vecOf (m ((c.tc : Thread nD τ).loc main_arg7)) ![1, 0] Cert.ReferenceIdeal.Facts₀.slices_S3x128_S1x128_1_0) Gen.shapeCasts_S128_S1x128 := by
  have ea := W4_argv m ρ c main_arg7 (by simp)
  show StableHlo.after hostOps2 (W4 m ρ c) (Proc.devRef .tc main_v120) = _
  generalize W4 m ρ c = W at ea
  after_results_simp
  rw [ea]
  rfl

theorem in2_8 : (V5 m ρ c (Pipeline.arrRef spec2 8) : (⟨Cert.ReferenceIdeal.S128x128, .f32⟩ : BufTy).Contents (Elt Ideal))
    = Stages.matOf (m ((c.tc : Thread nD τ).loc main_arg2)) ![2, 0, 0] Cert.ReferenceIdeal.Facts₀.slices_S3x128x128_S1x128x128_2_0_0 := by
  have ea := W4_argv m ρ c main_arg2 (by simp)
  show StableHlo.after hostOps2 (W4 m ρ c) (Proc.devRef .tc main_v122) = _
  generalize W4 m ρ c = W at ea
  after_results_simp
  rw [ea]
  rfl

end Cert.KIn

end
-- ==== Proof.KIn3.lean ====
import proofs.«177108_j26465588478228_2_alg».proof.Proof.KIn1

/-!
# What the last region reads
-/

set_option maxRecDepth 16384

noncomputable section

namespace Cert.KIn

open Idealize.ShloMosaic Idealize.ShloMosaic.TcCoe Idealize.SL.Sem Idealize.ShloMosaic.StableHlo
open Cert.KernelIdeal Cert.KernelIdeal.Gen Cert.KChain

variable (m : (ℓ : Loc nD τ sig) → Buf (Elt Ideal) ℓ) (ρ : Dev nD → PrngReg) (c : Dev nD)

theorem in3_0 : V7 m ρ c (Pipeline.arrRef spec3 0) = W6 m ρ c (Proc.devRef .tc main_v123_0) :=
  W7_v123_0 m ρ c

/-- The aggregate of the previous region's product. -/
theorem in3_1 : (V7 m ρ c (Pipeline.arrRef spec3 1) : Stages.Nodes Ideal)
    = Stages.agg (Stages.srcRow (m ((c.tc : Thread nD τ).loc main_arg1))) (Stages.dstRow (m ((c.tc : Thread nD τ).loc main_arg1)))
        (Stages.dinv (Stages.dstRow (m ((c.tc : Thread nD τ).loc main_arg1)))) (W6 m ρ c (Proc.devRef .tc main_v123_2)) := by
  have e1 := (W6_early m ρ c main_v1 (mem_early_v1)).trans (W1_v1 m ρ c)
  have e3 := (W6_early m ρ c main_v3 (mem_early_v3)).trans (W1_v3 m ρ c)
  have e15 := (W6_early m ρ c main_v15 (mem_early_v15)).trans (W1_v15 m ρ c)
  show StableHlo.after hostOps3 (W6 m ρ c) (Proc.devRef .tc main_v158) = _
  generalize W6 m ρ c = W at e1 e3 e15
  after_results_simp
  rw [e1, e3, e15]
  rfl

theorem in3_2 : V7 m ρ c (Pipeline.arrRef spec3 2) = W6 m ρ c (Proc.devRef .tc main_v123_1) :=
  W7_v123_1 m ρ c

theorem in3_3 : (V7 m ρ c (Pipeline.arrRef spec3 3) : (⟨Cert.ReferenceIdeal.S128x128, .f32⟩ : BufTy).Contents (Elt Ideal))
    = Stages.matOf (m ((c.tc : Thread nD τ).loc main_arg4)) ![2, 0, 0] Cert.ReferenceIdeal.Facts₀.slices_S3x128x128_S1x128x128_2_0_0 := by
  have ea := W6_argv m ρ c main_arg4 (by simp)
  show StableHlo.after hostOps3 (W6 m ρ c) (Proc.devRef .tc main_v160) = _
  generalize W6 m ρ c = W at ea
  after_results_simp
  rw [ea]
  rfl

theorem in3_4 : (V7 m ρ c (Pipeline.arrRef spec3 4) : Spec.Arr 1 128)
    = Spec.rowMat (Stages.vecOf (m ((c.tc : Thread nD τ).loc main_arg5)) ![2, 0] Cert.ReferenceIdeal.Facts₀.slices_S3x128_S1x128_2_0) Gen.shapeCasts_S128_S1x128 := by
  have ea := W6_argv m ρ c main_arg5 (by simp)
  show StableHlo.after hostOps3 (W6 m ρ c) (Proc.devRef .tc main_v163) = _
  generalize W6 m ρ c = W at ea
  after_results_simp
  rw [ea]
  rfl

theorem in3_5 : (V7 m ρ c (Pipeline.arrRef spec3 5) : Spec.Arr 1 128)
    = Spec.rowMat (Stages.vecOf (m ((c.tc : Thread nD τ).loc main_arg3)) ![2, 0] Cert.ReferenceIdeal.Facts₀.slices_S3x128_S1x128_2_0) Gen.shapeCasts_S128_S1x128 := by
  have ea := W6_argv m ρ c main_arg3 (by simp)
  show StableHlo.after hostOps3 (W6 m ρ c) (Proc.devRef .tc main_v166) = _
  generalize W6 m ρ c = W at ea
  after_results_simp
  rw [ea]
  rfl

theorem in3_6 : (V7 m ρ c (Pipeline.arrRef spec3 6) : Spec.Arr 1 128)
    = Spec.rowMat (Stages.vecOf (m ((c.tc : Thread nD τ).loc main_arg6)) ![2, 0] Cert.ReferenceIdeal.Facts₀.slices_S3x128_S1x128_2_0) Gen.shapeCasts_S128_S1x128 := by
  have ea := W6_argv m ρ c main_arg6 (by simp)
  show StableHlo.after hostOps3 (W6 m ρ c) (Proc.devRef .tc main_v169) = _
  generalize W6 m ρ c = W at ea
  after_results_simp
  rw [ea]
  rfl

theorem in3_7 : (V7 m ρ c (Pipeline.arrRef spec3 7) : Spec.Arr 1 128)
    = Spec.rowMat (Stages.vecOf (m ((c.tc : Thread nD τ).loc main_arg7)) ![2, 0] Cert.ReferenceIdeal.Facts₀.slices_S3x128_S1x128_2_0) Gen.shapeCasts_S128_S1x128 := by
  have ea := W6_argv m ρ c main_arg7 (by simp)
  show StableHlo.after hostOps3 (W6 m ρ c) (Proc.devRef .tc main_v172) = _
  generalize W6 m ρ c = W at ea
  after_results_simp
  rw [ea]
  rfl

theorem in3_8 : V7 m ρ c (Pipeline.arrRef spec3 8) = m ((c.tc : Thread nD τ).loc main_arg8) :=
  (W7_arg8 m ρ c).trans (W6_argv m ρ c main_arg8 (by simp))

theorem in3_9 : (V7 m ρ c (Pipeline.arrRef spec3 9) : Spec.Arr 1 40)
    = Spec.rowMat (m ((c.tc : Thread nD τ).loc main_arg9)) Gen.shapeCasts_S40_S1x40 := by
  have ea := W6_argv m ρ c main_arg9 (by simp)
  show StableHlo.after hostOps3 (W6 m ρ c) (Proc.devRef .tc main_v173) = _
  generalize W6 m ρ c = W at ea
  after_results_simp
  rw [ea]
  rfl

end Cert.KIn

end
-- ==== Proof.Net.lean ====
import proofs.«177108_j26465588478228_2_alg».proof.Proof.Spec

/-!
# The network

Three layers and an output head, as one function of the ten argument arrays. Layer `i` multiplies its input rows
by slab `i` of the message weights, aggregates the products over the graph, forms the new rows from the input rows
and the aggregated rows, and the new rows are added to a running sum that starts at zero; the head is applied to
the final sum.
-/

noncomputable section

namespace Cert.Net

open Idealize.ShloMosaic Cert.ReferenceIdeal Cert.ReferenceIdeal.Facts₀ Cert.Spec Cert.Stages

variable (x : (⟨S50000x128, .f32⟩ : BufTy).Contents (Elt Ideal)) (e : (⟨S2x600000, .i32⟩ : BufTy).Contents (Elt Ideal))
  (wc : (⟨S3x128x128, .f32⟩ : BufTy).Contents (Elt Ideal)) (bc : (⟨S3x128, .f32⟩ : BufTy).Contents (Elt Ideal))
  (wl : (⟨S3x128x128, .f32⟩ : BufTy).Contents (Elt Ideal)) (bl g β : (⟨S3x128, .f32⟩ : BufTy).Contents (Elt Ideal))
  (wp : (⟨S128x40, .f32⟩ : BufTy).Contents (Elt Ideal)) (bp : (⟨S40, .f32⟩ : BufTy).Contents (Elt Ideal))
  (hc : (⟨1, ![128]⟩ : Shape).ShapeCasts ⟨2, ![1, 128]⟩) (hc' : (⟨1, ![40]⟩ : Shape).ShapeCasts ⟨2, ![1, 40]⟩)

/-- The aggregation over the graph given by the edge list. -/
def aggN (h : Arr 50000 128) : Arr 50000 128 :=
  Stages.agg (Stages.srcRow e) (Stages.dstRow e) (Stages.dinv (Stages.dstRow e)) h

/-- Layer 0's new rows. -/
def r1 : Arr 50000 128 :=
  layerArr (matOf wl ![0, 0, 0] slices_S3x128x128_S1x128x128_0_0_0) (rowMat (vecOf bl ![0, 0] slices_S3x128_S1x128_0_0) hc)
    (rowMat (vecOf bc ![0, 0] slices_S3x128_S1x128_0_0) hc) (rowMat (vecOf g ![0, 0] slices_S3x128_S1x128_0_0) hc)
    (rowMat (vecOf β ![0, 0] slices_S3x128_S1x128_0_0) hc) x
    (aggN e (dotArr (matOf wc ![0, 0, 0] slices_S3x128x128_S1x128x128_0_0_0) x))

/-- Layer 1's new rows. -/
def r2 : Arr 50000 128 :=
  layerArr (matOf wl ![1, 0, 0] slices_S3x128x128_S1x128x128_1_0_0) (rowMat (vecOf bl ![1, 0] slices_S3x128_S1x128_1_0) hc)
    (rowMat (vecOf bc ![1, 0] slices_S3x128_S1x128_1_0) hc) (rowMat (vecOf g ![1, 0] slices_S3x128_S1x128_1_0) hc)
    (rowMat (vecOf β ![1, 0] slices_S3x128_S1x128_1_0) hc) (r1 x e wc bc wl bl g β hc)
    (aggN e (dotArr (matOf wc ![1, 0, 0] slices_S3x128x128_S1x128x128_1_0_0) (r1 x e wc bc wl bl g β hc)))

/-- Layer 2's new rows. -/
def r3 : Arr 50000 128 :=
  layerArr (matOf wl ![2, 0, 0] slices_S3x128x128_S1x128x128_2_0_0) (rowMat (vecOf bl ![2, 0] slices_S3x128_S1x128_2_0) hc)
    (rowMat (vecOf bc ![2, 0] slices_S3x128_S1x128_2_0) hc) (rowMat (vecOf g ![2, 0] slices_S3x128_S1x128_2_0) hc)
    (rowMat (vecOf β ![2, 0] slices_S3x128_S1x128_2_0) hc) (r2 x e wc bc wl bl g β hc)
    (aggN e (dotArr (matOf wc ![2, 0, 0] slices_S3x128x128_S1x128x128_2_0_0) (r2 x e wc bc wl bl g β hc)))

/-- The network's result. -/
def out : Arr 50000 40 :=
  headArr wp (rowMat bp hc')
    (addArr (addArr (addArr (Stages.zeros (F := Ideal)) (r1 x e wc bc wl bl g β hc)) (r2 x e wc bc wl bl g β hc)) (r3 x e wc bc wl bl g β hc))

end Cert.Net

end
-- ==== Proof.KValue.lean ====
import proofs.«177108_j26465588478228_2_alg».proof.Proof.KArr
import proofs.«177108_j26465588478228_2_alg».proof.Proof.KRows
import proofs.«177108_j26465588478228_2_alg».proof.Proof.KIn2
import proofs.«177108_j26465588478228_2_alg».proof.Proof.KIn3
import proofs.«177108_j26465588478228_2_alg».proof.Proof.Net

/-!
# The tiled program's result

Each region's output arrays are whole-array row functions of the arrays the region is entered with (the bodies act
row by row, and the row tiles cover the arrays); the arrays a region is entered with are the shared host stages of
the previous region's outputs and of the launch contents. Composed from the first region to the last, the
program's result is the network of `Net` of the argument arrays.
-/

set_option maxRecDepth 16384
set_option synthInstance.maxHeartbeats 400000

noncomputable section

namespace Cert.KValue

open Idealize.ShloMosaic Idealize.ShloMosaic.TcCoe Idealize.SL.Sem Idealize.ShloMosaic.ValueIdx
open Cert.KernelIdeal Cert.KernelIdeal.Gen Cert.KChain Cert.KIn Cert.Spec Cert.RowMath

/-- A sum read through the row and the lane of an index is the sum at the index. -/
theorem addArr_of_rows {N C : ℕ} (S R : Arr N C) : (fun i => S (ix2 (i 0) (i 1)) + R i) = addArr S R :=
  funext fun i => congrArg (fun j => S j + R i) (eq_ix2 i).symm

section Regions

variable (V : (c : Dev nD) → (b : Ref sig .tc) → Buf (Elt Ideal) ((c : Thread nD τ).loc b)) (c : Dev nD)

set_option maxHeartbeats 4000000 in
/-- Region 0: every row times the first message weights. -/
theorem reg0 {W0 : Arr 50000 128} {W1 : Arr 128 128} (h0 : (V c (Pipeline.arrRef spec0 0) : Arr 50000 128) = W0) (h1 : (V c (Pipeline.arrRef spec0 1) : Arr 128 128) = W1) :
    ((dat0 V c).arrAt 2 cfg0.N : Arr 50000 128) = dotArr W1 W0 := by
  subst h0 h1
  exact KArr.arr0_2 V c (fun r q => dotRow (mat (V c (Pipeline.arrRef spec0 1) : Arr 128 128)) r q) (fun x0 p q => KRows.out0_2_row x0 _ p q)

set_option maxHeartbeats 4000000 in
/-- Region 1: the layer's new rows. -/
theorem reg1_9 {W0 W1 : Arr 50000 128} {W3 : Arr 128 128} {W4 W5 W6 W7 : Arr 1 128}
    (h0 : (V c (Pipeline.arrRef spec1 0) : Arr 50000 128) = W0) (h1 : (V c (Pipeline.arrRef spec1 1) : Arr 50000 128) = W1)
    (h3 : (V c (Pipeline.arrRef spec1 3) : Arr 128 128) = W3) (h4 : (V c (Pipeline.arrRef spec1 4) : Arr 1 128) = W4) (h5 : (V c (Pipeline.arrRef spec1 5) : Arr 1 128) = W5)
    (h6 : (V c (Pipeline.arrRef spec1 6) : Arr 1 128) = W6) (h7 : (V c (Pipeline.arrRef spec1 7) : Arr 1 128) = W7) :
    ((dat1 V c).arrAt 9 cfg1.N : Arr 50000 128) = layerArr W3 W4 W5 W6 W7 W0 W1 := by
  subst h0 h1 h3 h4 h5 h6 h7
  exact KArr.arr1_9 V c (fun x a _ q => layerRow (mat (V c (Pipeline.arrRef spec1 3) : Arr 128 128)) (row1 (V c (Pipeline.arrRef spec1 4) : Arr 1 128)) (row1 (V c (Pipeline.arrRef spec1 5) : Arr 1 128)) (row1 (V c (Pipeline.arrRef spec1 6) : Arr 1 128)) (row1 (V c (Pipeline.arrRef spec1 7) : Arr 1 128)) x a q)
    (fun x0 x1 x2 p q => KRows.out1_9_row x0 x1 x2 _ _ _ _ _ _ p q)

set_option maxHeartbeats 4000000 in
/-- Region 1: the running sum plus the new rows. -/
theorem reg1_10 {W0 W1 W2 : Arr 50000 128} {W3 : Arr 128 128} {W4 W5 W6 W7 : Arr 1 128}
    (h0 : (V c (Pipeline.arrRef spec1 0) : Arr 50000 128) = W0) (h1 : (V c (Pipeline.arrRef spec1 1) : Arr 50000 128) = W1) (h2 : (V c (Pipeline.arrRef spec1 2) : Arr 50000 128) = W2)
    (h3 : (V c (Pipeline.arrRef spec1 3) : Arr 128 128) = W3) (h4 : (V c (Pipeline.arrRef spec1 4) : Arr 1 128) = W4) (h5 : (V c (Pipeline.arrRef spec1 5) : Arr 1 128) = W5)
    (h6 : (V c (Pipeline.arrRef spec1 6) : Arr 1 128) = W6) (h7 : (V c (Pipeline.arrRef spec1 7) : Arr 1 128) = W7) :
    ((dat1 V c).arrAt 10 cfg1.N : Arr 50000 128) = addArr W2 (layerArr W3 W4 W5 W6 W7 W0 W1) := by
  subst h0 h1 h2 h3 h4 h5 h6 h7
  exact (KArr.arr1_10 V c (fun x a s q => s q + layerRow (mat (V c (Pipeline.arrRef spec1 3) : Arr 128 128)) (row1 (V c (Pipeline.arrRef spec1 4) : Arr 1 128)) (row1 (V c (Pipeline.arrRef spec1 5) : Arr 1 128)) (row1 (V c (Pipeline.arrRef spec1 6) : Arr 1 128)) (row1 (V c (Pipeline.arrRef spec1 7) : Arr 1 128)) x a q)
    (fun x0 x1 x2 p q => KRows.out1_10_row x0 x1 x2 _ _ _ _ _ _ p q)).trans
      (addArr_of_rows (V c (Pipeline.arrRef spec1 2) : Arr 50000 128) (layerArr (V c (Pipeline.arrRef spec1 3) : Arr 128 128) (V c (Pipeline.arrRef spec1 4) : Arr 1 128) (V c (Pipeline.arrRef spec1 5) : Arr 1 128) (V c (Pipeline.arrRef spec1 6) : Arr 1 128) (V c (Pipeline.arrRef spec1 7) : Arr 1 128) (V c (Pipeline.arrRef spec1 0) : Arr 50000 128) (V c (Pipeline.arrRef spec1 1) : Arr 50000 128)))

set_option maxHeartbeats 4000000 in
/-- Region 1: the new rows times the next layer's message weights. -/
theorem reg1_11 {W0 W1 : Arr 50000 128} {W3 : Arr 128 128} {W4 W5 W6 W7 : Arr 1 128} {W8 : Arr 128 128}
    (h0 : (V c (Pipeline.arrRef spec1 0) : Arr 50000 128) = W0) (h1 : (V c (Pipeline.arrRef spec1 1) : Arr 50000 128) = W1)
    (h3 : (V c (Pipeline.arrRef spec1 3) : Arr 128 128) = W3) (h4 : (V c (Pipeline.arrRef spec1 4) : Arr 1 128) = W4) (h5 : (V c (Pipeline.arrRef spec1 5) : Arr 1 128) = W5)
    (h6 : (V c (Pipeline.arrRef spec1 6) : Arr 1 128) = W6) (h7 : (V c (Pipeline.arrRef spec1 7) : Arr 1 128) = W7) (h8 : (V c (Pipeline.arrRef spec1 8) : Arr 128 128) = W8) :
    ((dat1 V c).arrAt 11 cfg1.N : Arr 50000 128) = dotArr W8 (layerArr W3 W4 W5 W6 W7 W0 W1) := by
  subst h0 h1 h3 h4 h5 h6 h7 h8
  exact KArr.arr1_11 V c (fun x a _ q => dotRow (mat (V c (Pipeline.arrRef spec1 8) : Arr 128 128)) (layerRow (mat (V c (Pipeline.arrRef spec1 3) : Arr 128 128)) (row1 (V c (Pipeline.arrRef spec1 4) : Arr 1 128)) (row1 (V c (Pipeline.arrRef spec1 5) : Arr 1 128)) (row1 (V c (Pipeline.arrRef spec1 6) : Arr 1 128)) (row1 (V c (Pipeline.arrRef spec1 7) : Arr 1 128)) x a) q)
    (fun x0 x1 x2 p q => KRows.out1_11_row x0 x1 x2 _ _ _ _ _ _ p q)

set_option maxHeartbeats 4000000 in
/-- Region 2: the layer's new rows. -/
theorem reg2_9 {W0 W1 : Arr 50000 128} {W3 : Arr 128 128} {W4 W5 W6 W7 : Arr 1 128}
    (h0 : (V c (Pipeline.arrRef spec2 0) : Arr 50000 128) = W0) (h1 : (V c (Pipeline.arrRef spec2 1) : Arr 50000 128) = W1)
    (h3 : (V c (Pipeline.arrRef spec2 3) : Arr 128 128) = W3) (h4 : (V c (Pipeline.arrRef spec2 4) : Arr 1 128) = W4) (h5 : (V c (Pipeline.arrRef spec2 5) : Arr 1 128) = W5)
    (h6 : (V c (Pipeline.arrRef spec2 6) : Arr 1 128) = W6) (h7 : (V c (Pipeline.arrRef spec2 7) : Arr 1 128) = W7) :
    ((dat2 V c).arrAt 9 cfg2.N : Arr 50000 128) = layerArr W3 W4 W5 W6 W7 W0 W1 := by
  subst h0 h1 h3 h4 h5 h6 h7
  exact KArr.arr2_9 V c (fun x a _ q => layerRow (mat (V c (Pipeline.arrRef spec2 3) : Arr 128 128)) (row1 (V c (Pipeline.arrRef spec2 4) : Arr 1 128)) (row1 (V c (Pipeline.arrRef spec2 5) : Arr 1 128)) (row1 (V c (Pipeline.arrRef spec2 6) : Arr 1 128)) (row1 (V c (Pipeline.arrRef spec2 7) : Arr 1 128)) x a q)
    (fun x0 x1 x2 p q => KRows.out2_9_row x0 x1 x2 _ _ _ _ _ _ p q)

set_option maxHeartbeats 4000000 in
/-- Region 2: the running sum plus the new rows. -/
theorem reg2_10 {W0 W1 W2 : Arr 50000 128} {W3 : Arr 128 128} {W4 W5 W6 W7 : Arr 1 128}
    (h0 : (V c (Pipeline.arrRef spec2 0) : Arr 50000 128) = W0) (h1 : (V c (Pipeline.arrRef spec2 1) : Arr 50000 128) = W1) (h2 : (V c (Pipeline.arrRef spec2 2) : Arr 50000 128) = W2)
    (h3 : (V c (Pipeline.arrRef spec2 3) : Arr 128 128) = W3) (h4 : (V c (Pipeline.arrRef spec2 4) : Arr 1 128) = W4) (h5 : (V c (Pipeline.arrRef spec2 5) : Arr 1 128) = W5)
    (h6 : (V c (Pipeline.arrRef spec2 6) : Arr 1 128) = W6) (h7 : (V c (Pipeline.arrRef spec2 7) : Arr 1 128) = W7) :
    ((dat2 V c).arrAt 10 cfg2.N : Arr 50000 128) = addArr W2 (layerArr W3 W4 W5 W6 W7 W0 W1) := by
  subst h0 h1 h2 h3 h4 h5 h6 h7
  exact (KArr.arr2_10 V c (fun x a s q => s q + layerRow (mat (V c (Pipeline.arrRef spec2 3) : Arr 128 128)) (row1 (V c (Pipeline.arrRef spec2 4) : Arr 1 128)) (row1 (V c (Pipeline.arrRef spec2 5) : Arr 1 128)) (row1 (V c (Pipeline.arrRef spec2 6) : Arr 1 128)) (row1 (V c (Pipeline.arrRef spec2 7) : Arr 1 128)) x a q)
    (fun x0 x1 x2 p q => KRows.out2_10_row x0 x1 x2 _ _ _ _ _ _ p q)).trans
      (addArr_of_rows (V c (Pipeline.arrRef spec2 2) : Arr 50000 128) (layerArr (V c (Pipeline.arrRef spec2 3) : Arr 128 128) (V c (Pipeline.arrRef spec2 4) : Arr 1 128) (V c (Pipeline.arrRef spec2 5) : Arr 1 128) (V c (Pipeline.arrRef spec2 6) : Arr 1 128) (V c (Pipeline.arrRef spec2 7) : Arr 1 128) (V c (Pipeline.arrRef spec2 0) : Arr 50000 128) (V c (Pipeline.arrRef spec2 1) : Arr 50000 128)))

set_option maxHeartbeats 4000000 in
/-- Region 2: the new rows times the next layer's message weights. -/
theorem reg2_11 {W0 W1 : Arr 50000 128} {W3 : Arr 128 128} {W4 W5 W6 W7 : Arr 1 128} {W8 : Arr 128 128}
    (h0 : (V c (Pipeline.arrRef spec2 0) : Arr 50000 128) = W0) (h1 : (V c (Pipeline.arrRef spec2 1) : Arr 50000 128) = W1)
    (h3 : (V c (Pipeline.arrRef spec2 3) : Arr 128 128) = W3) (h4 : (V c (Pipeline.arrRef spec2 4) : Arr 1 128) = W4) (h5 : (V c (Pipeline.arrRef spec2 5) : Arr 1 128) = W5)
    (h6 : (V c (Pipeline.arrRef spec2 6) : Arr 1 128) = W6) (h7 : (V c (Pipeline.arrRef spec2 7) : Arr 1 128) = W7) (h8 : (V c (Pipeline.arrRef spec2 8) : Arr 128 128) = W8) :
    ((dat2 V c).arrAt 11 cfg2.N : Arr 50000 128) = dotArr W8 (layerArr W3 W4 W5 W6 W7 W0 W1) := by
  subst h0 h1 h3 h4 h5 h6 h7 h8
  exact KArr.arr2_11 V c (fun x a _ q => dotRow (mat (V c (Pipeline.arrRef spec2 8) : Arr 128 128)) (layerRow (mat (V c (Pipeline.arrRef spec2 3) : Arr 128 128)) (row1 (V c (Pipeline.arrRef spec2 4) : Arr 1 128)) (row1 (V c (Pipeline.arrRef spec2 5) : Arr 1 128)) (row1 (V c (Pipeline.arrRef spec2 6) : Arr 1 128)) (row1 (V c (Pipeline.arrRef spec2 7) : Arr 1 128)) x a) q)
    (fun x0 x1 x2 p q => KRows.out2_11_row x0 x1 x2 _ _ _ _ _ _ p q)

set_option maxHeartbeats 4000000 in
/-- Region 3: the output head of the final running sum. -/
theorem reg3 {W0 W1 W2 : Arr 50000 128} {W3 : Arr 128 128} {W4 W5 W6 W7 : Arr 1 128} {W8 : Arr 128 40} {W9 : Arr 1 40}
    (h0 : (V c (Pipeline.arrRef spec3 0) : Arr 50000 128) = W0) (h1 : (V c (Pipeline.arrRef spec3 1) : Arr 50000 128) = W1) (h2 : (V c (Pipeline.arrRef spec3 2) : Arr 50000 128) = W2)
    (h3 : (V c (Pipeline.arrRef spec3 3) : Arr 128 128) = W3) (h4 : (V c (Pipeline.arrRef spec3 4) : Arr 1 128) = W4) (h5 : (V c (Pipeline.arrRef spec3 5) : Arr 1 128) = W5)
    (h6 : (V c (Pipeline.arrRef spec3 6) : Arr 1 128) = W6) (h7 : (V c (Pipeline.arrRef spec3 7) : Arr 1 128) = W7) (h8 : (V c (Pipeline.arrRef spec3 8) : Arr 128 40) = W8) (h9 : (V c (Pipeline.arrRef spec3 9) : Arr 1 40) = W9) :
    ((dat3 V c).arrAt 10 cfg3.N : Arr 50000 40) = headArr W8 W9 (addArr W2 (layerArr W3 W4 W5 W6 W7 W0 W1)) := by
  subst h0 h1 h2 h3 h4 h5 h6 h7 h8 h9
  exact KArr.arr3_10 V c (fun x a s q => headRow (mat (V c (Pipeline.arrRef spec3 8) : Arr 128 40)) (row1 (V c (Pipeline.arrRef spec3 9) : Arr 1 40)) (fun k => s k + layerRow (mat (V c (Pipeline.arrRef spec3 3) : Arr 128 128)) (row1 (V c (Pipeline.arrRef spec3 4) : Arr 1 128)) (row1 (V c (Pipeline.arrRef spec3 5) : Arr 1 128)) (row1 (V c (Pipeline.arrRef spec3 6) : Arr 1 128)) (row1 (V c (Pipeline.arrRef spec3 7) : Arr 1 128)) x a k) q)
    (fun x0 x1 x2 p q => KRows.out3_10_row x0 x1 x2 _ _ _ _ _ _ _ p q)

end Regions

variable (m : (ℓ : Loc nD τ sig) → Buf (Elt Ideal) ℓ) (ρ : Dev nD → PrngReg) (c : Dev nD)

/-- After region 0: the first products. -/
theorem k0 : (W2 m ρ c (Proc.devRef .tc main_v18) : Arr 50000 128)
    = dotArr (Stages.matOf (m ((c.tc : Thread nD τ).loc main_arg2)) ![0, 0, 0] Cert.ReferenceIdeal.Facts₀.slices_S3x128x128_S1x128x128_0_0_0) (m ((c.tc : Thread nD τ).loc main_arg0)) :=
  (W2_arr m ρ c 2).trans (reg0 (V1 m ρ) c (in0_0 m ρ c) (in0_1 m ρ c))

/-- The aggregate the first layer is entered with. -/
theorem a0 : (V3 m ρ c (Pipeline.arrRef spec1 1) : Arr 50000 128)
    = Net.aggN (m ((c.tc : Thread nD τ).loc main_arg1)) (dotArr (Stages.matOf (m ((c.tc : Thread nD τ).loc main_arg2)) ![0, 0, 0] Cert.ReferenceIdeal.Facts₀.slices_S3x128x128_S1x128x128_0_0_0) (m ((c.tc : Thread nD τ).loc main_arg0))) :=
  (in1_1 m ρ c).trans (congrArg (Stages.agg (Stages.srcRow (m ((c.tc : Thread nD τ).loc main_arg1))) (Stages.dstRow (m ((c.tc : Thread nD τ).loc main_arg1))) (Stages.dinv (Stages.dstRow (m ((c.tc : Thread nD τ).loc main_arg1))))) (k0 m ρ c))

/-- After region 1: layer 0's rows, the running sum, the next products. -/
theorem k1_0 : (W4 m ρ c (Proc.devRef .tc main_v71_0) : Arr 50000 128) = (Net.r1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W4_arr m ρ c 9).trans (reg1_9 (V3 m ρ) c (in1_0 m ρ c) (a0 m ρ c) (in1_3 m ρ c) (in1_4 m ρ c) (in1_5 m ρ c) (in1_6 m ρ c) (in1_7 m ρ c))

theorem k1_1 : (W4 m ρ c (Proc.devRef .tc main_v71_1) : Arr 50000 128) = addArr (Stages.zeros (F := Ideal)) (Net.r1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W4_arr m ρ c 10).trans (reg1_10 (V3 m ρ) c (in1_0 m ρ c) (a0 m ρ c) (in1_2 m ρ c) (in1_3 m ρ c) (in1_4 m ρ c) (in1_5 m ρ c) (in1_6 m ρ c) (in1_7 m ρ c))

theorem k1_2 : (W4 m ρ c (Proc.devRef .tc main_v71_2) : Arr 50000 128)
    = dotArr (Stages.matOf (m ((c.tc : Thread nD τ).loc main_arg2)) ![1, 0, 0] Cert.ReferenceIdeal.Facts₀.slices_S3x128x128_S1x128x128_1_0_0) (Net.r1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W4_arr m ρ c 11).trans (reg1_11 (V3 m ρ) c (in1_0 m ρ c) (a0 m ρ c) (in1_3 m ρ c) (in1_4 m ρ c) (in1_5 m ρ c) (in1_6 m ρ c) (in1_7 m ρ c) (in1_8 m ρ c))

/-- The aggregate the second layer is entered with. -/
theorem a1 : (V5 m ρ c (Pipeline.arrRef spec2 1) : Arr 50000 128)
    = Net.aggN (m ((c.tc : Thread nD τ).loc main_arg1)) (dotArr (Stages.matOf (m ((c.tc : Thread nD τ).loc main_arg2)) ![1, 0, 0] Cert.ReferenceIdeal.Facts₀.slices_S3x128x128_S1x128x128_1_0_0) (Net.r1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128)) :=
  (in2_1 m ρ c).trans (congrArg (Stages.agg (Stages.srcRow (m ((c.tc : Thread nD τ).loc main_arg1))) (Stages.dstRow (m ((c.tc : Thread nD τ).loc main_arg1))) (Stages.dinv (Stages.dstRow (m ((c.tc : Thread nD τ).loc main_arg1))))) (k1_2 m ρ c))

/-- After region 2. -/
theorem k2_0 : (W6 m ρ c (Proc.devRef .tc main_v123_0) : Arr 50000 128) = (Net.r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W6_arr m ρ c 9).trans (reg2_9 (V5 m ρ) c ((in2_0 m ρ c).trans (k1_0 m ρ c)) (a1 m ρ c) (in2_3 m ρ c) (in2_4 m ρ c) (in2_5 m ρ c) (in2_6 m ρ c) (in2_7 m ρ c))

theorem k2_1 : (W6 m ρ c (Proc.devRef .tc main_v123_1) : Arr 50000 128)
    = addArr (addArr (Stages.zeros (F := Ideal)) (Net.r1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128)) (Net.r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W6_arr m ρ c 10).trans (reg2_10 (V5 m ρ) c ((in2_0 m ρ c).trans (k1_0 m ρ c)) (a1 m ρ c) ((in2_2 m ρ c).trans (k1_1 m ρ c)) (in2_3 m ρ c) (in2_4 m ρ c) (in2_5 m ρ c) (in2_6 m ρ c) (in2_7 m ρ c))

theorem k2_2 : (W6 m ρ c (Proc.devRef .tc main_v123_2) : Arr 50000 128)
    = dotArr (Stages.matOf (m ((c.tc : Thread nD τ).loc main_arg2)) ![2, 0, 0] Cert.ReferenceIdeal.Facts₀.slices_S3x128x128_S1x128x128_2_0_0) (Net.r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128) :=
  (W6_arr m ρ c 11).trans (reg2_11 (V5 m ρ) c ((in2_0 m ρ c).trans (k1_0 m ρ c)) (a1 m ρ c) (in2_3 m ρ c) (in2_4 m ρ c) (in2_5 m ρ c) (in2_6 m ρ c) (in2_7 m ρ c) (in2_8 m ρ c))

/-- The aggregate the last layer is entered with. -/
theorem a2 : (V7 m ρ c (Pipeline.arrRef spec3 1) : Arr 50000 128)
    = Net.aggN (m ((c.tc : Thread nD τ).loc main_arg1)) (dotArr (Stages.matOf (m ((c.tc : Thread nD τ).loc main_arg2)) ![2, 0, 0] Cert.ReferenceIdeal.Facts₀.slices_S3x128x128_S1x128x128_2_0_0) (Net.r2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) Gen.shapeCasts_S128_S1x128)) :=
  (in3_1 m ρ c).trans (congrArg (Stages.agg (Stages.srcRow (m ((c.tc : Thread nD τ).loc main_arg1))) (Stages.dstRow (m ((c.tc : Thread nD τ).loc main_arg1))) (Stages.dinv (Stages.dstRow (m ((c.tc : Thread nD τ).loc main_arg1))))) (k2_2 m ρ c))

/-- The program's result is the network of the argument arrays. -/
theorem value : (W8 m ρ c (Proc.devRef .tc main_v174) : Arr 50000 40)
    = Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) Gen.shapeCasts_S128_S1x128 Gen.shapeCasts_S40_S1x40 :=
  (W8_arr m ρ c 10).trans (reg3 (V7 m ρ) c ((in3_0 m ρ c).trans (k2_0 m ρ c)) (a2 m ρ c) ((in3_2 m ρ c).trans (k2_1 m ρ c)) (in3_3 m ρ c) (in3_4 m ρ c) (in3_5 m ρ c) (in3_6 m ρ c) (in3_7 m ρ c) (in3_8 m ρ c) (in3_9 m ρ c))

end Cert.KValue

end
-- ==== Proof.RefRun.lean ====
/- The reference program's run. @main of the reference is a straight line of 354 host operations once its calls
   (the variance, its select, the rectifier: three times each) are unfolded at their sites over each call's own
   buffers; operation number i (from 0) writes the HBM buffer of index 10 + i, the ten arguments being buffers 0 … 9.
   The line is cut where the value proof reads it: before the layers (`opsPre`), one segment per layer
   (`opsL0`, `opsL1`, `opsL2`), and the output projection (`opsOut`). Every weakly fair execution terminates with
   each buffer at the fold of the operations' results over its launch contents (`run`); no operation writes an
   argument (`frame`). -/
import proofs.«177108_j26465588478228_2_alg».proof.Proof.Gen.ReferenceIdeal
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order

Thirty consecutive pieces `k0 … k29`. A piece ends at each buffer the value proof reads the run at (the edge rows, the
inverse square-root degree, and per layer the product, the aggregate, the sum before normalisation, the mean and variance
columns, the layer's output and the running sum), and where the printed program is cut into its five windows: each
window, each segment and each stretch between two such buffers is a concatenation of pieces. -/

/-- Operations main_v0 … main_v1 (2). -/
abbrev k0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000 ]

/-- Operations main_v2 … main_v3 (2). -/
abbrev k1 : List (HloOp τ sig (Elt F)) :=
  [ StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- Operations main_cst … main_v15 (17). -/
abbrev k2 : List (HloOp τ sig (Elt F)) :=
  [ StableHlo.nullary main_cst (constant S_ .f32 0x00000000#32),
    StableHlo.unary main_cst main_v4 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v5 (broadcastInDim S600000 ![] bcast_S_S600000 : (⟨S_, .i32⟩ : BufTy).Contents (Elt F) → (⟨S600000, .i32⟩ : BufTy).Contents (Elt F)),
    StableHlo.binary main_v3 main_v5 main_v6 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v7 (broadcastInDim S600000 ![] bcast_S_S600000 : (⟨S_, .i32⟩ : BufTy).Contents (Elt F) → (⟨S600000, .i32⟩ : BufTy).Contents (Elt F)),
    StableHlo.binary main_v3 main_v7 main_v8 (addi : (⟨S600000, .i32⟩ : BufTy).Contents (Elt F) → (⟨S600000, .i32⟩ : BufTy).Contents (Elt F) → (⟨S600000, .i32⟩ : BufTy).Contents (Elt F)),
    StableHlo.ternary main_v6 main_v8 main_v3 main_v9 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v9 main_v10 (broadcastInDim S600000x1 ![0] bcast_S600000_S600000x1_0 : (⟨S600000, .i32⟩ : BufTy).Contents (Elt F) → (⟨S600000x1, .i32⟩ : BufTy).Contents (Elt F)),
    StableHlo.nullary main_cst_1 (constant S_ .f32 0x3F800000#32),
    StableHlo.unary main_cst_1 main_v11 (broadcastInDim S600000 ![] bcast_S_S600000 : (⟨S_, .f32⟩ : BufTy).Contents (Elt F) → (⟨S600000, .f32⟩ : BufTy).Contents (Elt F)),
    StableHlo.ternary main_v4 main_v10 main_v11 main_v12 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_2 (constant S_ .f32 0x3F800000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v12 main_v13 main_v14 (addf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)) ]

/-- Operations main_cst_3 … main_v16 (2). -/
abbrev k3 : List (HloOp τ sig (Elt F)) :=
  [ StableHlo.nullary main_cst_3 (constant S_ .f32 0x00000000#32),
    StableHlo.unary main_cst_3 main_v16 (broadcastInDim S50000x128 ![] bcast_S_S50000x128 : (⟨S_, .f32⟩ : BufTy).Contents (Elt F) → (⟨S50000x128, .f32⟩ : BufTy).Contents (Elt F)) ]

/-- Operations main_v17 … main_v19 (3). -/
abbrev k4 : List (HloOp τ sig (Elt F)) :=
  [ StableHlo.unary main_arg2 main_v17 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v17 main_v18 rfl shapeCasts_S1x128x128_S128x128,
    StableHlo.binary main_arg0 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations main_c_4 … main_v46 (34). -/
abbrev k5 : List (HloOp τ sig (Elt F)) :=
  [ StableHlo.nullary main_c_4 (constantI S_ 32 0#32),
    StableHlo.unary main_c_4 main_v20 (broadcastInDim S600000 ![] bcast_S_S600000 : (⟨S_, .i32⟩ : BufTy).Contents (Elt F) → (⟨S600000, .i32⟩ : BufTy).Contents (Elt F)),
    StableHlo.binary main_v1 main_v20 main_v21 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v22 (broadcastInDim S600000 ![] bcast_S_S600000 : (⟨S_, .i32⟩ : BufTy).Contents (Elt F) → (⟨S600000, .i32⟩ : BufTy).Contents (Elt F)),
    StableHlo.binary main_v1 main_v22 main_v23 (addi : (⟨S600000, .i32⟩ : BufTy).Contents (Elt F) → (⟨S600000, .i32⟩ : BufTy).Contents (Elt F) → (⟨S600000, .i32⟩ : BufTy).Contents (Elt F)),
    StableHlo.ternary main_v21 main_v23 main_v1 main_v24 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v24 main_v25 (broadcastInDim S600000x1 ![0] bcast_S600000_S600000x1_0 : (⟨S600000, .i32⟩ : BufTy).Contents (Elt F) → (⟨S600000x1, .i32⟩ : BufTy).Contents (Elt F)),
    StableHlo.binary main_v15 main_v25 main_v26 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_6 (constantI S_ 32 0#32),
    StableHlo.unary main_c_6 main_v27 (broadcastInDim S600000 ![] bcast_S_S600000 : (⟨S_, .i32⟩ : BufTy).Contents (Elt F) → (⟨S600000, .i32⟩ : BufTy).Contents (Elt F)),
    StableHlo.binary main_v3 main_v27 main_v28 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v29 (broadcastInDim S600000 ![] bcast_S_S600000 : (⟨S_, .i32⟩ : BufTy).Contents (Elt F) → (⟨S600000, .i32⟩ : BufTy).Contents (Elt F)),
    StableHlo.binary main_v3 main_v29 main_v30 (addi : (⟨S600000, .i32⟩ : BufTy).Contents (Elt F) → (⟨S600000, .i32⟩ : BufTy).Contents (Elt F) → (⟨S600000, .i32⟩ : BufTy).Contents (Elt F)),
    StableHlo.ternary main_v28 main_v30 main_v3 main_v31 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v31 main_v32 (broadcastInDim S600000x1 ![0] bcast_S600000_S600000x1_0 : (⟨S600000, .i32⟩ : BufTy).Contents (Elt F) → (⟨S600000x1, .i32⟩ : BufTy).Contents (Elt F)),
    StableHlo.binary main_v15 main_v32 main_v33 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v26 main_v33 main_v34 (mulf : (⟨S600000, .f32⟩ : BufTy).Contents (Elt F) → (⟨S600000, .f32⟩ : BufTy).Contents (Elt F) → (⟨S600000, .f32⟩ : BufTy).Contents (Elt F)),
    StableHlo.unary main_v34 main_v35 (broadcastInDim S600000x1 ![0] bcast_S600000_S600000x1_0 : (⟨S600000, .f32⟩ : BufTy).Contents (Elt F) → (⟨S600000x1, .f32⟩ : BufTy).Contents (Elt F)),
    StableHlo.nullary main_c_8 (constantI S_ 32 0#32),
    StableHlo.unary main_c_8 main_v36 (broadcastInDim S600000 ![] bcast_S_S600000 : (⟨S_, .i32⟩ : BufTy).Contents (Elt F) → (⟨S600000, .i32⟩ : BufTy).Contents (Elt F)),
    StableHlo.binary main_v1 main_v36 main_v37 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v38 (broadcastInDim S600000 ![] bcast_S_S600000 : (⟨S_, .i32⟩ : BufTy).Contents (Elt F) → (⟨S600000, .i32⟩ : BufTy).Contents (Elt F)),
    StableHlo.binary main_v1 main_v38 main_v39 (addi : (⟨S600000, .i32⟩ : BufTy).Contents (Elt F) → (⟨S600000, .i32⟩ : BufTy).Contents (Elt F) → (⟨S600000, .i32⟩ : BufTy).Contents (Elt F)),
    StableHlo.ternary main_v37 main_v39 main_v1 main_v40 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v40 main_v41 (broadcastInDim S600000x1 ![0] bcast_S600000_S600000x1_0 : (⟨S600000, .i32⟩ : BufTy).Contents (Elt F) → (⟨S600000x1, .i32⟩ : BufTy).Contents (Elt F)),
    StableHlo.binary main_v19 main_v41 main_v42 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v35 main_v43 (broadcastInDim S600000x128 ![0, 1] bcast_S600000x1_S600000x128_0_1 : (⟨S600000x1, .f32⟩ : BufTy).Contents (Elt F) → (⟨S600000x128, .f32⟩ : BufTy).Contents (Elt F)),
    StableHlo.binary main_v42 main_v43 main_v44 (mulf : (⟨S600000x128, .f32⟩ : BufTy).Contents (Elt F) → (⟨S600000x128, .f32⟩ : BufTy).Contents (Elt F) → (⟨S600000x128, .f32⟩ : BufTy).Contents (Elt F)),
    StableHlo.nullary main_cst_10 (constant S_ .f32 0x00000000#32),
    StableHlo.unary main_cst_10 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S600000x1 ![0] bcast_S600000_S600000x1_0 : (⟨S600000, .i32⟩ : BufTy).Contents (Elt F) → (⟨S600000x1, .i32⟩ : BufTy).Contents (Elt F)) ]

/-- Operations main_v47 … main_v52 (6). -/
abbrev k6 : List (HloOp τ sig (Elt F)) :=
  [ StableHlo.ternary main_v45 main_v46 main_v44 main_v47 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v15 main_v15 main_v48 (mulf : (⟨S50000, .f32⟩ : BufTy).Contents (Elt F) → (⟨S50000, .f32⟩ : BufTy).Contents (Elt F) → (⟨S50000, .f32⟩ : BufTy).Contents (Elt F)),
    StableHlo.unary main_v48 main_v49 (broadcastInDim S50000x1 ![0] bcast_S50000_S50000x1_0 : (⟨S50000, .f32⟩ : BufTy).Contents (Elt F) → (⟨S50000x1, .f32⟩ : BufTy).Contents (Elt F)),
    StableHlo.unary main_v49 main_v50 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v50 main_v51 (mulf : (⟨S50000x128, .f32⟩ : BufTy).Contents (Elt F) → (⟨S50000x128, .f32⟩ : BufTy).Contents (Elt F) → (⟨S50000x128, .f32⟩ : BufTy).Contents (Elt F)),
    StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)) ]

/-- Operations main_v53 … main_v66 (14). -/
abbrev k7 : List (HloOp τ sig (Elt F)) :=
  [ StableHlo.unary main_arg3 main_v53 ((extractStridedSlice S1x128 ![0, 0] · slices_S3x128_S1x128_0_0) : (⟨S3x128, .f32⟩ : BufTy).Contents (Elt F) → (⟨S1x128, .f32⟩ : BufTy).Contents (Elt F)),
    StableHlo.reshape main_v53 main_v54 rfl shapeCasts_S1x128_S128,
    StableHlo.unary main_v54 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v56 main_v57 (addf : (⟨S50000x128, .f32⟩ : BufTy).Contents (Elt F) → (⟨S50000x128, .f32⟩ : BufTy).Contents (Elt F) → (⟨S50000x128, .f32⟩ : BufTy).Contents (Elt F)),
    StableHlo.unary main_arg4 main_v58 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v58 main_v59 rfl shapeCasts_S1x128x128_S128x128,
    StableHlo.binary main_arg0 main_v59 main_v60 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v57 main_v60 main_v61 (addf : (⟨S50000x128, .f32⟩ : BufTy).Contents (Elt F) → (⟨S50000x128, .f32⟩ : BufTy).Contents (Elt F) → (⟨S50000x128, .f32⟩ : BufTy).Contents (Elt F)),
    StableHlo.unary main_arg5 main_v62 ((extractStridedSlice S1x128 ![0, 0] · slices_S3x128_S1x128_0_0) : (⟨S3x128, .f32⟩ : BufTy).Contents (Elt F) → (⟨S1x128, .f32⟩ : BufTy).Contents (Elt F)),
    StableHlo.reshape main_v62 main_v63 rfl shapeCasts_S1x128_S128,
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v65 main_v66 (addf : (⟨S50000x128, .f32⟩ : BufTy).Contents (Elt F) → (⟨S50000x128, .f32⟩ : BufTy).Contents (Elt F) → (⟨S50000x128, .f32⟩ : BufTy).Contents (Elt F)) ]

/-- Operations main_cst_11 … main_v70 (6). -/
abbrev k8 : List (HloOp τ sig (Elt F)) :=
  [ StableHlo.nullary main_cst_11 (constant S_ .f32 0x00000000#32),
    StableHlo.binary main_v66 main_cst_11 main_v67 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v67 main_v68 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43000000#32),
    StableHlo.unary main_cst_12 main_v69 (broadcastInDim S50000x1 ![] bcast_S_S50000x1 : (⟨S_, .f32⟩ : BufTy).Contents (Elt F) → (⟨S50000x1, .f32⟩ : BufTy).Contents (Elt F)),
    StableHlo.binary main_v68 main_v69 main_v70 (Host.divf : (⟨S50000x1, .f32⟩ : BufTy).Contents (Elt F) → (⟨S50000x1, .f32⟩ : BufTy).Contents (Elt F) → (⟨S50000x1, .f32⟩ : BufTy).Contents (Elt F)) ]

/-- Operations main_c_13 … main_v71 (24). -/
abbrev k9 : List (HloOp τ sig (Elt F)) :=
  [ StableHlo.nullary main_c_13 (constantI S_ 32 0#32),
    StableHlo.TRef.nullary main_call0.cst (constant S_ .f32 0x00000000#32),
    StableHlo.TRef.binary ((.of main_v66) : StableHlo.TRef sig ⟨S50000x128, .f32⟩) main_call0.cst main_call0.v0 (fun x v => Host.reduceAdd x v reducesTo_S50000x128_S50000_d1 h_S_),
    StableHlo.TRef.unary main_call0.v0 main_call0.v1 (broadcastInDim S50000x1 ![0] bcast_S50000_S50000x1_0),
    StableHlo.TRef.nullary main_call0.cst_0 (constant S_ .f32 0x43000000#32),
    StableHlo.TRef.unary main_call0.cst_0 main_call0.v2 (broadcastInDim S50000x1 ![] bcast_S_S50000x1),
    StableHlo.TRef.binary main_call0.v1 main_call0.v2 main_call0.v3 Host.divf,
    StableHlo.TRef.unary main_call0.v3 main_call0.v4 (broadcastInDim S50000x128 ![0, 1] bcast_S50000x1_S50000x128_0_1),
    StableHlo.TRef.binary ((.of main_v66) : StableHlo.TRef sig ⟨S50000x128, .f32⟩) main_call0.v4 main_call0.v5 subf,
    StableHlo.TRef.binary main_call0.v5 main_call0.v5 main_call0.v6 mulf,
    StableHlo.TRef.unary ((.of main_c_13) : StableHlo.TRef sig ⟨S_, .i32⟩) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S50000_d1 h_S_),
    StableHlo.TRef.unary main_call0.v9 main_call0.v10 (broadcastInDim S50000x1 ![0] bcast_S50000_S50000x1_0),
    StableHlo.TRef.unary main_call0.v8 main_call0.v11 (broadcastInDim S50000x1 ![] bcast_S_S50000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S50000x1 ![] bcast_S_S50000x1),
    StableHlo.TRef.ternary main_call0.v13 main_call0.v12 main_call0.call0.v1 main_call0.call0.v2 (fun p a b => select (broadcastInDim S50000x1 ![] bcast_S_S50000x1 p) a b) ]

/-- Operations main_v72 … main_v89 (21). -/
abbrev k10 : List (HloOp τ sig (Elt F)) :=
  [ StableHlo.unary main_v70 main_v72 (broadcastInDim S50000x128 ![0, 1] bcast_S50000x1_S50000x128_0_1 : (⟨S50000x1, .f32⟩ : BufTy).Contents (Elt F) → (⟨S50000x128, .f32⟩ : BufTy).Contents (Elt F)),
    StableHlo.binary main_v66 main_v72 main_v73 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v74 (broadcastInDim S50000x1 ![] bcast_S_S50000x1 : (⟨S_, .f32⟩ : BufTy).Contents (Elt F) → (⟨S50000x1, .f32⟩ : BufTy).Contents (Elt F)),
    StableHlo.binary main_v71 main_v74 main_v75 (addf : (⟨S50000x1, .f32⟩ : BufTy).Contents (Elt F) → (⟨S50000x1, .f32⟩ : BufTy).Contents (Elt F) → (⟨S50000x1, .f32⟩ : BufTy).Contents (Elt F)),
    StableHlo.unary main_v75 main_v76 (Host.rsqrt : (⟨S50000x1, .f32⟩ : BufTy).Contents (Elt F) → (⟨S50000x1, .f32⟩ : BufTy).Contents (Elt F)),
    StableHlo.unary main_v76 main_v77 (broadcastInDim S50000x128 ![0, 1] bcast_S50000x1_S50000x128_0_1 : (⟨S50000x1, .f32⟩ : BufTy).Contents (Elt F) → (⟨S50000x128, .f32⟩ : BufTy).Contents (Elt F)),
    StableHlo.binary main_v73 main_v77 main_v78 (mulf : (⟨S50000x128, .f32⟩ : BufTy).Contents (Elt F) → (⟨S50000x128, .f32⟩ : BufTy).Contents (Elt F) → (⟨S50000x128, .f32⟩ : BufTy).Contents (Elt F)),
    StableHlo.unary main_arg6 main_v79 ((extractStridedSlice S1x128 ![0, 0] · slices_S3x128_S1x128_0_0) : (⟨S3x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (mulf : (⟨S50000x128, .f32⟩ : BufTy).Contents (Elt F) → (⟨S50000x128, .f32⟩ : BufTy).Contents (Elt F) → (⟨S50000x128, .f32⟩ : BufTy).Contents (Elt F)),
    StableHlo.unary main_arg7 main_v84 ((extractStridedSlice S1x128 ![0, 0] · slices_S3x128_S1x128_0_0) : (⟨S3x128, .f32⟩ : BufTy).Contents (Elt F) → (⟨S1x128, .f32⟩ : BufTy).Contents (Elt F)),
    StableHlo.reshape main_v84 main_v85 rfl shapeCasts_S1x128_S128,
    StableHlo.unary main_v85 main_v86 (broadcastInDim S1x128 ![1] bcast_S128_S1x128_1 : (⟨S128, .f32⟩ : BufTy).Contents (Elt F) → (⟨S1x128, .f32⟩ : BufTy).Contents (Elt F)),
    StableHlo.unary main_v86 main_v87 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v87 main_v88 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary ((.of main_v88) : StableHlo.TRef sig ⟨S50000x128, .f32⟩) main_call1.v0 main_call1.v1 maximumf ]

/-- Operations main_v90 … main_v90 (1). -/
abbrev k11 : List (HloOp τ sig (Elt F)) :=
  [ StableHlo.binary main_v16 main_v89 main_v90 (addf : (⟨S50000x128, .f32⟩ : BufTy).Contents (Elt F) → (⟨S50000x128, .f32⟩ : BufTy).Contents (Elt F) → (⟨S50000x128, .f32⟩ : BufTy).Contents (Elt F)) ]

/-- Operations main_v91 … main_v93 (3). -/
abbrev k12 : List (HloOp τ sig (Elt F)) :=
  [ StableHlo.unary main_arg2 main_v91 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v91 main_v92 rfl shapeCasts_S1x128x128_S128x128,
    StableHlo.binary main_v89 main_v92 main_v93 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations main_c_15 … main_v100 (9). -/
abbrev k13 : List (HloOp τ sig (Elt F)) :=
  [ StableHlo.nullary main_c_15 (constantI S_ 32 0#32),
    StableHlo.unary main_c_15 main_v94 (broadcastInDim S600000 ![] bcast_S_S600000 : (⟨S_, .i32⟩ : BufTy).Contents (Elt F) → (⟨S600000, .i32⟩ : BufTy).Contents (Elt F)),
    StableHlo.binary main_v1 main_v94 main_v95 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 50000#32),
    StableHlo.unary main_c_16 main_v96 (broadcastInDim S600000 ![] bcast_S_S600000 : (⟨S_, .i32⟩ : BufTy).Contents (Elt F) → (⟨S600000, .i32⟩ : BufTy).Contents (Elt F)),
    StableHlo.binary main_v1 main_v96 main_v97 (addi : (⟨S600000, .i32⟩ : BufTy).Contents (Elt F) → (⟨S600000, .i32⟩ : BufTy).Contents (Elt F) → (⟨S600000, .i32⟩ : BufTy).Contents (Elt F)),
    StableHlo.ternary main_v95 main_v97 main_v1 main_v98 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v98 main_v99 (broadcastInDim S600000x1 ![0] bcast_S600000_S600000x1_0 : (⟨S600000, .i32⟩ : BufTy).Contents (Elt F) → (⟨S600000x1, .i32⟩ : BufTy).Contents (Elt F)),
    StableHlo.binary main_v15 main_v99 main_v100 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)) ]

/-- Operations main_c_17 … main_v126 (31). -/
abbrev k14 : List (HloOp τ sig (Elt F)) :=
  [ StableHlo.nullary main_c_17 (constantI S_ 32 0#32),
    StableHlo.unary main_c_17 main_v101 (broadcastInDim S600000 ![] bcast_S_S600000 : (⟨S_, .i32⟩ : BufTy).Contents (Elt F) → (⟨S600000, .i32⟩ : BufTy).Contents (Elt F)),
    StableHlo.binary main_v3 main_v101 main_v102 (cmpi .slt : (⟨S600000, .i32⟩ : BufTy).Contents (Elt F) → (⟨S600000, .i32⟩ : BufTy).Contents (Elt F) → (⟨S600000, .i1⟩ : BufTy).Contents (Elt F)),
    StableHlo.nullary main_c_18 (constantI S_ 32 50000#32),
    StableHlo.unary main_c_18 main_v103 (broadcastInDim S600000 ![] bcast_S_S600000 : (⟨S_, .i32⟩ : BufTy).Contents (Elt F) → (⟨S600000, .i32⟩ : BufTy).Contents (Elt F)),
    StableHlo.binary main_v3 main_v103 main_v104 (addi : (⟨S600000, .i32⟩ : BufTy).Contents (Elt F) → (⟨S600000, .i32⟩ : BufTy).Contents (Elt F) → (⟨S600000, .i32⟩ : BufTy).Contents (Elt F)),
    StableHlo.ternary main_v102 main_v104 main_v3 main_v105 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v105 main_v106 (broadcastInDim S600000x1 ![0] bcast_S600000_S600000x1_0 : (⟨S600000, .i32⟩ : BufTy).Contents (Elt F) → (⟨S600000x1, .i32⟩ : BufTy).Contents (Elt F)),
    StableHlo.binary main_v15 main_v106 main_v107 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v100 main_v107 main_v108 (mulf : (⟨S600000, .f32⟩ : BufTy).Contents (Elt F) → (⟨S600000, .f32⟩ : BufTy).Contents (Elt F) → (⟨S600000, .f32⟩ : BufTy).Contents (Elt F)),
    StableHlo.unary main_v108 main_v109 (broadcastInDim S600000x1 ![0] bcast_S600000_S600000x1_0 : (⟨S600000, .f32⟩ : BufTy).Contents (Elt F) → (⟨S600000x1, .f32⟩ : BufTy).Contents (Elt F)),
    StableHlo.nullary main_c_19 (constantI S_ 32 0#32),
    StableHlo.unary main_c_19 main_v110 (broadcastInDim S600000 ![] bcast_S_S600000 : (⟨S_, .i32⟩ : BufTy).Contents (Elt F) → (⟨S600000, .i32⟩ : BufTy).Contents (Elt F)),
    StableHlo.binary main_v1 main_v110 main_v111 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v112 (broadcastInDim S600000 ![] bcast_S_S600000 : (⟨S_, .i32⟩ : BufTy).Contents (Elt F) → (⟨S600000, .i32⟩ : BufTy).Contents (Elt F)),
    StableHlo.binary main_v1 main_v112 main_v113 (addi : (⟨S600000, .i32⟩ : BufTy).Contents (Elt F) → (⟨S600000, .i32⟩ : BufTy).Contents (Elt F) → (⟨S600000, .i32⟩ : BufTy).Contents (Elt F)),
    StableHlo.ternary main_v111 main_v113 main_v1 main_v114 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v114 main_v115 (broadcastInDim S600000x1 ![0] bcast_S600000_S600000x1_0 : (⟨S600000, .i32⟩ : BufTy).Contents (Elt F) → (⟨S600000x1, .i32⟩ : BufTy).Contents (Elt F)),
    StableHlo.binary main_v93 main_v115 main_v116 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v109 main_v117 (broadcastInDim S600000x128 ![0, 1] bcast_S600000x1_S600000x128_0_1 : (⟨S600000x1, .f32⟩ : BufTy).Contents (Elt F) → (⟨S600000x128, .f32⟩ : BufTy).Contents (Elt F)),
    StableHlo.binary main_v116 main_v117 main_v118 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v119 (broadcastInDim S50000x128 ![] bcast_S_S50000x128 : (⟨S_, .f32⟩ : BufTy).Contents (Elt F) → (⟨S50000x128, .f32⟩ : BufTy).Contents (Elt F)),
    StableHlo.unary main_v3 main_v120 (broadcastInDim S600000x1 ![0] bcast_S600000_S600000x1_0 : (⟨S600000, .i32⟩ : BufTy).Contents (Elt F) → (⟨S600000x1, .i32⟩ : BufTy).Contents (Elt F)),
    StableHlo.ternary main_v119 main_v120 main_v118 main_v121 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v15 main_v15 main_v122 (mulf : (⟨S50000, .f32⟩ : BufTy).Contents (Elt F) → (⟨S50000, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.unary main_v123 main_v124 (broadcastInDim S50000x128 ![0, 1] bcast_S50000x1_S50000x128_0_1 : (⟨S50000x1, .f32⟩ : BufTy).Contents (Elt F) → (⟨S50000x128, .f32⟩ : BufTy).Contents (Elt F)),
    StableHlo.binary main_v93 main_v124 main_v125 (mulf : (⟨S50000x128, .f32⟩ : BufTy).Contents (Elt F) → (⟨S50000x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)) ]

/-- Operations main_v127 … main_v140 (14). -/
abbrev k15 : List (HloOp τ sig (Elt F)) :=
  [ StableHlo.unary main_arg3 main_v127 ((extractStridedSlice S1x128 ![1, 0] · slices_S3x128_S1x128_1_0) : (⟨S3x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v130 main_v131 (addf : (⟨S50000x128, .f32⟩ : BufTy).Contents (Elt F) → (⟨S50000x128, .f32⟩ : BufTy).Contents (Elt F) → (⟨S50000x128, .f32⟩ : BufTy).Contents (Elt F)),
    StableHlo.unary main_arg4 main_v132 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v132 main_v133 rfl shapeCasts_S1x128x128_S128x128,
    StableHlo.binary main_v89 main_v133 main_v134 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v131 main_v134 main_v135 (addf : (⟨S50000x128, .f32⟩ : BufTy).Contents (Elt F) → (⟨S50000x128, .f32⟩ : BufTy).Contents (Elt F) → (⟨S50000x128, .f32⟩ : BufTy).Contents (Elt F)),
    StableHlo.unary main_arg5 main_v136 ((extractStridedSlice S1x128 ![1, 0] · slices_S3x128_S1x128_1_0) : (⟨S3x128, .f32⟩ : BufTy).Contents (Elt F) → (⟨S1x128, .f32⟩ : BufTy).Contents (Elt F)),
    StableHlo.reshape main_v136 main_v137 rfl shapeCasts_S1x128_S128,
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v139 main_v140 (addf : (⟨S50000x128, .f32⟩ : BufTy).Contents (Elt F) → (⟨S50000x128, .f32⟩ : BufTy).Contents (Elt F) → (⟨S50000x128, .f32⟩ : BufTy).Contents (Elt F)) ]

/-- Operations main_cst_22 … main_v144 (6). -/
abbrev k16 : List (HloOp τ sig (Elt F)) :=
  [ StableHlo.nullary main_cst_22 (constant S_ .f32 0x00000000#32),
    StableHlo.binary main_v140 main_cst_22 main_v141 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v141 main_v142 (broadcastInDim S50000x1 ![0] bcast_S50000_S50000x1_0 : (⟨S50000, .f32⟩ : BufTy).Contents (Elt F) → (⟨S50000x1, .f32⟩ : BufTy).Contents (Elt F)),
    StableHlo.nullary main_cst_23 (constant S_ .f32 0x43000000#32),
    StableHlo.unary main_cst_23 main_v143 (broadcastInDim S50000x1 ![] bcast_S_S50000x1 : (⟨S_, .f32⟩ : BufTy).Contents (Elt F) → (⟨S50000x1, .f32⟩ : BufTy).Contents (Elt F)),
    StableHlo.binary main_v142 main_v143 main_v144 (Host.divf : (⟨S50000x1, .f32⟩ : BufTy).Contents (Elt F) → (⟨S50000x1, .f32⟩ : BufTy).Contents (Elt F) → (⟨S50000x1, .f32⟩ : BufTy).Contents (Elt F)) ]

/-- Operations main_c_24 … main_v145 (24). -/
abbrev k17 : List (HloOp τ sig (Elt F)) :=
  [ StableHlo.nullary main_c_24 (constantI S_ 32 0#32),
    StableHlo.TRef.nullary main_call2.cst (constant S_ .f32 0x00000000#32),
    StableHlo.TRef.binary ((.of main_v140) : StableHlo.TRef sig ⟨S50000x128, .f32⟩) main_call2.cst main_call2.v0 (fun x v => Host.reduceAdd x v reducesTo_S50000x128_S50000_d1 h_S_),
    StableHlo.TRef.unary main_call2.v0 main_call2.v1 (broadcastInDim S50000x1 ![0] bcast_S50000_S50000x1_0),
    StableHlo.TRef.nullary main_call2.cst_0 (constant S_ .f32 0x43000000#32),
    StableHlo.TRef.unary main_call2.cst_0 main_call2.v2 (broadcastInDim S50000x1 ![] bcast_S_S50000x1),
    StableHlo.TRef.binary main_call2.v1 main_call2.v2 main_call2.v3 Host.divf,
    StableHlo.TRef.unary main_call2.v3 main_call2.v4 (broadcastInDim S50000x128 ![0, 1] bcast_S50000x1_S50000x128_0_1),
    StableHlo.TRef.binary ((.of main_v140) : StableHlo.TRef sig ⟨S50000x128, .f32⟩) main_call2.v4 main_call2.v5 subf,
    StableHlo.TRef.binary main_call2.v5 main_call2.v5 main_call2.v6 mulf,
    StableHlo.TRef.unary ((.of main_c_24) : StableHlo.TRef sig ⟨S_, .i32⟩) main_call2.v7 (sitofp .f32),
    StableHlo.TRef.nullary main_call2.cst_1 (constant S_ .f32 0x43000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S50000_d1 h_S_),
    StableHlo.TRef.unary main_call2.v9 main_call2.v10 (broadcastInDim S50000x1 ![0] bcast_S50000_S50000x1_0),
    StableHlo.TRef.unary main_call2.v8 main_call2.v11 (broadcastInDim S50000x1 ![] bcast_S_S50000x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S50000x1 ![] bcast_S_S50000x1),
    StableHlo.TRef.ternary main_call2.v13 main_call2.v12 main_call2.call0.v1 main_call2.call0.v2 (fun p a b => select (broadcastInDim S50000x1 ![] bcast_S_S50000x1 p) a b) ]

/-- Operations main_v146 … main_v151 (7). -/
abbrev k18 : List (HloOp τ sig (Elt F)) :=
  [ StableHlo.unary main_v144 main_v146 (broadcastInDim S50000x128 ![0, 1] bcast_S50000x1_S50000x128_0_1 : (⟨S50000x1, .f32⟩ : BufTy).Contents (Elt F) → (⟨S50000x128, .f32⟩ : BufTy).Contents (Elt F)),
    StableHlo.binary main_v140 main_v146 main_v147 (subf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v148 (broadcastInDim S50000x1 ![] bcast_S_S50000x1 : (⟨S_, .f32⟩ : BufTy).Contents (Elt F) → (⟨S50000x1, .f32⟩ : BufTy).Contents (Elt F)),
    StableHlo.binary main_v145 main_v148 main_v149 (addf : (⟨S50000x1, .f32⟩ : BufTy).Contents (Elt F) → (⟨S50000x1, .f32⟩ : BufTy).Contents (Elt F) → (⟨S50000x1, .f32⟩ : BufTy).Contents (Elt F)),
    StableHlo.unary main_v149 main_v150 (Host.rsqrt : (⟨S50000x1, .f32⟩ : BufTy).Contents (Elt F) → (⟨S50000x1, .f32⟩ : BufTy).Contents (Elt F)),
    StableHlo.unary main_v150 main_v151 (broadcastInDim S50000x128 ![0, 1] bcast_S50000x1_S50000x128_0_1 : (⟨S50000x1, .f32⟩ : BufTy).Contents (Elt F) → (⟨S50000x128, .f32⟩ : BufTy).Contents (Elt F)) ]

/-- Operations main_v152 … main_v163 (14). -/
abbrev k19 : List (HloOp τ sig (Elt F)) :=
  [ StableHlo.binary main_v147 main_v151 main_v152 (mulf : (⟨S50000x128, .f32⟩ : BufTy).Contents (Elt F) → (⟨S50000x128, .f32⟩ : BufTy).Contents (Elt F) → (⟨S50000x128, .f32⟩ : BufTy).Contents (Elt F)),
    StableHlo.unary main_arg6 main_v153 ((extractStridedSlice S1x128 ![1, 0] · slices_S3x128_S1x128_1_0) : (⟨S3x128, .f32⟩ : BufTy).Contents (Elt F) → (⟨S1x128, .f32⟩ : BufTy).Contents (Elt F)),
    StableHlo.reshape main_v153 main_v154 rfl shapeCasts_S1x128_S128,
    StableHlo.unary main_v154 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v156 main_v157 (mulf : (⟨S50000x128, .f32⟩ : BufTy).Contents (Elt F) → (⟨S50000x128, .f32⟩ : BufTy).Contents (Elt F) → (⟨S50000x128, .f32⟩ : BufTy).Contents (Elt F)),
    StableHlo.unary main_arg7 main_v158 ((extractStridedSlice S1x128 ![1, 0] · slices_S3x128_S1x128_1_0) : (⟨S3x128, .f32⟩ : BufTy).Contents (Elt F) → (⟨S1x128, .f32⟩ : BufTy).Contents (Elt F)),
    StableHlo.reshape main_v158 main_v159 rfl shapeCasts_S1x128_S128,
    StableHlo.unary main_v159 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S50000x128 ![0, 1] bcast_S1x128_S50000x128_0_1 : (⟨S1x128, .f32⟩ : BufTy).Contents (Elt F) → (⟨S50000x128, .f32⟩ : BufTy).Contents (Elt F)),
    StableHlo.binary main_v157 main_v161 main_v162 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary ((.of main_v162) : StableHlo.TRef sig ⟨S50000x128, .f32⟩) main_call3.v0 main_call3.v1 maximumf ]

/-- Operations main_v164 … main_v164 (1). -/
abbrev k20 : List (HloOp τ sig (Elt F)) :=
  [ StableHlo.binary main_v90 main_v163 main_v164 (addf : (⟨S50000x128, .f32⟩ : BufTy).Contents (Elt F) → (⟨S50000x128, .f32⟩ : BufTy).Contents (Elt F) → (⟨S50000x128, .f32⟩ : BufTy).Contents (Elt F)) ]

/-- Operations main_v165 … main_v167 (3). -/
abbrev k21 : List (HloOp τ sig (Elt F)) :=
  [ StableHlo.unary main_arg2 main_v165 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v165 main_v166 rfl shapeCasts_S1x128x128_S128x128,
    StableHlo.binary main_v163 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations main_c_26 … main_v200 (40). -/
abbrev k22 : List (HloOp τ sig (Elt F)) :=
  [ StableHlo.nullary main_c_26 (constantI S_ 32 0#32),
    StableHlo.unary main_c_26 main_v168 (broadcastInDim S600000 ![] bcast_S_S600000 : (⟨S_, .i32⟩ : BufTy).Contents (Elt F) → (⟨S600000, .i32⟩ : BufTy).Contents (Elt F)),
    StableHlo.binary main_v1 main_v168 main_v169 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v170 (broadcastInDim S600000 ![] bcast_S_S600000 : (⟨S_, .i32⟩ : BufTy).Contents (Elt F) → (⟨S600000, .i32⟩ : BufTy).Contents (Elt F)),
    StableHlo.binary main_v1 main_v170 main_v171 (addi : (⟨S600000, .i32⟩ : BufTy).Contents (Elt F) → (⟨S600000, .i32⟩ : BufTy).Contents (Elt F) → (⟨S600000, .i32⟩ : BufTy).Contents (Elt F)),
    StableHlo.ternary main_v169 main_v171 main_v1 main_v172 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v172 main_v173 (broadcastInDim S600000x1 ![0] bcast_S600000_S600000x1_0 : (⟨S600000, .i32⟩ : BufTy).Contents (Elt F) → (⟨S600000x1, .i32⟩ : BufTy).Contents (Elt F)),
    StableHlo.binary main_v15 main_v173 main_v174 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_28 (constantI S_ 32 0#32),
    StableHlo.unary main_c_28 main_v175 (broadcastInDim S600000 ![] bcast_S_S600000 : (⟨S_, .i32⟩ : BufTy).Contents (Elt F) → (⟨S600000, .i32⟩ : BufTy).Contents (Elt F)),
    StableHlo.binary main_v3 main_v175 main_v176 (cmpi .slt : (⟨S600000, .i32⟩ : BufTy).Contents (Elt F) → (⟨S600000, .i32⟩ : BufTy).Contents (Elt F) → (⟨S600000, .i1⟩ : BufTy).Contents (Elt F)),
    StableHlo.nullary main_c_29 (constantI S_ 32 50000#32),
    StableHlo.unary main_c_29 main_v177 (broadcastInDim S600000 ![] bcast_S_S600000 : (⟨S_, .i32⟩ : BufTy).Contents (Elt F) → (⟨S600000, .i32⟩ : BufTy).Contents (Elt F)),
    StableHlo.binary main_v3 main_v177 main_v178 (addi : (⟨S600000, .i32⟩ : BufTy).Contents (Elt F) → (⟨S600000, .i32⟩ : BufTy).Contents (Elt F) → (⟨S600000, .i32⟩ : BufTy).Contents (Elt F)),
    StableHlo.ternary main_v176 main_v178 main_v3 main_v179 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v179 main_v180 (broadcastInDim S600000x1 ![0] bcast_S600000_S600000x1_0 : (⟨S600000, .i32⟩ : BufTy).Contents (Elt F) → (⟨S600000x1, .i32⟩ : BufTy).Contents (Elt F)),
    StableHlo.binary main_v15 main_v180 main_v181 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v174 main_v181 main_v182 (mulf : (⟨S600000, .f32⟩ : BufTy).Contents (Elt F) → (⟨S600000, .f32⟩ : BufTy).Contents (Elt F) → (⟨S600000, .f32⟩ : BufTy).Contents (Elt F)),
    StableHlo.unary main_v182 main_v183 (broadcastInDim S600000x1 ![0] bcast_S600000_S600000x1_0 : (⟨S600000, .f32⟩ : BufTy).Contents (Elt F) → (⟨S600000x1, .f32⟩ : BufTy).Contents (Elt F)),
    StableHlo.nullary main_c_30 (constantI S_ 32 0#32),
    StableHlo.unary main_c_30 main_v184 (broadcastInDim S600000 ![] bcast_S_S600000 : (⟨S_, .i32⟩ : BufTy).Contents (Elt F) → (⟨S600000, .i32⟩ : BufTy).Contents (Elt F)),
    StableHlo.binary main_v1 main_v184 main_v185 (cmpi .slt : (⟨S600000, .i32⟩ : BufTy).Contents (Elt F) → (⟨S600000, .i32⟩ : BufTy).Contents (Elt F) → (⟨S600000, .i1⟩ : BufTy).Contents (Elt F)),
    StableHlo.nullary main_c_31 (constantI S_ 32 50000#32),
    StableHlo.unary main_c_31 main_v186 (broadcastInDim S600000 ![] bcast_S_S600000 : (⟨S_, .i32⟩ : BufTy).Contents (Elt F) → (⟨S600000, .i32⟩ : BufTy).Contents (Elt F)),
    StableHlo.binary main_v1 main_v186 main_v187 (addi : (⟨S600000, .i32⟩ : BufTy).Contents (Elt F) → (⟨S600000, .i32⟩ : BufTy).Contents (Elt F) → (⟨S600000, .i32⟩ : BufTy).Contents (Elt F)),
    StableHlo.ternary main_v185 main_v187 main_v1 main_v188 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v188 main_v189 (broadcastInDim S600000x1 ![0] bcast_S600000_S600000x1_0 : (⟨S600000, .i32⟩ : BufTy).Contents (Elt F) → (⟨S600000x1, .i32⟩ : BufTy).Contents (Elt F)),
    StableHlo.binary main_v167 main_v189 main_v190 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_v183 main_v191 (broadcastInDim S600000x128 ![0, 1] bcast_S600000x1_S600000x128_0_1 : (⟨S600000x1, .f32⟩ : BufTy).Contents (Elt F) → (⟨S600000x128, .f32⟩ : BufTy).Contents (Elt F)),
    StableHlo.binary main_v190 main_v191 main_v192 (mulf : (⟨S600000x128, .f32⟩ : BufTy).Contents (Elt F) → (⟨S600000x128, .f32⟩ : BufTy).Contents (Elt F) → (⟨S600000x128, .f32⟩ : BufTy).Contents (Elt F)),
    StableHlo.nullary main_cst_32 (constant S_ .f32 0x00000000#32),
    StableHlo.unary main_cst_32 main_v193 (broadcastInDim S50000x128 ![] bcast_S_S50000x128 : (⟨S_, .f32⟩ : BufTy).Contents (Elt F) → (⟨S50000x128, .f32⟩ : BufTy).Contents (Elt F)),
    StableHlo.unary main_v3 main_v194 (broadcastInDim S600000x1 ![0] bcast_S600000_S600000x1_0 : (⟨S600000, .i32⟩ : BufTy).Contents (Elt F) → (⟨S600000x1, .i32⟩ : BufTy).Contents (Elt F)),
    StableHlo.ternary main_v193 main_v194 main_v192 main_v195 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v15 main_v15 main_v196 (mulf : (⟨S50000, .f32⟩ : BufTy).Contents (Elt F) → (⟨S50000, .f32⟩ : BufTy).Contents (Elt F) → (⟨S50000, .f32⟩ : BufTy).Contents (Elt F)),
    StableHlo.unary main_v196 main_v197 (broadcastInDim S50000x1 ![0] bcast_S50000_S50000x1_0 : (⟨S50000, .f32⟩ : BufTy).Contents (Elt F) → (⟨S50000x1, .f32⟩ : BufTy).Contents (Elt F)),
    StableHlo.unary main_v197 main_v198 (broadcastInDim S50000x128 ![0, 1] bcast_S50000x1_S50000x128_0_1 : (⟨S50000x1, .f32⟩ : BufTy).Contents (Elt F) → (⟨S50000x128, .f32⟩ : BufTy).Contents (Elt F)),
    StableHlo.binary main_v167 main_v198 main_v199 (mulf : (⟨S50000x128, .f32⟩ : BufTy).Contents (Elt F) → (⟨S50000x128, .f32⟩ : BufTy).Contents (Elt F) → (⟨S50000x128, .f32⟩ : BufTy).Contents (Elt F)),
    StableHlo.binary main_v195 main_v199 main_v200 (addf : (⟨S50000x128, .f32⟩ : BufTy).Contents (Elt F) → (⟨S50000x128, .f32⟩ : BufTy).Contents (Elt F) → (⟨S50000x128, .f32⟩ : BufTy).Contents (Elt F)) ]

/-- Operations main_v201 … main_v204 (4). -/
abbrev k23 : List (HloOp τ sig (Elt F)) :=
  [ StableHlo.unary main_arg3 main_v201 ((extractStridedSlice S1x128 ![2, 0] · slices_S3x128_S1x128_2_0) : (⟨S3x128, .f32⟩ : BufTy).Contents (Elt F) → (⟨S1x128, .f32⟩ : BufTy).Contents (Elt F)),
    StableHlo.reshape main_v201 main_v202 rfl shapeCasts_S1x128_S128,
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)) ]

/-- Operations main_v205 … main_v214 (10). -/
abbrev k24 : List (HloOp τ sig (Elt F)) :=
  [ StableHlo.binary main_v200 main_v204 main_v205 (addf : (⟨S50000x128, .f32⟩ : BufTy).Contents (Elt F) → (⟨S50000x128, .f32⟩ : BufTy).Contents (Elt F) → (⟨S50000x128, .f32⟩ : BufTy).Contents (Elt F)),
    StableHlo.unary main_arg4 main_v206 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v206 main_v207 rfl shapeCasts_S1x128x128_S128x128,
    StableHlo.binary main_v163 main_v207 main_v208 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v205 main_v208 main_v209 (addf : (⟨S50000x128, .f32⟩ : BufTy).Contents (Elt F) → (⟨S50000x128, .f32⟩ : BufTy).Contents (Elt F) → (⟨S50000x128, .f32⟩ : BufTy).Contents (Elt F)),
    StableHlo.unary main_arg5 main_v210 ((extractStridedSlice S1x128 ![2, 0] · slices_S3x128_S1x128_2_0) : (⟨S3x128, .f32⟩ : BufTy).Contents (Elt F) → (⟨S1x128, .f32⟩ : BufTy).Contents (Elt F)),
    StableHlo.reshape main_v210 main_v211 rfl shapeCasts_S1x128_S128,
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v209 main_v213 main_v214 (addf : (⟨S50000x128, .f32⟩ : BufTy).Contents (Elt F) → (⟨S50000x128, .f32⟩ : BufTy).Contents (Elt F) → (⟨S50000x128, .f32⟩ : BufTy).Contents (Elt F)) ]

/-- Operations main_cst_33 … main_v218 (6). -/
abbrev k25 : List (HloOp τ sig (Elt F)) :=
  [ StableHlo.nullary main_cst_33 (constant S_ .f32 0x00000000#32),
    StableHlo.binary main_v214 main_cst_33 main_v215 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v215 main_v216 (broadcastInDim S50000x1 ![0] bcast_S50000_S50000x1_0 : (⟨S50000, .f32⟩ : BufTy).Contents (Elt F) → (⟨S50000x1, .f32⟩ : BufTy).Contents (Elt F)),
    StableHlo.nullary main_cst_34 (constant S_ .f32 0x43000000#32),
    StableHlo.unary main_cst_34 main_v217 (broadcastInDim S50000x1 ![] bcast_S_S50000x1 : (⟨S_, .f32⟩ : BufTy).Contents (Elt F) → (⟨S50000x1, .f32⟩ : BufTy).Contents (Elt F)),
    StableHlo.binary main_v216 main_v217 main_v218 (Host.divf : (⟨S50000x1, .f32⟩ : BufTy).Contents (Elt F) → (⟨S50000x1, .f32⟩ : BufTy).Contents (Elt F) → (⟨S50000x1, .f32⟩ : BufTy).Contents (Elt F)) ]

/-- Operations main_c_35 … main_v219 (24). -/
abbrev k26 : List (HloOp τ sig (Elt F)) :=
  [ StableHlo.nullary main_c_35 (constantI S_ 32 0#32),
    StableHlo.TRef.nullary main_call4.cst (constant S_ .f32 0x00000000#32),
    StableHlo.TRef.binary ((.of main_v214) : StableHlo.TRef sig ⟨S50000x128, .f32⟩) main_call4.cst main_call4.v0 (fun x v => Host.reduceAdd x v reducesTo_S50000x128_S50000_d1 h_S_),
    StableHlo.TRef.unary main_call4.v0 main_call4.v1 (broadcastInDim S50000x1 ![0] bcast_S50000_S50000x1_0),
    StableHlo.TRef.nullary main_call4.cst_0 (constant S_ .f32 0x43000000#32),
    StableHlo.TRef.unary main_call4.cst_0 main_call4.v2 (broadcastInDim S50000x1 ![] bcast_S_S50000x1),
    StableHlo.TRef.binary main_call4.v1 main_call4.v2 main_call4.v3 Host.divf,
    StableHlo.TRef.unary main_call4.v3 main_call4.v4 (broadcastInDim S50000x128 ![0, 1] bcast_S50000x1_S50000x128_0_1),
    StableHlo.TRef.binary ((.of main_v214) : StableHlo.TRef sig ⟨S50000x128, .f32⟩) main_call4.v4 main_call4.v5 subf,
    StableHlo.TRef.binary main_call4.v5 main_call4.v5 main_call4.v6 mulf,
    StableHlo.TRef.unary ((.of main_c_35) : StableHlo.TRef sig ⟨S_, .i32⟩) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S50000_d1 h_S_),
    StableHlo.TRef.unary main_call4.v9 main_call4.v10 (broadcastInDim S50000x1 ![0] bcast_S50000_S50000x1_0),
    StableHlo.TRef.unary main_call4.v8 main_call4.v11 (broadcastInDim S50000x1 ![] bcast_S_S50000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S50000x1 ![] bcast_S_S50000x1),
    StableHlo.TRef.ternary main_call4.v13 main_call4.v12 main_call4.call0.v1 main_call4.call0.v2 (fun p a b => select (broadcastInDim S50000x1 ![] bcast_S_S50000x1 p) a b) ]

/-- Operations main_v220 … main_v237 (21). -/
abbrev k27 : List (HloOp τ sig (Elt F)) :=
  [ StableHlo.unary main_v218 main_v220 (broadcastInDim S50000x128 ![0, 1] bcast_S50000x1_S50000x128_0_1 : (⟨S50000x1, .f32⟩ : BufTy).Contents (Elt F) → (⟨S50000x128, .f32⟩ : BufTy).Contents (Elt F)),
    StableHlo.binary main_v214 main_v220 main_v221 (subf : (⟨S50000x128, .f32⟩ : BufTy).Contents (Elt F) → (⟨S50000x128, .f32⟩ : BufTy).Contents (Elt F) → (⟨S50000x128, .f32⟩ : BufTy).Contents (Elt F)),
    StableHlo.nullary main_cst_36 (constant S_ .f32 0x3727C5AC#32),
    StableHlo.unary main_cst_36 main_v222 (broadcastInDim S50000x1 ![] bcast_S_S50000x1 : (⟨S_, .f32⟩ : BufTy).Contents (Elt F) → (⟨S50000x1, .f32⟩ : BufTy).Contents (Elt F)),
    StableHlo.binary main_v219 main_v222 main_v223 (addf : (⟨S50000x1, .f32⟩ : BufTy).Contents (Elt F) → (⟨S50000x1, .f32⟩ : BufTy).Contents (Elt F) → (⟨S50000x1, .f32⟩ : BufTy).Contents (Elt F)),
    StableHlo.unary main_v223 main_v224 (Host.rsqrt : (⟨S50000x1, .f32⟩ : BufTy).Contents (Elt F) → (⟨S50000x1, .f32⟩ : BufTy).Contents (Elt F)),
    StableHlo.unary main_v224 main_v225 (broadcastInDim S50000x128 ![0, 1] bcast_S50000x1_S50000x128_0_1 : (⟨S50000x1, .f32⟩ : BufTy).Contents (Elt F) → (⟨S50000x128, .f32⟩ : BufTy).Contents (Elt F)),
    StableHlo.binary main_v221 main_v225 main_v226 (mulf : (⟨S50000x128, .f32⟩ : BufTy).Contents (Elt F) → (⟨S50000x128, .f32⟩ : BufTy).Contents (Elt F) → (⟨S50000x128, .f32⟩ : BufTy).Contents (Elt F)),
    StableHlo.unary main_arg6 main_v227 ((extractStridedSlice S1x128 ![2, 0] · slices_S3x128_S1x128_2_0) : (⟨S3x128, .f32⟩ : BufTy).Contents (Elt F) → (⟨S1x128, .f32⟩ : BufTy).Contents (Elt F)),
    StableHlo.reshape main_v227 main_v228 rfl shapeCasts_S1x128_S128,
    StableHlo.unary main_v228 main_v229 (broadcastInDim S1x128 ![1] bcast_S128_S1x128_1 : (⟨S128, .f32⟩ : BufTy).Contents (Elt F) → (⟨S1x128, .f32⟩ : BufTy).Contents (Elt F)),
    StableHlo.unary main_v229 main_v230 (broadcastInDim S50000x128 ![0, 1] bcast_S1x128_S50000x128_0_1 : (⟨S1x128, .f32⟩ : BufTy).Contents (Elt F) → (⟨S50000x128, .f32⟩ : BufTy).Contents (Elt F)),
    StableHlo.binary main_v226 main_v230 main_v231 (mulf : (⟨S50000x128, .f32⟩ : BufTy).Contents (Elt F) → (⟨S50000x128, .f32⟩ : BufTy).Contents (Elt F) → (⟨S50000x128, .f32⟩ : BufTy).Contents (Elt F)),
    StableHlo.unary main_arg7 main_v232 ((extractStridedSlice S1x128 ![2, 0] · slices_S3x128_S1x128_2_0) : (⟨S3x128, .f32⟩ : BufTy).Contents (Elt F) → (⟨S1x128, .f32⟩ : BufTy).Contents (Elt F)),
    StableHlo.reshape main_v232 main_v233 rfl shapeCasts_S1x128_S128,
    StableHlo.unary main_v233 main_v234 (broadcastInDim S1x128 ![1] bcast_S128_S1x128_1 : (⟨S128, .f32⟩ : BufTy).Contents (Elt F) → (⟨S1x128, .f32⟩ : BufTy).Contents (Elt F)),
    StableHlo.unary main_v234 main_v235 (broadcastInDim S50000x128 ![0, 1] bcast_S1x128_S50000x128_0_1 : (⟨S1x128, .f32⟩ : BufTy).Contents (Elt F) → (⟨S50000x128, .f32⟩ : BufTy).Contents (Elt F)),
    StableHlo.binary main_v231 main_v235 main_v236 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary ((.of main_v236) : StableHlo.TRef sig ⟨S50000x128, .f32⟩) main_call5.v0 main_call5.v1 maximumf ]

/-- Operations main_v238 … main_v238 (1). -/
abbrev k28 : List (HloOp τ sig (Elt F)) :=
  [ StableHlo.binary main_v164 main_v237 main_v238 (addf : (⟨S50000x128, .f32⟩ : BufTy).Contents (Elt F) → (⟨S50000x128, .f32⟩ : BufTy).Contents (Elt F) → (⟨S50000x128, .f32⟩ : BufTy).Contents (Elt F)) ]

/-- Operations main_v239 … main_v242 (4). -/
abbrev k29 : List (HloOp τ sig (Elt F)) :=
  [ StableHlo.binary main_v238 main_arg8 main_v239 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    StableHlo.unary main_arg9 main_v240 (broadcastInDim S1x40 ![1] bcast_S40_S1x40_1 : (⟨S40, .f32⟩ : BufTy).Contents (Elt F) → (⟨S1x40, .f32⟩ : BufTy).Contents (Elt F)),
    StableHlo.unary main_v240 main_v241 (broadcastInDim S50000x40 ![0, 1] bcast_S1x40_S50000x40_0_1 : (⟨S1x40, .f32⟩ : BufTy).Contents (Elt F) → (⟨S50000x40, .f32⟩ : BufTy).Contents (Elt F)),
    StableHlo.binary main_v239 main_v241 main_v242 (addf : (⟨S50000x40, .f32⟩ : BufTy).Contents (Elt F) → (⟨S50000x40, .f32⟩ : BufTy).Contents (Elt F) → (⟨S50000x40, .f32⟩ : BufTy).Contents (Elt F)) ]

/-- Before the layers: the edge rows, the degree and its inverse square root `main_v15`, the zero array `main_v16`. -/
abbrev opsPre : List (HloOp τ sig (Elt F)) := k0 ++ k1 ++ k2 ++ k3
/-- Layer 0: `main_v17` … `main_v90`. -/
abbrev opsL0 : List (HloOp τ sig (Elt F)) := k4 ++ k5 ++ k6 ++ k7 ++ k8 ++ k9 ++ k10 ++ k11
/-- Layer 1: `main_v91` … `main_v164`. -/
abbrev opsL1 : List (HloOp τ sig (Elt F)) := k12 ++ k13 ++ k14 ++ k15 ++ k16 ++ k17 ++ k18 ++ k19 ++ k20
/-- Layer 2: `main_v165` … `main_v238`. -/
abbrev opsL2 : List (HloOp τ sig (Elt F)) := k21 ++ k22 ++ k23 ++ k24 ++ k25 ++ k26 ++ k27 ++ k28
/-- The output projection: `main_v239` … `main_v242`. -/
abbrev opsOut : List (HloOp τ sig (Elt F)) := k29
/-- @main's 354 operations, in order. -/
abbrev ops : List (HloOp τ sig (Elt F)) := opsPre ++ opsL0 ++ opsL1 ++ opsL2 ++ opsOut

/-! ## @main is that line

Each printed window is the sequence of its pieces: the callees' definitions unfolded at their calls, both sides are
one chain of operation steps once sequencing is reassociated. -/

theorem part0_eq (c : Dev nD) : main_part0 (F := F) c = (seq k0 >>= fun _ => seq k1 >>= fun _ => seq k2 >>= fun _ => seq k3 >>= fun _ => seq k4 >>= fun _ => seq k5) := by
  simp only [main_part0, fn_var.body, fn_where.body, fn_relu.body, k0, k1, k2, k3, k4, k5, seq, bind_assoc, pure_bind]
  rfl

theorem part1_eq (c : Dev nD) : main_part1 (F := F) c = (seq k6 >>= fun _ => seq k7 >>= fun _ => seq k8 >>= fun _ => seq k9 >>= fun _ => seq k10 >>= fun _ => seq k11 >>= fun _ => seq k12 >>= fun _ => seq k13) := by
  simp only [main_part1, fn_var.body, fn_where.body, fn_relu.body, k6, k7, k8, k9, k10, k11, k12, k13, seq, bind_assoc, pure_bind]
  rfl

theorem part2_eq (c : Dev nD) : main_part2 (F := F) c = (seq k14 >>= fun _ => seq k15 >>= fun _ => seq k16 >>= fun _ => seq k17 >>= fun _ => seq k18) := by
  simp only [main_part2, fn_var.body, fn_where.body, fn_relu.body, k14, k15, k16, k17, k18, seq, bind_assoc, pure_bind]
  rfl

theorem part3_eq (c : Dev nD) : main_part3 (F := F) c = (seq k19 >>= fun _ => seq k20 >>= fun _ => seq k21 >>= fun _ => seq k22 >>= fun _ => seq k23) := by
  simp only [main_part3, fn_var.body, fn_where.body, fn_relu.body, k19, k20, k21, k22, k23, seq, bind_assoc, pure_bind]
  rfl

theorem part4_eq (c : Dev nD) : main_part4 (F := F) c = (seq k24 >>= fun _ => seq k25 >>= fun _ => seq k26 >>= fun _ => seq k27 >>= fun _ => seq k28 >>= fun _ => seq k29) := by
  simp only [main_part4, fn_var.body, fn_where.body, fn_relu.body, k24, k25, k26, k27, k28, k29, seq, bind_assoc, pure_bind]

/-- @main is the whole line: its five windows in order are the thirty pieces in order (`seq_append`). -/
theorem main_eq (c : Dev nD) : main (F := F) c = seq ops := by
  simp only [ops, opsPre, opsL0, opsL1, opsL2, opsOut, seq_append, bind_assoc]
  simp only [main, part0_eq, part1_eq, part2_eq, part3_eq, part4_eq, bind_assoc]

/-! ## What every operation of the line is

`Good lo op`: the operation touches TensorCore references only, determines what it writes, and writes exactly one
buffer, whose index is at least `lo`. The buffers are written in the order of their indices, so a buffer of index
below `lo` is left alone by every operation from the one writing `lo` on (`after_of_good`). -/

/-- An operation of the line whose result buffer has index at least `lo`. -/
def Good (lo : ℕ) (op : HloOp τ sig (Elt F)) : Prop :=
  op.bufs ⊆ tcRefs τ sig ∧ op.fresh = ∅ ∧ ∃ y : Ref sig .tc, op.writes = {Proc.devRef .tc y} ∧ lo ≤ (y.idx : ℕ)

theorem Good.mono {lo lo' : ℕ} (h : lo' ≤ lo) {op : HloOp τ sig (Elt F)} : Good lo op → Good lo' op
  | ⟨hb, hf, y, hw, hy⟩ => ⟨hb, hf, y, hw, h.trans hy⟩

theorem nullary_good {lo : ℕ} {y : Ref sig .tc} {v : y.ty.Contents (Elt F)} {hy} (h : lo ≤ (y.idx : ℕ)) :
    Good lo (nullary (τ := τ) y v hy) := ⟨nullary_bufs_sub .., rfl, y, rfl, h⟩
theorem unary_good {lo : ℕ} {x y : Ref sig .tc} {f : x.ty.Contents (Elt F) → y.ty.Contents (Elt F)} {hx hy} (h : lo ≤ (y.idx : ℕ)) :
    Good lo (unary (τ := τ) x y f hx hy) := ⟨unary_bufs_sub .., rfl, y, rfl, h⟩
theorem binary_good {lo : ℕ} {a b y : Ref sig .tc} {f : a.ty.Contents (Elt F) → b.ty.Contents (Elt F) → y.ty.Contents (Elt F)} {ha hb hy}
    (h : lo ≤ (y.idx : ℕ)) : Good lo (binary (τ := τ) a b y f ha hb hy) := ⟨binary_bufs_sub .., rfl, y, rfl, h⟩
theorem ternary_good {lo : ℕ} {c a b y : Ref sig .tc}
    {f : c.ty.Contents (Elt F) → a.ty.Contents (Elt F) → b.ty.Contents (Elt F) → y.ty.Contents (Elt F)} {hc ha hb hy}
    (h : lo ≤ (y.idx : ℕ)) : Good lo (ternary (τ := τ) c a b y f hc ha hb hy) := ⟨ternary_bufs_sub .., rfl, y, rfl, h⟩
theorem reshape_good {lo : ℕ} {x y : Ref sig .tc} {he hn hx hy} (h : lo ≤ (y.idx : ℕ)) :
    Good lo (reshape (τ := τ) (Val := Elt F) x y he hn hx hy) := ⟨reshape_bufs_sub .., rfl, y, rfl, h⟩

theorem k0_good : (k0 (F := F)).Forall (Good 10) :=
  ⟨unary_good (by decide), reshape_good (by decide)⟩

theorem k1_good : (k1 (F := F)).Forall (Good 12) :=
  ⟨unary_good (by decide), reshape_good (by decide)⟩

theorem k2_good : (k2 (F := F)).Forall (Good 14) :=
  ⟨nullary_good (by decide), unary_good (by decide), nullary_good (by decide), unary_good (by decide), binary_good (by decide), nullary_good (by decide),
    unary_good (by decide), binary_good (by decide), ternary_good (by decide), unary_good (by decide), nullary_good (by decide), unary_good (by decide),
    ternary_good (by decide), nullary_good (by decide), unary_good (by decide), binary_good (by decide), unary_good (by decide)⟩

theorem k3_good : (k3 (F := F)).Forall (Good 31) :=
  ⟨nullary_good (by decide), unary_good (by decide)⟩

theorem k4_good : (k4 (F := F)).Forall (Good 33) :=
  ⟨unary_good (by decide), reshape_good (by decide), binary_good (by decide)⟩

theorem k5_good : (k5 (F := F)).Forall (Good 36) :=
  ⟨nullary_good (by decide), unary_good (by decide), binary_good (by decide), nullary_good (by decide), unary_good (by decide), binary_good (by decide),
    ternary_good (by decide), unary_good (by decide), binary_good (by decide), nullary_good (by decide), unary_good (by decide), binary_good (by decide),
    nullary_good (by decide), unary_good (by decide), binary_good (by decide), ternary_good (by decide), unary_good (by decide), binary_good (by decide),
    binary_good (by decide), unary_good (by decide), nullary_good (by decide), unary_good (by decide), binary_good (by decide), nullary_good (by decide),
    unary_good (by decide), binary_good (by decide), ternary_good (by decide), unary_good (by decide), binary_good (by decide), unary_good (by decide),
    binary_good (by decide), nullary_good (by decide), unary_good (by decide), unary_good (by decide)⟩

theorem k6_good : (k6 (F := F)).Forall (Good 70) :=
  ⟨ternary_good (by decide), binary_good (by decide), unary_good (by decide), unary_good (by decide), binary_good (by decide), binary_good (by decide)⟩

theorem k7_good : (k7 (F := F)).Forall (Good 76) :=
  ⟨unary_good (by decide), reshape_good (by decide), unary_good (by decide), unary_good (by decide), binary_good (by decide), unary_good (by decide),
    reshape_good (by decide), binary_good (by decide), binary_good (by decide), unary_good (by decide), reshape_good (by decide), unary_good (by decide),
    unary_good (by decide), binary_good (by decide)⟩

theorem k8_good : (k8 (F := F)).Forall (Good 90) :=
  ⟨nullary_good (by decide), binary_good (by decide), unary_good (by decide), nullary_good (by decide), unary_good (by decide), binary_good (by decide)⟩

theorem k9_good : (k9 (F := F)).Forall (Good 96) :=
  ⟨nullary_good (by decide), nullary_good (by decide), binary_good (by decide), unary_good (by decide), nullary_good (by decide), unary_good (by decide),
    binary_good (by decide), unary_good (by decide), binary_good (by decide), binary_good (by decide), unary_good (by decide), nullary_good (by decide),
    binary_good (by decide), nullary_good (by decide), binary_good (by decide), unary_good (by decide), unary_good (by decide), binary_good (by decide),
    nullary_good (by decide), binary_good (by decide), nullary_good (by decide), unary_good (by decide), unary_good (by decide), ternary_good (by decide)⟩

theorem k10_good : (k10 (F := F)).Forall (Good 120) :=
  ⟨unary_good (by decide), binary_good (by decide), nullary_good (by decide), unary_good (by decide), binary_good (by decide), unary_good (by decide),
    unary_good (by decide), binary_good (by decide), unary_good (by decide), reshape_good (by decide), unary_good (by decide), unary_good (by decide),
    binary_good (by decide), unary_good (by decide), reshape_good (by decide), unary_good (by decide), unary_good (by decide), binary_good (by decide),
    nullary_good (by decide), unary_good (by decide), binary_good (by decide)⟩

theorem k11_good : (k11 (F := F)).Forall (Good 141) :=
  binary_good (by decide)

theorem k12_good : (k12 (F := F)).Forall (Good 142) :=
  ⟨unary_good (by decide), reshape_good (by decide), binary_good (by decide)⟩

theorem k13_good : (k13 (F := F)).Forall (Good 145) :=
  ⟨nullary_good (by decide), unary_good (by decide), binary_good (by decide), nullary_good (by decide), unary_good (by decide), binary_good (by decide),
    ternary_good (by decide), unary_good (by decide), binary_good (by decide)⟩

theorem k14_good : (k14 (F := F)).Forall (Good 154) :=
  ⟨nullary_good (by decide), unary_good (by decide), binary_good (by decide), nullary_good (by decide), unary_good (by decide), binary_good (by decide),
    ternary_good (by decide), unary_good (by decide), binary_good (by decide), binary_good (by decide), unary_good (by decide), nullary_good (by decide),
    unary_good (by decide), binary_good (by decide), nullary_good (by decide), unary_good (by decide), binary_good (by decide), ternary_good (by decide),
    unary_good (by decide), binary_good (by decide), unary_good (by decide), binary_good (by decide), nullary_good (by decide), unary_good (by decide),
    unary_good (by decide), ternary_good (by decide), binary_good (by decide), unary_good (by decide), unary_good (by decide), binary_good (by decide),
    binary_good (by decide)⟩

theorem k15_good : (k15 (F := F)).Forall (Good 185) :=
  ⟨unary_good (by decide), reshape_good (by decide), unary_good (by decide), unary_good (by decide), binary_good (by decide), unary_good (by decide),
    reshape_good (by decide), binary_good (by decide), binary_good (by decide), unary_good (by decide), reshape_good (by decide), unary_good (by decide),
    unary_good (by decide), binary_good (by decide)⟩

theorem k16_good : (k16 (F := F)).Forall (Good 199) :=
  ⟨nullary_good (by decide), binary_good (by decide), unary_good (by decide), nullary_good (by decide), unary_good (by decide), binary_good (by decide)⟩

theorem k17_good : (k17 (F := F)).Forall (Good 205) :=
  ⟨nullary_good (by decide), nullary_good (by decide), binary_good (by decide), unary_good (by decide), nullary_good (by decide), unary_good (by decide),
    binary_good (by decide), unary_good (by decide), binary_good (by decide), binary_good (by decide), unary_good (by decide), nullary_good (by decide),
    binary_good (by decide), nullary_good (by decide), binary_good (by decide), unary_good (by decide), unary_good (by decide), binary_good (by decide),
    nullary_good (by decide), binary_good (by decide), nullary_good (by decide), unary_good (by decide), unary_good (by decide), ternary_good (by decide)⟩

theorem k18_good : (k18 (F := F)).Forall (Good 229) :=
  ⟨unary_good (by decide), binary_good (by decide), nullary_good (by decide), unary_good (by decide), binary_good (by decide), unary_good (by decide),
    unary_good (by decide)⟩

theorem k19_good : (k19 (F := F)).Forall (Good 236) :=
  ⟨binary_good (by decide), unary_good (by decide), reshape_good (by decide), unary_good (by decide), unary_good (by decide), binary_good (by decide),
    unary_good (by decide), reshape_good (by decide), unary_good (by decide), unary_good (by decide), binary_good (by decide), nullary_good (by decide),
    unary_good (by decide), binary_good (by decide)⟩

theorem k20_good : (k20 (F := F)).Forall (Good 250) :=
  binary_good (by decide)

theorem k21_good : (k21 (F := F)).Forall (Good 251) :=
  ⟨unary_good (by decide), reshape_good (by decide), binary_good (by decide)⟩

theorem k22_good : (k22 (F := F)).Forall (Good 254) :=
  ⟨nullary_good (by decide), unary_good (by decide), binary_good (by decide), nullary_good (by decide), unary_good (by decide), binary_good (by decide),
    ternary_good (by decide), unary_good (by decide), binary_good (by decide), nullary_good (by decide), unary_good (by decide), binary_good (by decide),
    nullary_good (by decide), unary_good (by decide), binary_good (by decide), ternary_good (by decide), unary_good (by decide), binary_good (by decide),
    binary_good (by decide), unary_good (by decide), nullary_good (by decide), unary_good (by decide), binary_good (by decide), nullary_good (by decide),
    unary_good (by decide), binary_good (by decide), ternary_good (by decide), unary_good (by decide), binary_good (by decide), unary_good (by decide),
    binary_good (by decide), nullary_good (by decide), unary_good (by decide), unary_good (by decide), ternary_good (by decide), binary_good (by decide),
    unary_good (by decide), unary_good (by decide), binary_good (by decide), binary_good (by decide)⟩

theorem k23_good : (k23 (F := F)).Forall (Good 294) :=
  ⟨unary_good (by decide), reshape_good (by decide), unary_good (by decide), unary_good (by decide)⟩

theorem k24_good : (k24 (F := F)).Forall (Good 298) :=
  ⟨binary_good (by decide), unary_good (by decide), reshape_good (by decide), binary_good (by decide), binary_good (by decide), unary_good (by decide),
    reshape_good (by decide), unary_good (by decide), unary_good (by decide), binary_good (by decide)⟩

theorem k25_good : (k25 (F := F)).Forall (Good 308) :=
  ⟨nullary_good (by decide), binary_good (by decide), unary_good (by decide), nullary_good (by decide), unary_good (by decide), binary_good (by decide)⟩

theorem k26_good : (k26 (F := F)).Forall (Good 314) :=
  ⟨nullary_good (by decide), nullary_good (by decide), binary_good (by decide), unary_good (by decide), nullary_good (by decide), unary_good (by decide),
    binary_good (by decide), unary_good (by decide), binary_good (by decide), binary_good (by decide), unary_good (by decide), nullary_good (by decide),
    binary_good (by decide), nullary_good (by decide), binary_good (by decide), unary_good (by decide), unary_good (by decide), binary_good (by decide),
    nullary_good (by decide), binary_good (by decide), nullary_good (by decide), unary_good (by decide), unary_good (by decide), ternary_good (by decide)⟩

theorem k27_good : (k27 (F := F)).Forall (Good 338) :=
  ⟨unary_good (by decide), binary_good (by decide), nullary_good (by decide), unary_good (by decide), binary_good (by decide), unary_good (by decide),
    unary_good (by decide), binary_good (by decide), unary_good (by decide), reshape_good (by decide), unary_good (by decide), unary_good (by decide),
    binary_good (by decide), unary_good (by decide), reshape_good (by decide), unary_good (by decide), unary_good (by decide), binary_good (by decide),
    nullary_good (by decide), unary_good (by decide), binary_good (by decide)⟩

theorem k28_good : (k28 (F := F)).Forall (Good 359) :=
  binary_good (by decide)

theorem k29_good : (k29 (F := F)).Forall (Good 360) :=
  ⟨binary_good (by decide), unary_good (by decide), unary_good (by decide), binary_good (by decide)⟩

theorem opsPre_good : (opsPre (F := F)).Forall (Good 10) :=
  List.forall_append.mpr ⟨List.forall_append.mpr ⟨List.forall_append.mpr ⟨k0_good,
    k1_good.imp fun _ => Good.mono (by decide)⟩,
    k2_good.imp fun _ => Good.mono (by decide)⟩,
    k3_good.imp fun _ => Good.mono (by decide)⟩
theorem opsL0_good : (opsL0 (F := F)).Forall (Good 33) :=
  List.forall_append.mpr ⟨List.forall_append.mpr ⟨List.forall_append.mpr ⟨List.forall_append.mpr ⟨List.forall_append.mpr ⟨List.forall_append.mpr ⟨List.forall_append.mpr ⟨k4_good,
    k5_good.imp fun _ => Good.mono (by decide)⟩,
    k6_good.imp fun _ => Good.mono (by decide)⟩,
    k7_good.imp fun _ => Good.mono (by decide)⟩,
    k8_good.imp fun _ => Good.mono (by decide)⟩,
    k9_good.imp fun _ => Good.mono (by decide)⟩,
    k10_good.imp fun _ => Good.mono (by decide)⟩,
    k11_good.imp fun _ => Good.mono (by decide)⟩
theorem opsL1_good : (opsL1 (F := F)).Forall (Good 142) :=
  List.forall_append.mpr ⟨List.forall_append.mpr ⟨List.forall_append.mpr ⟨List.forall_append.mpr ⟨List.forall_append.mpr ⟨List.forall_append.mpr ⟨List.forall_append.mpr ⟨List.forall_append.mpr ⟨k12_good,
    k13_good.imp fun _ => Good.mono (by decide)⟩,
    k14_good.imp fun _ => Good.mono (by decide)⟩,
    k15_good.imp fun _ => Good.mono (by decide)⟩,
    k16_good.imp fun _ => Good.mono (by decide)⟩,
    k17_good.imp fun _ => Good.mono (by decide)⟩,
    k18_good.imp fun _ => Good.mono (by decide)⟩,
    k19_good.imp fun _ => Good.mono (by decide)⟩,
    k20_good.imp fun _ => Good.mono (by decide)⟩
theorem opsL2_good : (opsL2 (F := F)).Forall (Good 251) :=
  List.forall_append.mpr ⟨List.forall_append.mpr ⟨List.forall_append.mpr ⟨List.forall_append.mpr ⟨List.forall_append.mpr ⟨List.forall_append.mpr ⟨List.forall_append.mpr ⟨k21_good,
    k22_good.imp fun _ => Good.mono (by decide)⟩,
    k23_good.imp fun _ => Good.mono (by decide)⟩,
    k24_good.imp fun _ => Good.mono (by decide)⟩,
    k25_good.imp fun _ => Good.mono (by decide)⟩,
    k26_good.imp fun _ => Good.mono (by decide)⟩,
    k27_good.imp fun _ => Good.mono (by decide)⟩,
    k28_good.imp fun _ => Good.mono (by decide)⟩
theorem opsOut_good : (opsOut (F := F)).Forall (Good 360) :=
  k29_good

theorem ops_good : (ops (F := F)).Forall (Good 10) :=
  List.forall_append.mpr ⟨List.forall_append.mpr ⟨List.forall_append.mpr ⟨List.forall_append.mpr
    ⟨opsPre_good, opsL0_good.imp fun _ => Good.mono (by decide)⟩, opsL1_good.imp fun _ => Good.mono (by decide)⟩,
    opsL2_good.imp fun _ => Good.mono (by decide)⟩, opsOut_good.imp fun _ => Good.mono (by decide)⟩

/-- A buffer of index below `lo` keeps its contents through operations that write at `lo` or later. -/
theorem after_of_good {lo : ℕ} (l : List (HloOp τ sig (Elt F))) (hl : l.Forall (Good lo)) (V : Valuation τ sig (Elt F))
    (r : Ref sig .tc) (hr : (r.idx : ℕ) < lo) : after l V (Proc.devRef .tc r) = V (Proc.devRef .tc r) :=
  after_of_forall_not_mem l V fun op hop hmem => by
    obtain ⟨-, -, y, hw, hy⟩ := List.forall_iff_forall_mem.mp hl op hop
    rw [hw, Finset.mem_singleton] at hmem
    have e : r = y := Proc.devRef_injective _ hmem
    subst e
    omega

/-- The fold over a concatenation is the fold over the second list from the fold over the first. -/
theorem after_append (xs ys : List (HloOp τ sig (Elt F))) (V : Valuation τ sig (Elt F)) :
    after (xs ++ ys) V = after ys (after xs V) := by
  induction xs generalizing V with
  | nil => rfl
  | cons op xs ih => simp only [List.cons_append, after_cons, ih]

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := ops_good.imp fun _ h => h.1

theorem ops_fresh : ∀ op ∈ (ops (F := F)), op.fresh = ∅ :=
  fun op hop => (List.forall_iff_forall_mem.mp ops_good op hop).2.1

/-- On every device, for any float values, from any memory with zero counters: every weakly fair execution of @main
    terminates, and every final state has each TensorCore buffer at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The arguments end as launched: no operation of the line writes a buffer of index below 10. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_arg0).trans (after_of_good ops ops_good _ main_arg0 (by decide)),
     (h c main_arg1).trans (after_of_good ops ops_good _ main_arg1 (by decide)),
     (h c main_arg2).trans (after_of_good ops ops_good _ main_arg2 (by decide)),
     (h c main_arg3).trans (after_of_good ops ops_good _ main_arg3 (by decide)),
     (h c main_arg4).trans (after_of_good ops ops_good _ main_arg4 (by decide)),
     (h c main_arg5).trans (after_of_good ops ops_good _ main_arg5 (by decide)),
     (h c main_arg6).trans (after_of_good ops ops_good _ main_arg6 (by decide)),
     (h c main_arg7).trans (after_of_good ops ops_good _ main_arg7 (by decide)),
     (h c main_arg8).trans (after_of_good ops ops_good _ main_arg8 (by decide)),
     (h c main_arg9).trans (after_of_good ops ops_good _ main_arg9 (by decide))⟩)
    (run m ρ)

end Cert.RefRun

end
-- ==== Proof.RefJoints.lean ====
/- The reference program's run read back at its joints. With `A V b` the final contents of buffer `b` (the fold of
   the whole line over any contents `V`), each joint buffer — the edge rows, the inverse square-root degree, and per layer
   the product, the aggregate, the sum before normalisation, the mean and variance columns, the layer's output and the
   running sum, then the result — holds ONE stretch of host operations applied to the final contents of EARLIER joints
   and of the arguments. The line is split at the joint: the operations after it do not write it (their result buffers
   have larger indices), the operations before it are a prefix whose fold is a variable, and the stretch between is short
   enough to compute. -/
import proofs.«177108_j26465588478228_2_alg».proof.Proof.RefRun
import proofs.«177108_j26465588478228_2_alg».proof.Proof.Stages

set_option maxRecDepth 16384

noncomputable section

namespace Cert.RefJoints

open Cert.ReferenceIdeal Cert.ReferenceIdeal.Gen Idealize.ShloMosaic Idealize.ShloMosaic.TcCoe Idealize.SL.Sem Idealize.ShloMosaic.StableHlo
open Cert.RefRun

variable {F : FTy → Type} [FloatOps F]

/-- The final contents of buffer `b`: the whole line folded over contents `V`. -/
abbrev A (V : Valuation τ sig (Elt F)) (b : Ref sig .tc) : (Proc.devRef (τ := τ) .tc b).ty.Contents (Elt F) :=
  after ops V (Proc.devRef .tc b)

/-- An argument's final contents are its contents at the start. -/
theorem A_arg (V : Valuation τ sig (Elt F)) (b : Ref sig .tc) (hb : (b.idx : ℕ) < 10) : A V b = V (Proc.devRef .tc b) :=
  after_of_good ops ops_good V b hb

/-! ## The line split at each joint

`tJ` is the stretch of operations ending at joint `J` (one or two pieces), `PJ` the operations before it, `SJ` the
stretch and everything after it. -/

abbrev t0 : List (HloOp τ sig (Elt F)) := k0
abbrev t1 : List (HloOp τ sig (Elt F)) := k1
abbrev t2 : List (HloOp τ sig (Elt F)) := k2
abbrev t3 : List (HloOp τ sig (Elt F)) := k3
abbrev t4 : List (HloOp τ sig (Elt F)) := k4
abbrev t5 : List (HloOp τ sig (Elt F)) := k5 ++ k6
abbrev t6 : List (HloOp τ sig (Elt F)) := k7
abbrev t7 : List (HloOp τ sig (Elt F)) := k8
abbrev t8 : List (HloOp τ sig (Elt F)) := k9
abbrev t9 : List (HloOp τ sig (Elt F)) := k10
abbrev t10 : List (HloOp τ sig (Elt F)) := k11
abbrev t11 : List (HloOp τ sig (Elt F)) := k12
abbrev t12 : List (HloOp τ sig (Elt F)) := k13 ++ k14
abbrev t13 : List (HloOp τ sig (Elt F)) := k15
abbrev t14 : List (HloOp τ sig (Elt F)) := k16
abbrev t15 : List (HloOp τ sig (Elt F)) := k17
abbrev t16 : List (HloOp τ sig (Elt F)) := k18 ++ k19
abbrev t17 : List (HloOp τ sig (Elt F)) := k20
abbrev t18 : List (HloOp τ sig (Elt F)) := k21
abbrev t19 : List (HloOp τ sig (Elt F)) := k22
abbrev t20 : List (HloOp τ sig (Elt F)) := k23 ++ k24
abbrev t21 : List (HloOp τ sig (Elt F)) := k25
abbrev t22 : List (HloOp τ sig (Elt F)) := k26
abbrev t23 : List (HloOp τ sig (Elt F)) := k27
abbrev t24 : List (HloOp τ sig (Elt F)) := k28
abbrev t25 : List (HloOp τ sig (Elt F)) := k29

abbrev P0 : List (HloOp τ sig (Elt F)) := []
abbrev P1 : List (HloOp τ sig (Elt F)) := k0
abbrev P2 : List (HloOp τ sig (Elt F)) := k0 ++ k1
abbrev P3 : List (HloOp τ sig (Elt F)) := k0 ++ k1 ++ k2
abbrev P4 : List (HloOp τ sig (Elt F)) := k0 ++ k1 ++ k2 ++ k3
abbrev P5 : List (HloOp τ sig (Elt F)) := k0 ++ k1 ++ k2 ++ k3 ++ k4
abbrev P6 : List (HloOp τ sig (Elt F)) := k0 ++ k1 ++ k2 ++ k3 ++ k4 ++ k5 ++ k6
abbrev P7 : List (HloOp τ sig (Elt F)) := k0 ++ k1 ++ k2 ++ k3 ++ k4 ++ k5 ++ k6 ++ k7
abbrev P8 : List (HloOp τ sig (Elt F)) := k0 ++ k1 ++ k2 ++ k3 ++ k4 ++ k5 ++ k6 ++ k7 ++ k8
abbrev P9 : List (HloOp τ sig (Elt F)) := k0 ++ k1 ++ k2 ++ k3 ++ k4 ++ k5 ++ k6 ++ k7 ++ k8 ++ k9
abbrev P10 : List (HloOp τ sig (Elt F)) := k0 ++ k1 ++ k2 ++ k3 ++ k4 ++ k5 ++ k6 ++ k7 ++ k8 ++ k9 ++ k10
abbrev P11 : List (HloOp τ sig (Elt F)) := k0 ++ k1 ++ k2 ++ k3 ++ k4 ++ k5 ++ k6 ++ k7 ++ k8 ++ k9 ++ k10 ++ k11
abbrev P12 : List (HloOp τ sig (Elt F)) := k0 ++ k1 ++ k2 ++ k3 ++ k4 ++ k5 ++ k6 ++ k7 ++ k8 ++ k9 ++ k10 ++ k11 ++ k12
abbrev P13 : List (HloOp τ sig (Elt F)) := k0 ++ k1 ++ k2 ++ k3 ++ k4 ++ k5 ++ k6 ++ k7 ++ k8 ++ k9 ++ k10 ++ k11 ++ k12 ++ k13 ++ k14
abbrev P14 : List (HloOp τ sig (Elt F)) := k0 ++ k1 ++ k2 ++ k3 ++ k4 ++ k5 ++ k6 ++ k7 ++ k8 ++ k9 ++ k10 ++ k11 ++ k12 ++ k13 ++ k14 ++ k15
abbrev P15 : List (HloOp τ sig (Elt F)) := k0 ++ k1 ++ k2 ++ k3 ++ k4 ++ k5 ++ k6 ++ k7 ++ k8 ++ k9 ++ k10 ++ k11 ++ k12 ++ k13 ++ k14 ++ k15 ++ k16
abbrev P16 : List (HloOp τ sig (Elt F)) := k0 ++ k1 ++ k2 ++ k3 ++ k4 ++ k5 ++ k6 ++ k7 ++ k8 ++ k9 ++ k10 ++ k11 ++ k12 ++ k13 ++ k14 ++ k15 ++ k16 ++ k17
abbrev P17 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19
abbrev P18 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20
abbrev P19 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21
abbrev P20 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22
abbrev P21 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22 ++ k23 ++ k24
abbrev P22 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22 ++ k23 ++ k24 ++ k25
abbrev P23 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22 ++ k23 ++ k24 ++ k25 ++ k26
abbrev P24 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22 ++ k23 ++ k24 ++ k25 ++ k26 ++ k27
abbrev P25 : List (HloOp τ sig (Elt F)) := k0 ++ k1 ++ k2 ++ k3 ++ k4 ++ k5 ++ k6 ++ k7 ++ k8 ++ k9 ++ k10 ++ k11 ++ k12 ++ k13 ++ k14 ++ k15 ++ k16 ++ k17 ++ k18 ++ k19 ++ k20 ++ k21 ++ k22 ++ k23 ++ k24 ++ k25 ++ k26 ++ k27 ++ k28

abbrev S26 : List (HloOp τ sig (Elt F)) := []
abbrev S25 : List (HloOp τ sig (Elt F)) := t25 ++ S26
abbrev S24 : List (HloOp τ sig (Elt F)) := t24 ++ S25
abbrev S23 : List (HloOp τ sig (Elt F)) := t23 ++ S24
abbrev S22 : List (HloOp τ sig (Elt F)) := t22 ++ S23
abbrev S21 : List (HloOp τ sig (Elt F)) := t21 ++ S22
abbrev S20 : List (HloOp τ sig (Elt F)) := t20 ++ S21
abbrev S19 : List (HloOp τ sig (Elt F)) := t19 ++ S20
abbrev S18 : List (HloOp τ sig (Elt F)) := t18 ++ S19
abbrev S17 : List (HloOp τ sig (Elt F)) := t17 ++ S18
abbrev S16 : List (HloOp τ sig (Elt F)) := t16 ++ S17
abbrev S15 : List (HloOp τ sig (Elt F)) := t15 ++ S16
abbrev S14 : List (HloOp τ sig (Elt F)) := t14 ++ S15
abbrev S13 : List (HloOp τ sig (Elt F)) := t13 ++ S14
abbrev S12 : List (HloOp τ sig (Elt F)) := t12 ++ S13
abbrev S11 : List (HloOp τ sig (Elt F)) := t11 ++ S12
abbrev S10 : List (HloOp τ sig (Elt F)) := t10 ++ S11
abbrev S9 : List (HloOp τ sig (Elt F)) := t9 ++ S10
abbrev S8 : List (HloOp τ sig (Elt F)) := t8 ++ S9
abbrev S7 : List (HloOp τ sig (Elt F)) := t7 ++ S8
abbrev S6 : List (HloOp τ sig (Elt F)) := t6 ++ S7
abbrev S5 : List (HloOp τ sig (Elt F)) := t5 ++ S6
abbrev S4 : List (HloOp τ sig (Elt F)) := t4 ++ S5
abbrev S3 : List (HloOp τ sig (Elt F)) := t3 ++ S4
abbrev S2 : List (HloOp τ sig (Elt F)) := t2 ++ S3
abbrev S1 : List (HloOp τ sig (Elt F)) := t1 ++ S2
abbrev S0 : List (HloOp τ sig (Elt F)) := t0 ++ S1

theorem t0_good : (t0 (F := F)).Forall (Good 10) := k0_good
theorem t1_good : (t1 (F := F)).Forall (Good 12) := k1_good
theorem t2_good : (t2 (F := F)).Forall (Good 14) := k2_good
theorem t3_good : (t3 (F := F)).Forall (Good 31) := k3_good
theorem t4_good : (t4 (F := F)).Forall (Good 33) := k4_good
theorem t5_good : (t5 (F := F)).Forall (Good 36) := List.forall_append.mpr ⟨k5_good, k6_good.imp fun _ => Good.mono (by decide)⟩
theorem t6_good : (t6 (F := F)).Forall (Good 76) := k7_good
theorem t7_good : (t7 (F := F)).Forall (Good 90) := k8_good
theorem t8_good : (t8 (F := F)).Forall (Good 96) := k9_good
theorem t9_good : (t9 (F := F)).Forall (Good 120) := k10_good
theorem t10_good : (t10 (F := F)).Forall (Good 141) := k11_good
theorem t11_good : (t11 (F := F)).Forall (Good 142) := k12_good
theorem t12_good : (t12 (F := F)).Forall (Good 145) := List.forall_append.mpr ⟨k13_good, k14_good.imp fun _ => Good.mono (by decide)⟩
theorem t13_good : (t13 (F := F)).Forall (Good 185) := k15_good
theorem t14_good : (t14 (F := F)).Forall (Good 199) := k16_good
theorem t15_good : (t15 (F := F)).Forall (Good 205) := k17_good
theorem t16_good : (t16 (F := F)).Forall (Good 229) := List.forall_append.mpr ⟨k18_good, k19_good.imp fun _ => Good.mono (by decide)⟩
theorem t17_good : (t17 (F := F)).Forall (Good 250) := k20_good
theorem t18_good : (t18 (F := F)).Forall (Good 251) := k21_good
theorem t19_good : (t19 (F := F)).Forall (Good 254) := k22_good
theorem t20_good : (t20 (F := F)).Forall (Good 294) := List.forall_append.mpr ⟨k23_good, k24_good.imp fun _ => Good.mono (by decide)⟩
theorem t21_good : (t21 (F := F)).Forall (Good 308) := k25_good
theorem t22_good : (t22 (F := F)).Forall (Good 314) := k26_good
theorem t23_good : (t23 (F := F)).Forall (Good 338) := k27_good
theorem t24_good : (t24 (F := F)).Forall (Good 359) := k28_good
theorem t25_good : (t25 (F := F)).Forall (Good 360) := k29_good

theorem S26_good : (S26 (F := F)).Forall (Good 364) := trivial
theorem S25_good : (S25 (F := F)).Forall (Good 360) :=
  List.forall_append.mpr ⟨t25_good, S26_good.imp fun _ => Good.mono (by decide)⟩
theorem S24_good : (S24 (F := F)).Forall (Good 359) :=
  List.forall_append.mpr ⟨t24_good, S25_good.imp fun _ => Good.mono (by decide)⟩
theorem S23_good : (S23 (F := F)).Forall (Good 338) :=
  List.forall_append.mpr ⟨t23_good, S24_good.imp fun _ => Good.mono (by decide)⟩
theorem S22_good : (S22 (F := F)).Forall (Good 314) :=
  List.forall_append.mpr ⟨t22_good, S23_good.imp fun _ => Good.mono (by decide)⟩
theorem S21_good : (S21 (F := F)).Forall (Good 308) :=
  List.forall_append.mpr ⟨t21_good, S22_good.imp fun _ => Good.mono (by decide)⟩
theorem S20_good : (S20 (F := F)).Forall (Good 294) :=
  List.forall_append.mpr ⟨t20_good, S21_good.imp fun _ => Good.mono (by decide)⟩
theorem S19_good : (S19 (F := F)).Forall (Good 254) :=
  List.forall_append.mpr ⟨t19_good, S20_good.imp fun _ => Good.mono (by decide)⟩
theorem S18_good : (S18 (F := F)).Forall (Good 251) :=
  List.forall_append.mpr ⟨t18_good, S19_good.imp fun _ => Good.mono (by decide)⟩
theorem S17_good : (S17 (F := F)).Forall (Good 250) :=
  List.forall_append.mpr ⟨t17_good, S18_good.imp fun _ => Good.mono (by decide)⟩
theorem S16_good : (S16 (F := F)).Forall (Good 229) :=
  List.forall_append.mpr ⟨t16_good, S17_good.imp fun _ => Good.mono (by decide)⟩
theorem S15_good : (S15 (F := F)).Forall (Good 205) :=
  List.forall_append.mpr ⟨t15_good, S16_good.imp fun _ => Good.mono (by decide)⟩
theorem S14_good : (S14 (F := F)).Forall (Good 199) :=
  List.forall_append.mpr ⟨t14_good, S15_good.imp fun _ => Good.mono (by decide)⟩
theorem S13_good : (S13 (F := F)).Forall (Good 185) :=
  List.forall_append.mpr ⟨t13_good, S14_good.imp fun _ => Good.mono (by decide)⟩
theorem S12_good : (S12 (F := F)).Forall (Good 145) :=
  List.forall_append.mpr ⟨t12_good, S13_good.imp fun _ => Good.mono (by decide)⟩
theorem S11_good : (S11 (F := F)).Forall (Good 142) :=
  List.forall_append.mpr ⟨t11_good, S12_good.imp fun _ => Good.mono (by decide)⟩
theorem S10_good : (S10 (F := F)).Forall (Good 141) :=
  List.forall_append.mpr ⟨t10_good, S11_good.imp fun _ => Good.mono (by decide)⟩
theorem S9_good : (S9 (F := F)).Forall (Good 120) :=
  List.forall_append.mpr ⟨t9_good, S10_good.imp fun _ => Good.mono (by decide)⟩
theorem S8_good : (S8 (F := F)).Forall (Good 96) :=
  List.forall_append.mpr ⟨t8_good, S9_good.imp fun _ => Good.mono (by decide)⟩
theorem S7_good : (S7 (F := F)).Forall (Good 90) :=
  List.forall_append.mpr ⟨t7_good, S8_good.imp fun _ => Good.mono (by decide)⟩
theorem S6_good : (S6 (F := F)).Forall (Good 76) :=
  List.forall_append.mpr ⟨t6_good, S7_good.imp fun _ => Good.mono (by decide)⟩
theorem S5_good : (S5 (F := F)).Forall (Good 36) :=
  List.forall_append.mpr ⟨t5_good, S6_good.imp fun _ => Good.mono (by decide)⟩
theorem S4_good : (S4 (F := F)).Forall (Good 33) :=
  List.forall_append.mpr ⟨t4_good, S5_good.imp fun _ => Good.mono (by decide)⟩
theorem S3_good : (S3 (F := F)).Forall (Good 31) :=
  List.forall_append.mpr ⟨t3_good, S4_good.imp fun _ => Good.mono (by decide)⟩
theorem S2_good : (S2 (F := F)).Forall (Good 14) :=
  List.forall_append.mpr ⟨t2_good, S3_good.imp fun _ => Good.mono (by decide)⟩
theorem S1_good : (S1 (F := F)).Forall (Good 12) :=
  List.forall_append.mpr ⟨t1_good, S2_good.imp fun _ => Good.mono (by decide)⟩
theorem S0_good : (S0 (F := F)).Forall (Good 10) :=
  List.forall_append.mpr ⟨t0_good, S1_good.imp fun _ => Good.mono (by decide)⟩

/-- The line split at a stretch: a buffer written before the stretch holds, at the end, what the prefix left; a buffer
    written in the stretch or before holds what the stretch left from the prefix's contents. -/
theorem split_pre {P T S : List (HloOp τ sig (Elt F))} {lo : ℕ} (h : (ops (F := F)) = P ++ (T ++ S))
    (hTS : (T ++ S).Forall (Good lo)) (V : Valuation τ sig (Elt F)) (r : Ref sig .tc) (hr : (r.idx : ℕ) < lo) :
    after ops V (Proc.devRef .tc r) = after P V (Proc.devRef .tc r) := by
  rw [h, after_append]; exact after_of_good _ hTS _ r hr

theorem split_at {P T S : List (HloOp τ sig (Elt F))} {hi : ℕ} (h : (ops (F := F)) = P ++ (T ++ S))
    (hS : S.Forall (Good hi)) (V : Valuation τ sig (Elt F)) (r : Ref sig .tc) (hr : (r.idx : ℕ) < hi) :
    after ops V (Proc.devRef .tc r) = after T (after P V) (Proc.devRef .tc r) := by
  rw [h, after_append, after_append]; exact after_of_good _ hS _ r hr

theorem split0 : (ops (F := F)) = P0 ++ (t0 ++ S1) := by
  simp only [ops, opsPre, opsL0, opsL1, opsL2, opsOut, P0, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre0 (V : Valuation τ sig (Elt F)) (r : Ref sig .tc) (hr : (r.idx : ℕ) < 10) :
    after ops V (Proc.devRef .tc r) = after P0 V (Proc.devRef .tc r) := split_pre split0 S0_good V r hr
theorem at0 (V : Valuation τ sig (Elt F)) (r : Ref sig .tc) (hr : (r.idx : ℕ) < 12) :
    after ops V (Proc.devRef .tc r) = after t0 (after P0 V) (Proc.devRef .tc r) := split_at split0 S1_good V r hr

theorem split1 : (ops (F := F)) = P1 ++ (t1 ++ S2) := by
  simp only [ops, opsPre, opsL0, opsL1, opsL2, opsOut, P1, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre1 (V : Valuation τ sig (Elt F)) (r : Ref sig .tc) (hr : (r.idx : ℕ) < 12) :
    after ops V (Proc.devRef .tc r) = after P1 V (Proc.devRef .tc r) := split_pre split1 S1_good V r hr
theorem at1 (V : Valuation τ sig (Elt F)) (r : Ref sig .tc) (hr : (r.idx : ℕ) < 14) :
    after ops V (Proc.devRef .tc r) = after t1 (after P1 V) (Proc.devRef .tc r) := split_at split1 S2_good V r hr

theorem split2 : (ops (F := F)) = P2 ++ (t2 ++ S3) := by
  simp only [ops, opsPre, opsL0, opsL1, opsL2, opsOut, P2, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre2 (V : Valuation τ sig (Elt F)) (r : Ref sig .tc) (hr : (r.idx : ℕ) < 14) :
    after ops V (Proc.devRef .tc r) = after P2 V (Proc.devRef .tc r) := split_pre split2 S2_good V r hr
theorem at2 (V : Valuation τ sig (Elt F)) (r : Ref sig .tc) (hr : (r.idx : ℕ) < 31) :
    after ops V (Proc.devRef .tc r) = after t2 (after P2 V) (Proc.devRef .tc r) := split_at split2 S3_good V r hr

theorem split3 : (ops (F := F)) = P3 ++ (t3 ++ S4) := by
  simp only [ops, opsPre, opsL0, opsL1, opsL2, opsOut, P3, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre3 (V : Valuation τ sig (Elt F)) (r : Ref sig .tc) (hr : (r.idx : ℕ) < 31) :
    after ops V (Proc.devRef .tc r) = after P3 V (Proc.devRef .tc r) := split_pre split3 S3_good V r hr
theorem at3 (V : Valuation τ sig (Elt F)) (r : Ref sig .tc) (hr : (r.idx : ℕ) < 33) :
    after ops V (Proc.devRef .tc r) = after t3 (after P3 V) (Proc.devRef .tc r) := split_at split3 S4_good V r hr

theorem split4 : (ops (F := F)) = P4 ++ (t4 ++ S5) := by
  simp only [ops, opsPre, opsL0, opsL1, opsL2, opsOut, P4, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre4 (V : Valuation τ sig (Elt F)) (r : Ref sig .tc) (hr : (r.idx : ℕ) < 33) :
    after ops V (Proc.devRef .tc r) = after P4 V (Proc.devRef .tc r) := split_pre split4 S4_good V r hr
theorem at4 (V : Valuation τ sig (Elt F)) (r : Ref sig .tc) (hr : (r.idx : ℕ) < 36) :
    after ops V (Proc.devRef .tc r) = after t4 (after P4 V) (Proc.devRef .tc r) := split_at split4 S5_good V r hr

theorem split5 : (ops (F := F)) = P5 ++ (t5 ++ S6) := by
  simp only [ops, opsPre, opsL0, opsL1, opsL2, opsOut, P5, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre5 (V : Valuation τ sig (Elt F)) (r : Ref sig .tc) (hr : (r.idx : ℕ) < 36) :
    after ops V (Proc.devRef .tc r) = after P5 V (Proc.devRef .tc r) := split_pre split5 S5_good V r hr
theorem at5 (V : Valuation τ sig (Elt F)) (r : Ref sig .tc) (hr : (r.idx : ℕ) < 76) :
    after ops V (Proc.devRef .tc r) = after t5 (after P5 V) (Proc.devRef .tc r) := split_at split5 S6_good V r hr

theorem split6 : (ops (F := F)) = P6 ++ (t6 ++ S7) := by
  simp only [ops, opsPre, opsL0, opsL1, opsL2, opsOut, P6, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre6 (V : Valuation τ sig (Elt F)) (r : Ref sig .tc) (hr : (r.idx : ℕ) < 76) :
    after ops V (Proc.devRef .tc r) = after P6 V (Proc.devRef .tc r) := split_pre split6 S6_good V r hr
theorem at6 (V : Valuation τ sig (Elt F)) (r : Ref sig .tc) (hr : (r.idx : ℕ) < 90) :
    after ops V (Proc.devRef .tc r) = after t6 (after P6 V) (Proc.devRef .tc r) := split_at split6 S7_good V r hr

theorem split7 : (ops (F := F)) = P7 ++ (t7 ++ S8) := by
  simp only [ops, opsPre, opsL0, opsL1, opsL2, opsOut, P7, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre7 (V : Valuation τ sig (Elt F)) (r : Ref sig .tc) (hr : (r.idx : ℕ) < 90) :
    after ops V (Proc.devRef .tc r) = after P7 V (Proc.devRef .tc r) := split_pre split7 S7_good V r hr
theorem at7 (V : Valuation τ sig (Elt F)) (r : Ref sig .tc) (hr : (r.idx : ℕ) < 96) :
    after ops V (Proc.devRef .tc r) = after t7 (after P7 V) (Proc.devRef .tc r) := split_at split7 S8_good V r hr

theorem split8 : (ops (F := F)) = P8 ++ (t8 ++ S9) := by
  simp only [ops, opsPre, opsL0, opsL1, opsL2, opsOut, P8, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre8 (V : Valuation τ sig (Elt F)) (r : Ref sig .tc) (hr : (r.idx : ℕ) < 96) :
    after ops V (Proc.devRef .tc r) = after P8 V (Proc.devRef .tc r) := split_pre split8 S8_good V r hr
theorem at8 (V : Valuation τ sig (Elt F)) (r : Ref sig .tc) (hr : (r.idx : ℕ) < 120) :
    after ops V (Proc.devRef .tc r) = after t8 (after P8 V) (Proc.devRef .tc r) := split_at split8 S9_good V r hr

theorem split9 : (ops (F := F)) = P9 ++ (t9 ++ S10) := by
  simp only [ops, opsPre, opsL0, opsL1, opsL2, opsOut, P9, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre9 (V : Valuation τ sig (Elt F)) (r : Ref sig .tc) (hr : (r.idx : ℕ) < 120) :
    after ops V (Proc.devRef .tc r) = after P9 V (Proc.devRef .tc r) := split_pre split9 S9_good V r hr
theorem at9 (V : Valuation τ sig (Elt F)) (r : Ref sig .tc) (hr : (r.idx : ℕ) < 141) :
    after ops V (Proc.devRef .tc r) = after t9 (after P9 V) (Proc.devRef .tc r) := split_at split9 S10_good V r hr

theorem split10 : (ops (F := F)) = P10 ++ (t10 ++ S11) := by
  simp only [ops, opsPre, opsL0, opsL1, opsL2, opsOut, P10, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre10 (V : Valuation τ sig (Elt F)) (r : Ref sig .tc) (hr : (r.idx : ℕ) < 141) :
    after ops V (Proc.devRef .tc r) = after P10 V (Proc.devRef .tc r) := split_pre split10 S10_good V r hr
theorem at10 (V : Valuation τ sig (Elt F)) (r : Ref sig .tc) (hr : (r.idx : ℕ) < 142) :
    after ops V (Proc.devRef .tc r) = after t10 (after P10 V) (Proc.devRef .tc r) := split_at split10 S11_good V r hr

theorem split11 : (ops (F := F)) = P11 ++ (t11 ++ S12) := by
  simp only [ops, opsPre, opsL0, opsL1, opsL2, opsOut, P11, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre11 (V : Valuation τ sig (Elt F)) (r : Ref sig .tc) (hr : (r.idx : ℕ) < 142) :
    after ops V (Proc.devRef .tc r) = after P11 V (Proc.devRef .tc r) := split_pre split11 S11_good V r hr
theorem at11 (V : Valuation τ sig (Elt F)) (r : Ref sig .tc) (hr : (r.idx : ℕ) < 145) :
    after ops V (Proc.devRef .tc r) = after t11 (after P11 V) (Proc.devRef .tc r) := split_at split11 S12_good V r hr

theorem split12 : (ops (F := F)) = P12 ++ (t12 ++ S13) := by
  simp only [ops, opsPre, opsL0, opsL1, opsL2, opsOut, P12, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre12 (V : Valuation τ sig (Elt F)) (r : Ref sig .tc) (hr : (r.idx : ℕ) < 145) :
    after ops V (Proc.devRef .tc r) = after P12 V (Proc.devRef .tc r) := split_pre split12 S12_good V r hr
theorem at12 (V : Valuation τ sig (Elt F)) (r : Ref sig .tc) (hr : (r.idx : ℕ) < 185) :
    after ops V (Proc.devRef .tc r) = after t12 (after P12 V) (Proc.devRef .tc r) := split_at split12 S13_good V r hr

theorem split13 : (ops (F := F)) = P13 ++ (t13 ++ S14) := by
  simp only [ops, opsPre, opsL0, opsL1, opsL2, opsOut, P13, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre13 (V : Valuation τ sig (Elt F)) (r : Ref sig .tc) (hr : (r.idx : ℕ) < 185) :
    after ops V (Proc.devRef .tc r) = after P13 V (Proc.devRef .tc r) := split_pre split13 S13_good V r hr
theorem at13 (V : Valuation τ sig (Elt F)) (r : Ref sig .tc) (hr : (r.idx : ℕ) < 199) :
    after ops V (Proc.devRef .tc r) = after t13 (after P13 V) (Proc.devRef .tc r) := split_at split13 S14_good V r hr

theorem split14 : (ops (F := F)) = P14 ++ (t14 ++ S15) := by
  simp only [ops, opsPre, opsL0, opsL1, opsL2, opsOut, P14, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre14 (V : Valuation τ sig (Elt F)) (r : Ref sig .tc) (hr : (r.idx : ℕ) < 199) :
    after ops V (Proc.devRef .tc r) = after P14 V (Proc.devRef .tc r) := split_pre split14 S14_good V r hr
theorem at14 (V : Valuation τ sig (Elt F)) (r : Ref sig .tc) (hr : (r.idx : ℕ) < 205) :
    after ops V (Proc.devRef .tc r) = after t14 (after P14 V) (Proc.devRef .tc r) := split_at split14 S15_good V r hr

theorem split15 : (ops (F := F)) = P15 ++ (t15 ++ S16) := by
  simp only [ops, opsPre, opsL0, opsL1, opsL2, opsOut, P15, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre15 (V : Valuation τ sig (Elt F)) (r : Ref sig .tc) (hr : (r.idx : ℕ) < 205) :
    after ops V (Proc.devRef .tc r) = after P15 V (Proc.devRef .tc r) := split_pre split15 S15_good V r hr
theorem at15 (V : Valuation τ sig (Elt F)) (r : Ref sig .tc) (hr : (r.idx : ℕ) < 229) :
    after ops V (Proc.devRef .tc r) = after t15 (after P15 V) (Proc.devRef .tc r) := split_at split15 S16_good V r hr

theorem split16 : (ops (F := F)) = P16 ++ (t16 ++ S17) := by
  simp only [ops, opsPre, opsL0, opsL1, opsL2, opsOut, P16, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre16 (V : Valuation τ sig (Elt F)) (r : Ref sig .tc) (hr : (r.idx : ℕ) < 229) :
    after ops V (Proc.devRef .tc r) = after P16 V (Proc.devRef .tc r) := split_pre split16 S16_good V r hr
theorem at16 (V : Valuation τ sig (Elt F)) (r : Ref sig .tc) (hr : (r.idx : ℕ) < 250) :
    after ops V (Proc.devRef .tc r) = after t16 (after P16 V) (Proc.devRef .tc r) := split_at split16 S17_good V r hr

theorem split17 : (ops (F := F)) = P17 ++ (t17 ++ S18) := by
  simp only [ops, opsPre, opsL0, opsL1, opsL2, opsOut, P17, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre17 (V : Valuation τ sig (Elt F)) (r : Ref sig .tc) (hr : (r.idx : ℕ) < 250) :
    after ops V (Proc.devRef .tc r) = after P17 V (Proc.devRef .tc r) := split_pre split17 S17_good V r hr
theorem at17 (V : Valuation τ sig (Elt F)) (r : Ref sig .tc) (hr : (r.idx : ℕ) < 251) :
    after ops V (Proc.devRef .tc r) = after t17 (after P17 V) (Proc.devRef .tc r) := split_at split17 S18_good V r hr

theorem split18 : (ops (F := F)) = P18 ++ (t18 ++ S19) := by
  simp only [ops, opsPre, opsL0, opsL1, opsL2, opsOut, P18, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre18 (V : Valuation τ sig (Elt F)) (r : Ref sig .tc) (hr : (r.idx : ℕ) < 251) :
    after ops V (Proc.devRef .tc r) = after P18 V (Proc.devRef .tc r) := split_pre split18 S18_good V r hr
theorem at18 (V : Valuation τ sig (Elt F)) (r : Ref sig .tc) (hr : (r.idx : ℕ) < 254) :
    after ops V (Proc.devRef .tc r) = after t18 (after P18 V) (Proc.devRef .tc r) := split_at split18 S19_good V r hr

theorem split19 : (ops (F := F)) = P19 ++ (t19 ++ S20) := by
  simp only [ops, opsPre, opsL0, opsL1, opsL2, opsOut, P19, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre19 (V : Valuation τ sig (Elt F)) (r : Ref sig .tc) (hr : (r.idx : ℕ) < 254) :
    after ops V (Proc.devRef .tc r) = after P19 V (Proc.devRef .tc r) := split_pre split19 S19_good V r hr
theorem at19 (V : Valuation τ sig (Elt F)) (r : Ref sig .tc) (hr : (r.idx : ℕ) < 294) :
    after ops V (Proc.devRef .tc r) = after t19 (after P19 V) (Proc.devRef .tc r) := split_at split19 S20_good V r hr

theorem split20 : (ops (F := F)) = P20 ++ (t20 ++ S21) := by
  simp only [ops, opsPre, opsL0, opsL1, opsL2, opsOut, P20, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre20 (V : Valuation τ sig (Elt F)) (r : Ref sig .tc) (hr : (r.idx : ℕ) < 294) :
    after ops V (Proc.devRef .tc r) = after P20 V (Proc.devRef .tc r) := split_pre split20 S20_good V r hr
theorem at20 (V : Valuation τ sig (Elt F)) (r : Ref sig .tc) (hr : (r.idx : ℕ) < 308) :
    after ops V (Proc.devRef .tc r) = after t20 (after P20 V) (Proc.devRef .tc r) := split_at split20 S21_good V r hr

theorem split21 : (ops (F := F)) = P21 ++ (t21 ++ S22) := by
  simp only [ops, opsPre, opsL0, opsL1, opsL2, opsOut, P21, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre21 (V : Valuation τ sig (Elt F)) (r : Ref sig .tc) (hr : (r.idx : ℕ) < 308) :
    after ops V (Proc.devRef .tc r) = after P21 V (Proc.devRef .tc r) := split_pre split21 S21_good V r hr
theorem at21 (V : Valuation τ sig (Elt F)) (r : Ref sig .tc) (hr : (r.idx : ℕ) < 314) :
    after ops V (Proc.devRef .tc r) = after t21 (after P21 V) (Proc.devRef .tc r) := split_at split21 S22_good V r hr

theorem split22 : (ops (F := F)) = P22 ++ (t22 ++ S23) := by
  simp only [ops, opsPre, opsL0, opsL1, opsL2, opsOut, P22, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre22 (V : Valuation τ sig (Elt F)) (r : Ref sig .tc) (hr : (r.idx : ℕ) < 314) :
    after ops V (Proc.devRef .tc r) = after P22 V (Proc.devRef .tc r) := split_pre split22 S22_good V r hr
theorem at22 (V : Valuation τ sig (Elt F)) (r : Ref sig .tc) (hr : (r.idx : ℕ) < 338) :
    after ops V (Proc.devRef .tc r) = after t22 (after P22 V) (Proc.devRef .tc r) := split_at split22 S23_good V r hr

theorem split23 : (ops (F := F)) = P23 ++ (t23 ++ S24) := by
  simp only [ops, opsPre, opsL0, opsL1, opsL2, opsOut, P23, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre23 (V : Valuation τ sig (Elt F)) (r : Ref sig .tc) (hr : (r.idx : ℕ) < 338) :
    after ops V (Proc.devRef .tc r) = after P23 V (Proc.devRef .tc r) := split_pre split23 S23_good V r hr
theorem at23 (V : Valuation τ sig (Elt F)) (r : Ref sig .tc) (hr : (r.idx : ℕ) < 359) :
    after ops V (Proc.devRef .tc r) = after t23 (after P23 V) (Proc.devRef .tc r) := split_at split23 S24_good V r hr

theorem split24 : (ops (F := F)) = P24 ++ (t24 ++ S25) := by
  simp only [ops, opsPre, opsL0, opsL1, opsL2, opsOut, P24, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre24 (V : Valuation τ sig (Elt F)) (r : Ref sig .tc) (hr : (r.idx : ℕ) < 359) :
    after ops V (Proc.devRef .tc r) = after P24 V (Proc.devRef .tc r) := split_pre split24 S24_good V r hr
theorem at24 (V : Valuation τ sig (Elt F)) (r : Ref sig .tc) (hr : (r.idx : ℕ) < 360) :
    after ops V (Proc.devRef .tc r) = after t24 (after P24 V) (Proc.devRef .tc r) := split_at split24 S25_good V r hr

theorem split25 : (ops (F := F)) = P25 ++ (t25 ++ S26) := by
  simp only [ops, opsPre, opsL0, opsL1, opsL2, opsOut, P25, t0, t1, t2, t3, t4, t5, t6, t7, t8, t9, t10, t11, t12, t13, t14, t15, t16, t17, t18, t19, t20, t21, t22, t23, t24, t25, S0, S1, S2, S3, S4, S5, S6, S7, S8, S9, S10, S11, S12, S13, S14, S15, S16, S17, S18, S19, S20, S21, S22, S23, S24, S25, S26, List.append_assoc, List.nil_append, List.append_nil]
theorem pre25 (V : Valuation τ sig (Elt F)) (r : Ref sig .tc) (hr : (r.idx : ℕ) < 360) :
    after ops V (Proc.devRef .tc r) = after P25 V (Proc.devRef .tc r) := split_pre split25 S25_good V r hr
theorem at25 (V : Valuation τ sig (Elt F)) (r : Ref sig .tc) (hr : (r.idx : ℕ) < 364) :
    after ops V (Proc.devRef .tc r) = after t25 (after P25 V) (Proc.devRef .tc r) := split_at split25 S26_good V r hr

/-! ## The joints -/

/-- `main_v1` from main_arg1 (2 operations). -/
theorem joint_main_v1 (V : Valuation τ sig (Elt F)) :
    A V main_v1 = Stages.srcRow (A V main_arg1) := by
  unfold A
  rw [at0 V main_v1 (by decide), pre0 V main_arg1 (by decide)]
  generalize after P0 V = W
  simp only [t0, k0, List.cons_append, List.nil_append]
  after_results_simp <;> rfl

/-- `main_v3` from main_arg1 (2 operations). -/
theorem joint_main_v3 (V : Valuation τ sig (Elt F)) :
    A V main_v3 = Stages.dstRow (A V main_arg1) := by
  unfold A
  rw [at1 V main_v3 (by decide), pre1 V main_arg1 (by decide)]
  generalize after P1 V = W
  simp only [t1, k1, List.cons_append, List.nil_append]
  after_results_simp <;> rfl

/-- `main_v15` from main_v3 (17 operations). -/
theorem joint_main_v15 (V : Valuation τ sig (Elt F)) :
    A V main_v15 = Stages.dinv (A V main_v3) := by
  unfold A
  rw [at2 V main_v15 (by decide), pre2 V main_v3 (by decide)]
  generalize after P2 V = W
  simp only [t2, k2, List.cons_append, List.nil_append]
  after_results_simp <;> rfl

/-- `main_v16` from constants (2 operations). -/
theorem joint_main_v16 (V : Valuation τ sig (Elt F)) :
    A V main_v16 = broadcastInDim S50000x128 ![] bcast_S_S50000x128 (constant S_ .f32 0x00000000#32 : (⟨S_, .f32⟩ : BufTy).Contents (Elt F)) := by
  unfold A
  rw [at3 V main_v16 (by decide)]
  generalize after P3 V = W
  simp only [t3, k3, List.cons_append, List.nil_append]
  after_results_simp <;> rfl

/-- `main_v19` from main_arg2, main_arg0 (3 operations). -/
theorem joint_main_v19 (V : Valuation τ sig (Elt F)) :
    A V main_v19 = Host.dotGeneral dot_S50000x128_S128x128_S50000x128_1_0_0_1_n_n none (A V main_arg0) (shapeCast S128x128 (extractStridedSlice S1x128x128 ![0, 0, 0] (A V main_arg2) slices_S3x128x128_S1x128x128_0_0_0) shapeCasts_S1x128x128_S128x128) := by
  unfold A
  rw [at4 V main_v19 (by decide), pre4 V main_arg2 (by decide), pre4 V main_arg0 (by decide)]
  generalize after P4 V = W
  simp only [t4, k4, List.cons_append, List.nil_append]
  after_results_simp <;> rfl

/-- `main_v52` from main_v1, main_v15, main_v3, main_v19 (40 operations). -/
theorem joint_main_v52 (V : Valuation τ sig (Elt F)) :
    A V main_v52 = Stages.agg (A V main_v1) (A V main_v3) (A V main_v15) (A V main_v19) := by
  unfold A
  rw [at5 V main_v52 (by decide), pre5 V main_v1 (by decide), pre5 V main_v15 (by decide), pre5 V main_v3 (by decide), pre5 V main_v19 (by decide)]
  generalize after P5 V = W
  simp only [t5, k5, k6, List.cons_append, List.nil_append]
  after_results_simp <;> rfl

/-- `main_v66` from main_arg3, main_v52, main_arg4, main_arg0, main_arg5 (14 operations). -/
theorem joint_main_v66 (V : Valuation τ sig (Elt F)) :
    A V main_v66 = addf (addf (addf (A V main_v52) (broadcastInDim S50000x128 ![0, 1] bcast_S1x128_S50000x128_0_1 (broadcastInDim S1x128 ![1] bcast_S128_S1x128_1 (shapeCast S128 (extractStridedSlice S1x128 ![0, 0] (A V main_arg3) slices_S3x128_S1x128_0_0) shapeCasts_S1x128_S128)))) (Host.dotGeneral dot_S50000x128_S128x128_S50000x128_1_0_0_1_n_n none (A V main_arg0) (shapeCast S128x128 (extractStridedSlice S1x128x128 ![0, 0, 0] (A V main_arg4) slices_S3x128x128_S1x128x128_0_0_0) shapeCasts_S1x128x128_S128x128))) (broadcastInDim S50000x128 ![0, 1] bcast_S1x128_S50000x128_0_1 (broadcastInDim S1x128 ![1] bcast_S128_S1x128_1 (shapeCast S128 (extractStridedSlice S1x128 ![0, 0] (A V main_arg5) slices_S3x128_S1x128_0_0) shapeCasts_S1x128_S128))) := by
  unfold A
  rw [at6 V main_v66 (by decide), pre6 V main_arg3 (by decide), pre6 V main_v52 (by decide), pre6 V main_arg4 (by decide), pre6 V main_arg0 (by decide), pre6 V main_arg5 (by decide)]
  generalize after P6 V = W
  simp only [t6, k7, List.cons_append, List.nil_append]
  after_results_simp <;> rfl

/-- `main_v70` from main_v66 (6 operations). -/
theorem joint_main_v70 (V : Valuation τ sig (Elt F)) :
    A V main_v70 = Host.divf (broadcastInDim S50000x1 ![0] bcast_S50000_S50000x1_0 (Host.reduceAdd (A V main_v66) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))) := by
  unfold A
  rw [at7 V main_v70 (by decide), pre7 V main_v66 (by decide)]
  generalize after P7 V = W
  simp only [t7, k8, List.cons_append, List.nil_append]
  after_results_simp <;> rfl

/-- `main_v71` from main_v66 (24 operations). -/
theorem joint_main_v71 (V : Valuation τ sig (Elt F)) :
    A V main_v71 = select (broadcastInDim S50000x1 ![] bcast_S_S50000x1 (cmpf .ogt (subf (constant S_ .f32 0x43000000#32 : (⟨S_, .f32⟩ : BufTy).Contents (Elt F)) (sitofp .f32 (constantI S_ 32 0#32 : (⟨S_, .i32⟩ : BufTy).Contents (Elt F)))) (constant S_ .f32 0x00000000#32 : (⟨S_, .f32⟩ : BufTy).Contents (Elt F)))) (Host.divf (broadcastInDim S50000x1 ![0] bcast_S50000_S50000x1_0 (Host.reduceAdd (mulf (subf (A V main_v66) (broadcastInDim S50000x128 ![0, 1] bcast_S50000x1_S50000x128_0_1 (Host.divf (broadcastInDim S50000x1 ![0] bcast_S50000_S50000x1_0 (Host.reduceAdd (A V main_v66) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F)))))) (subf (A V main_v66) (broadcastInDim S50000x128 ![0, 1] bcast_S50000x1_S50000x128_0_1 (Host.divf (broadcastInDim S50000x1 ![0] bcast_S50000_S50000x1_0 (Host.reduceAdd (A V main_v66) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))))))) (constant S_ .f32 0x00000000#32 : (⟨S_, .f32⟩ : BufTy).Contents (Elt F)) reducesTo_S50000x128_S50000_d1 h_S_)) (broadcastInDim S50000x1 ![] bcast_S_S50000x1 (subf (constant S_ .f32 0x43000000#32 : (⟨S_, .f32⟩ : BufTy).Contents (Elt F)) (sitofp .f32 (constantI S_ 32 0#32 : (⟨S_, .i32⟩ : BufTy).Contents (Elt F)))))) (broadcastInDim S50000x1 ![] bcast_S_S50000x1 (id (constant S_ .f32 0x7FC00000#32 : (⟨S_, .f32⟩ : BufTy).Contents (Elt F)))) := by
  unfold A
  rw [at8 V main_v71 (by decide), pre8 V main_v66 (by decide)]
  generalize after P8 V = W
  simp only [t8, k9, List.cons_append, List.nil_append]
  after_results_simp <;> rfl

/-- `main_v89` from main_v70, main_v66, main_v71, main_arg6, main_arg7 (21 operations). -/
theorem joint_main_v89 (V : Valuation τ sig (Elt F)) :
    A V main_v89 = maximumf (addf (mulf (mulf (subf (A V main_v66) (broadcastInDim S50000x128 ![0, 1] bcast_S50000x1_S50000x128_0_1 (A V main_v70))) (broadcastInDim S50000x128 ![0, 1] bcast_S50000x1_S50000x128_0_1 (Host.rsqrt (addf (A V main_v71) (broadcastInDim S50000x1 ![] bcast_S_S50000x1 (constant S_ .f32 0x3727C5AC#32 : (⟨S_, .f32⟩ : BufTy).Contents (Elt F))))))) (broadcastInDim S50000x128 ![0, 1] bcast_S1x128_S50000x128_0_1 (broadcastInDim S1x128 ![1] bcast_S128_S1x128_1 (shapeCast S128 (extractStridedSlice S1x128 ![0, 0] (A V main_arg6) slices_S3x128_S1x128_0_0) shapeCasts_S1x128_S128)))) (broadcastInDim S50000x128 ![0, 1] bcast_S1x128_S50000x128_0_1 (broadcastInDim S1x128 ![1] bcast_S128_S1x128_1 (shapeCast S128 (extractStridedSlice S1x128 ![0, 0] (A V main_arg7) slices_S3x128_S1x128_0_0) shapeCasts_S1x128_S128)))) (broadcastInDim S50000x128 ![] bcast_S_S50000x128 (constant S_ .f32 0x00000000#32 : (⟨S_, .f32⟩ : BufTy).Contents (Elt F))) := by
  unfold A
  rw [at9 V main_v89 (by decide), pre9 V main_v70 (by decide), pre9 V main_v66 (by decide), pre9 V main_v71 (by decide), pre9 V main_arg6 (by decide), pre9 V main_arg7 (by decide)]
  generalize after P9 V = W
  simp only [t9, k10, List.cons_append, List.nil_append]
  after_results_simp <;> rfl

/-- `main_v90` from main_v16, main_v89 (1 operations). -/
theorem joint_main_v90 (V : Valuation τ sig (Elt F)) :
    A V main_v90 = addf (A V main_v16) (A V main_v89) := by
  unfold A
  rw [at10 V main_v90 (by decide), pre10 V main_v16 (by decide), pre10 V main_v89 (by decide)]
  generalize after P10 V = W
  simp only [t10, k11, List.cons_append, List.nil_append]
  after_results_simp <;> rfl

/-- `main_v93` from main_arg2, main_v89 (3 operations). -/
theorem joint_main_v93 (V : Valuation τ sig (Elt F)) :
    A V main_v93 = Host.dotGeneral dot_S50000x128_S128x128_S50000x128_1_0_0_1_n_n none (A V main_v89) (shapeCast S128x128 (extractStridedSlice S1x128x128 ![1, 0, 0] (A V main_arg2) slices_S3x128x128_S1x128x128_1_0_0) shapeCasts_S1x128x128_S128x128) := by
  unfold A
  rw [at11 V main_v93 (by decide), pre11 V main_arg2 (by decide), pre11 V main_v89 (by decide)]
  generalize after P11 V = W
  simp only [t11, k12, List.cons_append, List.nil_append]
  after_results_simp <;> rfl

/-- `main_v126` from main_v1, main_v15, main_v3, main_v93 (40 operations). -/
theorem joint_main_v126 (V : Valuation τ sig (Elt F)) :
    A V main_v126 = Stages.agg (A V main_v1) (A V main_v3) (A V main_v15) (A V main_v93) := by
  unfold A
  rw [at12 V main_v126 (by decide), pre12 V main_v1 (by decide), pre12 V main_v15 (by decide), pre12 V main_v3 (by decide), pre12 V main_v93 (by decide)]
  generalize after P12 V = W
  simp only [t12, k13, k14, List.cons_append, List.nil_append]
  after_results_simp <;> rfl

/-- `main_v140` from main_arg3, main_v126, main_arg4, main_v89, main_arg5 (14 operations). -/
theorem joint_main_v140 (V : Valuation τ sig (Elt F)) :
    A V main_v140 = addf (addf (addf (A V main_v126) (broadcastInDim S50000x128 ![0, 1] bcast_S1x128_S50000x128_0_1 (broadcastInDim S1x128 ![1] bcast_S128_S1x128_1 (shapeCast S128 (extractStridedSlice S1x128 ![1, 0] (A V main_arg3) slices_S3x128_S1x128_1_0) shapeCasts_S1x128_S128)))) (Host.dotGeneral dot_S50000x128_S128x128_S50000x128_1_0_0_1_n_n none (A V main_v89) (shapeCast S128x128 (extractStridedSlice S1x128x128 ![1, 0, 0] (A V main_arg4) slices_S3x128x128_S1x128x128_1_0_0) shapeCasts_S1x128x128_S128x128))) (broadcastInDim S50000x128 ![0, 1] bcast_S1x128_S50000x128_0_1 (broadcastInDim S1x128 ![1] bcast_S128_S1x128_1 (shapeCast S128 (extractStridedSlice S1x128 ![1, 0] (A V main_arg5) slices_S3x128_S1x128_1_0) shapeCasts_S1x128_S128))) := by
  unfold A
  rw [at13 V main_v140 (by decide), pre13 V main_arg3 (by decide), pre13 V main_v126 (by decide), pre13 V main_arg4 (by decide), pre13 V main_v89 (by decide), pre13 V main_arg5 (by decide)]
  generalize after P13 V = W
  simp only [t13, k15, List.cons_append, List.nil_append]
  after_results_simp <;> rfl

/-- `main_v144` from main_v140 (6 operations). -/
theorem joint_main_v144 (V : Valuation τ sig (Elt F)) :
    A V main_v144 = Host.divf (broadcastInDim S50000x1 ![0] bcast_S50000_S50000x1_0 (Host.reduceAdd (A V main_v140) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))) := by
  unfold A
  rw [at14 V main_v144 (by decide), pre14 V main_v140 (by decide)]
  generalize after P14 V = W
  simp only [t14, k16, List.cons_append, List.nil_append]
  after_results_simp <;> rfl

/-- `main_v145` from main_v140 (24 operations). -/
theorem joint_main_v145 (V : Valuation τ sig (Elt F)) :
    A V main_v145 = select (broadcastInDim S50000x1 ![] bcast_S_S50000x1 (cmpf .ogt (subf (constant S_ .f32 0x43000000#32 : (⟨S_, .f32⟩ : BufTy).Contents (Elt F)) (sitofp .f32 (constantI S_ 32 0#32 : (⟨S_, .i32⟩ : BufTy).Contents (Elt F)))) (constant S_ .f32 0x00000000#32 : (⟨S_, .f32⟩ : BufTy).Contents (Elt F)))) (Host.divf (broadcastInDim S50000x1 ![0] bcast_S50000_S50000x1_0 (Host.reduceAdd (mulf (subf (A V main_v140) (broadcastInDim S50000x128 ![0, 1] bcast_S50000x1_S50000x128_0_1 (Host.divf (broadcastInDim S50000x1 ![0] bcast_S50000_S50000x1_0 (Host.reduceAdd (A V main_v140) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F)))))) (subf (A V main_v140) (broadcastInDim S50000x128 ![0, 1] bcast_S50000x1_S50000x128_0_1 (Host.divf (broadcastInDim S50000x1 ![0] bcast_S50000_S50000x1_0 (Host.reduceAdd (A V main_v140) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))))))) (constant S_ .f32 0x00000000#32 : (⟨S_, .f32⟩ : BufTy).Contents (Elt F)) reducesTo_S50000x128_S50000_d1 h_S_)) (broadcastInDim S50000x1 ![] bcast_S_S50000x1 (subf (constant S_ .f32 0x43000000#32 : (⟨S_, .f32⟩ : BufTy).Contents (Elt F)) (sitofp .f32 (constantI S_ 32 0#32 : (⟨S_, .i32⟩ : BufTy).Contents (Elt F)))))) (broadcastInDim S50000x1 ![] bcast_S_S50000x1 (id (constant S_ .f32 0x7FC00000#32 : (⟨S_, .f32⟩ : BufTy).Contents (Elt F)))) := by
  unfold A
  rw [at15 V main_v145 (by decide), pre15 V main_v140 (by decide)]
  generalize after P15 V = W
  simp only [t15, k17, List.cons_append, List.nil_append]
  after_results_simp <;> rfl

/-- `main_v163` from main_v144, main_v140, main_v145, main_arg6, main_arg7 (21 operations). -/
theorem joint_main_v163 (V : Valuation τ sig (Elt F)) :
    A V main_v163 = maximumf (addf (mulf (mulf (subf (A V main_v140) (broadcastInDim S50000x128 ![0, 1] bcast_S50000x1_S50000x128_0_1 (A V main_v144))) (broadcastInDim S50000x128 ![0, 1] bcast_S50000x1_S50000x128_0_1 (Host.rsqrt (addf (A V main_v145) (broadcastInDim S50000x1 ![] bcast_S_S50000x1 (constant S_ .f32 0x3727C5AC#32 : (⟨S_, .f32⟩ : BufTy).Contents (Elt F))))))) (broadcastInDim S50000x128 ![0, 1] bcast_S1x128_S50000x128_0_1 (broadcastInDim S1x128 ![1] bcast_S128_S1x128_1 (shapeCast S128 (extractStridedSlice S1x128 ![1, 0] (A V main_arg6) slices_S3x128_S1x128_1_0) shapeCasts_S1x128_S128)))) (broadcastInDim S50000x128 ![0, 1] bcast_S1x128_S50000x128_0_1 (broadcastInDim S1x128 ![1] bcast_S128_S1x128_1 (shapeCast S128 (extractStridedSlice S1x128 ![1, 0] (A V main_arg7) slices_S3x128_S1x128_1_0) shapeCasts_S1x128_S128)))) (broadcastInDim S50000x128 ![] bcast_S_S50000x128 (constant S_ .f32 0x00000000#32 : (⟨S_, .f32⟩ : BufTy).Contents (Elt F))) := by
  unfold A
  rw [at16 V main_v163 (by decide), pre16 V main_v144 (by decide), pre16 V main_v140 (by decide), pre16 V main_v145 (by decide), pre16 V main_arg6 (by decide), pre16 V main_arg7 (by decide)]
  generalize after P16 V = W
  simp only [t16, k18, k19, List.cons_append, List.nil_append]
  after_results_simp <;> rfl

/-- `main_v164` from main_v90, main_v163 (1 operations). -/
theorem joint_main_v164 (V : Valuation τ sig (Elt F)) :
    A V main_v164 = addf (A V main_v90) (A V main_v163) := by
  unfold A
  rw [at17 V main_v164 (by decide), pre17 V main_v90 (by decide), pre17 V main_v163 (by decide)]
  generalize after P17 V = W
  simp only [t17, k20, List.cons_append, List.nil_append]
  after_results_simp <;> rfl

/-- `main_v167` from main_arg2, main_v163 (3 operations). -/
theorem joint_main_v167 (V : Valuation τ sig (Elt F)) :
    A V main_v167 = Host.dotGeneral dot_S50000x128_S128x128_S50000x128_1_0_0_1_n_n none (A V main_v163) (shapeCast S128x128 (extractStridedSlice S1x128x128 ![2, 0, 0] (A V main_arg2) slices_S3x128x128_S1x128x128_2_0_0) shapeCasts_S1x128x128_S128x128) := by
  unfold A
  rw [at18 V main_v167 (by decide), pre18 V main_arg2 (by decide), pre18 V main_v163 (by decide)]
  generalize after P18 V = W
  simp only [t18, k21, List.cons_append, List.nil_append]
  after_results_simp <;> rfl

/-- `main_v200` from main_v1, main_v15, main_v3, main_v167 (40 operations). -/
theorem joint_main_v200 (V : Valuation τ sig (Elt F)) :
    A V main_v200 = Stages.agg (A V main_v1) (A V main_v3) (A V main_v15) (A V main_v167) := by
  unfold A
  rw [at19 V main_v200 (by decide), pre19 V main_v1 (by decide), pre19 V main_v15 (by decide), pre19 V main_v3 (by decide), pre19 V main_v167 (by decide)]
  generalize after P19 V = W
  simp only [t19, k22, List.cons_append, List.nil_append]
  after_results_simp <;> rfl

/-- `main_v214` from main_arg3, main_v200, main_arg4, main_v163, main_arg5 (14 operations). -/
theorem joint_main_v214 (V : Valuation τ sig (Elt F)) :
    A V main_v214 = addf (addf (addf (A V main_v200) (broadcastInDim S50000x128 ![0, 1] bcast_S1x128_S50000x128_0_1 (broadcastInDim S1x128 ![1] bcast_S128_S1x128_1 (shapeCast S128 (extractStridedSlice S1x128 ![2, 0] (A V main_arg3) slices_S3x128_S1x128_2_0) shapeCasts_S1x128_S128)))) (Host.dotGeneral dot_S50000x128_S128x128_S50000x128_1_0_0_1_n_n none (A V main_v163) (shapeCast S128x128 (extractStridedSlice S1x128x128 ![2, 0, 0] (A V main_arg4) slices_S3x128x128_S1x128x128_2_0_0) shapeCasts_S1x128x128_S128x128))) (broadcastInDim S50000x128 ![0, 1] bcast_S1x128_S50000x128_0_1 (broadcastInDim S1x128 ![1] bcast_S128_S1x128_1 (shapeCast S128 (extractStridedSlice S1x128 ![2, 0] (A V main_arg5) slices_S3x128_S1x128_2_0) shapeCasts_S1x128_S128))) := by
  unfold A
  rw [at20 V main_v214 (by decide), pre20 V main_arg3 (by decide), pre20 V main_v200 (by decide), pre20 V main_arg4 (by decide), pre20 V main_v163 (by decide), pre20 V main_arg5 (by decide)]
  generalize after P20 V = W
  simp only [t20, k23, k24, List.cons_append, List.nil_append]
  after_results_simp <;> rfl

/-- `main_v218` from main_v214 (6 operations). -/
theorem joint_main_v218 (V : Valuation τ sig (Elt F)) :
    A V main_v218 = Host.divf (broadcastInDim S50000x1 ![0] bcast_S50000_S50000x1_0 (Host.reduceAdd (A V main_v214) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))) := by
  unfold A
  rw [at21 V main_v218 (by decide), pre21 V main_v214 (by decide)]
  generalize after P21 V = W
  simp only [t21, k25, List.cons_append, List.nil_append]
  after_results_simp <;> rfl

/-- `main_v219` from main_v214 (24 operations). -/
theorem joint_main_v219 (V : Valuation τ sig (Elt F)) :
    A V main_v219 = select (broadcastInDim S50000x1 ![] bcast_S_S50000x1 (cmpf .ogt (subf (constant S_ .f32 0x43000000#32 : (⟨S_, .f32⟩ : BufTy).Contents (Elt F)) (sitofp .f32 (constantI S_ 32 0#32 : (⟨S_, .i32⟩ : BufTy).Contents (Elt F)))) (constant S_ .f32 0x00000000#32 : (⟨S_, .f32⟩ : BufTy).Contents (Elt F)))) (Host.divf (broadcastInDim S50000x1 ![0] bcast_S50000_S50000x1_0 (Host.reduceAdd (mulf (subf (A V main_v214) (broadcastInDim S50000x128 ![0, 1] bcast_S50000x1_S50000x128_0_1 (Host.divf (broadcastInDim S50000x1 ![0] bcast_S50000_S50000x1_0 (Host.reduceAdd (A V main_v214) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F)))))) (subf (A V main_v214) (broadcastInDim S50000x128 ![0, 1] bcast_S50000x1_S50000x128_0_1 (Host.divf (broadcastInDim S50000x1 ![0] bcast_S50000_S50000x1_0 (Host.reduceAdd (A V main_v214) (constant S_ .f32 0x00000000#32 : (⟨S_, .f32⟩ : BufTy).Contents (Elt F)) reducesTo_S50000x128_S50000_d1 h_S_)) (broadcastInDim S50000x1 ![] bcast_S_S50000x1 (constant S_ .f32 0x43000000#32 : (⟨S_, .f32⟩ : BufTy).Contents (Elt F))))))) (constant S_ .f32 0x00000000#32 : (⟨S_, .f32⟩ : BufTy).Contents (Elt F)) reducesTo_S50000x128_S50000_d1 h_S_)) (broadcastInDim S50000x1 ![] bcast_S_S50000x1 (subf (constant S_ .f32 0x43000000#32 : (⟨S_, .f32⟩ : BufTy).Contents (Elt F)) (sitofp .f32 (constantI S_ 32 0#32 : (⟨S_, .i32⟩ : BufTy).Contents (Elt F)))))) (broadcastInDim S50000x1 ![] bcast_S_S50000x1 (id (constant S_ .f32 0x7FC00000#32 : (⟨S_, .f32⟩ : BufTy).Contents (Elt F)))) := by
  unfold A
  rw [at22 V main_v219 (by decide), pre22 V main_v214 (by decide)]
  generalize after P22 V = W
  simp only [t22, k26, List.cons_append, List.nil_append]
  after_results_simp <;> rfl

/-- `main_v237` from main_v218, main_v214, main_v219, main_arg6, main_arg7 (21 operations). -/
theorem joint_main_v237 (V : Valuation τ sig (Elt F)) :
    A V main_v237 = maximumf (addf (mulf (mulf (subf (A V main_v214) (broadcastInDim S50000x128 ![0, 1] bcast_S50000x1_S50000x128_0_1 (A V main_v218))) (broadcastInDim S50000x128 ![0, 1] bcast_S50000x1_S50000x128_0_1 (Host.rsqrt (addf (A V main_v219) (broadcastInDim S50000x1 ![] bcast_S_S50000x1 (constant S_ .f32 0x3727C5AC#32 : (⟨S_, .f32⟩ : BufTy).Contents (Elt F))))))) (broadcastInDim S50000x128 ![0, 1] bcast_S1x128_S50000x128_0_1 (broadcastInDim S1x128 ![1] bcast_S128_S1x128_1 (shapeCast S128 (extractStridedSlice S1x128 ![2, 0] (A V main_arg6) slices_S3x128_S1x128_2_0) shapeCasts_S1x128_S128)))) (broadcastInDim S50000x128 ![0, 1] bcast_S1x128_S50000x128_0_1 (broadcastInDim S1x128 ![1] bcast_S128_S1x128_1 (shapeCast S128 (extractStridedSlice S1x128 ![2, 0] (A V main_arg7) slices_S3x128_S1x128_2_0) shapeCasts_S1x128_S128)))) (broadcastInDim S50000x128 ![] bcast_S_S50000x128 (constant S_ .f32 0x00000000#32 : (⟨S_, .f32⟩ : BufTy).Contents (Elt F))) := by
  unfold A
  rw [at23 V main_v237 (by decide), pre23 V main_v218 (by decide), pre23 V main_v214 (by decide), pre23 V main_v219 (by decide), pre23 V main_arg6 (by decide), pre23 V main_arg7 (by decide)]
  generalize after P23 V = W
  simp only [t23, k27, List.cons_append, List.nil_append]
  after_results_simp <;> rfl

/-- `main_v238` from main_v164, main_v237 (1 operations). -/
theorem joint_main_v238 (V : Valuation τ sig (Elt F)) :
    A V main_v238 = addf (A V main_v164) (A V main_v237) := by
  unfold A
  rw [at24 V main_v238 (by decide), pre24 V main_v164 (by decide), pre24 V main_v237 (by decide)]
  generalize after P24 V = W
  simp only [t24, k28, List.cons_append, List.nil_append]
  after_results_simp <;> rfl

/-- `main_v242` from main_v238, main_arg8, main_arg9 (4 operations). -/
theorem joint_main_v242 (V : Valuation τ sig (Elt F)) :
    A V main_v242 = addf (Host.dotGeneral dot_S50000x128_S128x40_S50000x40_1_0_0_1_n_n none (A V main_v238) (A V main_arg8)) (broadcastInDim S50000x40 ![0, 1] bcast_S1x40_S50000x40_0_1 (broadcastInDim S1x40 ![1] bcast_S40_S1x40_1 (A V main_arg9))) := by
  unfold A
  rw [at25 V main_v242 (by decide), pre25 V main_v238 (by decide), pre25 V main_arg8 (by decide), pre25 V main_arg9 (by decide)]
  generalize after P25 V = W
  simp only [t25, k29, List.cons_append, List.nil_append]
  after_results_simp <;> rfl

end Cert.RefJoints

end
-- ==== Proof.LibHostRows.lean ====
import proofs.«177108_j26465588478228_2_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.LibHostNormRows.lean ====
import proofs.«177108_j26465588478228_2_alg».proof.Proof.LibHostRows
import proofs.«177108_j26465588478228_2_alg».proof.Proof.LibNormRows

/-!
# The host's spelling of a normalised row

The same layer as in `LibNormRows`, as a host program writes it on a whole `[N, C]` array: sums along axis 1 from zero,
kept as a column by a broadcast, divided by a broadcast scalar `64`; the column broadcast back across the rows and
subtracted; the squares summed the same way, the floor `ε` added, a host reciprocal square root; a gain vector and a
shift vector broadcast to one row and then down the rows; a maximum with a broadcast zero. Read at an index it is
`mapRows` of the one row function `relu ∘ ln g β`, with the vectors read as one-row matrices.
-/

noncomputable section

namespace Cert.Rows

open Idealize.ShloMosaic Idealize.ShloMosaic.ValueIdx
open scoped BigOperators

variable {N C : ℕ}

/-- A scalar broadcast to a matrix reads the scalar everywhere. -/
theorem hostScalar_apply {a b : ℕ} (w : BitVec 32) (h : S0.BroadcastsInDim (S2 a b) ![]) (p : Fin a) (q : Fin b) :
    broadcastInDim (S2 a b) ![] h (constant (F := Ideal) S0 .f32 w) (ix2 p q) = Ideal.ofBits .f32 w := by
  rw [broadcastInDim_apply ![] h _ (ix2 p q) ix0 (fun a => a.elim0)]
  rfl

/-- A column broadcast across the rows reads, at `(p, q)`, the column at row `p`. -/
theorem hostCol_apply (v : FVec Ideal (S2 N 1) .f32) (hb1 : (S2 N 1).BroadcastsInDim (S2 N C) ![0, 1]) (p : Fin N) (q : Fin C) :
    broadcastInDim (S2 N C) ![0, 1] hb1 v (ix2 p q) = v (ix2 p (0 : Fin 1)) := by
  have hp : p.val = if N = 1 then 0 else p.val := by
    split
    · have := p.isLt; omega
    · rfl
  rw [broadcastInDim_apply ![0, 1] hb1 v (ix2 p q) (ix2 p (0 : Fin 1)) (fun a => by
      match a with
      | ⟨0, _⟩ => exact hp
      | ⟨1, _⟩ => rfl)]

/-- A vector broadcast to one row and then down the rows reads, at `(p, q)`, the vector at `q`: the vector kept
    as a one-row matrix, at `(0, q)`. -/
theorem hostRowVec_apply (v : FVec Ideal (S1 C) .f32) (h1 : (S1 C).BroadcastsInDim (S2 1 C) ![1])
    (h2 : (S2 1 C).BroadcastsInDim (S2 N C) ![0, 1]) (hc : (S1 C).ShapeCasts (S2 1 C)) (p : Fin N) (q : Fin C) :
    broadcastInDim (S2 N C) ![0, 1] h2 (broadcastInDim (S2 1 C) ![1] h1 v) (ix2 p q)
      = shapeCast (S2 1 C) v hc (ix2 (0 : Fin 1) q) := by
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 v (ix2 (0 : Fin 1) q) (ix1 q) (fun a => by
      match a with
      | ⟨0, _⟩ => exact hq)]

/-- The host's sums along axis 1 from zero, kept as a column: at row `p` the sum of row `p`. -/
theorem hostRowSum_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (p : Fin N) (u : Fin 1) :
    broadcastInDim (S2 N 1) ![0] hb0 (Host.reduceAdd Y (constant S0 .f32 0x00000000#32) hred hu) (ix2 p u)
      = ∑ k : Fin C, Y (ix2 p k) := by
  have hp : p.val = if N = 1 then 0 else p.val := by
    split
    · have := p.isLt; omega
    · rfl
  rw [broadcastInDim_apply ![0] hb0 _ (ix2 p u) (ix1 p) (fun a => by
      match a with
      | ⟨0, _⟩ => exact hp)]
  show Ideal.hostReduceAdd hred Y (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's row means, as a column. -/
def hostMeanCol (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![]) : FVec Ideal (S2 N 1) .f32 :=
  Host.divf (broadcastInDim (S2 N 1) ![0] hb0 (Host.reduceAdd Y (constant S0 .f32 0x00000000#32) hred hu))
    (broadcastInDim (S2 N 1) ![] hbe (constant S0 .f32 0x42800000#32))

theorem hostMeanCol_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (p : Fin N) (u : Fin 1) :
    hostMeanCol Y hred hu hb0 hbe (ix2 p u) = mean (fun k => Y (ix2 p k)) := by
  unfold hostMeanCol
  show Ideal.div (broadcastInDim (S2 N 1) ![0] hb0 (Host.reduceAdd Y (constant S0 .f32 0x00000000#32) hred hu) (ix2 p u))
    (broadcastInDim (S2 N 1) ![] hbe (constant (F := Ideal) S0 .f32 0x42800000#32) (ix2 p u)) = _
  rw [hostRowSum_apply Y hred hr hu hb0 p u, hostScalar_apply]
  rfl

/-- The array minus its row means. -/
def hostCentred (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N C) .f32 :=
  subf Y (broadcastInDim (S2 N C) ![0, 1] hb1 (hostMeanCol Y hred hu hb0 hbe))

theorem hostCentred_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (q : Fin C) :
    hostCentred Y hred hu hb0 hbe hb1 (ix2 p q) = centred (fun k => Y (ix2 p k)) q := by
  unfold hostCentred
  rw [subf_apply, hostCol_apply, hostMeanCol_apply Y hred hr hu hb0 hbe]
  rfl

/-- The host's `(σ² + ε)^(-1/2)` of every row, as a column. -/
def hostInvStdCol (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N 1) .f32 :=
  Host.rsqrt (addf (Host.divf (broadcastInDim (S2 N 1) ![0] hb0 (Host.reduceAdd
      (mulf (hostCentred Y hred hu hb0 hbe hb1) (hostCentred Y hred hu hb0 hbe hb1)) (constant S0 .f32 0x00000000#32) hred hu))
      (broadcastInDim (S2 N 1) ![] hbe (constant S0 .f32 0x42800000#32)))
    (broadcastInDim (S2 N 1) ![] hbe (constant S0 .f32 0x3727C5AC#32)))

theorem hostInvStdCol_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (u : Fin 1) :
    hostInvStdCol Y hred hu hb0 hbe hb1 (ix2 p u) = invStd (fun k => Y (ix2 p k)) := by
  unfold hostInvStdCol
  show Ideal.rsqrt (Ideal.div (broadcastInDim (S2 N 1) ![0] hb0 (Host.reduceAdd
      (mulf (hostCentred Y hred hu hb0 hbe hb1) (hostCentred Y hred hu hb0 hbe hb1)) (constant S0 .f32 0x00000000#32) hred hu) (ix2 p u))
      (broadcastInDim (S2 N 1) ![] hbe (constant (F := Ideal) S0 .f32 0x42800000#32) (ix2 p u))
    + broadcastInDim (S2 N 1) ![] hbe (constant (F := Ideal) S0 .f32 0x3727C5AC#32) (ix2 p u)) = _
  rw [hostRowSum_apply _ hred hr hu hb0 p u, hostScalar_apply, hostScalar_apply]
  simp only [mulf_apply, hostCentred_apply Y hred hr hu hb0 hbe hb1]
  rfl

/-- The host's layer norm and `relu` of a whole array, gain and shift given as vectors. -/
def hostLnRelu (Y : FVec Ideal (S2 N C) .f32) (g β : FVec Ideal (S1 C) .f32)
    (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![]) : FVec Ideal (S2 N C) .f32 :=
  maximumf (addf (mulf (mulf (hostCentred Y hred hu hb0 hbe hb1)
        (broadcastInDim (S2 N C) ![0, 1] hb1 (hostInvStdCol Y hred hu hb0 hbe hb1)))
        (broadcastInDim (S2 N C) ![0, 1] h2 (broadcastInDim (S2 1 C) ![1] h1 g)))
      (broadcastInDim (S2 N C) ![0, 1] h2 (broadcastInDim (S2 1 C) ![1] h1 β)))
    (broadcastInDim (S2 N C) ![] hz (constant S0 .f32 0x00000000#32))

/-- It is `relu ∘ ln g β` applied to every row, the vectors read as one-row matrices. -/
theorem hostLnRelu_rows (Y : FVec Ideal (S2 N C) .f32) (g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) :
    hostLnRelu Y g β hred hu hb0 hbe hb1 h1 h2 hz
      = mapRows (fun r => relu (ln (shapeCast (S2 1 C) g hc) (shapeCast (S2 1 C) β hc) r)) Y := by
  funext i
  obtain ⟨p, q, rfl⟩ : ∃ (p : Fin N) (q : Fin C), i = ix2 p q := ⟨i 0, i 1, eq_ix2 i⟩
  unfold hostLnRelu
  rw [mapRows_ix2, maximumf_apply, addf_apply, mulf_apply, mulf_apply, hostCentred_apply Y hred hr hu hb0 hbe hb1,
    hostCol_apply, hostInvStdCol_apply Y hred hr hu hb0 hbe hb1, hostRowVec_apply g h1 h2 hc, hostRowVec_apply β h1 h2 hc,
    hostScalar_apply]
  rfl

/-- The host's product of the whole array with a weight matrix plus a bias vector broadcast down the rows. -/
def hostLin {K : ℕ} (d : DotDims (S2 N K) (S2 K C) (S2 N C)) (X : FVec Ideal (S2 N K) .f32) (w : FVec Ideal (S2 K C) .f32)
    (b : FVec Ideal (S1 C) .f32) (h1 : (S1 C).BroadcastsInDim (S2 1 C) ![1])
    (h2 : (S2 1 C).BroadcastsInDim (S2 N C) ![0, 1]) : FVec Ideal (S2 N C) .f32 :=
  addf (Host.dotGeneral d none X w) (broadcastInDim (S2 N C) ![0, 1] h2 (broadcastInDim (S2 1 C) ![1] h1 b))

/-- It is `r ↦ r · w + b` applied to every row, the bias read as a one-row matrix. -/
theorem hostLin_rows {K : ℕ} (d : DotDims (S2 N K) (S2 K C) (S2 N C)) (hd : Cert.LibPlainDot.Plain d)
    (X : FVec Ideal (S2 N K) .f32) (w : FVec Ideal (S2 K C) .f32)
    (b : FVec Ideal (S1 C) .f32) (h1 : (S1 C).BroadcastsInDim (S2 1 C) ![1])
    (h2 : (S2 1 C).BroadcastsInDim (S2 N C) ![0, 1]) (hc : (S1 C).ShapeCasts (S2 1 C)) :
    hostLin d X w b h1 h2 = mapRows (fun r => addRow (shapeCast (S2 1 C) b hc) (lin w r)) X := by
  unfold hostLin
  rw [host_lin d hd X w, host_bias _ b h1 h2 hc]
  rfl

/-- The host's whole layer — product, bias, layer norm, `relu` — is `layerRow` applied to every row. -/
theorem hostLayer_rows {K : ℕ} (d : DotDims (S2 N K) (S2 K C) (S2 N C)) (hd : Cert.LibPlainDot.Plain d)
    (X : FVec Ideal (S2 N K) .f32) (w : FVec Ideal (S2 K C) .f32) (b g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) :
    hostLnRelu (hostLin d X w b h1 h2) g β hred hu hb0 hbe hb1 h1 h2 hz
      = mapRows (layerRow w (shapeCast (S2 1 C) b hc) (shapeCast (S2 1 C) g hc) (shapeCast (S2 1 C) β hc)) X :=
  (hostLnRelu_rows _ g β hred hr hu hb0 hbe hb1 h1 h2 hz hc).trans
    (congrArg (mapRows (fun r => relu (ln (shapeCast (S2 1 C) g hc) (shapeCast (S2 1 C) β hc) r)))
      (hostLin_rows d hd X w b h1 h2 hc))

end Cert.Rows

end
-- ==== Proof.HRows.lean ====
import proofs.«177108_j26465588478228_2_alg».proof.Proof.LibHostNormRows
import proofs.«177108_j26465588478228_2_alg».proof.Proof.RowMath

/-!
# The whole-array program's layer, row by row

The host writes a layer on the whole `[N, C]` array: sums along axis 1 kept as a column and divided by a broadcast
`128`; the column broadcast back and subtracted; the squares summed the same way and divided by `128 - 0` (the
divisor of a variance without correction), kept only where that divisor is positive — which it is; the floor added,
a reciprocal square root, gain and shift vectors broadcast down the rows, a maximum with zero. Read at an entry
`(p, q)` it is the row function of `RowMath` of row `p`.
-/

noncomputable section

namespace Cert.HRows

open Idealize.ShloMosaic Idealize.ShloMosaic.ValueIdx Cert.RowMath
open Cert.Rows (S0 S1 S2 hostRowSum_apply hostScalar_apply hostCol_apply hostRowVec_apply)
open scoped BigOperators

variable {N C : ℕ}

/-- A scalar broadcast to a matrix reads the scalar everywhere. -/
theorem bscalar_apply {α : Type} {a b : ℕ} (x : S0.Idx → α) (h : S0.BroadcastsInDim (S2 a b) ![]) (p : Fin a) (q : Fin b) :
    broadcastInDim (S2 a b) ![] h x (ix2 p q) = x ix0 :=
  broadcastInDim_apply ![] h x (ix2 p q) ix0 (fun a => a.elim0)

/-- The divisor of the variance: `128 - 0`, the zero converted from an integer. -/
def nVar : FVec Ideal S0 .f32 := subf (constant S0 .f32 0x43000000#32) (sitofp .f32 (constantI S0 32 0#32))

theorem nVar_eq : nVar ix0 = c128 := by
  show Ideal.ofBits .f32 0x43000000#32 - (((0#32 : BitVec 32).toInt : ℝ) : EReal) = c128
  simp [c128]

/-- The divisor is positive. -/
theorem nVar_pos : (cmpf .ogt nVar (constant S0 .f32 0x00000000#32) : IVec S0 1) ix0 = 1#1 := by
  show Ideal.cmp .ogt (nVar ix0) (Ideal.ofBits .f32 0x00000000#32) = 1#1
  rw [nVar_eq, c128_eq, show Ideal.ofBits .f32 0x00000000#32 = (0 : EReal) from zeroF_eq]
  have h : (0 : EReal) < ((128 : ℝ) : EReal) := by exact_mod_cast (by norm_num : (0 : ℝ) < 128)
  simp [Ideal.cmp, h]

/-- The host's row means, as a column. -/
def hMean (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![]) : FVec Ideal (S2 N 1) .f32 :=
  Host.divf (broadcastInDim (S2 N 1) ![0] hb0 (Host.reduceAdd Y (constant S0 .f32 0x00000000#32) hred hu))
    (broadcastInDim (S2 N 1) ![] hbe (constant S0 .f32 0x43000000#32))

theorem hMean_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (p : Fin N) (u : Fin 1) : hMean Y hred hu hb0 hbe (ix2 p u) = mean (rowOf Y p) := by
  unfold hMean
  show Ideal.div (broadcastInDim (S2 N 1) ![0] hb0 (Host.reduceAdd Y (constant S0 .f32 0x00000000#32) hred hu) (ix2 p u))
    (broadcastInDim (S2 N 1) ![] hbe (constant (F := Ideal) S0 .f32 0x43000000#32) (ix2 p u)) = _
  rw [hostRowSum_apply Y hred hr hu hb0 p u, hostScalar_apply]
  rfl

/-- The array minus its row means. -/
def hCen (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N C) .f32 :=
  subf Y (broadcastInDim (S2 N C) ![0, 1] hb1 (hMean Y hred hu hb0 hbe))

theorem hCen_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (q : Fin C) :
    hCen Y hred hu hb0 hbe hb1 (ix2 p q) = cen (rowOf Y p) q := by
  unfold hCen
  rw [subf_apply, hostCol_apply, hMean_apply Y hred hr hu hb0 hbe]
  rfl

/-- The host's variance column: the mean squared deviation, selected where the divisor is positive. -/
def hVar (Y : FVec Ideal (S2 N C) .f32) (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) : FVec Ideal (S2 N 1) .f32 :=
  select (broadcastInDim (S2 N 1) ![] hbe (cmpf .ogt nVar (constant S0 .f32 0x00000000#32)))
    (Host.divf (broadcastInDim (S2 N 1) ![0] hb0 (Host.reduceAdd
        (mulf (hCen Y hred hu hb0 hbe hb1) (hCen Y hred hu hb0 hbe hb1)) (constant S0 .f32 0x00000000#32) hred hu))
      (broadcastInDim (S2 N 1) ![] hbe nVar))
    (broadcastInDim (S2 N 1) ![] hbe (id (constant S0 .f32 0x7FC00000#32)))

theorem hVar_apply (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) (p : Fin N) (u : Fin 1) :
    hVar Y hred hu hb0 hbe hb1 (ix2 p u) = varR (rowOf Y p) := by
  unfold hVar
  show Scalar.select (broadcastInDim (S2 N 1) ![] hbe (cmpf .ogt nVar (constant S0 .f32 0x00000000#32)) (ix2 p u))
    (Ideal.div (broadcastInDim (S2 N 1) ![0] hb0 (Host.reduceAdd
        (mulf (hCen Y hred hu hb0 hbe hb1) (hCen Y hred hu hb0 hbe hb1)) (constant S0 .f32 0x00000000#32) hred hu) (ix2 p u))
      (broadcastInDim (S2 N 1) ![] hbe nVar (ix2 p u)))
    (broadcastInDim (S2 N 1) ![] hbe (id (constant (F := Ideal) S0 .f32 0x7FC00000#32)) (ix2 p u)) = _
  rw [bscalar_apply, bscalar_apply, nVar_pos, nVar_eq, hostRowSum_apply _ hred hr hu hb0 p u]
  simp only [mulf_apply, hCen_apply Y hred hr hu hb0 hbe hb1]
  rfl

end Cert.HRows

end
-- ==== Proof.RLayers.lean ====
/- The reference's joints as whole-array row functions. At the ideal instance each dense stage of the reference —
   a layer's product with its weight slab, the layer itself (the sum before normalisation, the centring on the row
   mean, the scaling by the inverse root of the row variance plus the floor, gain, shift, the maximum with zero), the
   running sum, the output head — read at an entry (p, q) is the corresponding function of row p alone. The host spells
   a layer's sum as ((a + bc) + x · wl) + bl; addition of extended reals is associative, so it is the row function
   stated over (a + bc) + (x · wl + bl). -/
import proofs.«177108_j26465588478228_2_alg».proof.Proof.RefJoints
import proofs.«177108_j26465588478228_2_alg».proof.Proof.Spec
import proofs.«177108_j26465588478228_2_alg».proof.Proof.HRows

set_option maxRecDepth 16384

noncomputable section

namespace Cert.RLayers

open Idealize.ShloMosaic Idealize.ShloMosaic.ValueIdx Idealize.ShloMosaic.TcCoe Idealize.SL.Sem Idealize.ShloMosaic.StableHlo
open Cert.ReferenceIdeal Cert.ReferenceIdeal.Gen Cert.RefJoints Cert.RowMath Cert.HRows
open Cert.Rows (S0 S1 S2 hostScalar_apply hostCol_apply hostRowVec_apply host_lin)
open scoped BigOperators

/-! ## The host's layer on an array of any size, read at an entry -/

section Generic

variable {N K C : ℕ}

/-- The host's reciprocal square root, entry by entry. -/
theorem hostRsqrt_apply {s : Shape} {φ : FTy} (x : FVec Ideal s φ) (i : s.Idx) : Host.rsqrt x i = Ideal.rsqrt (x i) := rfl

/-- The host's sum before normalisation: the aggregated rows plus a bias vector, plus the input rows times the weights,
    plus a second bias vector, added in that order. -/
def hPre (d : DotDims (S2 N K) (S2 K C) (S2 N C)) (X : FVec Ideal (S2 N K) .f32) (Ag : FVec Ideal (S2 N C) .f32)
    (wl : FVec Ideal (S2 K C) .f32) (bl bc : FVec Ideal (S1 C) .f32)
    (h1 : (S1 C).BroadcastsInDim (S2 1 C) ![1]) (h2 : (S2 1 C).BroadcastsInDim (S2 N C) ![0, 1]) : FVec Ideal (S2 N C) .f32 :=
  addf (addf (addf Ag (broadcastInDim (S2 N C) ![0, 1] h2 (broadcastInDim (S2 1 C) ![1] h1 bc))) (Host.dotGeneral d none X wl))
    (broadcastInDim (S2 N C) ![0, 1] h2 (broadcastInDim (S2 1 C) ![1] h1 bl))

/-- At `(p, q)` it is the row function `preR` of row `p` of the input and of the aggregate. -/
theorem hPre_apply (d : DotDims (S2 N K) (S2 K C) (S2 N C)) (hd : Cert.LibPlainDot.Plain d) (X : FVec Ideal (S2 N K) .f32)
    (Ag : FVec Ideal (S2 N C) .f32) (wl : FVec Ideal (S2 K C) .f32) (bl bc : FVec Ideal (S1 C) .f32)
    (h1 : (S1 C).BroadcastsInDim (S2 1 C) ![1]) (h2 : (S2 1 C).BroadcastsInDim (S2 N C) ![0, 1])
    (hc : (S1 C).ShapeCasts (S2 1 C)) (p : Fin N) (q : Fin C) :
    hPre d X Ag wl bl bc h1 h2 (ix2 p q)
      = preR (mat wl) (row1 (Spec.rowMat bl hc)) (row1 (Spec.rowMat bc hc)) (rowOf X p) (rowOf Ag p) q := by
  unfold hPre
  rw [addf_apply, addf_apply, addf_apply, hostRowVec_apply bc h1 h2 hc, hostRowVec_apply bl h1 h2 hc, host_lin d hd X wl]
  rfl

/-- The host's normalisation of every row, gain, shift and maximum with zero. -/
def hNormRelu (Y : FVec Ideal (S2 N C) .f32) (g β : FVec Ideal (S1 C) .f32)
    (hred : (S2 N C).ReducesTo [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![]) : FVec Ideal (S2 N C) .f32 :=
  maximumf (addf (mulf (mulf (subf Y (broadcastInDim (S2 N C) ![0, 1] hb1 (hMean Y hred hu hb0 hbe)))
        (broadcastInDim (S2 N C) ![0, 1] hb1 (Host.rsqrt (addf (hVar Y hred hu hb0 hbe hb1)
          (broadcastInDim (S2 N 1) ![] hbe (constant S0 .f32 0x3727C5AC#32))))))
        (broadcastInDim (S2 N C) ![0, 1] h2 (broadcastInDim (S2 1 C) ![1] h1 g)))
      (broadcastInDim (S2 N C) ![0, 1] h2 (broadcastInDim (S2 1 C) ![1] h1 β)))
    (broadcastInDim (S2 N C) ![] hz (constant S0 .f32 0x00000000#32))

/-- At `(p, q)` it is `normRelu` of row `p`, the vectors read as one-row matrices. -/
theorem hNormRelu_apply (Y : FVec Ideal (S2 N C) .f32) (g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) (p : Fin N) (q : Fin C) :
    hNormRelu Y g β hred hu hb0 hbe hb1 h1 h2 hz (ix2 p q)
      = normRelu (row1 (Spec.rowMat g hc)) (row1 (Spec.rowMat β hc)) (rowOf Y p) q := by
  unfold hNormRelu
  rw [maximumf_apply, addf_apply, mulf_apply, mulf_apply, subf_apply, hostCol_apply, hostCol_apply,
    hMean_apply Y hred hr hu hb0 hbe, hostRowVec_apply g h1 h2 hc, hostRowVec_apply β h1 h2 hc, hostScalar_apply,
    hostRsqrt_apply, addf_apply, hVar_apply Y hred hr hu hb0 hbe hb1, hostScalar_apply]
  rfl

/-- The host's whole layer is the row function `layerRow` applied to every node's input row and aggregated row. -/
theorem hLayer_eq (d : DotDims (S2 N K) (S2 K C) (S2 N C)) (hd : Cert.LibPlainDot.Plain d) (X : FVec Ideal (S2 N K) .f32)
    (Ag : FVec Ideal (S2 N C) .f32) (wl : FVec Ideal (S2 K C) .f32) (bl bc g β : FVec Ideal (S1 C) .f32)
    (hred : (S2 N C).ReducesTo [1] (S1 N)) (hr : (S2 N C).Reduces [1] (S1 N)) (hu : 0 < S0.numel)
    (hb0 : (S1 N).BroadcastsInDim (S2 N 1) ![0]) (hbe : S0.BroadcastsInDim (S2 N 1) ![])
    (hb1 : (S2 N 1).BroadcastsInDim (S2 N C) ![0, 1]) (h1 : (S1 C).BroadcastsInDim (S2 1 C) ![1])
    (h2 : (S2 1 C).BroadcastsInDim (S2 N C) ![0, 1]) (hz : S0.BroadcastsInDim (S2 N C) ![])
    (hc : (S1 C).ShapeCasts (S2 1 C)) :
    hNormRelu (hPre d X Ag wl bl bc h1 h2) g β hred hu hb0 hbe hb1 h1 h2 hz
      = Spec.layerArr wl (Spec.rowMat bl hc) (Spec.rowMat bc hc) (Spec.rowMat g hc) (Spec.rowMat β hc) X Ag := by
  funext i
  obtain ⟨p, q, rfl⟩ : ∃ (p : Fin N) (q : Fin C), i = ix2 p q := ⟨i 0, i 1, eq_ix2 i⟩
  rw [hNormRelu_apply _ g β hred hr hu hb0 hbe hb1 h1 h2 hz hc p q]
  have e : rowOf (hPre d X Ag wl bl bc h1 h2) p
      = preK (mat wl) (row1 (Spec.rowMat bl hc)) (row1 (Spec.rowMat bc hc)) (rowOf X p) (rowOf Ag p) := by
    rw [← preR_eq_preK]
    funext k
    exact hPre_apply d hd X Ag wl bl bc h1 h2 hc p k
  rw [e]
  rfl

/-- The host's output head — the product with the head's weights plus its bias vector broadcast down the rows — is
    `headRow` applied to every row. -/
theorem hHead_eq (d : DotDims (S2 N K) (S2 K C) (S2 N C)) (hd : Cert.LibPlainDot.Plain d) (S : FVec Ideal (S2 N K) .f32)
    (wp : FVec Ideal (S2 K C) .f32) (bp : FVec Ideal (S1 C) .f32)
    (h1 : (S1 C).BroadcastsInDim (S2 1 C) ![1]) (h2 : (S2 1 C).BroadcastsInDim (S2 N C) ![0, 1])
    (hc : (S1 C).ShapeCasts (S2 1 C)) :
    addf (Host.dotGeneral d none S wp) (broadcastInDim (S2 N C) ![0, 1] h2 (broadcastInDim (S2 1 C) ![1] h1 bp))
      = Spec.headArr wp (Spec.rowMat bp hc) S := by
  funext i
  obtain ⟨p, q, rfl⟩ : ∃ (p : Fin N) (q : Fin C), i = ix2 p q := ⟨i 0, i 1, eq_ix2 i⟩
  rw [addf_apply, hostRowVec_apply bp h1 h2 hc, host_lin d hd S wp]
  rfl

end Generic

/-! ## The reference's joints -/

/-- The 128 lanes of every one of the 50000 rows are reduced to one number per row. -/
theorem hr128 : S50000x128.Reduces [1] S50000 := by decide

/-- Layer 0's product: every row of the layer's input times slab 0 of the first weight stack. -/
theorem h0 (V : Valuation τ sig (Elt Ideal)) :
    (A V main_v19 : Spec.Arr 50000 128)
      = Spec.dotArr (Stages.matOf (A V main_arg2) ![0, 0, 0] slices_S3x128x128_S1x128x128_0_0_0) (A V main_arg0) := by
  rw [joint_main_v19 V]
  generalize A V main_arg0 = X
  generalize A V main_arg2 = w3
  exact (host_lin dot_S50000x128_S128x128_S50000x128_1_0_0_1_n_n ⟨rfl, rfl, rfl, rfl, rfl, rfl⟩ X (Stages.matOf w3 ![0, 0, 0] slices_S3x128x128_S1x128x128_0_0_0)).trans rfl

/-- Layer 1's product: every row of the layer's input times slab 1 of the first weight stack. -/
theorem h1 (V : Valuation τ sig (Elt Ideal)) :
    (A V main_v93 : Spec.Arr 50000 128)
      = Spec.dotArr (Stages.matOf (A V main_arg2) ![1, 0, 0] slices_S3x128x128_S1x128x128_1_0_0) (A V main_v89) := by
  rw [joint_main_v93 V]
  generalize A V main_v89 = X
  generalize A V main_arg2 = w3
  exact (host_lin dot_S50000x128_S128x128_S50000x128_1_0_0_1_n_n ⟨rfl, rfl, rfl, rfl, rfl, rfl⟩ X (Stages.matOf w3 ![1, 0, 0] slices_S3x128x128_S1x128x128_1_0_0)).trans rfl

/-- Layer 2's product: every row of the layer's input times slab 2 of the first weight stack. -/
theorem h2 (V : Valuation τ sig (Elt Ideal)) :
    (A V main_v167 : Spec.Arr 50000 128)
      = Spec.dotArr (Stages.matOf (A V main_arg2) ![2, 0, 0] slices_S3x128x128_S1x128x128_2_0_0) (A V main_v163) := by
  rw [joint_main_v167 V]
  generalize A V main_v163 = X
  generalize A V main_arg2 = w3
  exact (host_lin dot_S50000x128_S128x128_S50000x128_1_0_0_1_n_n ⟨rfl, rfl, rfl, rfl, rfl, rfl⟩ X (Stages.matOf w3 ![2, 0, 0] slices_S3x128x128_S1x128x128_2_0_0)).trans rfl

/-- Layer 0: the layer's output is the row function of every node's input row and aggregated row. -/
theorem layer0 (V : Valuation τ sig (Elt Ideal)) (hc128 : (⟨1, ![128]⟩ : Shape).ShapeCasts ⟨2, ![1, 128]⟩) :
    (A V main_v89 : Spec.Arr 50000 128)
      = Spec.layerArr (Stages.matOf (A V main_arg4) ![0, 0, 0] slices_S3x128x128_S1x128x128_0_0_0)
          (Spec.rowMat (Stages.vecOf (A V main_arg5) ![0, 0] slices_S3x128_S1x128_0_0) hc128)
          (Spec.rowMat (Stages.vecOf (A V main_arg3) ![0, 0] slices_S3x128_S1x128_0_0) hc128)
          (Spec.rowMat (Stages.vecOf (A V main_arg6) ![0, 0] slices_S3x128_S1x128_0_0) hc128)
          (Spec.rowMat (Stages.vecOf (A V main_arg7) ![0, 0] slices_S3x128_S1x128_0_0) hc128)
          (A V main_arg0) (A V main_v52) := by
  rw [joint_main_v89 V, joint_main_v70 V, joint_main_v71 V, joint_main_v66 V]
  generalize A V main_v52 = Ag
  generalize A V main_arg0 = X
  generalize A V main_arg3 = a3
  generalize A V main_arg4 = a4
  generalize A V main_arg5 = a5
  generalize A V main_arg6 = a6
  generalize A V main_arg7 = a7
  exact hLayer_eq dot_S50000x128_S128x128_S50000x128_1_0_0_1_n_n ⟨rfl, rfl, rfl, rfl, rfl, rfl⟩ X Ag
    (Stages.matOf a4 ![0, 0, 0] slices_S3x128x128_S1x128x128_0_0_0) (Stages.vecOf a5 ![0, 0] slices_S3x128_S1x128_0_0) (Stages.vecOf a3 ![0, 0] slices_S3x128_S1x128_0_0)
    (Stages.vecOf a6 ![0, 0] slices_S3x128_S1x128_0_0) (Stages.vecOf a7 ![0, 0] slices_S3x128_S1x128_0_0)
    reducesTo_S50000x128_S50000_d1 hr128 h_S_ bcast_S50000_S50000x1_0 bcast_S_S50000x1 bcast_S50000x1_S50000x128_0_1 bcast_S128_S1x128_1 bcast_S1x128_S50000x128_0_1 bcast_S_S50000x128 hc128

/-- Layer 1: the layer's output is the row function of every node's input row and aggregated row. -/
theorem layer1 (V : Valuation τ sig (Elt Ideal)) (hc128 : (⟨1, ![128]⟩ : Shape).ShapeCasts ⟨2, ![1, 128]⟩) :
    (A V main_v163 : Spec.Arr 50000 128)
      = Spec.layerArr (Stages.matOf (A V main_arg4) ![1, 0, 0] slices_S3x128x128_S1x128x128_1_0_0)
          (Spec.rowMat (Stages.vecOf (A V main_arg5) ![1, 0] slices_S3x128_S1x128_1_0) hc128)
          (Spec.rowMat (Stages.vecOf (A V main_arg3) ![1, 0] slices_S3x128_S1x128_1_0) hc128)
          (Spec.rowMat (Stages.vecOf (A V main_arg6) ![1, 0] slices_S3x128_S1x128_1_0) hc128)
          (Spec.rowMat (Stages.vecOf (A V main_arg7) ![1, 0] slices_S3x128_S1x128_1_0) hc128)
          (A V main_v89) (A V main_v126) := by
  rw [joint_main_v163 V, joint_main_v144 V, joint_main_v145 V, joint_main_v140 V]
  generalize A V main_v126 = Ag
  generalize A V main_v89 = X
  generalize A V main_arg3 = a3
  generalize A V main_arg4 = a4
  generalize A V main_arg5 = a5
  generalize A V main_arg6 = a6
  generalize A V main_arg7 = a7
  exact hLayer_eq dot_S50000x128_S128x128_S50000x128_1_0_0_1_n_n ⟨rfl, rfl, rfl, rfl, rfl, rfl⟩ X Ag
    (Stages.matOf a4 ![1, 0, 0] slices_S3x128x128_S1x128x128_1_0_0) (Stages.vecOf a5 ![1, 0] slices_S3x128_S1x128_1_0) (Stages.vecOf a3 ![1, 0] slices_S3x128_S1x128_1_0)
    (Stages.vecOf a6 ![1, 0] slices_S3x128_S1x128_1_0) (Stages.vecOf a7 ![1, 0] slices_S3x128_S1x128_1_0)
    reducesTo_S50000x128_S50000_d1 hr128 h_S_ bcast_S50000_S50000x1_0 bcast_S_S50000x1 bcast_S50000x1_S50000x128_0_1 bcast_S128_S1x128_1 bcast_S1x128_S50000x128_0_1 bcast_S_S50000x128 hc128

/-- Layer 2: the layer's output is the row function of every node's input row and aggregated row. -/
theorem layer2 (V : Valuation τ sig (Elt Ideal)) (hc128 : (⟨1, ![128]⟩ : Shape).ShapeCasts ⟨2, ![1, 128]⟩) :
    (A V main_v237 : Spec.Arr 50000 128)
      = Spec.layerArr (Stages.matOf (A V main_arg4) ![2, 0, 0] slices_S3x128x128_S1x128x128_2_0_0)
          (Spec.rowMat (Stages.vecOf (A V main_arg5) ![2, 0] slices_S3x128_S1x128_2_0) hc128)
          (Spec.rowMat (Stages.vecOf (A V main_arg3) ![2, 0] slices_S3x128_S1x128_2_0) hc128)
          (Spec.rowMat (Stages.vecOf (A V main_arg6) ![2, 0] slices_S3x128_S1x128_2_0) hc128)
          (Spec.rowMat (Stages.vecOf (A V main_arg7) ![2, 0] slices_S3x128_S1x128_2_0) hc128)
          (A V main_v163) (A V main_v200) := by
  rw [joint_main_v237 V, joint_main_v218 V, joint_main_v219 V, joint_main_v214 V]
  generalize A V main_v200 = Ag
  generalize A V main_v163 = X
  generalize A V main_arg3 = a3
  generalize A V main_arg4 = a4
  generalize A V main_arg5 = a5
  generalize A V main_arg6 = a6
  generalize A V main_arg7 = a7
  exact hLayer_eq dot_S50000x128_S128x128_S50000x128_1_0_0_1_n_n ⟨rfl, rfl, rfl, rfl, rfl, rfl⟩ X Ag
    (Stages.matOf a4 ![2, 0, 0] slices_S3x128x128_S1x128x128_2_0_0) (Stages.vecOf a5 ![2, 0] slices_S3x128_S1x128_2_0) (Stages.vecOf a3 ![2, 0] slices_S3x128_S1x128_2_0)
    (Stages.vecOf a6 ![2, 0] slices_S3x128_S1x128_2_0) (Stages.vecOf a7 ![2, 0] slices_S3x128_S1x128_2_0)
    reducesTo_S50000x128_S50000_d1 hr128 h_S_ bcast_S50000_S50000x1_0 bcast_S_S50000x1 bcast_S50000x1_S50000x128_0_1 bcast_S128_S1x128_1 bcast_S1x128_S50000x128_0_1 bcast_S_S50000x128 hc128

/-- The running sum after layer 0. -/
theorem sum0 (V : Valuation τ sig (Elt Ideal)) :
    (A V main_v90 : Spec.Arr 50000 128) = Spec.addArr (Stages.zeros (F := Ideal)) (A V main_v89) := by
  rw [joint_main_v90 V, joint_main_v16 V]
  generalize A V main_v89 = R
  rfl

/-- The running sum after layer 1. -/
theorem sum1 (V : Valuation τ sig (Elt Ideal)) :
    (A V main_v164 : Spec.Arr 50000 128) = Spec.addArr (A V main_v90) (A V main_v163) := by
  rw [joint_main_v164 V]
  generalize A V main_v163 = R
  generalize A V main_v90 = S
  rfl

/-- The running sum after layer 2. -/
theorem sum2 (V : Valuation τ sig (Elt Ideal)) :
    (A V main_v238 : Spec.Arr 50000 128) = Spec.addArr (A V main_v164) (A V main_v237) := by
  rw [joint_main_v238 V]
  generalize A V main_v237 = R
  generalize A V main_v164 = S
  rfl

/-- The result: the output head applied to every row of the last running sum. -/
theorem out (V : Valuation τ sig (Elt Ideal)) (hc40 : (⟨1, ![40]⟩ : Shape).ShapeCasts ⟨2, ![1, 40]⟩) :
    (A V main_v242 : Spec.Arr 50000 40)
      = Spec.headArr (A V main_arg8) (Spec.rowMat (A V main_arg9) hc40) (A V main_v238) := by
  rw [joint_main_v242 V]
  generalize A V main_v238 = S
  generalize A V main_arg8 = wp
  generalize A V main_arg9 = bp
  exact hHead_eq dot_S50000x128_S128x40_S50000x40_1_0_0_1_n_n ⟨rfl, rfl, rfl, rfl, rfl, rfl⟩ S wp bp
    bcast_S40_S1x40_1 bcast_S1x40_S50000x40_0_1 hc40

end Cert.RLayers

end
-- ==== Proof.RValue.lean ====
/- The reference's result as the network function of its arguments. At the ideal instance, from any contents of the
   buffers, the line leaves in each layer's output buffer the layer function of the layer's input rows and of their
   aggregate over the graph, the layer's input being the previous layer's output (the node features in layer 0); the
   running sum starts at zero and the result is the output head of the sum of the three layers' outputs. Folding the
   joints in order gives the result buffer as one function of the ten arguments' contents, which no operation writes. -/
import proofs.«177108_j26465588478228_2_alg».proof.Proof.RLayers
import proofs.«177108_j26465588478228_2_alg».proof.Proof.Net

set_option maxRecDepth 16384

noncomputable section

namespace Cert.RValue

open Idealize.ShloMosaic Idealize.ShloMosaic.TcCoe Idealize.SL.Sem Idealize.ShloMosaic.StableHlo
open Cert.ReferenceIdeal Cert.ReferenceIdeal.Gen Cert.RefRun Cert.RefJoints Cert.RLayers

/-- Layer 0's output is the network's first layer of the arguments. -/
theorem r1 (V : Valuation τ sig (Elt Ideal)) (hc : (⟨1, ![128]⟩ : Shape).ShapeCasts ⟨2, ![1, 128]⟩) :
    (A V main_v89 : Spec.Arr 50000 128) = Net.r1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) hc := by
  rw [layer0 V hc, joint_main_v52 V, h0 V, joint_main_v15 V, joint_main_v3 V, joint_main_v1 V,
    A_arg V main_arg0 (by decide), A_arg V main_arg1 (by decide), A_arg V main_arg2 (by decide), A_arg V main_arg3 (by decide), A_arg V main_arg4 (by decide), A_arg V main_arg5 (by decide), A_arg V main_arg6 (by decide), A_arg V main_arg7 (by decide)]
  rfl

/-- Layer 1's output is the network's second layer of the arguments. -/
theorem r2 (V : Valuation τ sig (Elt Ideal)) (hc : (⟨1, ![128]⟩ : Shape).ShapeCasts ⟨2, ![1, 128]⟩) :
    (A V main_v163 : Spec.Arr 50000 128) = Net.r2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) hc := by
  rw [layer1 V hc, joint_main_v126 V, h1 V, r1 V hc, joint_main_v15 V, joint_main_v3 V, joint_main_v1 V,
    A_arg V main_arg1 (by decide), A_arg V main_arg2 (by decide), A_arg V main_arg3 (by decide), A_arg V main_arg4 (by decide), A_arg V main_arg5 (by decide), A_arg V main_arg6 (by decide), A_arg V main_arg7 (by decide)]
  rfl

/-- Layer 2's output is the network's third layer of the arguments. -/
theorem r3 (V : Valuation τ sig (Elt Ideal)) (hc : (⟨1, ![128]⟩ : Shape).ShapeCasts ⟨2, ![1, 128]⟩) :
    (A V main_v237 : Spec.Arr 50000 128) = Net.r3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) hc := by
  rw [layer2 V hc, joint_main_v200 V, h2 V, r2 V hc, joint_main_v15 V, joint_main_v3 V, joint_main_v1 V,
    A_arg V main_arg1 (by decide), A_arg V main_arg2 (by decide), A_arg V main_arg3 (by decide), A_arg V main_arg4 (by decide), A_arg V main_arg5 (by decide), A_arg V main_arg6 (by decide), A_arg V main_arg7 (by decide)]
  rfl

/-- The result buffer holds the network's result of the arguments. -/
theorem value (V : Valuation τ sig (Elt Ideal)) (hc : (⟨1, ![128]⟩ : Shape).ShapeCasts ⟨2, ![1, 128]⟩)
    (hc' : (⟨1, ![40]⟩ : Shape).ShapeCasts ⟨2, ![1, 40]⟩) :
    (A V main_v242 : Spec.Arr 50000 40) = Net.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) hc hc' := by
  rw [out V hc', sum2 V, sum1 V, sum0 V, r1 V hc, r2 V hc, r3 V hc, A_arg V main_arg8 (by decide), A_arg V main_arg9 (by decide)]
  rfl

/-- On every device, from any memory with zero counters: every weakly fair execution of @main terminates with the result
    buffer at the network's result of the arguments' launch contents, and the arguments as launched. -/
theorem run_value (m : (ℓ : Loc nD τ sig) → Buf (Elt Ideal) ℓ) (ρ : Dev nD → PrngReg)
    (hc : (⟨1, ![128]⟩ : Shape).ShapeCasts ⟨2, ![1, 128]⟩) (hc' : (⟨1, ![40]⟩ : Shape).ShapeCasts ⟨2, ![1, 40]⟩) :
    θ_run defs (onTc (τ := τ) (main (F := Ideal))) ⟨m, fun _ => 0, ρ⟩ fun r => ∀ c : Dev nD,
      r.2.mem ((c.tc : Thread nD τ).loc main_v242) = Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) hc hc'
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c main_v242).trans (value (launchContents m c) hc hc'),
     (h c main_arg0).trans (A_arg (launchContents m c) main_arg0 (by decide)),
     (h c main_arg1).trans (A_arg (launchContents m c) main_arg1 (by decide)),
     (h c main_arg2).trans (A_arg (launchContents m c) main_arg2 (by decide)),
     (h c main_arg3).trans (A_arg (launchContents m c) main_arg3 (by decide)),
     (h c main_arg4).trans (A_arg (launchContents m c) main_arg4 (by decide)),
     (h c main_arg5).trans (A_arg (launchContents m c) main_arg5 (by decide)),
     (h c main_arg6).trans (A_arg (launchContents m c) main_arg6 (by decide)),
     (h c main_arg7).trans (A_arg (launchContents m c) main_arg7 (by decide)),
     (h c main_arg8).trans (A_arg (launchContents m c) main_arg8 (by decide)),
     (h c main_arg9).trans (A_arg (launchContents m c) main_arg9 (by decide))⟩)
    (run m ρ)

end Cert.RValue

end
-- ==== Proof.lean ====
/-
  A three-layer graph network with a running sum of the layers' outputs and a linear head, over 50000 nodes and
  600000 edges: every layer multiplies the node rows by a message matrix, aggregates the products along the edges
  with symmetric degree normalisation (each node also keeps its own scaled row), adds a bias, a second product of the
  node rows and its bias, normalises every row to zero mean and unit variance over its 128 lanes, applies a gain and
  a shift, and replaces negative entries by zero.

  The tiled program computes the dense stages in four regions over tiles of 2000 rows and leaves the aggregation
  to host operations between them; the reference computes everything with host operations on whole arrays. Over
  the extended reals the two agree: every dense stage acts on each node's row by itself, so a tile of a stage is
  the stage of the tile; a product into a zero accumulator, a lane sum and a host sum are the same finite sums; the
  aggregation is spelt with the same host operations on both sides (a change of float format is the identity); and
  the four summands of the row that is normalised are grouped differently, which addition of extended reals does
  not see. Both results are the one function `Net.out` of the ten argument arrays. No finiteness of the inputs is
  used.
-/
import proofs.«177108_j26465588478228_2_alg».proof.Defs
import proofs.«177108_j26465588478228_2_alg».proof.Proof.Gen.Kernel
import proofs.«177108_j26465588478228_2_alg».proof.Proof.Gen.Kernel.Frame
import proofs.«177108_j26465588478228_2_alg».proof.Proof.Gen.KernelIdeal
import proofs.«177108_j26465588478228_2_alg».proof.Proof.Gen.KernelIdeal.Frame
import proofs.«177108_j26465588478228_2_alg».proof.Proof.Gen.ReferenceIdeal
import proofs.«177108_j26465588478228_2_alg».proof.Proof.Gen.Pre_finite_inputs
import proofs.«177108_j26465588478228_2_alg».proof.Proof.KRun
import proofs.«177108_j26465588478228_2_alg».proof.Proof.KValue
import proofs.«177108_j26465588478228_2_alg».proof.Proof.RefRun
import proofs.«177108_j26465588478228_2_alg».proof.Proof.RValue

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, read at the arguments. -/
theorem frame_ri : Cert.frame_ReferenceIdeal := fun m g _ => Cert.RefRun.frame m g

/-- Over the extended reals both programs end with the network of the argument arrays. -/
theorem algebraic : Cert.algebraic_KernelIdeal_ReferenceIdeal := by
  intro m ρ m' ρ' _ hagree
  refine ⟨fun c => Cert.Net.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      Cert.KernelIdeal.Gen.shapeCasts_S128_S1x128 Cert.KernelIdeal.Gen.shapeCasts_S40_S1x40, ?_, ?_⟩
  · exact (θ_run Cert.KernelIdeal.defs _ _).mono
      (fun r h c => ⟨(h c).1.trans (Cert.KValue.value m ρ c), (h c).2⟩) (Cert.KRun.run m ρ)
  · refine (θ_run Cert.ReferenceIdeal.defs _ _).mono (fun r h c => ⟨(h c).1.trans ?_, (h c).2⟩)
      (Cert.RValue.run_value m' ρ' Cert.KernelIdeal.Gen.shapeCasts_S128_S1x128 Cert.KernelIdeal.Gen.shapeCasts_S40_S1x40)
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
